-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x16 : Shape := ⟨2, ![1600000, 16]⟩
abbrev S64x16 : Shape := ⟨2, ![64, 16]⟩
abbrev S3x64x64 : Shape := ⟨3, ![3, 64, 64]⟩
abbrev S3x64 : Shape := ⟨2, ![3, 64]⟩
abbrev S3x80x64 : Shape := ⟨3, ![3, 80, 64]⟩
abbrev S80x64 : Shape := ⟨2, ![80, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x1600000 : Shape := ⟨2, ![2, 1600000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S64x16 : S_.BroadcastsInDim S64x16 (![] : Fin 0 → Fin S64x16.rank)
  reducesTo_S64x16_S_d0_1 : S64x16.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S3x80x64 : S_.BroadcastsInDim S3x80x64 (![] : Fin 0 → Fin S3x80x64.rank)
  reducesTo_S3x80x64_S_d0_1_2 : S3x80x64.ReducesTo [0, 1, 2] S_
  bcast_S_S80x64 : S_.BroadcastsInDim S80x64 (![] : Fin 0 → Fin S80x64.rank)
  reducesTo_S80x64_S_d0_1 : S80x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg18 : FVec F S32 .f32) (main_arg19 : FVec F S32x1 .f32) (main_arg20 : FVec F S1 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg18
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x1 .f32 := Host.absf main_arg19
  let main_cst_36 : FVec F S_ .f32 := constant S_ .f32 0x7F800000#32
  let main_v95 : FVec F S32x1 .f32 := broadcastInDim S32x1 ![] bcast_S_S32x1 main_cst_36
  let main_v96 : IVec S32x1 1 := cmpf .olt main_v94 main_v95
  let main_c_37 : IVec S_ 1 := constantI S_ 1 1#1
  let main_v97 : IVec S_ 1 := (fun x v => Host.reduce IntOp.andi x v reducesTo_S32x1_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg14 : FVec F S64 .f32) (main_arg15 : FVec F S64x32 .f32) (main_arg16 : FVec F S32 .f32) (main_arg17 : FVec F S32 .f32) (main_arg18 : FVec F S32 .f32) (main_arg19 : FVec F S32x1 .f32) (main_arg20 : FVec F S1 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x32 .f32 := Host.absf main_arg15
  let main_cst_28 : FVec F S_ .f32 := constant S_ .f32 0x7F800000#32
  let main_v75 : FVec F S64x32 .f32 := broadcastInDim S64x32 ![] bcast_S_S64x32 main_cst_28
  let main_v76 : IVec S64x32 1 := cmpf .olt main_v74 main_v75
  let main_c_29 : IVec S_ 1 := constantI S_ 1 1#1
  let main_v77 : IVec S_ 1 := (fun x v => Host.reduce IntOp.andi x v reducesTo_S64x32_S_d0_1 h_S_) main_v76 main_c_29
  let main_v78 : IVec S_ 1 := andi main_v73 main_v77
  let main_v79 : FVec F S32 .f32 := Host.absf main_arg16
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S80x64 .f32) (main_arg12 : FVec F S64 .f32) (main_arg13 : FVec F S64 .f32) (main_arg14 : FVec F S64 .f32) (main_arg15 : FVec F S64x32 .f32) (main_arg16 : FVec F S32 .f32) (main_arg17 : FVec F S32 .f32) (main_arg18 : FVec F S32 .f32) (main_arg19 : FVec F S32x1 .f32) (main_arg20 : FVec F S1 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S80x64 .f32 := Host.absf main_arg11
  let main_cst_20 : FVec F S_ .f32 := constant S_ .f32 0x7F800000#32
  let main_v55 : FVec F S80x64 .f32 := broadcastInDim S80x64 ![] bcast_S_S80x64 main_cst_20
  let main_v56 : IVec S80x64 1 := cmpf .olt main_v54 main_v55
  let main_c_21 : IVec S_ 1 := constantI S_ 1 1#1
  let main_v57 : IVec S_ 1 := (fun x v => Host.reduce IntOp.andi x v reducesTo_S80x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_v63 main_v67

def fn_part2 {F : FTy → Type} [FloatOps F] (main_arg7 : FVec F S3x80x64 .f32) (main_arg8 : FVec F S3x64 .f32) (main_arg9 : FVec F S3x64 .f32) (main_arg10 : FVec F S3x64 .f32) (main_arg11 : FVec F S80x64 .f32) (main_arg12 : FVec F S64 .f32) (main_arg13 : FVec F S64 .f32) (main_arg14 : FVec F S64 .f32) (main_arg15 : FVec F S64x32 .f32) (main_arg16 : FVec F S32 .f32) (main_arg17 : FVec F S32 .f32) (main_arg18 : FVec F S32 .f32) (main_arg19 : FVec F S32x1 .f32) (main_arg20 : FVec F S1 .f32) (main_v33 : IVec S_ 1) : IVec S_ 1 :=
  let main_v34 : FVec F S3x80x64 .f32 := Host.absf main_arg7
  let main_cst_12 : FVec F S_ .f32 := constant S_ .f32 0x7F800000#32
  let main_v35 : FVec F S3x80x64 .f32 := broadcastInDim S3x80x64 ![] bcast_S_S3x80x64 main_cst_12
  let main_v36 : IVec S3x80x64 1 := cmpf .olt main_v34 main_v35
  let main_c_13 : IVec S_ 1 := constantI S_ 1 1#1
  let main_v37 : IVec S_ 1 := (fun x v => Host.reduce IntOp.andi x v reducesTo_S3x80x64_S_d0_1_2 h_S_) main_v36 main_c_13
  let main_v38 : IVec S_ 1 := andi main_v33 main_v37
  let main_v39 : FVec F S3x64 .f32 := Host.absf main_arg8
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg9
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg10
  let main_cst_18 : FVec F S_ .f32 := constant S_ .f32 0x7F800000#32
  let main_v50 : FVec F S3x64 .f32 := broadcastInDim S3x64 ![] bcast_S_S3x64 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S3x64 .f32) (main_arg5 : FVec F S3x80x64 .f32) (main_arg6 : FVec F S3x64 .f32) (main_arg7 : FVec F S3x80x64 .f32) (main_arg8 : FVec F S3x64 .f32) (main_arg9 : FVec F S3x64 .f32) (main_arg10 : FVec F S3x64 .f32) (main_arg11 : FVec F S80x64 .f32) (main_arg12 : FVec F S64 .f32) (main_arg13 : FVec F S64 .f32) (main_arg14 : FVec F S64 .f32) (main_arg15 : FVec F S64x32 .f32) (main_arg16 : FVec F S32 .f32) (main_arg17 : FVec F S32 .f32) (main_arg18 : FVec F S32 .f32) (main_arg19 : FVec F S32x1 .f32) (main_arg20 : FVec F S1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg4
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x80x64 .f32 := Host.absf main_arg5
  let main_cst_8 : FVec F S_ .f32 := constant S_ .f32 0x7F800000#32
  let main_v25 : FVec F S3x80x64 .f32 := broadcastInDim S3x80x64 ![] bcast_S_S3x80x64 main_cst_8
  let main_v26 : IVec S3x80x64 1 := cmpf .olt main_v24 main_v25
  let main_c_9 : IVec S_ 1 := constantI S_ 1 1#1
  let main_v27 : IVec S_ 1 := (fun x v => Host.reduce IntOp.andi x v reducesTo_S3x80x64_S_d0_1_2 h_S_) main_v26 main_c_9
  let main_v28 : IVec S_ 1 := andi main_v23 main_v27
  let main_v29 : FVec F S3x64 .f32 := Host.absf main_arg6
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S100000x64 .f32) (main_arg1 : FVec F S1600000x16 .f32) (main_arg2 : FVec F S64x16 .f32) (main_arg3 : FVec F S3x64x64 .f32) (main_arg4 : FVec F S3x64 .f32) (main_arg5 : FVec F S3x80x64 .f32) (main_arg6 : FVec F S3x64 .f32) (main_arg7 : FVec F S3x80x64 .f32) (main_arg8 : FVec F S3x64 .f32) (main_arg9 : FVec F S3x64 .f32) (main_arg10 : FVec F S3x64 .f32) (main_arg11 : FVec F S80x64 .f32) (main_arg12 : FVec F S64 .f32) (main_arg13 : FVec F S64 .f32) (main_arg14 : FVec F S64 .f32) (main_arg15 : FVec F S64x32 .f32) (main_arg16 : FVec F S32 .f32) (main_arg17 : FVec F S32 .f32) (main_arg18 : FVec F S32 .f32) (main_arg19 : FVec F S32x1 .f32) (main_arg20 : FVec F S1 .f32) (main_arg21 : IVec S2x1600000 32) (main_arg22 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S64x16 .f32 := Host.absf main_arg2
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S3x64x64 .f32 := Host.absf main_arg3
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x64 : Shape := ⟨2, ![100000, 64]⟩
abbrev S1600000x16 : Shape := ⟨2, ![1600000, 16]⟩
abbrev S64x16 : Shape := ⟨2, ![64, 16]⟩
abbrev S3x64x64 : Shape := ⟨3, ![3, 64, 64]⟩
abbrev S3x64 : Shape := ⟨2, ![3, 64]⟩
abbrev S3x80x64 : Shape := ⟨3, ![3, 80, 64]⟩
abbrev S80x64 : Shape := ⟨2, ![80, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x16 : Shape := ⟨2, ![100000, 16]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S1x80x64 : Shape := ⟨3, ![1, 80, 64]⟩
abbrev S8000x64 : Shape := ⟨2, ![8000, 64]⟩
abbrev S8000x16 : Shape := ⟨2, ![8000, 16]⟩
abbrev S8000x80 : Shape := ⟨2, ![8000, 80]⟩
abbrev S5000x64 : Shape := ⟨2, ![5000, 64]⟩
abbrev S5000x16 : Shape := ⟨2, ![5000, 16]⟩
abbrev S5000x80 : Shape := ⟨2, ![5000, 80]⟩
abbrev S5000 : Shape := ⟨1, ![5000]⟩
abbrev S5000x1 : Shape := ⟨2, ![5000, 1]⟩
abbrev S64x1 : Shape := ⟨2, ![64, 1]⟩
abbrev S64x80 : Shape := ⟨2, ![64, 80]⟩
abbrev S1x32 : Shape := ⟨2, ![1, 32]⟩
abbrev S1x1 : Shape := ⟨2, ![1, 1]⟩

abbrev nBuf : Space → Nat
  | .hbm => 170
  | .vmem => 72
  | .smem => 0
  | _ => 0

abbrev hbmTy0_0 (i : Nat) : BufTy := match i % 128 with
  | 0 => ⟨S100000x64, .f32⟩
  | 1 => ⟨S1600000x16, .f32⟩
  | 2 => ⟨S64x16, .f32⟩
  | 3 => ⟨S3x64x64, .f32⟩
  | 4 => ⟨S3x64, .f32⟩
  | 5 => ⟨S3x80x64, .f32⟩
  | 6 => ⟨S3x64, .f32⟩
  | 7 => ⟨S3x80x64, .f32⟩
  | 8 => ⟨S3x64, .f32⟩
  | 9 => ⟨S3x64, .f32⟩
  | 10 => ⟨S3x64, .f32⟩
  | 11 => ⟨S80x64, .f32⟩
  | 12 => ⟨S64, .f32⟩
  | 13 => ⟨S64, .f32⟩
  | 14 => ⟨S64, .f32⟩
  | 15 => ⟨S64x32, .f32⟩
  | 16 => ⟨S32, .f32⟩
  | 17 => ⟨S32, .f32⟩
  | 18 => ⟨S32, .f32⟩
  | 19 => ⟨S32x1, .f32⟩
  | 20 => ⟨S1, .f32⟩
  | 21 => ⟨S2x1600000, .i32⟩
  | 22 => ⟨S100000, .i32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S100000x16, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S1x64x64, .f32⟩
  | 46 => ⟨S64x64, .f32⟩
  | 47 => ⟨S1x64, .f32⟩
  | 48 => ⟨S64, .f32⟩
  | 49 => ⟨S1x80x64, .f32⟩
  | 50 => ⟨S80x64, .f32⟩
  | 51 => ⟨S1x64, .f32⟩
  | 52 => ⟨S64, .f32⟩
  | 53 => ⟨S1x64, .f32⟩
  | 54 => ⟨S1x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S1x80x64, .f32⟩
  | 61 => ⟨S80x64, .f32⟩
  | 62 => ⟨S1x64, .f32⟩
  | 63 => ⟨S64, .f32⟩
  | 64 => ⟨S1x64, .f32⟩
  | 65 => ⟨S64, .f32⟩
  | 66 => ⟨S1x64, .f32⟩
  | 67 => ⟨S64, .f32⟩
  | 68 => ⟨S1x64, .f32⟩
  | 69 => ⟨S1x64, .f32⟩
  | 70 => ⟨S1x64, .f32⟩
  | 71 => ⟨S100000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x64, .f32⟩
  | 81 => ⟨S1x64x64, .f32⟩
  | 82 => ⟨S64x64, .f32⟩
  | 83 => ⟨S1x64, .f32⟩
  | 84 => ⟨S64, .f32⟩
  | 85 => ⟨S1x80x64, .f32⟩
  | 86 => ⟨S80x64, .f32⟩
  | 87 => ⟨S1x64, .f32⟩
  | 88 => ⟨S64, .f32⟩
  | 89 => ⟨S1x64, .f32⟩
  | 90 => ⟨S1x64, .f32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S1x80x64, .f32⟩
  | 97 => ⟨S80x64, .f32⟩
  | 98 => ⟨S1x64, .f32⟩
  | 99 => ⟨S64, .f32⟩
  | 100 => ⟨S1x64, .f32⟩
  | 101 => ⟨S64, .f32⟩
  | 102 => ⟨S1x64, .f32⟩
  | 103 => ⟨S64, .f32⟩
  | 104 => ⟨S1x64, .f32⟩
  | 105 => ⟨S1x64, .f32⟩
  | 106 => ⟨S1x64, .f32⟩
  | 107 => ⟨S100000x64, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x64, .f32⟩
  | 117 => ⟨S1x64x64, .f32⟩
  | 118 => ⟨S64x64, .f32⟩
  | 119 => ⟨S1x64, .f32⟩
  | 120 => ⟨S64, .f32⟩
  | 121 => ⟨S1x80x64, .f32⟩
  | 122 => ⟨S80x64, .f32⟩
  | 123 => ⟨S1x64, .f32⟩
  | 124 => ⟨S64, .f32⟩
  | 125 => ⟨S1x64, .f32⟩
  | 126 => ⟨S1x64, .f32⟩
  | 127 => ⟨S1600000x64, .f32⟩
  | _ => ⟨S100000x64, .f32⟩

abbrev hbmTy0_1 (i : Nat) : BufTy := match i % 128 with
  | 0 => ⟨S_, .f32⟩
  | 1 => ⟨S100000x64, .f32⟩
  | 2 => ⟨S1600000x1, .i32⟩
  | 3 => ⟨S100000x64, .f32⟩
  | 4 => ⟨S1x80x64, .f32⟩
  | 5 => ⟨S80x64, .f32⟩
  | 6 => ⟨S1x64, .f32⟩
  | 7 => ⟨S64, .f32⟩
  | 8 => ⟨S1x64, .f32⟩
  | 9 => ⟨S64, .f32⟩
  | 10 => ⟨S1x64, .f32⟩
  | 11 => ⟨S64, .f32⟩
  | 12 => ⟨S1x64, .f32⟩
  | 13 => ⟨S1x64, .f32⟩
  | 14 => ⟨S1x64, .f32⟩
  | 15 => ⟨S100000x64, .f32⟩
  | 16 => ⟨S_, .f32⟩
  | 17 => ⟨S64x64, .f32⟩
  | 18 => ⟨S100000x1, .i32⟩
  | 19 => ⟨S64x64, .f32⟩
  | 20 => ⟨S_, .f32⟩
  | 21 => ⟨S100000, .f32⟩
  | 22 => ⟨S_, .f32⟩
  | 23 => ⟨S64, .f32⟩
  | 24 => ⟨S100000x1, .i32⟩
  | 25 => ⟨S64, .f32⟩
  | 26 => ⟨S_, .f32⟩
  | 27 => ⟨S64, .f32⟩
  | 28 => ⟨S64, .f32⟩
  | 29 => ⟨S64x1, .f32⟩
  | 30 => ⟨S64x64, .f32⟩
  | 31 => ⟨S64x64, .f32⟩
  | 32 => ⟨S64x80, .f32⟩
  | 33 => ⟨S1x64, .f32⟩
  | 34 => ⟨S1x64, .f32⟩
  | 35 => ⟨S1x64, .f32⟩
  | 36 => ⟨S1x32, .f32⟩
  | 37 => ⟨S1x32, .f32⟩
  | 38 => ⟨S1x32, .f32⟩
  | 39 => ⟨S1x1, .f32⟩
  | 40 => ⟨S64x1, .f32⟩
  | 41 => ⟨S64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S8000x16, .f32⟩
  | .local _ .vmem, ⟨3, _⟩ => ⟨S8000x16, .f32⟩
  | .local _ .vmem, ⟨4, _⟩ => ⟨S64x64, .f32⟩
  | .local _ .vmem, ⟨5, _⟩ => ⟨S1x64, .f32⟩
  | .local _ .vmem, ⟨6, _⟩ => ⟨S80x64, .f32⟩
  | .local _ .vmem, ⟨7, _⟩ => ⟨S1x64, .f32⟩
  | .local _ .vmem, ⟨8, _⟩ => ⟨S8000x64, .f32⟩
  | .local _ .vmem, ⟨9, _⟩ => ⟨S8000x64, .f32⟩
  | .local _ .vmem, ⟨10, _⟩ => ⟨S5000x64, .f32⟩
  | .local _ .vmem, ⟨11, _⟩ => ⟨S5000x64, .f32⟩
  | .local _ .vmem, ⟨12, _⟩ => ⟨S5000x16, .f32⟩
  | .local _ .vmem, ⟨13, _⟩ => ⟨S5000x16, .f32⟩
  | .local _ .vmem, ⟨14, _⟩ => ⟨S80x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S8000x64, .f32⟩
  | .local _ .vmem, ⟨21, _⟩ => ⟨S8000x64, .f32⟩
  | .local _ .vmem, ⟨22, _⟩ => ⟨S8000x16, .f32⟩
  | .local _ .vmem, ⟨23, _⟩ => ⟨S8000x16, .f32⟩
  | .local _ .vmem, ⟨24, _⟩ => ⟨S64x64, .f32⟩
  | .local _ .vmem, ⟨25, _⟩ => ⟨S1x64, .f32⟩
  | .local _ .vmem, ⟨26, _⟩ => ⟨S80x64, .f32⟩
  | .local _ .vmem, ⟨27, _⟩ => ⟨S1x64, .f32⟩
  | .local _ .vmem, ⟨28, _⟩ => ⟨S8000x64, .f32⟩
  | .local _ .vmem, ⟨29, _⟩ => ⟨S8000x64, .f32⟩
  | .local _ .vmem, ⟨30, _⟩ => ⟨S5000x64, .f32⟩
  | .local _ .vmem, ⟨31, _⟩ => ⟨S5000x64, .f32⟩
  | .local _ .vmem, ⟨32, _⟩ => ⟨S5000x16, .f32⟩
  | .local _ .vmem, ⟨33, _⟩ => ⟨S5000x16, .f32⟩
  | .local _ .vmem, ⟨34, _⟩ => ⟨S80x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S8000x64, .f32⟩
  | .local _ .vmem, ⟨41, _⟩ => ⟨S8000x64, .f32⟩
  | .local _ .vmem, ⟨42, _⟩ => ⟨S8000x16, .f32⟩
  | .local _ .vmem, ⟨43, _⟩ => ⟨S8000x16, .f32⟩
  | .local _ .vmem, ⟨44, _⟩ => ⟨S64x64, .f32⟩
  | .local _ .vmem, ⟨45, _⟩ => ⟨S1x64, .f32⟩
  | .local _ .vmem, ⟨46, _⟩ => ⟨S80x64, .f32⟩
  | .local _ .vmem, ⟨47, _⟩ => ⟨S1x64, .f32⟩
  | .local _ .vmem, ⟨48, _⟩ => ⟨S8000x64, .f32⟩
  | .local _ .vmem, ⟨49, _⟩ => ⟨S8000x64, .f32⟩
  | .local _ .vmem, ⟨50, _⟩ => ⟨S5000x64, .f32⟩
  | .local _ .vmem, ⟨51, _⟩ => ⟨S5000x64, .f32⟩
  | .local _ .vmem, ⟨52, _⟩ => ⟨S5000x16, .f32⟩
  | .local _ .vmem, ⟨53, _⟩ => ⟨S5000x16, .f32⟩
  | .local _ .vmem, ⟨54, _⟩ => ⟨S80x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S64x80, .f32⟩
  | .local _ .vmem, ⟨61, _⟩ => ⟨S80x64, .f32⟩
  | .local _ .vmem, ⟨62, _⟩ => ⟨S1x64, .f32⟩
  | .local _ .vmem, ⟨63, _⟩ => ⟨S1x64, .f32⟩
  | .local _ .vmem, ⟨64, _⟩ => ⟨S1x64, .f32⟩
  | .local _ .vmem, ⟨65, _⟩ => ⟨S64x32, .f32⟩
  | .local _ .vmem, ⟨66, _⟩ => ⟨S1x32, .f32⟩
  | .local _ .vmem, ⟨67, _⟩ => ⟨S1x32, .f32⟩
  | .local _ .vmem, ⟨68, _⟩ => ⟨S1x32, .f32⟩
  | .local _ .vmem, ⟨69, _⟩ => ⟨S32x1, .f32⟩
  | .local _ .vmem, ⟨70, _⟩ => ⟨S1x1, .f32⟩
  | .local _ .vmem, ⟨71, _⟩ => ⟨S64x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_3 : Ref sig .tc := ⟨.hbm, 72, rfl⟩
abbrev main_v44 : Ref sig .tc := ⟨.hbm, 73, rfl⟩
abbrev main_v45 : Ref sig .tc := ⟨.hbm, 74, rfl⟩
abbrev main_c_4 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_5 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_6 : Ref sig .tc := ⟨.hbm, 108, rfl⟩
abbrev main_v77 : Ref sig .tc := ⟨.hbm, 109, rfl⟩
abbrev main_v78 : Ref sig .tc := ⟨.hbm, 110, rfl⟩
abbrev main_c_7 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_8 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_9 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_10 : Ref sig .tc := ⟨.hbm, 148, rfl⟩
abbrev main_v113 : Ref sig .tc := ⟨.hbm, 149, rfl⟩
abbrev main_cst_11 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_12 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc6_stg0_0 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg6_0 : Ref sig .tc := ⟨.vmem, 66, rfl⟩
abbrev cc6_stg7_0 : Ref sig .tc := ⟨.vmem, 67, rfl⟩
abbrev cc6_stg8_0 : Ref sig .tc := ⟨.vmem, 68, rfl⟩
abbrev cc6_stg9_0 : Ref sig .tc := ⟨.vmem, 69, rfl⟩
abbrev cc6_stg10_0 : Ref sig .tc := ⟨.vmem, 70, rfl⟩
abbrev cc6_stg11_0 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59
abbrev cc6_sem0_0 : DmaSem sig := 60
abbrev cc6_sem1_0 : DmaSem sig := 61
abbrev cc6_sem2_0 : DmaSem sig := 62
abbrev cc6_sem3_0 : DmaSem sig := 63
abbrev cc6_sem4_0 : DmaSem sig := 64
abbrev cc6_sem5_0 : DmaSem sig := 65
abbrev cc6_sem6_0 : DmaSem sig := 66
abbrev cc6_sem7_0 : DmaSem sig := 67
abbrev cc6_sem8_0 : DmaSem sig := 68
abbrev cc6_sem9_0 : DmaSem sig := 69
abbrev cc6_sem10_0 : DmaSem sig := 70
abbrev cc6_sem11_0 : DmaSem sig := 71

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S80x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S80x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S80x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S80x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S8000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S80x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x80 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S80x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x32 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x32 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x32 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x32 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S32x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x1 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S64x1 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x80x64_S1x80x64_0_0_0 : S3x80x64.Slices ![0, 0, 0] S1x80x64
  shapeCasts_S1x80x64_S80x64 : S1x80x64.ShapeCasts S80x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x16_S8000x16_0_0 : ∀ a, (![0, 0] : Fin 2 → Nat) a + S8000x16.size a ≤ S8000x16.size a
  h_S8000x16 : 0 < S8000x16.numel
  concatenates_S8000x64_S8000x16_S8000x80_d1 : Shape.Concatenates [S8000x64, S8000x16] S8000x80 1
  inb_S80x64_S80x64_0_0 : ∀ a, (![0, 0] : Fin 2 → Nat) a + S80x64.size a ≤ S80x64.size a
  h_S80x64 : 0 < S80x64.numel
  shapeCasts_S80x64_S80x64 : S80x64.ShapeCasts S80x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  concatenates_S5000x64_S5000x16_S5000x80_d1 : Shape.Concatenates [S5000x64, S5000x16] S5000x80 1
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  slices_S3x64x64_S1x64x64_1_0_0 : S3x64x64.Slices ![1, 0, 0] S1x64x64
  slices_S3x64_S1x64_1_0 : S3x64.Slices ![1, 0] S1x64
  slices_S3x80x64_S1x80x64_1_0_0 : S3x80x64.Slices ![1, 0, 0] S1x80x64
  slices_S3x64x64_S1x64x64_2_0_0 : S3x64x64.Slices ![2, 0, 0] S1x64x64
  slices_S3x64_S1x64_2_0 : S3x64.Slices ![2, 0] S1x64
  slices_S3x80x64_S1x80x64_2_0_0 : S3x80x64.Slices ![2, 0, 0] S1x80x64
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  concatenates_S64x64_S64x16_S64x80_d1 : Shape.Concatenates [S64x64, S64x16] S64x80 1
  shapeCasts_S32_S1x32 : S32.ShapeCasts S1x32
  shapeCasts_S1_S1x1 : S1.ShapeCasts S1x1
  inb_S64x80_S64x80_0_0 : ∀ a, (![0, 0] : Fin 2 → Nat) a + S64x80.size a ≤ S64x80.size a
  h_S64x80 : 0 < S64x80.numel
  shapeCasts_S64x80_S64x80 : S64x80.ShapeCasts S64x80
  broadcasts_S1x64_S64x64 : S1x64.Broadcasts S64x64
  reduces_S64x64_S64 : S64x64.Reduces [1] S64
  shapeCasts_S64_S64x1 : S64.ShapeCasts S64x1
  broadcasts_S64x1_S64x64 : S64x1.Broadcasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  reduces_S64x32_S64 : S64x32.Reduces [1] S64
  broadcasts_S64x1_S64x32 : S64x1.Broadcasts S64x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  shapeCasts_S64x1_S64 : S64x1.ShapeCasts S64
  gather_S64x16_S100000x1_S100000x16_1_0_n_n_0_1_116_wf : GatherDims.WF S64x16 S100000x1 S100000x16 [1] [0] [] [0] [] 1 ![1, 16]
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  dot_S8000x80_S80x64_S8000x64_1_0_0_1_n_n_wf : DotDims.WF S8000x80 S80x64 S8000x64 [1] [0] [0] [1] [] []
  scatter_S100000x64_S1600000x1_S1600000x64_1_0_0_1_wf : ScatterDims.WF S100000x64 S1600000x1 S1600000x64 [1] [0] [0] 1
  dot_S5000x80_S80x64_S5000x64_1_0_0_1_n_n_wf : DotDims.WF S5000x80 S80x64 S5000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x80_S80x64_S64x64_1_0_0_1_n_n_wf : DotDims.WF S64x80 S80x64 S64x64 [1] [0] [0] [1] [] []
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S1600000x16.size a
  hwx0_1 : ∀ i : grid0.Coords, EltTy.bits .f32 = 32 ∨ (Rect.block (s := S1600000x16) S8000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S80x64.size a ≤ S80x64.size a
  hwx0_4 : ∀ i : grid0.Coords, EltTy.bits .f32 = 32 ∨ (Rect.block (s := S80x64) S80x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S1600000x64.size a
  hwx0_6 : ∀ i : grid0.Coords, EltTy.bits .f32 = 32 ∨ (Rect.block (s := S1600000x64) S8000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S80x64.size a ≤ S80x64.size a
  hwx1_2 : ∀ i : grid1.Coords, EltTy.bits .f32 = 32 ∨ (Rect.block (s := S80x64) S80x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x16.size a ≤ S1600000x16.size a
  hwx2_1 : ∀ i : grid2.Coords, EltTy.bits .f32 = 32 ∨ (Rect.block (s := S1600000x16) S8000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S80x64.size a ≤ S80x64.size a
  hwx2_4 : ∀ i : grid2.Coords, EltTy.bits .f32 = 32 ∨ (Rect.block (s := S80x64) S80x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8000x64.size a ≤ S1600000x64.size a
  hwx2_6 : ∀ i : grid2.Coords, EltTy.bits .f32 = 32 ∨ (Rect.block (s := S1600000x64) S8000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S80x64.size a ≤ S80x64.size a
  hwx3_2 : ∀ i : grid3.Coords, EltTy.bits .f32 = 32 ∨ (Rect.block (s := S80x64) S80x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S1600000x64.size a
  hwx4_0 : ∀ i : grid4.Coords, EltTy.bits .f32 = 32 ∨ (Rect.block (s := S1600000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x16.size a ≤ S1600000x16.size a
  hwx4_1 : ∀ i : grid4.Coords, EltTy.bits .f32 = 32 ∨ (Rect.block (s := S1600000x16) S8000x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S80x64.size a ≤ S80x64.size a
  hwx4_4 : ∀ i : grid4.Coords, EltTy.bits .f32 = 32 ∨ (Rect.block (s := S80x64) S80x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8000x64.size a ≤ S1600000x64.size a
  hwx4_6 : ∀ i : grid4.Coords, EltTy.bits .f32 = 32 ∨ (Rect.block (s := S1600000x64) S8000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x16.size a ≤ S100000x16.size a
  hwx5_1 : ∀ i : grid5.Coords, EltTy.bits .f32 = 32 ∨ (Rect.block (s := S100000x16) S5000x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S80x64.size a ≤ S80x64.size a
  hwx5_2 : ∀ i : grid5.Coords, EltTy.bits .f32 = 32 ∨ (Rect.block (s := S80x64) S80x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x80.size a ≤ S64x80.size a
  hwx6_0 : ∀ i : grid6.Coords, EltTy.bits .f32 = 32 ∨ (Rect.block (s := S64x80) S64x80.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S80x64.size a ≤ S80x64.size a
  hwx6_1 : ∀ i : grid6.Coords, EltTy.bits .f32 = 32 ∨ (Rect.block (s := S80x64) S80x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x32.size a ≤ S64x32.size a
  hwx6_5 : ∀ i : grid6.Coords, EltTy.bits .f32 = 32 ∨ (Rect.block (s := S64x32) S64x32.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x32.size a ≤ S1x32.size a
  hwx6_6 : ∀ i : grid6.Coords, EltTy.bits .f32 = 32 ∨ (Rect.block (s := S1x32) S1x32.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x32.size a ≤ S1x32.size a
  hwx6_7 : ∀ i : grid6.Coords, EltTy.bits .f32 = 32 ∨ (Rect.block (s := S1x32) S1x32.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x32.size a ≤ S1x32.size a
  hwx6_8 : ∀ i : grid6.Coords, EltTy.bits .f32 = 32 ∨ (Rect.block (s := S1x32) S1x32.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S32x1.size a ≤ S32x1.size a
  hwx6_9 : ∀ i : grid6.Coords, EltTy.bits .f32 = 32 ∨ (Rect.block (s := S32x1) S32x1.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x1.size a ≤ S1x1.size a
  hwx6_10 : ∀ i : grid6.Coords, EltTy.bits .f32 = 32 ∨ (Rect.block (s := S1x1) S1x1.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S64x1.size a ≤ S64x1.size a
  hwx6_11 : ∀ i : grid6.Coords, EltTy.bits .f32 = 32 ∨ (Rect.block (s := S64x1) S64x1.size (cc6_transform_11 i) (hinb6_11 i)).WholeWords (EltTy.packing .f32)

variable [Facts₀]

def gather_S64x16_S100000x1_S100000x16_1_0_n_n_0_1_116 : GatherDims S64x16 S100000x1 S100000x16 where
  offsetDims := [1]
  collapsedSliceDims := [0]
  operandBatchingDims := []
  startIndicesBatchingDims := []
  startIndexMap := [0]
  indexVectorDim := 1
  sliceSizes := ![1, 16]
  wf := gather_S64x16_S100000x1_S100000x16_1_0_n_n_0_1_116_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x80_S80x64_S8000x64_1_0_0_1_n_n : DotDims S8000x80 S80x64 S8000x64 where
  lhsContracting := [1]
  rhsContracting := [0]
  lhsNonContracting := [0]
  rhsNonContracting := [1]
  lhsBatch := []
  rhsBatch := []
  wf := dot_S8000x80_S80x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x80_S80x64_S5000x64_1_0_0_1_n_n : DotDims S5000x80 S80x64 S5000x64 where
  lhsContracting := [1]
  rhsContracting := [0]
  lhsNonContracting := [0]
  rhsNonContracting := [1]
  lhsBatch := []
  rhsBatch := []
  wf := dot_S5000x80_S80x64_S5000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x80_S80x64_S64x64_1_0_0_1_n_n : DotDims S64x80 S80x64 S64x64 where
  lhsContracting := [1]
  rhsContracting := [0]
  lhsNonContracting := [0]
  rhsNonContracting := [1]
  lhsBatch := []
  rhsBatch := []
  wf := dot_S64x80_S80x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

abbrev win0_0 : Pipeline.Window sig grid0 :=
  Pipeline.Window.ofSpec (Memref.whole main_v17) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S80x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S80x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S8000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S80x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S8000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v64) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S80x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v76) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v83) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S8000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v85) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v89) S80x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v93) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v94) S8000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v97) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S5000x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v99) S80x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v106) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v107) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v108) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v109) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v122) S64x80.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S80x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v123) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v124) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v125) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg15) S64x32.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v126) S1x32.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v127) S1x32.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v128) S1x32.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_arg19) S32x1.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v129) S1x1.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v130) S64x1.size cc6_transform_11 reads6_11 true true 1 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

class Facts : Prop extends Facts₀ where

variable [Facts]
-- ==== ReferenceIdeal.lean ====
abbrev S100000x64 : Shape := ⟨2, ![100000, 64]⟩
abbrev S1600000x16 : Shape := ⟨2, ![1600000, 16]⟩
abbrev S64x16 : Shape := ⟨2, ![64, 16]⟩
abbrev S3x64x64 : Shape := ⟨3, ![3, 64, 64]⟩
abbrev S3x64 : Shape := ⟨2, ![3, 64]⟩
abbrev S3x80x64 : Shape := ⟨3, ![3, 80, 64]⟩
abbrev S80x64 : Shape := ⟨2, ![80, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x16 : Shape := ⟨2, ![100000, 16]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S1600000x80 : Shape := ⟨2, ![1600000, 80]⟩
abbrev S1x80x64 : Shape := ⟨3, ![1, 80, 64]⟩
abbrev S100000x80 : Shape := ⟨2, ![100000, 80]⟩
abbrev S64x1 : Shape := ⟨2, ![64, 1]⟩
abbrev S64x80 : Shape := ⟨2, ![64, 80]⟩
abbrev S1x32 : Shape := ⟨2, ![1, 32]⟩
abbrev S1x1 : Shape := ⟨2, ![1, 1]⟩

abbrev nBuf : Space → Nat
  | .hbm => 346
  | .vmem => 0
  | .smem => 0
  | _ => 0

abbrev hbmTy0_0 (i : Nat) : BufTy := match i % 128 with
  | 0 => ⟨S100000x64, .f32⟩
  | 1 => ⟨S1600000x16, .f32⟩
  | 2 => ⟨S64x16, .f32⟩
  | 3 => ⟨S3x64x64, .f32⟩
  | 4 => ⟨S3x64, .f32⟩
  | 5 => ⟨S3x80x64, .f32⟩
  | 6 => ⟨S3x64, .f32⟩
  | 7 => ⟨S3x80x64, .f32⟩
  | 8 => ⟨S3x64, .f32⟩
  | 9 => ⟨S3x64, .f32⟩
  | 10 => ⟨S3x64, .f32⟩
  | 11 => ⟨S80x64, .f32⟩
  | 12 => ⟨S64, .f32⟩
  | 13 => ⟨S64, .f32⟩
  | 14 => ⟨S64, .f32⟩
  | 15 => ⟨S64x32, .f32⟩
  | 16 => ⟨S32, .f32⟩
  | 17 => ⟨S32, .f32⟩
  | 18 => ⟨S32, .f32⟩
  | 19 => ⟨S32x1, .f32⟩
  | 20 => ⟨S1, .f32⟩
  | 21 => ⟨S2x1600000, .i32⟩
  | 22 => ⟨S100000, .i32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S100000x16, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S1x64x64, .f32⟩
  | 46 => ⟨S64x64, .f32⟩
  | 47 => ⟨S1600000x64, .f32⟩
  | 48 => ⟨S1x64, .f32⟩
  | 49 => ⟨S64, .f32⟩
  | 50 => ⟨S1x64, .f32⟩
  | 51 => ⟨S1600000x64, .f32⟩
  | 52 => ⟨S1600000x64, .f32⟩
  | 53 => ⟨S1600000x80, .f32⟩
  | 54 => ⟨S1x80x64, .f32⟩
  | 55 => ⟨S80x64, .f32⟩
  | 56 => ⟨S1600000x64, .f32⟩
  | 57 => ⟨S1x64, .f32⟩
  | 58 => ⟨S64, .f32⟩
  | 59 => ⟨S1x64, .f32⟩
  | 60 => ⟨S1600000x64, .f32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S100000x80, .f32⟩
  | 67 => ⟨S1x80x64, .f32⟩
  | 68 => ⟨S80x64, .f32⟩
  | 69 => ⟨S100000x64, .f32⟩
  | 70 => ⟨S1x64, .f32⟩
  | 71 => ⟨S64, .f32⟩
  | 72 => ⟨S1x64, .f32⟩
  | 73 => ⟨S100000x64, .f32⟩
  | 74 => ⟨S100000x64, .f32⟩
  | 75 => ⟨S1x64, .f32⟩
  | 76 => ⟨S64, .f32⟩
  | 77 => ⟨S1x64, .f32⟩
  | 78 => ⟨S64, .f32⟩
  | 79 => ⟨S_, .f32⟩
  | 80 => ⟨S100000, .f32⟩
  | 81 => ⟨S100000x1, .f32⟩
  | 82 => ⟨S_, .f32⟩
  | 83 => ⟨S100000x1, .f32⟩
  | 84 => ⟨S100000x1, .f32⟩
  | 85 => ⟨S100000x64, .f32⟩
  | 86 => ⟨S100000x64, .f32⟩
  | 87 => ⟨S100000x64, .f32⟩
  | 88 => ⟨S_, .f32⟩
  | 89 => ⟨S100000, .f32⟩
  | 90 => ⟨S100000x1, .f32⟩
  | 91 => ⟨S_, .f32⟩
  | 92 => ⟨S100000x1, .f32⟩
  | 93 => ⟨S100000x1, .f32⟩
  | 94 => ⟨S100000x64, .f32⟩
  | 95 => ⟨S100000x64, .f32⟩
  | 96 => ⟨S_, .f32⟩
  | 97 => ⟨S100000x1, .f32⟩
  | 98 => ⟨S100000x1, .f32⟩
  | 99 => ⟨S100000x1, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x64, .f32⟩
  | 117 => ⟨S1x64x64, .f32⟩
  | 118 => ⟨S64x64, .f32⟩
  | 119 => ⟨S1600000x64, .f32⟩
  | 120 => ⟨S1x64, .f32⟩
  | 121 => ⟨S64, .f32⟩
  | 122 => ⟨S1x64, .f32⟩
  | 123 => ⟨S1600000x64, .f32⟩
  | 124 => ⟨S1600000x64, .f32⟩
  | 125 => ⟨S1600000x80, .f32⟩
  | 126 => ⟨S1x80x64, .f32⟩
  | 127 => ⟨S80x64, .f32⟩
  | _ => ⟨S100000x64, .f32⟩

abbrev hbmTy0_1 (i : Nat) : BufTy := match i % 128 with
  | 0 => ⟨S1600000x64, .f32⟩
  | 1 => ⟨S1x64, .f32⟩
  | 2 => ⟨S64, .f32⟩
  | 3 => ⟨S1x64, .f32⟩
  | 4 => ⟨S1600000x64, .f32⟩
  | 5 => ⟨S1600000x64, .f32⟩
  | 6 => ⟨S_, .f32⟩
  | 7 => ⟨S100000x64, .f32⟩
  | 8 => ⟨S1600000x1, .i32⟩
  | 9 => ⟨S100000x64, .f32⟩
  | 10 => ⟨S100000x80, .f32⟩
  | 11 => ⟨S1x80x64, .f32⟩
  | 12 => ⟨S80x64, .f32⟩
  | 13 => ⟨S100000x64, .f32⟩
  | 14 => ⟨S1x64, .f32⟩
  | 15 => ⟨S64, .f32⟩
  | 16 => ⟨S1x64, .f32⟩
  | 17 => ⟨S100000x64, .f32⟩
  | 18 => ⟨S100000x64, .f32⟩
  | 19 => ⟨S1x64, .f32⟩
  | 20 => ⟨S64, .f32⟩
  | 21 => ⟨S1x64, .f32⟩
  | 22 => ⟨S64, .f32⟩
  | 23 => ⟨S_, .f32⟩
  | 24 => ⟨S100000, .f32⟩
  | 25 => ⟨S100000x1, .f32⟩
  | 26 => ⟨S_, .f32⟩
  | 27 => ⟨S100000x1, .f32⟩
  | 28 => ⟨S100000x1, .f32⟩
  | 29 => ⟨S100000x64, .f32⟩
  | 30 => ⟨S100000x64, .f32⟩
  | 31 => ⟨S100000x64, .f32⟩
  | 32 => ⟨S_, .f32⟩
  | 33 => ⟨S100000, .f32⟩
  | 34 => ⟨S100000x1, .f32⟩
  | 35 => ⟨S_, .f32⟩
  | 36 => ⟨S100000x1, .f32⟩
  | 37 => ⟨S100000x1, .f32⟩
  | 38 => ⟨S100000x64, .f32⟩
  | 39 => ⟨S100000x64, .f32⟩
  | 40 => ⟨S_, .f32⟩
  | 41 => ⟨S100000x1, .f32⟩
  | 42 => ⟨S100000x1, .f32⟩
  | 43 => ⟨S100000x1, .f32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1x64x64, .f32⟩
  | 62 => ⟨S64x64, .f32⟩
  | 63 => ⟨S1600000x64, .f32⟩
  | 64 => ⟨S1x64, .f32⟩
  | 65 => ⟨S64, .f32⟩
  | 66 => ⟨S1x64, .f32⟩
  | 67 => ⟨S1600000x64, .f32⟩
  | 68 => ⟨S1600000x64, .f32⟩
  | 69 => ⟨S1600000x80, .f32⟩
  | 70 => ⟨S1x80x64, .f32⟩
  | 71 => ⟨S80x64, .f32⟩
  | 72 => ⟨S1600000x64, .f32⟩
  | 73 => ⟨S1x64, .f32⟩
  | 74 => ⟨S64, .f32⟩
  | 75 => ⟨S1x64, .f32⟩
  | 76 => ⟨S1600000x64, .f32⟩
  | 77 => ⟨S1600000x64, .f32⟩
  | 78 => ⟨S_, .f32⟩
  | 79 => ⟨S100000x64, .f32⟩
  | 80 => ⟨S1600000x1, .i32⟩
  | 81 => ⟨S100000x64, .f32⟩
  | 82 => ⟨S100000x80, .f32⟩
  | 83 => ⟨S1x80x64, .f32⟩
  | 84 => ⟨S80x64, .f32⟩
  | 85 => ⟨S100000x64, .f32⟩
  | 86 => ⟨S1x64, .f32⟩
  | 87 => ⟨S64, .f32⟩
  | 88 => ⟨S1x64, .f32⟩
  | 89 => ⟨S100000x64, .f32⟩
  | 90 => ⟨S100000x64, .f32⟩
  | 91 => ⟨S1x64, .f32⟩
  | 92 => ⟨S64, .f32⟩
  | 93 => ⟨S1x64, .f32⟩
  | 94 => ⟨S64, .f32⟩
  | 95 => ⟨S_, .f32⟩
  | 96 => ⟨S100000, .f32⟩
  | 97 => ⟨S100000x1, .f32⟩
  | 98 => ⟨S_, .f32⟩
  | 99 => ⟨S100000x1, .f32⟩
  | 100 => ⟨S100000x1, .f32⟩
  | 101 => ⟨S100000x64, .f32⟩
  | 102 => ⟨S100000x64, .f32⟩
  | 103 => ⟨S100000x64, .f32⟩
  | 104 => ⟨S_, .f32⟩
  | 105 => ⟨S100000, .f32⟩
  | 106 => ⟨S100000x1, .f32⟩
  | 107 => ⟨S_, .f32⟩
  | 108 => ⟨S100000x1, .f32⟩
  | 109 => ⟨S100000x1, .f32⟩
  | 110 => ⟨S100000x64, .f32⟩
  | 111 => ⟨S100000x64, .f32⟩
  | 112 => ⟨S_, .f32⟩
  | 113 => ⟨S100000x1, .f32⟩
  | 114 => ⟨S100000x1, .f32⟩
  | 115 => ⟨S100000x1, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S64x64, .f32⟩
  | 126 => ⟨S100000x1, .i32⟩
  | 127 => ⟨S64x64, .f32⟩
  | _ => ⟨S100000x64, .f32⟩

abbrev hbmTy0_2 (i : Nat) : BufTy := match i % 128 with
  | 0 => ⟨S_, .f32⟩
  | 1 => ⟨S100000, .f32⟩
  | 2 => ⟨S_, .f32⟩
  | 3 => ⟨S64, .f32⟩
  | 4 => ⟨S100000x1, .i32⟩
  | 5 => ⟨S64, .f32⟩
  | 6 => ⟨S_, .f32⟩
  | 7 => ⟨S64, .f32⟩
  | 8 => ⟨S64, .f32⟩
  | 9 => ⟨S64x1, .f32⟩
  | 10 => ⟨S64x64, .f32⟩
  | 11 => ⟨S64x64, .f32⟩
  | 12 => ⟨S64x80, .f32⟩
  | 13 => ⟨S64x64, .f32⟩
  | 14 => ⟨S1x64, .f32⟩
  | 15 => ⟨S64x64, .f32⟩
  | 16 => ⟨S64x64, .f32⟩
  | 17 => ⟨S_, .f32⟩
  | 18 => ⟨S64, .f32⟩
  | 19 => ⟨S64x1, .f32⟩
  | 20 => ⟨S_, .f32⟩
  | 21 => ⟨S64x1, .f32⟩
  | 22 => ⟨S64x1, .f32⟩
  | 23 => ⟨S64x64, .f32⟩
  | 24 => ⟨S64x64, .f32⟩
  | 25 => ⟨S64x64, .f32⟩
  | 26 => ⟨S_, .f32⟩
  | 27 => ⟨S64, .f32⟩
  | 28 => ⟨S64x1, .f32⟩
  | 29 => ⟨S_, .f32⟩
  | 30 => ⟨S64x1, .f32⟩
  | 31 => ⟨S64x1, .f32⟩
  | 32 => ⟨S64x64, .f32⟩
  | 33 => ⟨S64x64, .f32⟩
  | 34 => ⟨S_, .f32⟩
  | 35 => ⟨S64x1, .f32⟩
  | 36 => ⟨S64x1, .f32⟩
  | 37 => ⟨S64x1, .f32⟩
  | 38 => ⟨S64x64, .f32⟩
  | 39 => ⟨S64x64, .f32⟩
  | 40 => ⟨S1x64, .f32⟩
  | 41 => ⟨S64x64, .f32⟩
  | 42 => ⟨S64x64, .f32⟩
  | 43 => ⟨S1x64, .f32⟩
  | 44 => ⟨S64x64, .f32⟩
  | 45 => ⟨S64x64, .f32⟩
  | 46 => ⟨S_, .f32⟩
  | 47 => ⟨S64x64, .f32⟩
  | 48 => ⟨S64x64, .f32⟩
  | 49 => ⟨S64x32, .f32⟩
  | 50 => ⟨S1x32, .f32⟩
  | 51 => ⟨S64x32, .f32⟩
  | 52 => ⟨S64x32, .f32⟩
  | 53 => ⟨S_, .f32⟩
  | 54 => ⟨S64, .f32⟩
  | 55 => ⟨S64x1, .f32⟩
  | 56 => ⟨S_, .f32⟩
  | 57 => ⟨S64x1, .f32⟩
  | 58 => ⟨S64x1, .f32⟩
  | 59 => ⟨S64x32, .f32⟩
  | 60 => ⟨S64x32, .f32⟩
  | 61 => ⟨S64x32, .f32⟩
  | 62 => ⟨S_, .f32⟩
  | 63 => ⟨S64, .f32⟩
  | 64 => ⟨S64x1, .f32⟩
  | 65 => ⟨S_, .f32⟩
  | 66 => ⟨S64x1, .f32⟩
  | 67 => ⟨S64x1, .f32⟩
  | 68 => ⟨S64x32, .f32⟩
  | 69 => ⟨S64x32, .f32⟩
  | 70 => ⟨S_, .f32⟩
  | 71 => ⟨S64x1, .f32⟩
  | 72 => ⟨S64x1, .f32⟩
  | 73 => ⟨S64x1, .f32⟩
  | 74 => ⟨S64x32, .f32⟩
  | 75 => ⟨S64x32, .f32⟩
  | 76 => ⟨S1x32, .f32⟩
  | 77 => ⟨S64x32, .f32⟩
  | 78 => ⟨S64x32, .f32⟩
  | 79 => ⟨S1x32, .f32⟩
  | 80 => ⟨S64x32, .f32⟩
  | 81 => ⟨S64x32, .f32⟩
  | 82 => ⟨S_, .f32⟩
  | 83 => ⟨S64x32, .f32⟩
  | 84 => ⟨S64x32, .f32⟩
  | 85 => ⟨S64x1, .f32⟩
  | 86 => ⟨S1x1, .f32⟩
  | 87 => ⟨S64x1, .f32⟩
  | 88 => ⟨S64x1, .f32⟩
  | 89 => ⟨S64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_3 : Ref sig .tc := ⟨.hbm, 79, rfl⟩
abbrev main_v51 : Ref sig .tc := ⟨.hbm, 80, rfl⟩
abbrev main_v52 : Ref sig .tc := ⟨.hbm, 81, rfl⟩
abbrev main_cst_4 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_5 : Ref sig .tc := ⟨.hbm, 88, rfl⟩
abbrev main_v58 : Ref sig .tc := ⟨.hbm, 89, rfl⟩
abbrev main_v59 : Ref sig .tc := ⟨.hbm, 90, rfl⟩
abbrev main_cst_6 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_7 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_8 : Ref sig .tc := ⟨.hbm, 108, rfl⟩
abbrev main_v75 : Ref sig .tc := ⟨.hbm, 109, rfl⟩
abbrev main_v76 : Ref sig .tc := ⟨.hbm, 110, rfl⟩
abbrev main_c_9 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_10 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_11 : Ref sig .tc := ⟨.hbm, 151, rfl⟩
abbrev main_v115 : Ref sig .tc := ⟨.hbm, 152, rfl⟩
abbrev main_v116 : Ref sig .tc := ⟨.hbm, 153, rfl⟩
abbrev main_cst_12 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_13 : Ref sig .tc := ⟨.hbm, 160, rfl⟩
abbrev main_v122 : Ref sig .tc := ⟨.hbm, 161, rfl⟩
abbrev main_v123 : Ref sig .tc := ⟨.hbm, 162, rfl⟩
abbrev main_cst_14 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_15 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_c_16 : Ref sig .tc := ⟨.hbm, 180, rfl⟩
abbrev main_v139 : Ref sig .tc := ⟨.hbm, 181, rfl⟩
abbrev main_v140 : Ref sig .tc := ⟨.hbm, 182, rfl⟩
abbrev main_c_17 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_18 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_cst_19 : Ref sig .tc := ⟨.hbm, 223, rfl⟩
abbrev main_v179 : Ref sig .tc := ⟨.hbm, 224, rfl⟩
abbrev main_v180 : Ref sig .tc := ⟨.hbm, 225, rfl⟩
abbrev main_cst_20 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_cst_21 : Ref sig .tc := ⟨.hbm, 232, rfl⟩
abbrev main_v186 : Ref sig .tc := ⟨.hbm, 233, rfl⟩
abbrev main_v187 : Ref sig .tc := ⟨.hbm, 234, rfl⟩
abbrev main_cst_22 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_cst_23 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_cst_24 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_cst_25 : Ref sig .tc := ⟨.hbm, 256, rfl⟩
abbrev main_v206 : Ref sig .tc := ⟨.hbm, 257, rfl⟩
abbrev main_cst_26 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_cst_27 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_cst_28 : Ref sig .tc := ⟨.hbm, 273, rfl⟩
abbrev main_v220 : Ref sig .tc := ⟨.hbm, 274, rfl⟩
abbrev main_v221 : Ref sig .tc := ⟨.hbm, 275, rfl⟩
abbrev main_cst_29 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_cst_30 : Ref sig .tc := ⟨.hbm, 282, rfl⟩
abbrev main_v227 : Ref sig .tc := ⟨.hbm, 283, rfl⟩
abbrev main_v228 : Ref sig .tc := ⟨.hbm, 284, rfl⟩
abbrev main_cst_31 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_cst_32 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_call0_cst : Ref sig .tc := ⟨.hbm, 302, rfl⟩
abbrev main_call0_v0 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_cst_33 : Ref sig .tc := ⟨.hbm, 309, rfl⟩
abbrev main_v249 : Ref sig .tc := ⟨.hbm, 310, rfl⟩
abbrev main_v250 : Ref sig .tc := ⟨.hbm, 311, rfl⟩
abbrev main_cst_34 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_cst_35 : Ref sig .tc := ⟨.hbm, 318, rfl⟩
abbrev main_v256 : Ref sig .tc := ⟨.hbm, 319, rfl⟩
abbrev main_v257 : Ref sig .tc := ⟨.hbm, 320, rfl⟩
abbrev main_cst_36 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_cst_37 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_call1_cst : Ref sig .tc := ⟨.hbm, 338, rfl⟩
abbrev main_call1_v0 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  concatenates_S1600000x64_S1600000x16_S1600000x80_d1 : Shape.Concatenates [S1600000x64, S1600000x16] S1600000x80 1
  slices_S3x80x64_S1x80x64_0_0_0 : S3x80x64.Slices ![0, 0, 0] S1x80x64
  shapeCasts_S1x80x64_S80x64 : S1x80x64.ShapeCasts S80x64
  bcast_S_S100000x64 : S_.BroadcastsInDim S100000x64 (![] : Fin 0 → Fin S100000x64.rank)
  concatenates_S100000x64_S100000x16_S100000x80_d1 : Shape.Concatenates [S100000x64, S100000x16] S100000x80 1
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x80x64_S1x80x64_1_0_0 : S3x80x64.Slices ![1, 0, 0] S1x80x64
  slices_S3x64x64_S1x64x64_2_0_0 : S3x64x64.Slices ![2, 0, 0] S1x64x64
  slices_S3x64_S1x64_2_0 : S3x64.Slices ![2, 0] S1x64
  slices_S3x80x64_S1x80x64_2_0_0 : S3x80x64.Slices ![2, 0, 0] S1x80x64
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  concatenates_S64x64_S64x16_S64x80_d1 : Shape.Concatenates [S64x64, S64x16] S64x80 1
  bcast_S1x64_S64x64_0_1 : S1x64.BroadcastsInDim S64x64 (![0, 1] : Fin 2 → Fin S64x64.rank)
  reducesTo_S64x64_S64_d1 : S64x64.ReducesTo [1] S64
  bcast_S_S64x1 : S_.BroadcastsInDim S64x1 (![] : Fin 0 → Fin S64x1.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  reducesTo_S64x32_S64_d1 : S64x32.ReducesTo [1] S64
  bcast_S64x1_S64x32_0_1 : S64x1.BroadcastsInDim S64x32 (![0, 1] : Fin 2 → Fin S64x32.rank)
  bcast_S_S64x32 : S_.BroadcastsInDim S64x32 (![] : Fin 0 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  gather_S64x16_S100000x1_S100000x16_1_0_n_n_0_1_116_wf : GatherDims.WF S64x16 S100000x1 S100000x16 [1] [0] [] [0] [] 1 ![1, 16]
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  dot_S1600000x80_S80x64_S1600000x64_1_0_0_1_n_n_wf : DotDims.WF S1600000x80 S80x64 S1600000x64 [1] [0] [0] [1] [] []
  scatter_S100000x64_S1600000x1_S1600000x64_1_0_0_1_wf : ScatterDims.WF S100000x64 S1600000x1 S1600000x64 [1] [0] [0] 1
  dot_S100000x80_S80x64_S100000x64_1_0_0_1_n_n_wf : DotDims.WF S100000x80 S80x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x80_S80x64_S64x64_1_0_0_1_n_n_wf : DotDims.WF S64x80 S80x64 S64x64 [1] [0] [0] [1] [] []
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []

variable [Facts₀]

def gather_S64x16_S100000x1_S100000x16_1_0_n_n_0_1_116 : GatherDims S64x16 S100000x1 S100000x16 where
  offsetDims := [1]
  collapsedSliceDims := [0]
  operandBatchingDims := []
  startIndicesBatchingDims := []
  startIndexMap := [0]
  indexVectorDim := 1
  sliceSizes := ![1, 16]
  wf := gather_S64x16_S100000x1_S100000x16_1_0_n_n_0_1_116_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x80_S80x64_S1600000x64_1_0_0_1_n_n : DotDims S1600000x80 S80x64 S1600000x64 where
  lhsContracting := [1]
  rhsContracting := [0]
  lhsNonContracting := [0]
  rhsNonContracting := [1]
  lhsBatch := []
  rhsBatch := []
  wf := dot_S1600000x80_S80x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x80_S80x64_S100000x64_1_0_0_1_n_n : DotDims S100000x80 S80x64 S100000x64 where
  lhsContracting := [1]
  rhsContracting := [0]
  lhsNonContracting := [0]
  rhsNonContracting := [1]
  lhsBatch := []
  rhsBatch := []
  wf := dot_S100000x80_S80x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x80_S80x64_S64x64_1_0_0_1_n_n : DotDims S64x80 S80x64 S64x64 where
  lhsContracting := [1]
  rhsContracting := [0]
  lhsNonContracting := [0]
  rhsNonContracting := [1]
  lhsBatch := []
  rhsBatch := []
  wf := dot_S64x80_S80x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

class Facts : Prop extends Facts₀ where

variable [Facts]
-- ==== Proof.KernelRun.lean ====
/-
  The idealized kernel program's run, with its result named.  Every weakly fair execution of @main terminates
  without a fault, and in the final state the result buffer holds what the fold of @main's segments leaves there
  (the host stretches applied in order, each device region's arrays at what its write-backs leave), while every
  argument array is as launched.  The value certificate reads that fold back stage by stage.
-/
import proofs.«112340_j85873576116383_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer read off the last boundary's contents, the arguments as launched. -/
theorem run : θ_run defs (onTc (τ := τ) (main (F := F))) ⟨m, fun _ => 0, ρ⟩ (fun r => ∀ c : Dev nD,
      r.2.mem ((c.tc : Thread nD τ).loc main_v131) = W15 m ρ c (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v131 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c)⟩)

end Cert.KernelIdeal.RunValue

end
-- ==== Proof.Stages.lean ====
/-
  The three stages the two programs share, each as ONE function of the arrays that enter it, spelt with the host
  operations of the reference program: the edge message (two affine maps, the second on the first's result joined
  with the edge attributes), the node update (an affine map of the aggregate joined with the graph features, then
  layer normalisation of every row), and the readout (three affine maps, the first two each followed by layer
  normalisation and the positive part).  Biases and the normalisation's weights enter as [1, n] rows.
-/
import proofs.«112340_j85873576116383_2_alg».proof.Proof.Gen.ReferenceIdeal

noncomputable section

namespace Cert.Stages

open Cert.ReferenceIdeal Cert.ReferenceIdeal.Gen Idealize.ShloMosaic Idealize.ShloMosaic.TcCoe

variable {F : FTy → Type} [FloatOps F]

set_option quotPrecheck false in
local notation "T[" s "]" => (⟨s, .f32⟩ : BufTy).Contents (Elt F)

/-- The edge message: `(xg · w1 + b1) ‖ ea` times `w2`, plus `b2`, row by row. -/
def edgeH (xg : T[S1600000x64]) (ea : T[S1600000x16]) (w1 : T[S64x64]) (b1r : T[S1x64]) (w2 : T[S80x64]) (b2r : T[S1x64]) :
    T[S1600000x64] :=
  addf (Host.dotGeneral dot_S1600000x80_S80x64_S1600000x64_1_0_0_1_n_n none
      (concatenate S1600000x80 1 [⟨S1600000x64, (addf (Host.dotGeneral dot_S1600000x64_S64x64_S1600000x64_1_0_0_1_n_n none xg w1)
          (broadcastInDim S1600000x64 ![0, 1] bcast_S1x64_S1600000x64_0_1 b1r))⟩, ⟨S1600000x16, (ea)⟩]
        concatenates_S1600000x64_S1600000x16_S1600000x80_d1) w2)
    (broadcastInDim S1600000x64 ![0, 1] bcast_S1x64_S1600000x64_0_1 b2r)

/-- The node update before normalisation: `aggr ‖ g` times `wu`, plus `bu`, row by row. -/
def nodeLin (aggr : T[S100000x64]) (g : T[S100000x16]) (wu : T[S80x64]) (bur : T[S1x64]) : T[S100000x64] :=
  addf (Host.dotGeneral dot_S100000x80_S80x64_S100000x64_1_0_0_1_n_n none
      (concatenate S100000x80 1 [⟨S100000x64, (aggr)⟩, ⟨S100000x16, (g)⟩] concatenates_S100000x64_S100000x16_S100000x80_d1) wu)
    (broadcastInDim S100000x64 ![0, 1] bcast_S1x64_S100000x64_0_1 bur)

/-- The mean of every row of `h` as a column: the row's sum over the count, the count the constant 0x42800000#32. -/
def meanN (h : T[S100000x64]) : T[S100000x1] :=
  Host.divf (broadcastInDim S100000x1 ![0] bcast_S100000_S100000x1_0 (Host.reduceAdd h (constant S_ .f32 0x00000000#32) reducesTo_S100000x64_S100000_d1 h_S_))
    (broadcastInDim S100000x1 ![] bcast_S_S100000x1 (constant S_ .f32 0x42800000#32))

/-- Layer normalisation of every row of `h`: centred, scaled by the reciprocal root of the row's variance plus
    the constant 0x3727C5AC, then scaled by the row `wr` and shifted by the row `br`. -/
def lnormN (h : T[S100000x64]) (wr br : T[S1x64]) : T[S100000x64] :=
  addf (mulf (mulf (subf h (broadcastInDim S100000x64 ![0, 1] bcast_S100000x1_S100000x64_0_1 (meanN h)))
      (broadcastInDim S100000x64 ![0, 1] bcast_S100000x1_S100000x64_0_1 (Host.rsqrt (addf
        (Host.divf (broadcastInDim S100000x1 ![0] bcast_S100000_S100000x1_0 (Host.reduceAdd
            (mulf (subf h (broadcastInDim S100000x64 ![0, 1] bcast_S100000x1_S100000x64_0_1 (meanN h)))
              (subf h (broadcastInDim S100000x64 ![0, 1] bcast_S100000x1_S100000x64_0_1 (meanN h))))
            (constant S_ .f32 0x00000000#32) reducesTo_S100000x64_S100000_d1 h_S_))
          (broadcastInDim S100000x1 ![] bcast_S_S100000x1 (constant S_ .f32 0x42800000#32)))
        (broadcastInDim S100000x1 ![] bcast_S_S100000x1 (constant S_ .f32 0x3727C5AC#32))))))
      (broadcastInDim S100000x64 ![0, 1] bcast_S1x64_S100000x64_0_1 wr))
    (broadcastInDim S100000x64 ![0, 1] bcast_S1x64_S100000x64_0_1 br)

/-- The node update: the affine map, then layer normalisation. -/
def nodeH (aggr : T[S100000x64]) (g : T[S100000x16]) (wu : T[S80x64]) (bur lnwr lnbr : T[S1x64]) : T[S100000x64] :=
  lnormN (nodeLin aggr g wu bur) lnwr lnbr

/-- The mean of every row of `h` as a column: the row's sum over the count, the count the constant 0x42800000#32. -/
def meanA (h : T[S64x64]) : T[S64x1] :=
  Host.divf (broadcastInDim S64x1 ![0] bcast_S64_S64x1_0 (Host.reduceAdd h (constant S_ .f32 0x00000000#32) reducesTo_S64x64_S64_d1 h_S_))
    (broadcastInDim S64x1 ![] bcast_S_S64x1 (constant S_ .f32 0x42800000#32))

/-- Layer normalisation of every row of `h`: centred, scaled by the reciprocal root of the row's variance plus
    the constant 0x3727C5AC, then scaled by the row `wr` and shifted by the row `br`. -/
def lnormA (h : T[S64x64]) (wr br : T[S1x64]) : T[S64x64] :=
  addf (mulf (mulf (subf h (broadcastInDim S64x64 ![0, 1] bcast_S64x1_S64x64_0_1 (meanA h)))
      (broadcastInDim S64x64 ![0, 1] bcast_S64x1_S64x64_0_1 (Host.rsqrt (addf
        (Host.divf (broadcastInDim S64x1 ![0] bcast_S64_S64x1_0 (Host.reduceAdd
            (mulf (subf h (broadcastInDim S64x64 ![0, 1] bcast_S64x1_S64x64_0_1 (meanA h)))
              (subf h (broadcastInDim S64x64 ![0, 1] bcast_S64x1_S64x64_0_1 (meanA h))))
            (constant S_ .f32 0x00000000#32) reducesTo_S64x64_S64_d1 h_S_))
          (broadcastInDim S64x1 ![] bcast_S_S64x1 (constant S_ .f32 0x42800000#32)))
        (broadcastInDim S64x1 ![] bcast_S_S64x1 (constant S_ .f32 0x3727C5AC#32))))))
      (broadcastInDim S64x64 ![0, 1] bcast_S1x64_S64x64_0_1 wr))
    (broadcastInDim S64x64 ![0, 1] bcast_S1x64_S64x64_0_1 br)

/-- The mean of every row of `h` as a column: the row's sum over the count, the count the constant 0x42000000#32. -/
def meanB (h : T[S64x32]) : T[S64x1] :=
  Host.divf (broadcastInDim S64x1 ![0] bcast_S64_S64x1_0 (Host.reduceAdd h (constant S_ .f32 0x00000000#32) reducesTo_S64x32_S64_d1 h_S_))
    (broadcastInDim S64x1 ![] bcast_S_S64x1 (constant S_ .f32 0x42000000#32))

/-- Layer normalisation of every row of `h`: centred, scaled by the reciprocal root of the row's variance plus
    the constant 0x3727C5AC, then scaled by the row `wr` and shifted by the row `br`. -/
def lnormB (h : T[S64x32]) (wr br : T[S1x32]) : T[S64x32] :=
  addf (mulf (mulf (subf h (broadcastInDim S64x32 ![0, 1] bcast_S64x1_S64x32_0_1 (meanB h)))
      (broadcastInDim S64x32 ![0, 1] bcast_S64x1_S64x32_0_1 (Host.rsqrt (addf
        (Host.divf (broadcastInDim S64x1 ![0] bcast_S64_S64x1_0 (Host.reduceAdd
            (mulf (subf h (broadcastInDim S64x32 ![0, 1] bcast_S64x1_S64x32_0_1 (meanB h)))
              (subf h (broadcastInDim S64x32 ![0, 1] bcast_S64x1_S64x32_0_1 (meanB h))))
            (constant S_ .f32 0x00000000#32) reducesTo_S64x32_S64_d1 h_S_))
          (broadcastInDim S64x1 ![] bcast_S_S64x1 (constant S_ .f32 0x42000000#32)))
        (broadcastInDim S64x1 ![] bcast_S_S64x1 (constant S_ .f32 0x3727C5AC#32))))))
      (broadcastInDim S64x32 ![0, 1] bcast_S1x32_S64x32_0_1 wr))
    (broadcastInDim S64x32 ![0, 1] bcast_S1x32_S64x32_0_1 br)

/-- The readout: affine, normalise, positive part; affine, normalise, positive part; affine. -/
def readoutH (inp : T[S64x80]) (rw1 : T[S80x64]) (rb1r g1r be1r : T[S1x64]) (rw2 : T[S64x32]) (rb2r g2r be2r : T[S1x32])
    (rw3 : T[S32x1]) (rb3r : T[S1x1]) : T[S64x1] :=
  addf (Host.dotGeneral dot_S64x32_S32x1_S64x1_1_0_0_1_n_n none
      (maximumf (lnormB (addf (Host.dotGeneral dot_S64x64_S64x32_S64x32_1_0_0_1_n_n none
            (maximumf (lnormA (addf (Host.dotGeneral dot_S64x80_S80x64_S64x64_1_0_0_1_n_n none inp rw1)
                (broadcastInDim S64x64 ![0, 1] bcast_S1x64_S64x64_0_1 rb1r)) g1r be1r)
              (broadcastInDim S64x64 ![] bcast_S_S64x64 (constant S_ .f32 0x00000000#32))) rw2)
          (broadcastInDim S64x32 ![0, 1] bcast_S1x32_S64x32_0_1 rb2r)) g2r be2r)
        (broadcastInDim S64x32 ![] bcast_S_S64x32 (constant S_ .f32 0x00000000#32))) rw3)
    (broadcastInDim S64x1 ![0, 1] bcast_S1x1_S64x1_0_1 rb3r)

end Cert.Stages

end
-- ==== Proof.Model.lean ====
/-
  The values the two programs share, as functions of the launch arguments, in the order the computation produces
  them: the index columns and the per-node graph features; per layer the gathered node rows, the layer's weight
  slices and bias rows, the edge messages (the edge stage), their sum per destination node, and the updated node
  rows (the node stage); then the per-graph mean joined with the graph features, the readout's bias rows, and the
  readout (the readout stage) re-laid as a vector.  Spelt with the reference program's operations.
-/
import proofs.«112340_j85873576116383_2_alg».proof.Proof.Gen.ReferenceIdeal
import proofs.«112340_j85873576116383_2_alg».proof.Proof.Stages

noncomputable section

namespace Cert.Model

open Cert.ReferenceIdeal Cert.ReferenceIdeal.Gen Cert.Stages Idealize.ShloMosaic Idealize.ShloMosaic.TcCoe

variable {F : FTy → Type} [FloatOps F]

def v1 (x21 : (⟨S2x1600000, .i32⟩ : BufTy).Contents (Elt F)) : (⟨S1600000, .i32⟩ : BufTy).Contents (Elt F) :=
  shapeCast _ (extractStridedSlice S1x1600000 ![0, 0] (x21) slices_S2x1600000_S1x1600000_0_0) shapeCasts_S1x1600000_S1600000

def v3 (x21 : (⟨S2x1600000, .i32⟩ : BufTy).Contents (Elt F)) : (⟨S1600000, .i32⟩ : BufTy).Contents (Elt F) :=
  shapeCast _ (extractStridedSlice S1x1600000 ![1, 0] (x21) slices_S2x1600000_S1x1600000_1_0) shapeCasts_S1x1600000_S1600000

def v10 (x2 : (⟨S64x16, .f32⟩ : BufTy).Contents (Elt F)) (x22 : (⟨S100000, .i32⟩ : BufTy).Contents (Elt F)) : (⟨S100000x16, .f32⟩ : BufTy).Contents (Elt F) :=
  Host.gather gather_S64x16_S100000x1_S100000x16_1_0_n_n_0_1_116 (x2) (broadcastInDim S100000x1 ![0] bcast_S100000_S100000x1_0 (select (cmpi .slt (x22) (broadcastInDim S100000 ![] bcast_S_S100000 (constantI S_ 32 0#32))) (addi (x22) (broadcastInDim S100000 ![] bcast_S_S100000 (constantI S_ 32 64#32))) (x22)))

def v17 (x0 : (⟨S100000x64, .f32⟩ : BufTy).Contents (Elt F)) (x21 : (⟨S2x1600000, .i32⟩ : BufTy).Contents (Elt F)) : (⟨S1600000x64, .f32⟩ : BufTy).Contents (Elt F) :=
  Host.gather gather_S100000x64_S1600000x1_S1600000x64_1_0_n_n_0_1_164 (x0) (broadcastInDim S1600000x1 ![0] bcast_S1600000_S1600000x1_0 (select (cmpi .slt (v1 (F := F) x21) (broadcastInDim S1600000 ![] bcast_S_S1600000 (constantI S_ 32 0#32))) (addi (v1 (F := F) x21) (broadcastInDim S1600000 ![] bcast_S_S1600000 (constantI S_ 32 100000#32))) (v1 (F := F) x21)))

def v19 (x3 : (⟨S3x64x64, .f32⟩ : BufTy).Contents (Elt F)) : (⟨S64x64, .f32⟩ : BufTy).Contents (Elt F) :=
  shapeCast _ (extractStridedSlice S1x64x64 ![0, 0, 0] (x3) slices_S3x64x64_S1x64x64_0_0_0) shapeCasts_S1x64x64_S64x64

def v23 (x4 : (⟨S3x64, .f32⟩ : BufTy).Contents (Elt F)) : (⟨S1x64, .f32⟩ : BufTy).Contents (Elt F) :=
  broadcastInDim S1x64 ![1] bcast_S64_S1x64_1 (shapeCast _ (extractStridedSlice S1x64 ![0, 0] (x4) slices_S3x64_S1x64_0_0) shapeCasts_S1x64_S64)

def v28 (x5 : (⟨S3x80x64, .f32⟩ : BufTy).Contents (Elt F)) : (⟨S80x64, .f32⟩ : BufTy).Contents (Elt F) :=
  shapeCast _ (extractStridedSlice S1x80x64 ![0, 0, 0] (x5) slices_S3x80x64_S1x80x64_0_0_0) shapeCasts_S1x80x64_S80x64

def v32 (x6 : (⟨S3x64, .f32⟩ : BufTy).Contents (Elt F)) : (⟨S1x64, .f32⟩ : BufTy).Contents (Elt F) :=
  broadcastInDim S1x64 ![1] bcast_S64_S1x64_1 (shapeCast _ (extractStridedSlice S1x64 ![0, 0] (x6) slices_S3x64_S1x64_0_0) shapeCasts_S1x64_S64)

def v34 (x0 : (⟨S100000x64, .f32⟩ : BufTy).Contents (Elt F)) (x1 : (⟨S1600000x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x21 : (⟨S2x1600000, .i32⟩ : BufTy).Contents (Elt F)) : (⟨S1600000x64, .f32⟩ : BufTy).Contents (Elt F) :=
  edgeH (v17 (F := F) x0 x21) x1 (v19 (F := F) x3) (v23 (F := F) x4) (v28 (F := F) x5) (v32 (F := F) x6)

def v37 (x0 : (⟨S100000x64, .f32⟩ : BufTy).Contents (Elt F)) (x1 : (⟨S1600000x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x21 : (⟨S2x1600000, .i32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (v3 (F := F) x21)) (v34 (F := F) x0 x1 x3 x4 x5 x6 x21)

def v40 (x7 : (⟨S3x80x64, .f32⟩ : BufTy).Contents (Elt F)) : (⟨S80x64, .f32⟩ : BufTy).Contents (Elt F) :=
  shapeCast _ (extractStridedSlice S1x80x64 ![0, 0, 0] (x7) slices_S3x80x64_S1x80x64_0_0_0) shapeCasts_S1x80x64_S80x64

def v44 (x8 : (⟨S3x64, .f32⟩ : BufTy).Contents (Elt F)) : (⟨S1x64, .f32⟩ : BufTy).Contents (Elt F) :=
  broadcastInDim S1x64 ![1] bcast_S64_S1x64_1 (shapeCast _ (extractStridedSlice S1x64 ![0, 0] (x8) slices_S3x64_S1x64_0_0) shapeCasts_S1x64_S64)

def v69 (x9 : (⟨S3x64, .f32⟩ : BufTy).Contents (Elt F)) : (⟨S1x64, .f32⟩ : BufTy).Contents (Elt F) :=
  broadcastInDim S1x64 ![1] bcast_S64_S1x64_1 (shapeCast _ (extractStridedSlice S1x64 ![0, 0] (x9) slices_S3x64_S1x64_0_0) shapeCasts_S1x64_S64)

def v72 (x10 : (⟨S3x64, .f32⟩ : BufTy).Contents (Elt F)) : (⟨S1x64, .f32⟩ : BufTy).Contents (Elt F) :=
  broadcastInDim S1x64 ![1] bcast_S64_S1x64_1 (shapeCast _ (extractStridedSlice S1x64 ![0, 0] (x10) slices_S3x64_S1x64_0_0) shapeCasts_S1x64_S64)

def v74 (x0 : (⟨S100000x64, .f32⟩ : BufTy).Contents (Elt F)) (x1 : (⟨S1600000x16, .f32⟩ : BufTy).Contents (Elt F)) (x2 : (⟨S64x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x7 : (⟨S3x80x64, .f32⟩ : BufTy).Contents (Elt F)) (x8 : (⟨S3x64, .f32⟩ : BufTy).Contents (Elt F)) (x9 : (⟨S3x64, .f32⟩ : BufTy).Contents (Elt F)) (x10 : (⟨S3x64, .f32⟩ : BufTy).Contents (Elt F)) (x21 : (⟨S2x1600000, .i32⟩ : BufTy).Contents (Elt F)) (x22 : (⟨S100000, .i32⟩ : BufTy).Contents (Elt F)) : (⟨S100000x64, .f32⟩ : BufTy).Contents (Elt F) :=
  nodeH (v37 (F := F) x0 x1 x3 x4 x5 x6 x21) (v10 (F := F) x2 x22) (v40 (F := F) x7) (v44 (F := F) x8) (v69 (F := F) x9) (v72 (F := F) x10)

def v81 (x0 : (⟨S100000x64, .f32⟩ : BufTy).Contents (Elt F)) (x1 : (⟨S1600000x16, .f32⟩ : BufTy).Contents (Elt F)) (x2 : (⟨S64x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x7 : (⟨S3x80x64, .f32⟩ : BufTy).Contents (Elt F)) (x8 : (⟨S3x64, .f32⟩ : BufTy).Contents (Elt F)) (x9 : (⟨S3x64, .f32⟩ : BufTy).Contents (Elt F)) (x10 : (⟨S3x64, .f32⟩ : BufTy).Contents (Elt F)) (x21 : (⟨S2x1600000, .i32⟩ : BufTy).Contents (Elt F)) (x22 : (⟨S100000, .i32⟩ : BufTy).Contents (Elt F)) : (⟨S1600000x64, .f32⟩ : BufTy).Contents (Elt F) :=
  Host.gather gather_S100000x64_S1600000x1_S1600000x64_1_0_n_n_0_1_164 (v74 (F := F) x0 x1 x2 x3 x4 x5 x6 x7 x8 x9 x10 x21 x22) (broadcastInDim S1600000x1 ![0] bcast_S1600000_S1600000x1_0 (select (cmpi .slt (v1 (F := F) x21) (broadcastInDim S1600000 ![] bcast_S_S1600000 (constantI S_ 32 0#32))) (addi (v1 (F := F) x21) (broadcastInDim S1600000 ![] bcast_S_S1600000 (constantI S_ 32 100000#32))) (v1 (F := F) x21)))

def v83 (x3 : (⟨S3x64x64, .f32⟩ : BufTy).Contents (Elt F)) : (⟨S64x64, .f32⟩ : BufTy).Contents (Elt F) :=
  shapeCast _ (extractStridedSlice S1x64x64 ![1, 0, 0] (x3) slices_S3x64x64_S1x64x64_1_0_0) shapeCasts_S1x64x64_S64x64

def v87 (x4 : (⟨S3x64, .f32⟩ : BufTy).Contents (Elt F)) : (⟨S1x64, .f32⟩ : BufTy).Contents (Elt F) :=
  broadcastInDim S1x64 ![1] bcast_S64_S1x64_1 (shapeCast _ (extractStridedSlice S1x64 ![1, 0] (x4) slices_S3x64_S1x64_1_0) shapeCasts_S1x64_S64)

def v92 (x5 : (⟨S3x80x64, .f32⟩ : BufTy).Contents (Elt F)) : (⟨S80x64, .f32⟩ : BufTy).Contents (Elt F) :=
  shapeCast _ (extractStridedSlice S1x80x64 ![1, 0, 0] (x5) slices_S3x80x64_S1x80x64_1_0_0) shapeCasts_S1x80x64_S80x64

def v96 (x6 : (⟨S3x64, .f32⟩ : BufTy).Contents (Elt F)) : (⟨S1x64, .f32⟩ : BufTy).Contents (Elt F) :=
  broadcastInDim S1x64 ![1] bcast_S64_S1x64_1 (shapeCast _ (extractStridedSlice S1x64 ![1, 0] (x6) slices_S3x64_S1x64_1_0) shapeCasts_S1x64_S64)

def v98 (x0 : (⟨S100000x64, .f32⟩ : BufTy).Contents (Elt F)) (x1 : (⟨S1600000x16, .f32⟩ : BufTy).Contents (Elt F)) (x2 : (⟨S64x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x7 : (⟨S3x80x64, .f32⟩ : BufTy).Contents (Elt F)) (x8 : (⟨S3x64, .f32⟩ : BufTy).Contents (Elt F)) (x9 : (⟨S3x64, .f32⟩ : BufTy).Contents (Elt F)) (x10 : (⟨S3x64, .f32⟩ : BufTy).Contents (Elt F)) (x21 : (⟨S2x1600000, .i32⟩ : BufTy).Contents (Elt F)) (x22 : (⟨S100000, .i32⟩ : BufTy).Contents (Elt F)) : (⟨S1600000x64, .f32⟩ : BufTy).Contents (Elt F) :=
  edgeH (v81 (F := F) x0 x1 x2 x3 x4 x5 x6 x7 x8 x9 x10 x21 x22) x1 (v83 (F := F) x3) (v87 (F := F) x4) (v92 (F := F) x5) (v96 (F := F) x6)

def v101 (x0 : (⟨S100000x64, .f32⟩ : BufTy).Contents (Elt F)) (x1 : (⟨S1600000x16, .f32⟩ : BufTy).Contents (Elt F)) (x2 : (⟨S64x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x7 : (⟨S3x80x64, .f32⟩ : BufTy).Contents (Elt F)) (x8 : (⟨S3x64, .f32⟩ : BufTy).Contents (Elt F)) (x9 : (⟨S3x64, .f32⟩ : BufTy).Contents (Elt F)) (x10 : (⟨S3x64, .f32⟩ : BufTy).Contents (Elt F)) (x21 : (⟨S2x1600000, .i32⟩ : BufTy).Contents (Elt F)) (x22 : (⟨S100000, .i32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (v3 (F := F) x21)) (v98 (F := F) x0 x1 x2 x3 x4 x5 x6 x7 x8 x9 x10 x21 x22)

def v104 (x7 : (⟨S3x80x64, .f32⟩ : BufTy).Contents (Elt F)) : (⟨S80x64, .f32⟩ : BufTy).Contents (Elt F) :=
  shapeCast _ (extractStridedSlice S1x80x64 ![1, 0, 0] (x7) slices_S3x80x64_S1x80x64_1_0_0) shapeCasts_S1x80x64_S80x64

def v108 (x8 : (⟨S3x64, .f32⟩ : BufTy).Contents (Elt F)) : (⟨S1x64, .f32⟩ : BufTy).Contents (Elt F) :=
  broadcastInDim S1x64 ![1] bcast_S64_S1x64_1 (shapeCast _ (extractStridedSlice S1x64 ![1, 0] (x8) slices_S3x64_S1x64_1_0) shapeCasts_S1x64_S64)

def v133 (x9 : (⟨S3x64, .f32⟩ : BufTy).Contents (Elt F)) : (⟨S1x64, .f32⟩ : BufTy).Contents (Elt F) :=
  broadcastInDim S1x64 ![1] bcast_S64_S1x64_1 (shapeCast _ (extractStridedSlice S1x64 ![1, 0] (x9) slices_S3x64_S1x64_1_0) shapeCasts_S1x64_S64)

def v136 (x10 : (⟨S3x64, .f32⟩ : BufTy).Contents (Elt F)) : (⟨S1x64, .f32⟩ : BufTy).Contents (Elt F) :=
  broadcastInDim S1x64 ![1] bcast_S64_S1x64_1 (shapeCast _ (extractStridedSlice S1x64 ![1, 0] (x10) slices_S3x64_S1x64_1_0) shapeCasts_S1x64_S64)

def v138 (x0 : (⟨S100000x64, .f32⟩ : BufTy).Contents (Elt F)) (x1 : (⟨S1600000x16, .f32⟩ : BufTy).Contents (Elt F)) (x2 : (⟨S64x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x7 : (⟨S3x80x64, .f32⟩ : BufTy).Contents (Elt F)) (x8 : (⟨S3x64, .f32⟩ : BufTy).Contents (Elt F)) (x9 : (⟨S3x64, .f32⟩ : BufTy).Contents (Elt F)) (x10 : (⟨S3x64, .f32⟩ : BufTy).Contents (Elt F)) (x21 : (⟨S2x1600000, .i32⟩ : BufTy).Contents (Elt F)) (x22 : (⟨S100000, .i32⟩ : BufTy).Contents (Elt F)) : (⟨S100000x64, .f32⟩ : BufTy).Contents (Elt F) :=
  nodeH (v101 (F := F) x0 x1 x2 x3 x4 x5 x6 x7 x8 x9 x10 x21 x22) (v10 (F := F) x2 x22) (v104 (F := F) x7) (v108 (F := F) x8) (v133 (F := F) x9) (v136 (F := F) x10)

def v145 (x0 : (⟨S100000x64, .f32⟩ : BufTy).Contents (Elt F)) (x1 : (⟨S1600000x16, .f32⟩ : BufTy).Contents (Elt F)) (x2 : (⟨S64x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x7 : (⟨S3x80x64, .f32⟩ : BufTy).Contents (Elt F)) (x8 : (⟨S3x64, .f32⟩ : BufTy).Contents (Elt F)) (x9 : (⟨S3x64, .f32⟩ : BufTy).Contents (Elt F)) (x10 : (⟨S3x64, .f32⟩ : BufTy).Contents (Elt F)) (x21 : (⟨S2x1600000, .i32⟩ : BufTy).Contents (Elt F)) (x22 : (⟨S100000, .i32⟩ : BufTy).Contents (Elt F)) : (⟨S1600000x64, .f32⟩ : BufTy).Contents (Elt F) :=
  Host.gather gather_S100000x64_S1600000x1_S1600000x64_1_0_n_n_0_1_164 (v138 (F := F) x0 x1 x2 x3 x4 x5 x6 x7 x8 x9 x10 x21 x22) (broadcastInDim S1600000x1 ![0] bcast_S1600000_S1600000x1_0 (select (cmpi .slt (v1 (F := F) x21) (broadcastInDim S1600000 ![] bcast_S_S1600000 (constantI S_ 32 0#32))) (addi (v1 (F := F) x21) (broadcastInDim S1600000 ![] bcast_S_S1600000 (constantI S_ 32 100000#32))) (v1 (F := F) x21)))

def v147 (x3 : (⟨S3x64x64, .f32⟩ : BufTy).Contents (Elt F)) : (⟨S64x64, .f32⟩ : BufTy).Contents (Elt F) :=
  shapeCast _ (extractStridedSlice S1x64x64 ![2, 0, 0] (x3) slices_S3x64x64_S1x64x64_2_0_0) shapeCasts_S1x64x64_S64x64

def v151 (x4 : (⟨S3x64, .f32⟩ : BufTy).Contents (Elt F)) : (⟨S1x64, .f32⟩ : BufTy).Contents (Elt F) :=
  broadcastInDim S1x64 ![1] bcast_S64_S1x64_1 (shapeCast _ (extractStridedSlice S1x64 ![2, 0] (x4) slices_S3x64_S1x64_2_0) shapeCasts_S1x64_S64)

def v156 (x5 : (⟨S3x80x64, .f32⟩ : BufTy).Contents (Elt F)) : (⟨S80x64, .f32⟩ : BufTy).Contents (Elt F) :=
  shapeCast _ (extractStridedSlice S1x80x64 ![2, 0, 0] (x5) slices_S3x80x64_S1x80x64_2_0_0) shapeCasts_S1x80x64_S80x64

def v160 (x6 : (⟨S3x64, .f32⟩ : BufTy).Contents (Elt F)) : (⟨S1x64, .f32⟩ : BufTy).Contents (Elt F) :=
  broadcastInDim S1x64 ![1] bcast_S64_S1x64_1 (shapeCast _ (extractStridedSlice S1x64 ![2, 0] (x6) slices_S3x64_S1x64_2_0) shapeCasts_S1x64_S64)

def v162 (x0 : (⟨S100000x64, .f32⟩ : BufTy).Contents (Elt F)) (x1 : (⟨S1600000x16, .f32⟩ : BufTy).Contents (Elt F)) (x2 : (⟨S64x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x7 : (⟨S3x80x64, .f32⟩ : BufTy).Contents (Elt F)) (x8 : (⟨S3x64, .f32⟩ : BufTy).Contents (Elt F)) (x9 : (⟨S3x64, .f32⟩ : BufTy).Contents (Elt F)) (x10 : (⟨S3x64, .f32⟩ : BufTy).Contents (Elt F)) (x21 : (⟨S2x1600000, .i32⟩ : BufTy).Contents (Elt F)) (x22 : (⟨S100000, .i32⟩ : BufTy).Contents (Elt F)) : (⟨S1600000x64, .f32⟩ : BufTy).Contents (Elt F) :=
  edgeH (v145 (F := F) x0 x1 x2 x3 x4 x5 x6 x7 x8 x9 x10 x21 x22) x1 (v147 (F := F) x3) (v151 (F := F) x4) (v156 (F := F) x5) (v160 (F := F) x6)

def v165 (x0 : (⟨S100000x64, .f32⟩ : BufTy).Contents (Elt F)) (x1 : (⟨S1600000x16, .f32⟩ : BufTy).Contents (Elt F)) (x2 : (⟨S64x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x7 : (⟨S3x80x64, .f32⟩ : BufTy).Contents (Elt F)) (x8 : (⟨S3x64, .f32⟩ : BufTy).Contents (Elt F)) (x9 : (⟨S3x64, .f32⟩ : BufTy).Contents (Elt F)) (x10 : (⟨S3x64, .f32⟩ : BufTy).Contents (Elt F)) (x21 : (⟨S2x1600000, .i32⟩ : BufTy).Contents (Elt F)) (x22 : (⟨S100000, .i32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (v3 (F := F) x21)) (v162 (F := F) x0 x1 x2 x3 x4 x5 x6 x7 x8 x9 x10 x21 x22)

def v168 (x7 : (⟨S3x80x64, .f32⟩ : BufTy).Contents (Elt F)) : (⟨S80x64, .f32⟩ : BufTy).Contents (Elt F) :=
  shapeCast _ (extractStridedSlice S1x80x64 ![2, 0, 0] (x7) slices_S3x80x64_S1x80x64_2_0_0) shapeCasts_S1x80x64_S80x64

def v172 (x8 : (⟨S3x64, .f32⟩ : BufTy).Contents (Elt F)) : (⟨S1x64, .f32⟩ : BufTy).Contents (Elt F) :=
  broadcastInDim S1x64 ![1] bcast_S64_S1x64_1 (shapeCast _ (extractStridedSlice S1x64 ![2, 0] (x8) slices_S3x64_S1x64_2_0) shapeCasts_S1x64_S64)

def v197 (x9 : (⟨S3x64, .f32⟩ : BufTy).Contents (Elt F)) : (⟨S1x64, .f32⟩ : BufTy).Contents (Elt F) :=
  broadcastInDim S1x64 ![1] bcast_S64_S1x64_1 (shapeCast _ (extractStridedSlice S1x64 ![2, 0] (x9) slices_S3x64_S1x64_2_0) shapeCasts_S1x64_S64)

def v200 (x10 : (⟨S3x64, .f32⟩ : BufTy).Contents (Elt F)) : (⟨S1x64, .f32⟩ : BufTy).Contents (Elt F) :=
  broadcastInDim S1x64 ![1] bcast_S64_S1x64_1 (shapeCast _ (extractStridedSlice S1x64 ![2, 0] (x10) slices_S3x64_S1x64_2_0) shapeCasts_S1x64_S64)

def v202 (x0 : (⟨S100000x64, .f32⟩ : BufTy).Contents (Elt F)) (x1 : (⟨S1600000x16, .f32⟩ : BufTy).Contents (Elt F)) (x2 : (⟨S64x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x7 : (⟨S3x80x64, .f32⟩ : BufTy).Contents (Elt F)) (x8 : (⟨S3x64, .f32⟩ : BufTy).Contents (Elt F)) (x9 : (⟨S3x64, .f32⟩ : BufTy).Contents (Elt F)) (x10 : (⟨S3x64, .f32⟩ : BufTy).Contents (Elt F)) (x21 : (⟨S2x1600000, .i32⟩ : BufTy).Contents (Elt F)) (x22 : (⟨S100000, .i32⟩ : BufTy).Contents (Elt F)) : (⟨S100000x64, .f32⟩ : BufTy).Contents (Elt F) :=
  nodeH (v165 (F := F) x0 x1 x2 x3 x4 x5 x6 x7 x8 x9 x10 x21 x22) (v10 (F := F) x2 x22) (v168 (F := F) x7) (v172 (F := F) x8) (v197 (F := F) x9) (v200 (F := F) x10)

def v215 (x0 : (⟨S100000x64, .f32⟩ : BufTy).Contents (Elt F)) (x1 : (⟨S1600000x16, .f32⟩ : BufTy).Contents (Elt F)) (x2 : (⟨S64x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x7 : (⟨S3x80x64, .f32⟩ : BufTy).Contents (Elt F)) (x8 : (⟨S3x64, .f32⟩ : BufTy).Contents (Elt F)) (x9 : (⟨S3x64, .f32⟩ : BufTy).Contents (Elt F)) (x10 : (⟨S3x64, .f32⟩ : BufTy).Contents (Elt F)) (x21 : (⟨S2x1600000, .i32⟩ : BufTy).Contents (Elt F)) (x22 : (⟨S100000, .i32⟩ : BufTy).Contents (Elt F)) : (⟨S64x80, .f32⟩ : BufTy).Contents (Elt F) :=
  concatenate S64x80 1 [⟨S64x64, (Host.divf (Host.scatterAdd scatter_S64x64_S100000x1_S100000x64_1_0_0_1 (broadcastInDim S64x64 ![] bcast_S_S64x64 (constant S_ .f32 0x00000000#32)) (broadcastInDim S100000x1 ![0] bcast_S100000_S100000x1_0 (x22)) (v202 (F := F) x0 x1 x2 x3 x4 x5 x6 x7 x8 x9 x10 x21 x22)) (broadcastInDim S64x64 ![0, 1] bcast_S64x1_S64x64_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 (x22)) (broadcastInDim S100000 ![] bcast_S_S100000 (constant S_ .f32 0x3F800000#32))) (broadcastInDim S64 ![] bcast_S_S64 (constant S_ .f32 0x3F800000#32))))))⟩, ⟨S64x16, (x2)⟩] concatenates_S64x64_S64x16_S64x80_d1

def v217 (x12 : (⟨S64, .f32⟩ : BufTy).Contents (Elt F)) : (⟨S1x64, .f32⟩ : BufTy).Contents (Elt F) :=
  broadcastInDim S1x64 ![1] bcast_S64_S1x64_1 (x12)

def v238 (x13 : (⟨S64, .f32⟩ : BufTy).Contents (Elt F)) : (⟨S1x64, .f32⟩ : BufTy).Contents (Elt F) :=
  broadcastInDim S1x64 ![1] bcast_S64_S1x64_1 (x13)

def v241 (x14 : (⟨S64, .f32⟩ : BufTy).Contents (Elt F)) : (⟨S1x64, .f32⟩ : BufTy).Contents (Elt F) :=
  broadcastInDim S1x64 ![1] bcast_S64_S1x64_1 (x14)

def v246 (x16 : (⟨S32, .f32⟩ : BufTy).Contents (Elt F)) : (⟨S1x32, .f32⟩ : BufTy).Contents (Elt F) :=
  broadcastInDim S1x32 ![1] bcast_S32_S1x32_1 (x16)

def v267 (x17 : (⟨S32, .f32⟩ : BufTy).Contents (Elt F)) : (⟨S1x32, .f32⟩ : BufTy).Contents (Elt F) :=
  broadcastInDim S1x32 ![1] bcast_S32_S1x32_1 (x17)

def v270 (x18 : (⟨S32, .f32⟩ : BufTy).Contents (Elt F)) : (⟨S1x32, .f32⟩ : BufTy).Contents (Elt F) :=
  broadcastInDim S1x32 ![1] bcast_S32_S1x32_1 (x18)

def v275 (x20 : (⟨S1, .f32⟩ : BufTy).Contents (Elt F)) : (⟨S1x1, .f32⟩ : BufTy).Contents (Elt F) :=
  broadcastInDim S1x1 ![1] bcast_S1_S1x1_1 (x20)

def v277 (x0 : (⟨S100000x64, .f32⟩ : BufTy).Contents (Elt F)) (x1 : (⟨S1600000x16, .f32⟩ : BufTy).Contents (Elt F)) (x2 : (⟨S64x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x7 : (⟨S3x80x64, .f32⟩ : BufTy).Contents (Elt F)) (x8 : (⟨S3x64, .f32⟩ : BufTy).Contents (Elt F)) (x9 : (⟨S3x64, .f32⟩ : BufTy).Contents (Elt F)) (x10 : (⟨S3x64, .f32⟩ : BufTy).Contents (Elt F)) (x11 : (⟨S80x64, .f32⟩ : BufTy).Contents (Elt F)) (x12 : (⟨S64, .f32⟩ : BufTy).Contents (Elt F)) (x13 : (⟨S64, .f32⟩ : BufTy).Contents (Elt F)) (x14 : (⟨S64, .f32⟩ : BufTy).Contents (Elt F)) (x15 : (⟨S64x32, .f32⟩ : BufTy).Contents (Elt F)) (x16 : (⟨S32, .f32⟩ : BufTy).Contents (Elt F)) (x17 : (⟨S32, .f32⟩ : BufTy).Contents (Elt F)) (x18 : (⟨S32, .f32⟩ : BufTy).Contents (Elt F)) (x19 : (⟨S32x1, .f32⟩ : BufTy).Contents (Elt F)) (x20 : (⟨S1, .f32⟩ : BufTy).Contents (Elt F)) (x21 : (⟨S2x1600000, .i32⟩ : BufTy).Contents (Elt F)) (x22 : (⟨S100000, .i32⟩ : BufTy).Contents (Elt F)) : (⟨S64x1, .f32⟩ : BufTy).Contents (Elt F) :=
  readoutH (v215 (F := F) x0 x1 x2 x3 x4 x5 x6 x7 x8 x9 x10 x21 x22) x11 (v217 (F := F) x12) (v238 (F := F) x13) (v241 (F := F) x14) x15 (v246 (F := F) x16) (v267 (F := F) x17) (v270 (F := F) x18) x19 (v275 (F := F) x20)

def v278 (x0 : (⟨S100000x64, .f32⟩ : BufTy).Contents (Elt F)) (x1 : (⟨S1600000x16, .f32⟩ : BufTy).Contents (Elt F)) (x2 : (⟨S64x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x7 : (⟨S3x80x64, .f32⟩ : BufTy).Contents (Elt F)) (x8 : (⟨S3x64, .f32⟩ : BufTy).Contents (Elt F)) (x9 : (⟨S3x64, .f32⟩ : BufTy).Contents (Elt F)) (x10 : (⟨S3x64, .f32⟩ : BufTy).Contents (Elt F)) (x11 : (⟨S80x64, .f32⟩ : BufTy).Contents (Elt F)) (x12 : (⟨S64, .f32⟩ : BufTy).Contents (Elt F)) (x13 : (⟨S64, .f32⟩ : BufTy).Contents (Elt F)) (x14 : (⟨S64, .f32⟩ : BufTy).Contents (Elt F)) (x15 : (⟨S64x32, .f32⟩ : BufTy).Contents (Elt F)) (x16 : (⟨S32, .f32⟩ : BufTy).Contents (Elt F)) (x17 : (⟨S32, .f32⟩ : BufTy).Contents (Elt F)) (x18 : (⟨S32, .f32⟩ : BufTy).Contents (Elt F)) (x19 : (⟨S32x1, .f32⟩ : BufTy).Contents (Elt F)) (x20 : (⟨S1, .f32⟩ : BufTy).Contents (Elt F)) (x21 : (⟨S2x1600000, .i32⟩ : BufTy).Contents (Elt F)) (x22 : (⟨S100000, .i32⟩ : BufTy).Contents (Elt F)) : (⟨S64, .f32⟩ : BufTy).Contents (Elt F) :=
  shapeCast _ (v277 (F := F) x0 x1 x2 x3 x4 x5 x6 x7 x8 x9 x10 x11 x12 x13 x14 x15 x16 x17 x18 x19 x20 x21 x22) shapeCasts_S64x1_S64

end Cert.Model

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibDenseLayer.lean ====
/-
  A dense layer at one entry, and how the device's and the host's vector operations compute it, at the ideal
  values where a float is an extended real and every operation is exact.

  An affine map sends a row z to (sum over c of z c · w (c, q)) + b q; followed by the positive part max(·, 0) it is
  a dense layer.  On the device, a tile product [m, k]·[k, n] into a zero accumulator plus a [1, n] bias row
  repeated down the m rows, read at (p, q), is the affine map of row p; followed by the maximum with the zero
  splat it is the dense layer of row p.  On the host, the product plus a length-n bias vector placed as a row and
  repeated down the rows is the same affine map, and the maximum with the repeated scalar zero the same dense
  layer.  Any extents m, k, n and any operand formats (a change of format is the identity at the ideal values).
-/
import Idealize.ShloMosaic.Lib.Pipeline.Value
import Idealize.ShloMosaic.Lib.ValueIdx
import Idealize.ShloMosaic.PureOps.Ideal.Laws
import proofs.«112340_j85873576116383_2_alg».proof.Proof.LibPlainProduct
import proofs.«112340_j85873576116383_2_alg».proof.Proof.LibHostProduct
import proofs.«112340_j85873576116383_2_alg».proof.Proof.LibRowsProduct
import proofs.«112340_j85873576116383_2_alg».proof.Proof.LibHostBroadcast

noncomputable section

namespace Cert.DenseLayer

open Idealize.ShloMosaic Idealize.ShloMosaic.ValueIdx

/-- The value of the float zero word. -/
abbrev Z : EReal := Ideal.ofBits .f32 0x00000000#32

/-- An affine map at output coordinate q: the row z against column q of w, plus the bias. -/
def affine {k n : ℕ} (z : Fin k → EReal) (w : (⟨2, ![k, n]⟩ : Shape).Idx → EReal) (b : Fin n → EReal) (q : Fin n) : EReal :=
  (∑ c : Fin k, z c * w (ix2 c q)) + b q

/-- A dense layer at output coordinate q: the affine map followed by the positive part. -/
def dense {k n : ℕ} (z : Fin k → EReal) (w : (⟨2, ![k, n]⟩ : Shape).Idx → EReal) (b : Fin n → EReal) (q : Fin n) : EReal :=
  max (affine z w b q) Z

section Device

variable {m k n : ℕ} {φ₁ φ₂ : FTy}

/-- The tile product into a zero accumulator plus a bias row repeated down the rows, at (p, q). -/
theorem tpu_affine_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    addf (matmul (⟨[1], [0], [0], [1], [], [], w⟩ : DotDims _ _ _) none A W (constant _ .f32 0x00000000#32))
      (broadcastTo ⟨2, ![m, n]⟩ b hb) (ix2 p q)
    = affine (fun c => A (ix2 p c)) W (fun q => b (ix2 (0 : Fin 1) q)) q := by
  rw [addf_apply]
  show FloatOps.matmul _ none A W (constant _ .f32 0x00000000#32) (ix2 p q) + _ = _
  rw [Cert.PlainProduct.matmul_nn_apply, Cert.RowsProduct.broadcastTo_1n_an_apply]
  rfl

/-- The same followed by the maximum with the zero splat: a dense layer of row p. -/
theorem tpu_dense_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    maximumf (addf (matmul (⟨[1], [0], [0], [1], [], [], w⟩ : DotDims _ _ _) none A W (constant _ .f32 0x00000000#32))
      (broadcastTo ⟨2, ![m, n]⟩ b hb)) (broadcast ⟨2, ![m, n]⟩ (Scalar.ofBits .f32 0x00000000#32)) (ix2 p q)
    = dense (fun c => A (ix2 p c)) W (fun q => b (ix2 (0 : Fin 1) q)) q := by
  rw [maximumf_apply, tpu_affine_apply]
  rfl

end Device

section Host

variable {m k n : ℕ} {φ₁ φ₂ : FTy}

/-- The host's product plus a bias vector repeated down the rows, at (p, q). -/
theorem host_affine_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (A : FVec Ideal ⟨2, ![m, k]⟩ φ₁) (W : FVec Ideal ⟨2, ![k, n]⟩ φ₂) (v : FVec Ideal ⟨1, ![n]⟩ .f32)
    (p : Fin m) (q : Fin n) :
    addf (Host.dotGeneral (⟨[1], [0], [0], [1], [], [], w⟩ : DotDims _ _ _) none A W)
      (broadcastInDim ⟨2, ![m, n]⟩ ![0, 1] h2 (broadcastInDim ⟨2, ![1, n]⟩ ![1] h1 v)) (ix2 p q)
    = affine (fun c => A (ix2 p c)) W (fun q => v (ix1 q)) q := by
  rw [addf_apply, Cert.HostProduct.dotGeneral_nn_apply, Cert.HostBroadcast.row_apply]
  rfl

/-- The same followed by the maximum with the repeated scalar zero: a dense layer of row p. -/
theorem host_dense_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![])
    (A : FVec Ideal ⟨2, ![m, k]⟩ φ₁) (W : FVec Ideal ⟨2, ![k, n]⟩ φ₂) (v : FVec Ideal ⟨1, ![n]⟩ .f32)
    (p : Fin m) (q : Fin n) :
    maximumf (addf (Host.dotGeneral (⟨[1], [0], [0], [1], [], [], w⟩ : DotDims _ _ _) none A W)
      (broadcastInDim ⟨2, ![m, n]⟩ ![0, 1] h2 (broadcastInDim ⟨2, ![1, n]⟩ ![1] h1 v)))
      (broadcastInDim ⟨2, ![m, n]⟩ ![] h0 (constant (F := Ideal) ⟨0, ![]⟩ .f32 0x00000000#32)) (ix2 p q)
    = dense (fun c => A (ix2 p c)) W (fun q => v (ix1 q)) q := by
  rw [maximumf_apply, host_affine_apply, Cert.HostBroadcast.scalar_apply]
  rfl

end Host

end Cert.DenseLayer

end
-- ==== Proof.LibRankThree.lean ====
/-
  Rank-3 arrays `[a, b, n]` — a batch of `a · b` rows of length `n` — under the host's layout operations and its
  product, each read at an index written by coordinates.

  * A cut along the last axis from `o`: entry `(p, q, j)` is the operand's `(p, q, o + j)`.
  * One slab picked on the leading axis (or the two leading axes) by a cut of extent one, and the unit axes then
    dropped: a sub-array is read where it sits in the whole.
  * A vector placed on the last axis and repeated over the two leading ones; a scalar repeated everywhere; a matrix
    given a trailing unit axis.
  * Two arrays joined along the last axis: entry `(p, q, k)` is the first's `(p, q, k)` below its width and the
    second's `(p, q, k - width)` from there on; the same for matrices joined along their columns.
  * The product of `[a, b, k]` with `[n, k]` contracting the last axis of both: entry `(p, q, j)` is the sum over `c`
    of `A (p, q, c) · B (j, c)` at the ideal values, where a product is an exact sum.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RankThree

open Idealize.ShloMosaic Idealize.ShloMosaic.ValueIdx

variable {α : Type}

/-! ## Cuts -/

/-- A rank-3 array cut along its last axis from `o` reads, at `(p, q, j)`, the source at `(p, q, k)` with `k = o + j`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (p : Fin n0) (q : Fin n1) (j : Fin m) (k : Fin n2) (hk : k.val = o + j.val) :
    extractStridedSlice ⟨3, ![n0, n1, m]⟩ ![0, 0, o] X h (ix3 p q j) = X (ix3 p q k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Slab `l` of the leading axis, kept as an array with a leading unit axis. -/
theorem slice3_pick0_apply {n0 n1 n2 : ℕ} (l : ℕ) (X : (⟨3, ![n0, n1, n2]⟩ : Shape).Idx → α)
    (h : (⟨3, ![n0, n1, n2]⟩ : Shape).Slices ![l, 0, 0] ⟨3, ![1, n1, n2]⟩)
    (z : Fin 1) (q : Fin n1) (j : Fin n2) (p : Fin n0) (hp : p.val = l) :
    extractStridedSlice ⟨3, ![1, n1, n2]⟩ ![l, 0, 0] X h (ix3 z q j) = X (ix3 p q j) :=
  extractStridedSlice_apply _ _ _ _ _ (fun ax => by
    match ax with
    | ⟨0, _⟩ => show p.val = l + z.val; have := z.isLt; omega
    | ⟨1, _⟩ => exact (Nat.zero_add _).symm
    | ⟨2, _⟩ => exact (Nat.zero_add _).symm)

/-- Row `(l, d)` of the two leading axes, kept as an array with two leading unit axes. -/
theorem slice3_pick01_apply {n0 n1 n2 : ℕ} (l d : ℕ) (X : (⟨3, ![n0, n1, n2]⟩ : Shape).Idx → α)
    (h : (⟨3, ![n0, n1, n2]⟩ : Shape).Slices ![l, d, 0] ⟨3, ![1, 1, n2]⟩)
    (z z' : Fin 1) (j : Fin n2) (p : Fin n0) (q : Fin n1) (hp : p.val = l) (hq : q.val = d) :
    extractStridedSlice ⟨3, ![1, 1, n2]⟩ ![l, d, 0] X h (ix3 z z' j) = X (ix3 p q j) :=
  extractStridedSlice_apply _ _ _ _ _ (fun ax => by
    match ax with
    | ⟨0, _⟩ => show p.val = l + z.val; have := z.isLt; omega
    | ⟨1, _⟩ => show q.val = d + z'.val; have := z'.isLt; omega
    | ⟨2, _⟩ => exact (Nat.zero_add _).symm)

/-- Slab `l` of the leading axis of a rank-4 array, kept with a leading unit axis. -/
theorem slice4_pick0_apply {n0 n1 n2 n3 : ℕ} (l : ℕ) (X : (⟨4, ![n0, n1, n2, n3]⟩ : Shape).Idx → α)
    (h : (⟨4, ![n0, n1, n2, n3]⟩ : Shape).Slices ![l, 0, 0, 0] ⟨4, ![1, n1, n2, n3]⟩)
    (z : Fin 1) (q : Fin n1) (j : Fin n2) (e : Fin n3) (p : Fin n0) (hp : p.val = l) :
    extractStridedSlice ⟨4, ![1, n1, n2, n3]⟩ ![l, 0, 0, 0] X h (ix4 z q j e) = X (ix4 p q j e) :=
  extractStridedSlice_apply _ _ _ _ _ (fun ax => by
    match ax with
    | ⟨0, _⟩ => show p.val = l + z.val; have := z.isLt; omega
    | ⟨1, _⟩ => exact (Nat.zero_add _).symm
    | ⟨2, _⟩ => exact (Nat.zero_add _).symm
    | ⟨3, _⟩ => exact (Nat.zero_add _).symm)

/-! ## Unit axes dropped -/

/-- `[1, 1, n]` re-laid as a vector: entry `j` is entry `(0, 0, j)`. -/
theorem shapeCast_11n_n_apply {n : ℕ} (v : (⟨3, ![1, 1, n]⟩ : Shape).Idx → α)
    (h : (⟨3, ![1, 1, n]⟩ : Shape).ShapeCasts ⟨1, ![n]⟩) (j : Fin n) :
    shapeCast (⟨1, ![n]⟩ : Shape) v h (ix1 j) = v (ix3 (0 : Fin 1) (0 : Fin 1) j) := by
  refine shapeCast_apply v h (ix1 j) (ix3 (0 : Fin 1) (0 : Fin 1) j) ?_
  rw [Shape.rowMajor_val_three, Shape.rowMajor_val_one]
  show (0 * 1 + 0) * n + j.val = j.val
  simp

/-! ## Repetitions -/

/-- A vector placed on the last of three axes, the other two of extent one. -/
theorem broadcastInDim_n_11n_apply {n : ℕ} (v : (⟨1, ![n]⟩ : Shape).Idx → α)
    (h : (⟨1, ![n]⟩ : Shape).BroadcastsInDim ⟨3, ![1, 1, n]⟩ ![2]) (z z' : Fin 1) (j : Fin n) :
    broadcastInDim ⟨3, ![1, 1, n]⟩ ![2] h v (ix3 z z' j) = v (ix1 j) := by
  refine broadcastInDim_apply _ h v (ix3 z z' j) (ix1 j) fun ax => ?_
  match ax with
  | ⟨0, _⟩ =>
    show j.val = if n = 1 then 0 else j.val
    split
    · have := j.isLt; omega
    · rfl

/-- A `[1, 1, n]` array repeated over the two leading axes. -/
theorem broadcastInDim_11n_abn_apply {a b n : ℕ} (v : (⟨3, ![1, 1, n]⟩ : Shape).Idx → α)
    (h : (⟨3, ![1, 1, n]⟩ : Shape).BroadcastsInDim ⟨3, ![a, b, n]⟩ ![0, 1, 2]) (p : Fin a) (q : Fin b) (j : Fin n) :
    broadcastInDim ⟨3, ![a, b, n]⟩ ![0, 1, 2] h v (ix3 p q j) = v (ix3 (0 : Fin 1) (0 : Fin 1) j) := by
  refine broadcastInDim_apply _ h v (ix3 p q j) (ix3 (0 : Fin 1) (0 : Fin 1) j) fun ax => ?_
  match ax with
  | ⟨0, _⟩ => rfl
  | ⟨1, _⟩ => rfl
  | ⟨2, _⟩ =>
    show j.val = if n = 1 then 0 else j.val
    split
    · have := j.isLt; omega
    · rfl

/-- A scalar repeated over a whole array. -/
theorem broadcastInDim_scalar_apply {t : Shape} (v : (⟨0, ![]⟩ : Shape).Idx → α)
    (h : (⟨0, ![]⟩ : Shape).BroadcastsInDim t ![]) (i : t.Idx) :
    broadcastInDim t ![] h v i = v ix0 :=
  broadcastInDim_apply _ h v i ix0 fun ax => ax.elim0

/-- A matrix given a trailing unit axis. -/
theorem broadcastInDim_ab_ab1_apply {a b : ℕ} (v : (⟨2, ![a, b]⟩ : Shape).Idx → α)
    (h : (⟨2, ![a, b]⟩ : Shape).BroadcastsInDim ⟨3, ![a, b, 1]⟩ ![0, 1]) (p : Fin a) (q : Fin b) (z : Fin 1) :
    broadcastInDim ⟨3, ![a, b, 1]⟩ ![0, 1] h v (ix3 p q z) = v (ix2 p q) := by
  refine broadcastInDim_apply _ h v (ix3 p q z) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-! ## Two pieces side by side -/

/-- Two rank-3 arrays joined along the last axis, read at `(p, q, k)`. -/
theorem concatenate3_axis2_apply {a b n₁ n₂ n : ℕ} (x₁ : (⟨3, ![a, b, n₁]⟩ : Shape).Idx → α) (x₂ : (⟨3, ![a, b, n₂]⟩ : Shape).Idx → α)
    (h : Shape.Concatenates [⟨3, ![a, b, n₁]⟩, ⟨3, ![a, b, n₂]⟩] ⟨3, ![a, b, n]⟩ 2) (hn : n = n₁ + n₂)
    (p : Fin a) (q : Fin b) (k : Fin n) :
    concatenate ⟨3, ![a, b, n]⟩ 2 [⟨⟨3, ![a, b, n₁]⟩, x₁⟩, ⟨⟨3, ![a, b, n₂]⟩, x₂⟩] h (ix3 p q k)
      = if hk : k.val < n₁ then x₁ (ix3 p q ⟨k.val, hk⟩) else x₂ (ix3 p q ⟨k.val - n₁, by have := k.isLt; omega⟩) := by
  split
  · rename_i hk
    refine concatenate_pair_apply_left (2 : Fin 3) x₁ x₂ h (ix3 p q k) rfl (ix3 p q ⟨k.val, hk⟩) fun ax => ?_
    match ax with
    | ⟨0, _⟩ => rfl
    | ⟨1, _⟩ => rfl
    | ⟨2, _⟩ => rfl
  · rename_i hk
    refine concatenate_pair_apply_right (2 : Fin 3) x₁ x₂ h (ix3 p q k) rfl rfl
      (ix3 p q ⟨k.val - n₁, by have := k.isLt; omega⟩) (fun ax hne => ?_) ?_
    · match ax with
      | ⟨0, _⟩ => rfl
      | ⟨1, _⟩ => rfl
      | ⟨2, _⟩ => exact absurd rfl hne
    · show k.val - n₁ + n₁ = k.val
      omega

/-- Two matrices joined along their columns, read at `(p, k)`. -/
theorem concatenate2_axis1_apply {a n₁ n₂ n : ℕ} (x₁ : (⟨2, ![a, n₁]⟩ : Shape).Idx → α) (x₂ : (⟨2, ![a, n₂]⟩ : Shape).Idx → α)
    (h : Shape.Concatenates [⟨2, ![a, n₁]⟩, ⟨2, ![a, n₂]⟩] ⟨2, ![a, n]⟩ 1) (hn : n = n₁ + n₂)
    (p : Fin a) (k : Fin n) :
    concatenate ⟨2, ![a, n]⟩ 1 [⟨⟨2, ![a, n₁]⟩, x₁⟩, ⟨⟨2, ![a, n₂]⟩, x₂⟩] h (ix2 p k)
      = if hk : k.val < n₁ then x₁ (ix2 p ⟨k.val, hk⟩) else x₂ (ix2 p ⟨k.val - n₁, by have := k.isLt; omega⟩) := by
  split
  · rename_i hk
    refine concatenate_pair_apply_left (1 : Fin 2) x₁ x₂ h (ix2 p k) rfl (ix2 p ⟨k.val, hk⟩) fun ax => ?_
    match ax with
    | ⟨0, _⟩ => rfl
    | ⟨1, _⟩ => rfl
  · rename_i hk
    refine concatenate_pair_apply_right (1 : Fin 2) x₁ x₂ h (ix2 p k) rfl rfl
      (ix2 p ⟨k.val - n₁, by have := k.isLt; omega⟩) (fun ax hne => ?_) ?_
    · match ax with
      | ⟨0, _⟩ => rfl
      | ⟨1, _⟩ => exact absurd rfl hne
    · show k.val - n₁ + n₁ = k.val
      omega

/-! ## The batched product -/

/-- `A · Bᵀ` for a batch `A : [a, b, k]` of rows and `B : [n, k]`, read at `(p, q, j)`: the sum over the shared last
    coordinate of the products. -/
theorem dotGeneral_abk_nk_apply {a b n k : ℕ} {φ₁ φ₂ : FTy}
    (w : DotDims.WF ⟨3, ![a, b, k]⟩ ⟨2, ![n, k]⟩ ⟨3, ![a, b, n]⟩ [2] [1] [0, 1] [0] [] [])
    (prec : Option ContractPrecision) (A : FVec Ideal ⟨3, ![a, b, k]⟩ φ₁) (B : FVec Ideal ⟨2, ![n, k]⟩ φ₂)
    (p : Fin a) (q : Fin b) (j : Fin n) :
    Host.dotGeneral (⟨[2], [1], [0, 1], [0], [], [], w⟩ : DotDims _ _ _) prec A B (ix3 p q j)
      = ∑ c : Fin k, A (ix3 p q c) * B (ix2 j c) := by
  show FloatOps.dotGeneral (⟨[2], [1], [0, 1], [0], [], [], w⟩ : DotDims _ _ _) prec .single A B (ix3 p q j) = _
  rw [Ideal.dotGeneral_apply,
    ← Equiv.sum_comp (contrEquiv1 (⟨[2], [1], [0, 1], [0], [], [], w⟩ : DotDims _ _ _) k rfl rfl).symm]
  refine Finset.sum_congr rfl fun c _ => ?_
  have c2 := contrEquiv1_symm_val
    (⟨[2], [1], [0, 1], [0], [], [], w⟩ : DotDims ⟨3, ![a, b, k]⟩ ⟨2, ![n, k]⟩ ⟨3, ![a, b, n]⟩) k rfl rfl c
  have l2 : (⟨[2], [1], [0, 1], [0], [], [], w⟩ : DotDims ⟨3, ![a, b, k]⟩ ⟨2, ![n, k]⟩ ⟨3, ![a, b, n]⟩).lhsIdx (ix3 p q j)
      ((contrEquiv1 _ k rfl rfl).symm c) = ix3 p q c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [1], [0, 1], [0], [], [], w⟩ : DotDims ⟨3, ![a, b, k]⟩ ⟨2, ![n, k]⟩ ⟨3, ![a, b, n]⟩).rhsIdx (ix3 p q j)
      ((contrEquiv1 _ k rfl rfl).symm c) = ix2 j c := by
    funext ax; apply Fin.ext
    match ax with
    | ⟨0, _⟩ => simp [DotDims.rhsIdx]; rfl
    | ⟨1, _⟩ => simp [DotDims.rhsIdx]; exact c2
  rw [l2, r2]

end Cert.RankThree

end
-- ==== Proof.EdgeEntry.lean ====
/-
  One entry of the edge message, at the ideal values where a float is an extended real and every operation is exact.

  For a row x of 64 node features and a row e of 16 edge attributes, the message's entry q is
      sum over k < 80 of z k * w2 (k, q)  +  b2 q,
  where z is the row of length 80 whose first 64 entries are  sum over c of x c * w1 (c, k)  +  b1 k  and whose
  last 16 entries are e.  Both programs compute exactly this, entry by entry, with the same sums in the same order:

  * the device body on a block of m rows: the two tile products into zero accumulators, each with its [1, 64] bias
    row repeated down the rows, the first product's result joined with the attributes along the columns; every
    change of float format and every cast to the same shape is the identity;
  * the host's whole-array operations on m rows: the same two products without an accumulator, the same join, the
    bias rows repeated down the rows.
-/
import Idealize.ShloMosaic.Lib.Pipeline.Value
import Idealize.ShloMosaic.Lib.ValueLayout
import Idealize.ShloMosaic.Lib.ValueIdx
import Idealize.ShloMosaic.PureOps.Ideal.Laws
import proofs.«112340_j85873576116383_2_alg».proof.Proof.LibDenseLayer
import proofs.«112340_j85873576116383_2_alg».proof.Proof.LibHostProduct
import proofs.«112340_j85873576116383_2_alg».proof.Proof.LibRankThree

noncomputable section

namespace Cert.EdgeEntry

open Idealize.ShloMosaic Idealize.ShloMosaic.ValueIdx Cert.DenseLayer

/-- The row that enters the second affine map: the first affine map of the node features, then the edge attributes. -/
def joined (x : Fin 64 → EReal) (e : Fin 16 → EReal) (w1 : (⟨2, ![64, 64]⟩ : Shape).Idx → EReal) (b1 : Fin 64 → EReal)
    (k : Fin 80) : EReal :=
  if hk : k.val < 64 then affine x w1 b1 ⟨k.val, hk⟩ else e ⟨k.val - 64, by have := k.isLt; omega⟩

/-- The edge message at output coordinate q. -/
def message (x : Fin 64 → EReal) (e : Fin 16 → EReal) (w1 : (⟨2, ![64, 64]⟩ : Shape).Idx → EReal) (b1 : Fin 64 → EReal)
    (w2 : (⟨2, ![80, 64]⟩ : Shape).Idx → EReal) (b2 : Fin 64 → EReal) (q : Fin 64) : EReal :=
  affine (joined x e w1 b1) w2 b2 q

/-- The message depends on its six arguments only through their entries. -/
theorem message_congr {x x' : Fin 64 → EReal} {e e' : Fin 16 → EReal} {w1 w1' : (⟨2, ![64, 64]⟩ : Shape).Idx → EReal}
    {b1 b1' : Fin 64 → EReal} {w2 w2' : (⟨2, ![80, 64]⟩ : Shape).Idx → EReal} {b2 b2' : Fin 64 → EReal}
    (hx : ∀ c, x c = x' c) (he : ∀ c, e c = e' c) (hw1 : ∀ i, w1 i = w1' i) (hb1 : ∀ k, b1 k = b1' k)
    (hw2 : ∀ i, w2 i = w2' i) (hb2 : ∀ k, b2 k = b2' k) (q : Fin 64) :
    message x e w1 b1 w2 b2 q = message x' e' w1' b1' w2' b2' q := by
  obtain rfl : x = x' := funext hx
  obtain rfl : e = e' := funext he
  obtain rfl : w1 = w1' := funext hw1
  obtain rfl : b1 = b1' := funext hb1
  obtain rfl : w2 = w2' := funext hw2
  obtain rfl : b2 = b2' := funext hb2
  rfl

/-- A [1, n] row repeated down a rows by the host: at (p, q) the row's entry q. -/
theorem row_spread_apply {α : Type} {a n : ℕ} (v : (⟨2, ![1, n]⟩ : Shape).Idx → α)
    (h : (⟨2, ![1, n]⟩ : Shape).BroadcastsInDim ⟨2, ![a, n]⟩ ![0, 1]) (p : Fin a) (q : Fin n) :
    broadcastInDim ⟨2, ![a, n]⟩ ![0, 1] h v (ix2 p q) = v (ix2 (0 : Fin 1) q) :=
  broadcastInDim_apply ![0, 1] h v (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)

section Device

variable {m : ℕ}

/-- The device body's stored value on a block of m rows, read at (p, q): the message of the block's row p. -/
theorem device_apply
    (cx : (⟨2, ![m, 64]⟩ : Shape).ShapeCasts ⟨2, ![m, 64]⟩) (cw1 : (⟨2, ![64, 64]⟩ : Shape).ShapeCasts ⟨2, ![64, 64]⟩)
    (cb : (⟨2, ![1, 64]⟩ : Shape).ShapeCasts ⟨2, ![1, 64]⟩) (cw2 : (⟨2, ![80, 64]⟩ : Shape).ShapeCasts ⟨2, ![80, 64]⟩)
    (hlt : FTy.bits .bf16 < FTy.bits .f32)
    (d1 : DotDims.WF ⟨2, ![m, 64]⟩ ⟨2, ![64, 64]⟩ ⟨2, ![m, 64]⟩ [1] [0] [0] [1] [] [])
    (d2 : DotDims.WF ⟨2, ![m, 80]⟩ ⟨2, ![80, 64]⟩ ⟨2, ![m, 64]⟩ [1] [0] [0] [1] [] [])
    (hb : (⟨2, ![1, 64]⟩ : Shape).Broadcasts ⟨2, ![m, 64]⟩)
    (hc : Shape.Concatenates [⟨2, ![m, 64]⟩, ⟨2, ![m, 16]⟩] ⟨2, ![m, 80]⟩ 1)
    (x : FVec Ideal ⟨2, ![m, 64]⟩ .f32) (w1 : FVec Ideal ⟨2, ![64, 64]⟩ .f32) (b1 : FVec Ideal ⟨2, ![1, 64]⟩ .f32)
    (e : FVec Ideal ⟨2, ![m, 16]⟩ .f32) (w2 : FVec Ideal ⟨2, ![80, 64]⟩ .f32) (b2 : FVec Ideal ⟨2, ![1, 64]⟩ .f32)
    (p : Fin m) (q : Fin 64) :
    addf (matmul (⟨[1], [0], [0], [1], [], [], d2⟩ : DotDims _ _ _) none
        (concatenate ⟨2, ![m, 80]⟩ 1
          [⟨⟨2, ![m, 64]⟩, truncf .bf16 (addf (matmul (⟨[1], [0], [0], [1], [], [], d1⟩ : DotDims _ _ _) none
              (truncf .bf16 (shapeCast ⟨2, ![m, 64]⟩ x cx) hlt) (truncf .bf16 (shapeCast ⟨2, ![64, 64]⟩ w1 cw1) hlt)
              (constant _ .f32 0x00000000#32))
            (broadcastTo ⟨2, ![m, 64]⟩ (shapeCast ⟨2, ![1, 64]⟩ b1 cb) hb)) hlt⟩,
           ⟨⟨2, ![m, 16]⟩, truncf .bf16 e hlt⟩] hc)
        (truncf .bf16 (shapeCast ⟨2, ![80, 64]⟩ w2 cw2) hlt) (constant _ .f32 0x00000000#32))
      (broadcastTo ⟨2, ![m, 64]⟩ (shapeCast ⟨2, ![1, 64]⟩ b2 cb) hb) (ix2 p q)
    = message (fun c => x (ix2 p c)) (fun c => e (ix2 p c)) w1 (fun k => b1 (ix2 (0 : Fin 1) k))
        w2 (fun k => b2 (ix2 (0 : Fin 1) k)) q := by
  refine (tpu_affine_apply d2 hb _ _ _ p q).trans ?_
  unfold message
  simp only [shapeCast_self]
  have hrow : (fun k : Fin 80 => concatenate ⟨2, ![m, 80]⟩ 1
          [⟨⟨2, ![m, 64]⟩, truncf .bf16 (addf (matmul (⟨[1], [0], [0], [1], [], [], d1⟩ : DotDims _ _ _) none
              (truncf .bf16 x hlt) (truncf .bf16 w1 hlt) (constant _ .f32 0x00000000#32))
            (broadcastTo ⟨2, ![m, 64]⟩ b1 hb)) hlt⟩,
           ⟨⟨2, ![m, 16]⟩, truncf .bf16 e hlt⟩] hc (ix2 p k))
      = joined (fun c => x (ix2 p c)) (fun c => e (ix2 p c)) w1 (fun k => b1 (ix2 (0 : Fin 1) k)) := by
    funext k
    rw [Cert.RankThree.concatenate2_axis1_apply _ _ hc rfl p k]
    unfold joined
    split
    · rename_i hk
      rw [truncf_apply]
      exact tpu_affine_apply d1 hb _ _ _ p ⟨k.val, hk⟩
    · rfl
  rw [hrow]
  rfl

end Device

section Host

variable {m : ℕ}

/-- The host's whole-array operations on m rows, read at (p, q): the message of row p. -/
theorem host_apply
    (d1 : DotDims.WF ⟨2, ![m, 64]⟩ ⟨2, ![64, 64]⟩ ⟨2, ![m, 64]⟩ [1] [0] [0] [1] [] [])
    (d2 : DotDims.WF ⟨2, ![m, 80]⟩ ⟨2, ![80, 64]⟩ ⟨2, ![m, 64]⟩ [1] [0] [0] [1] [] [])
    (hb : (⟨2, ![1, 64]⟩ : Shape).BroadcastsInDim ⟨2, ![m, 64]⟩ ![0, 1])
    (hc : Shape.Concatenates [⟨2, ![m, 64]⟩, ⟨2, ![m, 16]⟩] ⟨2, ![m, 80]⟩ 1)
    (x : FVec Ideal ⟨2, ![m, 64]⟩ .f32) (e : FVec Ideal ⟨2, ![m, 16]⟩ .f32) (w1 : FVec Ideal ⟨2, ![64, 64]⟩ .f32)
    (b1 : FVec Ideal ⟨2, ![1, 64]⟩ .f32) (w2 : FVec Ideal ⟨2, ![80, 64]⟩ .f32) (b2 : FVec Ideal ⟨2, ![1, 64]⟩ .f32)
    (p : Fin m) (q : Fin 64) :
    addf (Host.dotGeneral (⟨[1], [0], [0], [1], [], [], d2⟩ : DotDims _ _ _) none
        (concatenate ⟨2, ![m, 80]⟩ 1
          [⟨⟨2, ![m, 64]⟩, addf (Host.dotGeneral (⟨[1], [0], [0], [1], [], [], d1⟩ : DotDims _ _ _) none x w1)
            (broadcastInDim ⟨2, ![m, 64]⟩ ![0, 1] hb b1)⟩,
           ⟨⟨2, ![m, 16]⟩, e⟩] hc) w2)
      (broadcastInDim ⟨2, ![m, 64]⟩ ![0, 1] hb b2) (ix2 p q)
    = message (fun c => x (ix2 p c)) (fun c => e (ix2 p c)) w1 (fun k => b1 (ix2 (0 : Fin 1) k))
        w2 (fun k => b2 (ix2 (0 : Fin 1) k)) q := by
  rw [addf_apply, Cert.HostProduct.dotGeneral_nn_apply, row_spread_apply]
  unfold message affine
  refine congrArg (· + b2 (ix2 (0 : Fin 1) q)) (Finset.sum_congr rfl fun k _ => congrArg (· * w2 (ix2 k q)) ?_)
  rw [Cert.RankThree.concatenate2_axis1_apply _ _ hc rfl p k]
  unfold joined
  split
  · rename_i hk
    rw [addf_apply, Cert.HostProduct.dotGeneral_nn_apply, row_spread_apply]
    rfl
  · rfl

end Host

end Cert.EdgeEntry

end
-- ==== Proof.EdgeBlocks0.lean ====
/-
  The edge-message region 0, from blocks to the array.

  The region's grid has 200 points; point t fetches rows 8000 t … 8000 t + 7999 of the gathered node features and of the
  edge attributes, the whole weight matrices and bias rows, and writes back rows 8000 t … 8000 t + 7999 of the result.
  The body's stored value at (p, q) is the message of the blocks' row p; the stage function of the whole arrays at
  (8000 t + p, q) is the message of the arrays' row 8000 t + p; and the blocks' row p is the arrays' row 8000 t + p
  (a block's coordinate is its index times its size plus the coordinate inside the block).  So what point t writes
  back is block t of the stage function of the arrays as the region finds them, the 200 blocks cover the array
  (row r lies in block r / 8000), and the array after the last point is that function.
-/
import Idealize.ShloMosaic.Lib.Pipeline.Value
import Idealize.ShloMosaic.Lib.ValueLayout
import Idealize.ShloMosaic.Lib.ValueIdx
import Idealize.ShloMosaic.PureOps.Ideal.Laws
import proofs.«112340_j85873576116383_2_alg».proof.Proof.Gen.KernelIdeal.Frame
import proofs.«112340_j85873576116383_2_alg».proof.Proof.Stages
import proofs.«112340_j85873576116383_2_alg».proof.Proof.EdgeEntry

set_option maxRecDepth 16384

noncomputable section

namespace Cert.EdgeBlocks0

open Cert.KernelIdeal Cert.KernelIdeal.Gen
open Idealize.ShloMosaic Idealize.ShloMosaic.TcCoe Idealize.ShloMosaic.ValueIdx
open Idealize.SL.Sem
open Idealize.ShloMosaic.Pipeline (Dat)
open Cert.EdgeEntry

/-- The stage function of the whole arrays at (r, q): the message of row r. -/
theorem edgeH_apply (xg : FVec Ideal ⟨2, ![1600000, 64]⟩ .f32) (ea : FVec Ideal ⟨2, ![1600000, 16]⟩ .f32)
    (w1 : FVec Ideal ⟨2, ![64, 64]⟩ .f32) (b1 : FVec Ideal ⟨2, ![1, 64]⟩ .f32) (w2 : FVec Ideal ⟨2, ![80, 64]⟩ .f32)
    (b2 : FVec Ideal ⟨2, ![1, 64]⟩ .f32) (r : Fin 1600000) (q : Fin 64) :
    Cert.Stages.edgeH (F := Ideal) xg ea w1 b1 w2 b2 (ix2 r q)
      = message (fun c => xg (ix2 r c)) (fun c => ea (ix2 r c)) w1 (fun k => b1 (ix2 (0 : Fin 1) k))
          w2 (fun k => b2 (ix2 (0 : Fin 1) k)) q := by
  unfold Cert.Stages.edgeH
  exact host_apply _ _ _ _ xg ea w1 b1 w2 b2 r q

theorem hz : (![0, 0] : Fin 2 → Nat) = fun _ => 0 := funext fun a => by fin_cases a <;> rfl

/-- The body's stored value at (p, q): the message of the blocks' row p. -/
theorem pay_entry (x0 : FVec Ideal S8000x64 .f32) (x1 : FVec Ideal S8000x16 .f32) (x2 : FVec Ideal S64x64 .f32)
    (x3 : FVec Ideal S1x64 .f32) (x4 : FVec Ideal S80x64 .f32) (x5 : FVec Ideal S1x64 .f32) (p : Fin 8000) (q : Fin 64) :
    k0_pay1 (F := Ideal) x0 x2 x3 x1 x4 x5 (ix2 p q)
      = message (fun c => x0 (ix2 p c)) (fun c => x1 (ix2 p c)) x2 (fun k => x3 (ix2 (0 : Fin 1) k))
          x4 (fun k => x5 (ix2 (0 : Fin 1) k)) q := by
  unfold k0_pay1
  exact device_apply _ _ _ _ _ _ _ _ _ x0 x2 x3 x1 x4 x5 p q

/-- The printed index maps over the grid: the row blocks move with the point, the weights and bias rows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

set_option maxHeartbeats 1000000 in
/-- What point t writes back is block t of the stage function of the arrays as the region finds them. -/
theorem flushed_eq (c : Dev nD) (t : Fin cfg0.N) :
    (dat0 (F := Ideal) V c).flushed 6 t = ((cfg0.win 6).blk t).view.read (Elt Ideal)
      (Cert.Stages.edgeH (F := Ideal) (V c (Pipeline.arrRef spec0 0)) (V c (Pipeline.arrRef spec0 1))
        (V c (Pipeline.arrRef spec0 2)) (V c (Pipeline.arrRef spec0 3)) (V c (Pipeline.arrRef spec0 4))
        (V c (Pipeline.arrRef spec0 5))) := by
  show (cfg0.win 6).cut (grid0.coords t) ((dat0 V c).after 6 t) = _
  rw [after0_6]
  unfold out0_6
  rw [View.canon_unit_zero hz]
  simp only [View.ld_unit_zero (S := S8000x64) hz, View.ld_unit_zero (S := S8000x16) hz,
    View.ld_unit_zero (S := S64x64) hz, View.ld_unit_zero (S := S1x64) hz, View.ld_unit_zero (S := S80x64) hz]
  funext j
  obtain ⟨p, q, rfl⟩ : ∃ (p : Fin 8000) (q : Fin 64), j = ix2 p q := ⟨j 0, j 1, eq_ix2 j⟩
  have hN : grid0.N = 200 := N_0
  have ht : t.val < 200 := lt_of_lt_of_eq t.isLt N_0
  have hp : p.val < 8000 := p.isLt
  have hq : q.val < 64 := q.isLt
  obtain ⟨e00, e01, e10, e11, e20, e21, e30, e31, e40, e41, e50, e51, e60, e61⟩ := idx_facts t
  have hr : t.val * 8000 + p.val < 1600000 := by omega
  have hemb : ((cfg0.win 6).blk t).view.emb (ix2 p q) = ix2 (⟨t.val * 8000 + p.val, hr⟩ : Fin 1600000) q := by
    funext a; apply Fin.ext
    match a with
    | ⟨0, _⟩ => show win0_6.index t (0 : Fin 2) * 8000 + 1 * p.val = t.val * 8000 + p.val; omega
    | ⟨1, _⟩ => show win0_6.index t (1 : Fin 2) * 64 + 1 * q.val = q.val; omega
  show k0_pay1 (F := Ideal) (iblk0 V c 0 t) (iblk0 V c 2 t) (iblk0 V c 3 t) (iblk0 V c 1 t) (iblk0 V c 4 t) (iblk0 V c 5 t) (ix2 p q)
    = Cert.Stages.edgeH (F := Ideal) (V c (Pipeline.arrRef spec0 0)) (V c (Pipeline.arrRef spec0 1))
        (V c (Pipeline.arrRef spec0 2)) (V c (Pipeline.arrRef spec0 3)) (V c (Pipeline.arrRef spec0 4))
        (V c (Pipeline.arrRef spec0 5)) (((cfg0.win 6).blk t).view.emb (ix2 p q))
  rw [hemb]
  refine (pay_entry (iblk0 V c 0 t) (iblk0 V c 1 t) (iblk0 V c 2 t) (iblk0 V c 3 t) (iblk0 V c 4 t) (iblk0 V c 5 t) p q).trans ?_
  refine Eq.trans ?_ (edgeH_apply (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) ⟨t.val * 8000 + p.val, hr⟩ q).symm
  refine message_congr (fun cc => ?_) (fun cc => ?_) (fun i => ?_) (fun k => ?_) (fun i => ?_) (fun k => ?_) q
  · have hc : cc.val < 64 := cc.isLt
    show V c (Pipeline.arrRef spec0 0) (((cfg0.win 0).blk t).view.emb (ix2 p cc)) = V c (Pipeline.arrRef spec0 0) (ix2 (⟨t.val * 8000 + p.val, hr⟩ : Fin 1600000) cc)
    refine congrArg _ (funext fun a => Fin.ext ?_)
    match a with
    | ⟨0, _⟩ => show win0_0.index t (0 : Fin 2) * 8000 + 1 * p.val = t.val * 8000 + p.val; omega
    | ⟨1, _⟩ => show win0_0.index t (1 : Fin 2) * 64 + 1 * cc.val = cc.val; omega
  · have hc : cc.val < 16 := cc.isLt
    show V c (Pipeline.arrRef spec0 1) (((cfg0.win 1).blk t).view.emb (ix2 p cc)) = V c (Pipeline.arrRef spec0 1) (ix2 (⟨t.val * 8000 + p.val, hr⟩ : Fin 1600000) cc)
    refine congrArg _ (funext fun a => Fin.ext ?_)
    match a with
    | ⟨0, _⟩ => show win0_1.index t (0 : Fin 2) * 8000 + 1 * p.val = t.val * 8000 + p.val; omega
    | ⟨1, _⟩ => show win0_1.index t (1 : Fin 2) * 16 + 1 * cc.val = cc.val; omega
  · show V c (Pipeline.arrRef spec0 2) (((cfg0.win 2).blk t).view.emb i) = V c (Pipeline.arrRef spec0 2) i
    refine congrArg _ (funext fun a => Fin.ext ?_)
    match a with
    | ⟨0, _⟩ => show win0_2.index t (0 : Fin 2) * 64 + 1 * (i 0).val = (i 0).val; omega
    | ⟨1, _⟩ => show win0_2.index t (1 : Fin 2) * 64 + 1 * (i 1).val = (i 1).val; omega
  · show V c (Pipeline.arrRef spec0 3) (((cfg0.win 3).blk t).view.emb (ix2 (0 : Fin 1) k)) = V c (Pipeline.arrRef spec0 3) (ix2 (0 : Fin 1) k)
    refine congrArg _ (funext fun a => Fin.ext ?_)
    match a with
    | ⟨0, _⟩ => show win0_3.index t (0 : Fin 2) * 1 + 1 * 0 = 0; omega
    | ⟨1, _⟩ => show win0_3.index t (1 : Fin 2) * 64 + 1 * k.val = k.val; omega
  · show V c (Pipeline.arrRef spec0 4) (((cfg0.win 4).blk t).view.emb i) = V c (Pipeline.arrRef spec0 4) i
    refine congrArg _ (funext fun a => Fin.ext ?_)
    match a with
    | ⟨0, _⟩ => show win0_4.index t (0 : Fin 2) * 80 + 1 * (i 0).val = (i 0).val; omega
    | ⟨1, _⟩ => show win0_4.index t (1 : Fin 2) * 64 + 1 * (i 1).val = (i 1).val; omega
  · show V c (Pipeline.arrRef spec0 5) (((cfg0.win 5).blk t).view.emb (ix2 (0 : Fin 1) k)) = V c (Pipeline.arrRef spec0 5) (ix2 (0 : Fin 1) k)
    refine congrArg _ (funext fun a => Fin.ext ?_)
    match a with
    | ⟨0, _⟩ => show win0_5.index t (0 : Fin 2) * 1 + 1 * 0 = 0; omega
    | ⟨1, _⟩ => show win0_5.index t (1 : Fin 2) * 64 + 1 * k.val = k.val; omega

/-- An index of the array is in point t's block iff each coordinate is in the block's range on its axis. -/
theorem mem_blk (t : Fin cfg0.N) (i : S1600000x64.Idx) :
    i ∈ ((cfg0.win 6).blk t).view.set ↔ ∀ a : Fin 2, win0_6.index t a * S8000x64.size a ≤ (i a).val
      ∧ (i a).val < win0_6.index t a * S8000x64.size a + S8000x64.size a := by
  show i ∈ ((View.whole main_v28).slice (win0_6.rect t)).set ↔ _
  rw [View.set_slice_whole, Rect.mem_set_unit]
  exact Iff.rfl

/-- The blocks cover the array: row r lies in the block of point r / 8000. -/
theorem cover (i : S1600000x64.Idx) :
    ∃ t : Fin cfg0.N, (cfg0.win 6).flush t = true ∧ i ∈ ((cfg0.win 6).blk t).view.set := by
  have hi0 : (i 0).val < 1600000 := (i 0).isLt
  have hi1 : (i 1).val < 64 := (i 1).isLt
  have hN : grid0.N = 200 := N_0
  have hlt : (i 0).val / 8000 < grid0.N := by rw [hN]; omega
  obtain ⟨-, -, -, -, -, -, -, -, -, -, -, -, e60, e61⟩ := idx_facts ⟨(i 0).val / 8000, hlt⟩
  refine ⟨⟨(i 0).val / 8000, hlt⟩, flush0_6 _, ?_⟩
  rw [mem_blk]
  intro a
  match a with
  | ⟨0, _⟩ =>
    show win0_6.index ⟨(i 0).val / 8000, hlt⟩ (0 : Fin 2) * 8000 ≤ (i 0).val
      ∧ (i 0).val < win0_6.index ⟨(i 0).val / 8000, hlt⟩ (0 : Fin 2) * 8000 + 8000
    rw [e60]
    show (i 0).val / 8000 * 8000 ≤ (i 0).val ∧ (i 0).val < (i 0).val / 8000 * 8000 + 8000
    omega
  | ⟨1, _⟩ =>
    show win0_6.index ⟨(i 0).val / 8000, hlt⟩ (1 : Fin 2) * 64 ≤ (i 1).val
      ∧ (i 1).val < win0_6.index ⟨(i 0).val / 8000, hlt⟩ (1 : Fin 2) * 64 + 64
    rw [e61]
    omega

/-- The result array after the last point is the stage function of the six arrays as the region finds them. -/
theorem final0 (c : Dev nD) :
    (Gen.dat0 (F := Ideal) V c).arrAt 6 cfg0.N
      = Cert.Stages.edgeH (F := Ideal) (V c (Pipeline.arrRef spec0 0)) (V c (Pipeline.arrRef spec0 1))
          (V c (Pipeline.arrRef spec0 2)) (V c (Pipeline.arrRef spec0 3)) (V c (Pipeline.arrRef spec0 4))
          (V c (Pipeline.arrRef spec0 5)) :=
  (dat0 V c).arrAt_eq_of_cover 6 _ (fun t _ => flushed_eq V c t) cover

end Cert.EdgeBlocks0

end
-- ==== Proof.EdgeBlocks2.lean ====
/-
  The edge-message region 2, from blocks to the array.

  The region's grid has 200 points; point t fetches rows 8000 t … 8000 t + 7999 of the gathered node features and of the
  edge attributes, the whole weight matrices and bias rows, and writes back rows 8000 t … 8000 t + 7999 of the result.
  The body's stored value at (p, q) is the message of the blocks' row p; the stage function of the whole arrays at
  (8000 t + p, q) is the message of the arrays' row 8000 t + p; and the blocks' row p is the arrays' row 8000 t + p
  (a block's coordinate is its index times its size plus the coordinate inside the block).  So what point t writes
  back is block t of the stage function of the arrays as the region finds them, the 200 blocks cover the array
  (row r lies in block r / 8000), and the array after the last point is that function.
-/
import Idealize.ShloMosaic.Lib.Pipeline.Value
import Idealize.ShloMosaic.Lib.ValueLayout
import Idealize.ShloMosaic.Lib.ValueIdx
import Idealize.ShloMosaic.PureOps.Ideal.Laws
import proofs.«112340_j85873576116383_2_alg».proof.Proof.Gen.KernelIdeal.Frame
import proofs.«112340_j85873576116383_2_alg».proof.Proof.Stages
import proofs.«112340_j85873576116383_2_alg».proof.Proof.EdgeEntry

set_option maxRecDepth 16384

noncomputable section

namespace Cert.EdgeBlocks2

open Cert.KernelIdeal Cert.KernelIdeal.Gen
open Idealize.ShloMosaic Idealize.ShloMosaic.TcCoe Idealize.ShloMosaic.ValueIdx
open Idealize.SL.Sem
open Idealize.ShloMosaic.Pipeline (Dat)
open Cert.EdgeEntry

/-- The stage function of the whole arrays at (r, q): the message of row r. -/
theorem edgeH_apply (xg : FVec Ideal ⟨2, ![1600000, 64]⟩ .f32) (ea : FVec Ideal ⟨2, ![1600000, 16]⟩ .f32)
    (w1 : FVec Ideal ⟨2, ![64, 64]⟩ .f32) (b1 : FVec Ideal ⟨2, ![1, 64]⟩ .f32) (w2 : FVec Ideal ⟨2, ![80, 64]⟩ .f32)
    (b2 : FVec Ideal ⟨2, ![1, 64]⟩ .f32) (r : Fin 1600000) (q : Fin 64) :
    Cert.Stages.edgeH (F := Ideal) xg ea w1 b1 w2 b2 (ix2 r q)
      = message (fun c => xg (ix2 r c)) (fun c => ea (ix2 r c)) w1 (fun k => b1 (ix2 (0 : Fin 1) k))
          w2 (fun k => b2 (ix2 (0 : Fin 1) k)) q := by
  unfold Cert.Stages.edgeH
  exact host_apply _ _ _ _ xg ea w1 b1 w2 b2 r q

theorem hz : (![0, 0] : Fin 2 → Nat) = fun _ => 0 := funext fun a => by fin_cases a <;> rfl

/-- The body's stored value at (p, q): the message of the blocks' row p. -/
theorem pay_entry (x0 : FVec Ideal S8000x64 .f32) (x1 : FVec Ideal S8000x16 .f32) (x2 : FVec Ideal S64x64 .f32)
    (x3 : FVec Ideal S1x64 .f32) (x4 : FVec Ideal S80x64 .f32) (x5 : FVec Ideal S1x64 .f32) (p : Fin 8000) (q : Fin 64) :
    k2_pay1 (F := Ideal) x0 x2 x3 x1 x4 x5 (ix2 p q)
      = message (fun c => x0 (ix2 p c)) (fun c => x1 (ix2 p c)) x2 (fun k => x3 (ix2 (0 : Fin 1) k))
          x4 (fun k => x5 (ix2 (0 : Fin 1) k)) q := by
  unfold k2_pay1
  exact device_apply _ _ _ _ _ _ _ _ _ x0 x2 x3 x1 x4 x5 p q

/-- The printed index maps over the grid: the row blocks move with the point, the weights and bias rows stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

set_option maxHeartbeats 1000000 in
/-- What point t writes back is block t of the stage function of the arrays as the region finds them. -/
theorem flushed_eq (c : Dev nD) (t : Fin cfg2.N) :
    (dat2 (F := Ideal) V c).flushed 6 t = ((cfg2.win 6).blk t).view.read (Elt Ideal)
      (Cert.Stages.edgeH (F := Ideal) (V c (Pipeline.arrRef spec2 0)) (V c (Pipeline.arrRef spec2 1))
        (V c (Pipeline.arrRef spec2 2)) (V c (Pipeline.arrRef spec2 3)) (V c (Pipeline.arrRef spec2 4))
        (V c (Pipeline.arrRef spec2 5))) := by
  show (cfg2.win 6).cut (grid2.coords t) ((dat2 V c).after 6 t) = _
  rw [after2_6]
  unfold out2_6
  rw [View.canon_unit_zero hz]
  simp only [View.ld_unit_zero (S := S8000x64) hz, View.ld_unit_zero (S := S8000x16) hz,
    View.ld_unit_zero (S := S64x64) hz, View.ld_unit_zero (S := S1x64) hz, View.ld_unit_zero (S := S80x64) hz]
  funext j
  obtain ⟨p, q, rfl⟩ : ∃ (p : Fin 8000) (q : Fin 64), j = ix2 p q := ⟨j 0, j 1, eq_ix2 j⟩
  have hN : grid2.N = 200 := N_2
  have ht : t.val < 200 := lt_of_lt_of_eq t.isLt N_2
  have hp : p.val < 8000 := p.isLt
  have hq : q.val < 64 := q.isLt
  obtain ⟨e00, e01, e10, e11, e20, e21, e30, e31, e40, e41, e50, e51, e60, e61⟩ := idx_facts t
  have hr : t.val * 8000 + p.val < 1600000 := by omega
  have hemb : ((cfg2.win 6).blk t).view.emb (ix2 p q) = ix2 (⟨t.val * 8000 + p.val, hr⟩ : Fin 1600000) q := by
    funext a; apply Fin.ext
    match a with
    | ⟨0, _⟩ => show win2_6.index t (0 : Fin 2) * 8000 + 1 * p.val = t.val * 8000 + p.val; omega
    | ⟨1, _⟩ => show win2_6.index t (1 : Fin 2) * 64 + 1 * q.val = q.val; omega
  show k2_pay1 (F := Ideal) (iblk2 V c 0 t) (iblk2 V c 2 t) (iblk2 V c 3 t) (iblk2 V c 1 t) (iblk2 V c 4 t) (iblk2 V c 5 t) (ix2 p q)
    = Cert.Stages.edgeH (F := Ideal) (V c (Pipeline.arrRef spec2 0)) (V c (Pipeline.arrRef spec2 1))
        (V c (Pipeline.arrRef spec2 2)) (V c (Pipeline.arrRef spec2 3)) (V c (Pipeline.arrRef spec2 4))
        (V c (Pipeline.arrRef spec2 5)) (((cfg2.win 6).blk t).view.emb (ix2 p q))
  rw [hemb]
  refine (pay_entry (iblk2 V c 0 t) (iblk2 V c 1 t) (iblk2 V c 2 t) (iblk2 V c 3 t) (iblk2 V c 4 t) (iblk2 V c 5 t) p q).trans ?_
  refine Eq.trans ?_ (edgeH_apply (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) ⟨t.val * 8000 + p.val, hr⟩ q).symm
  refine message_congr (fun cc => ?_) (fun cc => ?_) (fun i => ?_) (fun k => ?_) (fun i => ?_) (fun k => ?_) q
  · have hc : cc.val < 64 := cc.isLt
    show V c (Pipeline.arrRef spec2 0) (((cfg2.win 0).blk t).view.emb (ix2 p cc)) = V c (Pipeline.arrRef spec2 0) (ix2 (⟨t.val * 8000 + p.val, hr⟩ : Fin 1600000) cc)
    refine congrArg _ (funext fun a => Fin.ext ?_)
    match a with
    | ⟨0, _⟩ => show win2_0.index t (0 : Fin 2) * 8000 + 1 * p.val = t.val * 8000 + p.val; omega
    | ⟨1, _⟩ => show win2_0.index t (1 : Fin 2) * 64 + 1 * cc.val = cc.val; omega
  · have hc : cc.val < 16 := cc.isLt
    show V c (Pipeline.arrRef spec2 1) (((cfg2.win 1).blk t).view.emb (ix2 p cc)) = V c (Pipeline.arrRef spec2 1) (ix2 (⟨t.val * 8000 + p.val, hr⟩ : Fin 1600000) cc)
    refine congrArg _ (funext fun a => Fin.ext ?_)
    match a with
    | ⟨0, _⟩ => show win2_1.index t (0 : Fin 2) * 8000 + 1 * p.val = t.val * 8000 + p.val; omega
    | ⟨1, _⟩ => show win2_1.index t (1 : Fin 2) * 16 + 1 * cc.val = cc.val; omega
  · show V c (Pipeline.arrRef spec2 2) (((cfg2.win 2).blk t).view.emb i) = V c (Pipeline.arrRef spec2 2) i
    refine congrArg _ (funext fun a => Fin.ext ?_)
    match a with
    | ⟨0, _⟩ => show win2_2.index t (0 : Fin 2) * 64 + 1 * (i 0).val = (i 0).val; omega
    | ⟨1, _⟩ => show win2_2.index t (1 : Fin 2) * 64 + 1 * (i 1).val = (i 1).val; omega
  · show V c (Pipeline.arrRef spec2 3) (((cfg2.win 3).blk t).view.emb (ix2 (0 : Fin 1) k)) = V c (Pipeline.arrRef spec2 3) (ix2 (0 : Fin 1) k)
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * k.val = k.val; omega
  · show V c (Pipeline.arrRef spec2 4) (((cfg2.win 4).blk t).view.emb i) = V c (Pipeline.arrRef spec2 4) i
    refine congrArg _ (funext fun a => Fin.ext ?_)
    match a with
    | ⟨0, _⟩ => show win2_4.index t (0 : Fin 2) * 80 + 1 * (i 0).val = (i 0).val; omega
    | ⟨1, _⟩ => show win2_4.index t (1 : Fin 2) * 64 + 1 * (i 1).val = (i 1).val; omega
  · show V c (Pipeline.arrRef spec2 5) (((cfg2.win 5).blk t).view.emb (ix2 (0 : Fin 1) k)) = V c (Pipeline.arrRef spec2 5) (ix2 (0 : Fin 1) k)
    refine congrArg _ (funext fun a => Fin.ext ?_)
    match a with
    | ⟨0, _⟩ => show win2_5.index t (0 : Fin 2) * 1 + 1 * 0 = 0; omega
    | ⟨1, _⟩ => show win2_5.index t (1 : Fin 2) * 64 + 1 * k.val = k.val; omega

/-- An index of the array is in point t's block iff each coordinate is in the block's range on its axis. -/
theorem mem_blk (t : Fin cfg2.N) (i : S1600000x64.Idx) :
    i ∈ ((cfg2.win 6).blk t).view.set ↔ ∀ a : Fin 2, win2_6.index t a * S8000x64.size a ≤ (i a).val
      ∧ (i a).val < win2_6.index t a * S8000x64.size a + S8000x64.size a := by
  show i ∈ ((View.whole main_v61).slice (win2_6.rect t)).set ↔ _
  rw [View.set_slice_whole, Rect.mem_set_unit]
  exact Iff.rfl

/-- The blocks cover the array: row r lies in the block of point r / 8000. -/
theorem cover (i : S1600000x64.Idx) :
    ∃ t : Fin cfg2.N, (cfg2.win 6).flush t = true ∧ i ∈ ((cfg2.win 6).blk t).view.set := by
  have hi0 : (i 0).val < 1600000 := (i 0).isLt
  have hi1 : (i 1).val < 64 := (i 1).isLt
  have hN : grid2.N = 200 := N_2
  have hlt : (i 0).val / 8000 < grid2.N := by rw [hN]; omega
  obtain ⟨-, -, -, -, -, -, -, -, -, -, -, -, e60, e61⟩ := idx_facts ⟨(i 0).val / 8000, hlt⟩
  refine ⟨⟨(i 0).val / 8000, hlt⟩, flush2_6 _, ?_⟩
  rw [mem_blk]
  intro a
  match a with
  | ⟨0, _⟩ =>
    show win2_6.index ⟨(i 0).val / 8000, hlt⟩ (0 : Fin 2) * 8000 ≤ (i 0).val
      ∧ (i 0).val < win2_6.index ⟨(i 0).val / 8000, hlt⟩ (0 : Fin 2) * 8000 + 8000
    rw [e60]
    show (i 0).val / 8000 * 8000 ≤ (i 0).val ∧ (i 0).val < (i 0).val / 8000 * 8000 + 8000
    omega
  | ⟨1, _⟩ =>
    show win2_6.index ⟨(i 0).val / 8000, hlt⟩ (1 : Fin 2) * 64 ≤ (i 1).val
      ∧ (i 1).val < win2_6.index ⟨(i 0).val / 8000, hlt⟩ (1 : Fin 2) * 64 + 64
    rw [e61]
    omega

/-- The result array after the last point is the stage function of the six arrays as the region finds them. -/
theorem final2 (c : Dev nD) :
    (Gen.dat2 (F := Ideal) V c).arrAt 6 cfg2.N
      = Cert.Stages.edgeH (F := Ideal) (V c (Pipeline.arrRef spec2 0)) (V c (Pipeline.arrRef spec2 1))
          (V c (Pipeline.arrRef spec2 2)) (V c (Pipeline.arrRef spec2 3)) (V c (Pipeline.arrRef spec2 4))
          (V c (Pipeline.arrRef spec2 5)) :=
  (dat2 V c).arrAt_eq_of_cover 6 _ (fun t _ => flushed_eq V c t) cover

end Cert.EdgeBlocks2

end
-- ==== Proof.EdgeBlocks4.lean ====
/-
  The edge-message region 4, from blocks to the array.

  The region's grid has 200 points; point t fetches rows 8000 t … 8000 t + 7999 of the gathered node features and of the
  edge attributes, the whole weight matrices and bias rows, and writes back rows 8000 t … 8000 t + 7999 of the result.
  The body's stored value at (p, q) is the message of the blocks' row p; the stage function of the whole arrays at
  (8000 t + p, q) is the message of the arrays' row 8000 t + p; and the blocks' row p is the arrays' row 8000 t + p
  (a block's coordinate is its index times its size plus the coordinate inside the block).  So what point t writes
  back is block t of the stage function of the arrays as the region finds them, the 200 blocks cover the array
  (row r lies in block r / 8000), and the array after the last point is that function.
-/
import Idealize.ShloMosaic.Lib.Pipeline.Value
import Idealize.ShloMosaic.Lib.ValueLayout
import Idealize.ShloMosaic.Lib.ValueIdx
import Idealize.ShloMosaic.PureOps.Ideal.Laws
import proofs.«112340_j85873576116383_2_alg».proof.Proof.Gen.KernelIdeal.Frame
import proofs.«112340_j85873576116383_2_alg».proof.Proof.Stages
import proofs.«112340_j85873576116383_2_alg».proof.Proof.EdgeEntry

set_option maxRecDepth 16384

noncomputable section

namespace Cert.EdgeBlocks4

open Cert.KernelIdeal Cert.KernelIdeal.Gen
open Idealize.ShloMosaic Idealize.ShloMosaic.TcCoe Idealize.ShloMosaic.ValueIdx
open Idealize.SL.Sem
open Idealize.ShloMosaic.Pipeline (Dat)
open Cert.EdgeEntry

/-- The stage function of the whole arrays at (r, q): the message of row r. -/
theorem edgeH_apply (xg : FVec Ideal ⟨2, ![1600000, 64]⟩ .f32) (ea : FVec Ideal ⟨2, ![1600000, 16]⟩ .f32)
    (w1 : FVec Ideal ⟨2, ![64, 64]⟩ .f32) (b1 : FVec Ideal ⟨2, ![1, 64]⟩ .f32) (w2 : FVec Ideal ⟨2, ![80, 64]⟩ .f32)
    (b2 : FVec Ideal ⟨2, ![1, 64]⟩ .f32) (r : Fin 1600000) (q : Fin 64) :
    Cert.Stages.edgeH (F := Ideal) xg ea w1 b1 w2 b2 (ix2 r q)
      = message (fun c => xg (ix2 r c)) (fun c => ea (ix2 r c)) w1 (fun k => b1 (ix2 (0 : Fin 1) k))
          w2 (fun k => b2 (ix2 (0 : Fin 1) k)) q := by
  unfold Cert.Stages.edgeH
  exact host_apply _ _ _ _ xg ea w1 b1 w2 b2 r q

theorem hz : (![0, 0] : Fin 2 → Nat) = fun _ => 0 := funext fun a => by fin_cases a <;> rfl

/-- The body's stored value at (p, q): the message of the blocks' row p. -/
theorem pay_entry (x0 : FVec Ideal S8000x64 .f32) (x1 : FVec Ideal S8000x16 .f32) (x2 : FVec Ideal S64x64 .f32)
    (x3 : FVec Ideal S1x64 .f32) (x4 : FVec Ideal S80x64 .f32) (x5 : FVec Ideal S1x64 .f32) (p : Fin 8000) (q : Fin 64) :
    k4_pay1 (F := Ideal) x0 x2 x3 x1 x4 x5 (ix2 p q)
      = message (fun c => x0 (ix2 p c)) (fun c => x1 (ix2 p c)) x2 (fun k => x3 (ix2 (0 : Fin 1) k))
          x4 (fun k => x5 (ix2 (0 : Fin 1) k)) q := by
  unfold k4_pay1
  exact device_apply _ _ _ _ _ _ _ _ _ x0 x2 x3 x1 x4 x5 p q

/-- The printed index maps over the grid: the row blocks move with the point, the weights and bias rows stay. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

variable (V : (c : Dev nD) → (b : Ref sig .tc) → Buf (Elt Ideal) ((c : Thread nD τ).loc b))

set_option maxHeartbeats 1000000 in
/-- What point t writes back is block t of the stage function of the arrays as the region finds them. -/
theorem flushed_eq (c : Dev nD) (t : Fin cfg4.N) :
    (dat4 (F := Ideal) V c).flushed 6 t = ((cfg4.win 6).blk t).view.read (Elt Ideal)
      (Cert.Stages.edgeH (F := Ideal) (V c (Pipeline.arrRef spec4 0)) (V c (Pipeline.arrRef spec4 1))
        (V c (Pipeline.arrRef spec4 2)) (V c (Pipeline.arrRef spec4 3)) (V c (Pipeline.arrRef spec4 4))
        (V c (Pipeline.arrRef spec4 5))) := by
  show (cfg4.win 6).cut (grid4.coords t) ((dat4 V c).after 6 t) = _
  rw [after4_6]
  unfold out4_6
  rw [View.canon_unit_zero hz]
  simp only [View.ld_unit_zero (S := S8000x64) hz, View.ld_unit_zero (S := S8000x16) hz,
    View.ld_unit_zero (S := S64x64) hz, View.ld_unit_zero (S := S1x64) hz, View.ld_unit_zero (S := S80x64) hz]
  funext j
  obtain ⟨p, q, rfl⟩ : ∃ (p : Fin 8000) (q : Fin 64), j = ix2 p q := ⟨j 0, j 1, eq_ix2 j⟩
  have hN : grid4.N = 200 := N_4
  have ht : t.val < 200 := lt_of_lt_of_eq t.isLt N_4
  have hp : p.val < 8000 := p.isLt
  have hq : q.val < 64 := q.isLt
  obtain ⟨e00, e01, e10, e11, e20, e21, e30, e31, e40, e41, e50, e51, e60, e61⟩ := idx_facts t
  have hr : t.val * 8000 + p.val < 1600000 := by omega
  have hemb : ((cfg4.win 6).blk t).view.emb (ix2 p q) = ix2 (⟨t.val * 8000 + p.val, hr⟩ : Fin 1600000) q := by
    funext a; apply Fin.ext
    match a with
    | ⟨0, _⟩ => show win4_6.index t (0 : Fin 2) * 8000 + 1 * p.val = t.val * 8000 + p.val; omega
    | ⟨1, _⟩ => show win4_6.index t (1 : Fin 2) * 64 + 1 * q.val = q.val; omega
  show k4_pay1 (F := Ideal) (iblk4 V c 0 t) (iblk4 V c 2 t) (iblk4 V c 3 t) (iblk4 V c 1 t) (iblk4 V c 4 t) (iblk4 V c 5 t) (ix2 p q)
    = Cert.Stages.edgeH (F := Ideal) (V c (Pipeline.arrRef spec4 0)) (V c (Pipeline.arrRef spec4 1))
        (V c (Pipeline.arrRef spec4 2)) (V c (Pipeline.arrRef spec4 3)) (V c (Pipeline.arrRef spec4 4))
        (V c (Pipeline.arrRef spec4 5)) (((cfg4.win 6).blk t).view.emb (ix2 p q))
  rw [hemb]
  refine (pay_entry (iblk4 V c 0 t) (iblk4 V c 1 t) (iblk4 V c 2 t) (iblk4 V c 3 t) (iblk4 V c 4 t) (iblk4 V c 5 t) p q).trans ?_
  refine Eq.trans ?_ (edgeH_apply (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) ⟨t.val * 8000 + p.val, hr⟩ q).symm
  refine message_congr (fun cc => ?_) (fun cc => ?_) (fun i => ?_) (fun k => ?_) (fun i => ?_) (fun k => ?_) q
  · have hc : cc.val < 64 := cc.isLt
    show V c (Pipeline.arrRef spec4 0) (((cfg4.win 0).blk t).view.emb (ix2 p cc)) = V c (Pipeline.arrRef spec4 0) (ix2 (⟨t.val * 8000 + p.val, hr⟩ : Fin 1600000) cc)
    refine congrArg _ (funext fun a => Fin.ext ?_)
    match a with
    | ⟨0, _⟩ => show win4_0.index t (0 : Fin 2) * 8000 + 1 * p.val = t.val * 8000 + p.val; omega
    | ⟨1, _⟩ => show win4_0.index t (1 : Fin 2) * 64 + 1 * cc.val = cc.val; omega
  · have hc : cc.val < 16 := cc.isLt
    show V c (Pipeline.arrRef spec4 1) (((cfg4.win 1).blk t).view.emb (ix2 p cc)) = V c (Pipeline.arrRef spec4 1) (ix2 (⟨t.val * 8000 + p.val, hr⟩ : Fin 1600000) cc)
    refine congrArg _ (funext fun a => Fin.ext ?_)
    match a with
    | ⟨0, _⟩ => show win4_1.index t (0 : Fin 2) * 8000 + 1 * p.val = t.val * 8000 + p.val; omega
    | ⟨1, _⟩ => show win4_1.index t (1 : Fin 2) * 16 + 1 * cc.val = cc.val; omega
  · show V c (Pipeline.arrRef spec4 2) (((cfg4.win 2).blk t).view.emb i) = V c (Pipeline.arrRef spec4 2) i
    refine congrArg _ (funext fun a => Fin.ext ?_)
    match a with
    | ⟨0, _⟩ => show win4_2.index t (0 : Fin 2) * 64 + 1 * (i 0).val = (i 0).val; omega
    | ⟨1, _⟩ => show win4_2.index t (1 : Fin 2) * 64 + 1 * (i 1).val = (i 1).val; omega
  · show V c (Pipeline.arrRef spec4 3) (((cfg4.win 3).blk t).view.emb (ix2 (0 : Fin 1) k)) = V c (Pipeline.arrRef spec4 3) (ix2 (0 : Fin 1) k)
    refine congrArg _ (funext fun a => Fin.ext ?_)
    match a with
    | ⟨0, _⟩ => show win4_3.index t (0 : Fin 2) * 1 + 1 * 0 = 0; omega
    | ⟨1, _⟩ => show win4_3.index t (1 : Fin 2) * 64 + 1 * k.val = k.val; omega
  · show V c (Pipeline.arrRef spec4 4) (((cfg4.win 4).blk t).view.emb i) = V c (Pipeline.arrRef spec4 4) i
    refine congrArg _ (funext fun a => Fin.ext ?_)
    match a with
    | ⟨0, _⟩ => show win4_4.index t (0 : Fin 2) * 80 + 1 * (i 0).val = (i 0).val; omega
    | ⟨1, _⟩ => show win4_4.index t (1 : Fin 2) * 64 + 1 * (i 1).val = (i 1).val; omega
  · show V c (Pipeline.arrRef spec4 5) (((cfg4.win 5).blk t).view.emb (ix2 (0 : Fin 1) k)) = V c (Pipeline.arrRef spec4 5) (ix2 (0 : Fin 1) k)
    refine congrArg _ (funext fun a => Fin.ext ?_)
    match a with
    | ⟨0, _⟩ => show win4_5.index t (0 : Fin 2) * 1 + 1 * 0 = 0; omega
    | ⟨1, _⟩ => show win4_5.index t (1 : Fin 2) * 64 + 1 * k.val = k.val; omega

/-- An index of the array is in point t's block iff each coordinate is in the block's range on its axis. -/
theorem mem_blk (t : Fin cfg4.N) (i : S1600000x64.Idx) :
    i ∈ ((cfg4.win 6).blk t).view.set ↔ ∀ a : Fin 2, win4_6.index t a * S8000x64.size a ≤ (i a).val
      ∧ (i a).val < win4_6.index t a * S8000x64.size a + S8000x64.size a := by
  show i ∈ ((View.whole main_v94).slice (win4_6.rect t)).set ↔ _
  rw [View.set_slice_whole, Rect.mem_set_unit]
  exact Iff.rfl

/-- The blocks cover the array: row r lies in the block of point r / 8000. -/
theorem cover (i : S1600000x64.Idx) :
    ∃ t : Fin cfg4.N, (cfg4.win 6).flush t = true ∧ i ∈ ((cfg4.win 6).blk t).view.set := by
  have hi0 : (i 0).val < 1600000 := (i 0).isLt
  have hi1 : (i 1).val < 64 := (i 1).isLt
  have hN : grid4.N = 200 := N_4
  have hlt : (i 0).val / 8000 < grid4.N := by rw [hN]; omega
  obtain ⟨-, -, -, -, -, -, -, -, -, -, -, -, e60, e61⟩ := idx_facts ⟨(i 0).val / 8000, hlt⟩
  refine ⟨⟨(i 0).val / 8000, hlt⟩, flush4_6 _, ?_⟩
  rw [mem_blk]
  intro a
  match a with
  | ⟨0, _⟩ =>
    show win4_6.index ⟨(i 0).val / 8000, hlt⟩ (0 : Fin 2) * 8000 ≤ (i 0).val
      ∧ (i 0).val < win4_6.index ⟨(i 0).val / 8000, hlt⟩ (0 : Fin 2) * 8000 + 8000
    rw [e60]
    show (i 0).val / 8000 * 8000 ≤ (i 0).val ∧ (i 0).val < (i 0).val / 8000 * 8000 + 8000
    omega
  | ⟨1, _⟩ =>
    show win4_6.index ⟨(i 0).val / 8000, hlt⟩ (1 : Fin 2) * 64 ≤ (i 1).val
      ∧ (i 1).val < win4_6.index ⟨(i 0).val / 8000, hlt⟩ (1 : Fin 2) * 64 + 64
    rw [e61]
    omega

/-- The result array after the last point is the stage function of the six arrays as the region finds them. -/
theorem final4 (c : Dev nD) :
    (Gen.dat4 (F := Ideal) V c).arrAt 6 cfg4.N
      = Cert.Stages.edgeH (F := Ideal) (V c (Pipeline.arrRef spec4 0)) (V c (Pipeline.arrRef spec4 1))
          (V c (Pipeline.arrRef spec4 2)) (V c (Pipeline.arrRef spec4 3)) (V c (Pipeline.arrRef spec4 4))
          (V c (Pipeline.arrRef spec4 5)) :=
  (dat4 V c).arrAt_eq_of_cover 6 _ (fun t _ => flushed_eq V c t) cover

end Cert.EdgeBlocks4

end
-- ==== Proof.LibRowFolds.lean ====
/-
  Reductions along the second axis of an `[a, b]` array, read at a row.

  At the ideal values a lane sum of row `p` is the sum of the row's entries, and a lane maximum the fold of `max` over
  them from the accumulator's value; the host's reduction by a commutative, associative operation is the same fold
  from its initial value.
-/
import Idealize.ShloMosaic.Lib.ValueIdx
import Idealize.ShloMosaic.PureOps.Ideal.Laws

noncomputable section

namespace Cert.RowFolds

open Idealize.ShloMosaic Idealize.ShloMosaic.ValueIdx

/-- Inserting coordinate `k` on the second axis of the one-coordinate index `p` gives `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

/-- A lane sum over the second axis, at row `p`: the sum of the row. -/
theorem laneSum_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A lane maximum over the second axis, at row `p`: the fold of `max` over the row from the accumulator's value. -/
theorem laneMax_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (Finset.fold max (Ideal.ofBits φ acc) · (Finset.univ : Finset (Fin b)))
      (funext fun k => congrArg v (lift_row h p k)))

/-- The host's reduction over the second axis by a commutative, associative operation, at row `p`: the fold over the
    row from the initial value. -/
theorem hostFold_apply {α : Type} {a b : ℕ} {u : Shape} (f : α → α → α) [Std.Commutative f] [Std.Associative f]
    (x : (⟨2, ![a, b]⟩ : Shape).Idx → α) (init : u.Idx → α) (h' : Shape.ReducesTo ⟨2, ![a, b]⟩ [1] ⟨1, ![a]⟩)
    (h : Shape.Reduces ⟨2, ![a, b]⟩ [1] ⟨1, ![a]⟩) (hu : 0 < u.numel) (p : Fin a) :
    Host.reduce f x init h' hu (ix1 p)
      = (Finset.univ : Finset (Fin b)).fold f (init (Shape.Idx.first hu)) (fun k => x (ix2 p k)) :=
  (Host.reduce_eq_fold_single f x init h' h hu (ix1 p)).trans
    (congrArg (Finset.fold f (init (Shape.Idx.first hu)) · (Finset.univ : Finset (Fin b)))
      (funext fun k => congrArg x (lift_row h p k)))

end Cert.RowFolds

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.NodeEntry.lean ====
/-
  The node update at one entry.

  A node's row is the aggregate's row a (64 entries) joined with the graph features' row g (16 entries).  The update
  is the affine map  h q = (sum over c of (a joined g) c * W (c, q)) + b q  followed by layer normalisation of the
  row: with  mean = (sum of h) / n  and  var = (sum over k of (h k - mean) * (h k - mean)) / n,  the result at q is
  (h q - mean) * rsqrt (var + eps) * w q + beta q,  where n and eps are the values of two fixed float words.

  At the ideal values, where a float is an extended real, every operation is exact and a change of format is the
  identity, the device's vector operations on a block of rows and the host's operations on the whole array both
  compute, at row p and column q, this one function of row p of the two row operands, of the weights and of the
  three parameter rows: the same sums in the same order, so the two agree entry by entry with no algebra.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«112340_j85873576116383_2_alg».proof.Proof.Gen.KernelIdeal.Skeleton
import proofs.«112340_j85873576116383_2_alg».proof.Proof.Stages
import proofs.«112340_j85873576116383_2_alg».proof.Proof.LibDenseLayer
import proofs.«112340_j85873576116383_2_alg».proof.Proof.LibRowFolds
import proofs.«112340_j85873576116383_2_alg».proof.Proof.LibBroadcast
import proofs.«112340_j85873576116383_2_alg».proof.Proof.LibHostBroadcast
import proofs.«112340_j85873576116383_2_alg».proof.Proof.LibHostProduct
import proofs.«112340_j85873576116383_2_alg».proof.Proof.LibRowsProduct
import proofs.«112340_j85873576116383_2_alg».proof.Proof.LibRankThree

noncomputable section

namespace Cert.NodeEntry

open Idealize.ShloMosaic Idealize.ShloMosaic.ValueIdx

/-! ## The function of one row -/

/-- The value of the float word of the row length. -/
abbrev C64 : EReal := Ideal.ofBits .f32 0x42800000#32

/-- The value of the float word added to the variance. -/
abbrev Eps : EReal := Ideal.ofBits .f32 0x3727C5AC#32

/-- Two rows joined: the first's 64 entries, then the second's 16. -/
def join (a : Fin 64 → EReal) (g : Fin 16 → EReal) (c : Fin 80) : EReal :=
  if h : c.val < 64 then a ⟨c.val, h⟩ else g ⟨c.val - 64, by have := c.isLt; omega⟩

/-- The affine map of the joined row, at output coordinate q. -/
def lin (a : Fin 64 → EReal) (g : Fin 16 → EReal) (W : (⟨2, ![80, 64]⟩ : Shape).Idx → EReal) (b : Fin 64 → EReal)
    (q : Fin 64) : EReal :=
  Cert.DenseLayer.affine (join a g) W b q

/-- The mean of a row. -/
def rowMean (h : Fin 64 → EReal) : EReal := Ideal.div (∑ k : Fin 64, h k) C64

/-- The variance of a row. -/
def rowVar (h : Fin 64 → EReal) : EReal :=
  Ideal.div (∑ k : Fin 64, (h k - rowMean h) * (h k - rowMean h)) C64

/-- Layer normalisation of a row at q: centred, scaled by the reciprocal root of the variance plus the small
    constant, then scaled by w and shifted by beta. -/
def rowNorm (h w beta : Fin 64 → EReal) (q : Fin 64) : EReal :=
  (h q - rowMean h) * Ideal.rsqrt (rowVar h + Eps) * w q + beta q

/-- The node update of one row at q. -/
def entry (a : Fin 64 → EReal) (g : Fin 16 → EReal) (W : (⟨2, ![80, 64]⟩ : Shape).Idx → EReal)
    (b w beta : Fin 64 → EReal) (q : Fin 64) : EReal :=
  rowNorm (lin a g W b) w beta q

/-- The node update of a row depends only on the row's operands. -/
theorem entry_congr {a a' : Fin 64 → EReal} {g g' : Fin 16 → EReal} {W W' : (⟨2, ![80, 64]⟩ : Shape).Idx → EReal}
    {b b' w w' beta beta' : Fin 64 → EReal} (ha : a = a') (hg : g = g') (hW : W = W') (hb : b = b') (hw : w = w')
    (hbeta : beta = beta') (q : Fin 64) : entry a g W b w beta q = entry a' g' W' b' w' beta' q := by
  subst ha hg hW hb hw hbeta
  rfl

/-! ## The device's operations on a block of 5000 rows -/

section Device

open Cert.KernelIdeal Cert.KernelIdeal.Gen

section Text

variable {F : FTy → Type} [FloatOps F]

/-- The affine part on a block: the two row operands joined along the columns, times the weights into a zero
    accumulator, plus the bias row repeated down the rows. -/
def linBody (v0 : Vec F S5000x64 .f32) (v3 : Vec F S5000x16 .f32) (v7 : Vec F S80x64 .f32) (v11 : Vec F S1x64 .f32) :
    FVec F S5000x64 .f32 :=
  addf (matmul dot_S5000x80_S80x64_S5000x64_1_0_0_1_n_n none
      (concatenate S5000x80 1 [⟨S5000x64, truncf .bf16 (shapeCast S5000x64 v0 shapeCasts_S5000x64_S5000x64) bitsLt_bf16_f32⟩,
          ⟨S5000x16, truncf .bf16 (shapeCast S5000x16 v3 shapeCasts_S5000x16_S5000x16) bitsLt_bf16_f32⟩]
        concatenates_S5000x64_S5000x16_S5000x80_d1)
      (truncf .bf16 (shapeCast S80x64 v7 shapeCasts_S80x64_S80x64) bitsLt_bf16_f32)
      (constant S5000x64 .f32 0x00000000#32))
    (broadcastTo S5000x64 (shapeCast S1x64 v11 shapeCasts_S1x64_S1x64) broadcasts_S1x64_S5000x64)

/-- The mean of every row of the block, as a column. -/
def meanBody (h : FVec F S5000x64 .f32) : FVec F S5000x1 .f32 :=
  divf (shapeCast S5000x1 (multiReduction .add [1] S5000 h 0x00000000#32 reduces_S5000x64_S5000 (.inl rfl) rfl)
      shapeCasts_S5000_S5000x1)
    (broadcast S5000x1 (Scalar.ofBits .f32 0x42800000#32))

/-- Every row centred at its mean. -/
def cenBody (h : FVec F S5000x64 .f32) : FVec F S5000x64 .f32 :=
  subf h (broadcastTo S5000x64 (meanBody h) broadcasts_S5000x1_S5000x64)

/-- The variance of every row, as a column. -/
def varBody (h : FVec F S5000x64 .f32) : FVec F S5000x1 .f32 :=
  divf (shapeCast S5000x1 (multiReduction .add [1] S5000 (mulf (cenBody h) (cenBody h)) 0x00000000#32
        reduces_S5000x64_S5000 (.inl rfl) rfl) shapeCasts_S5000_S5000x1)
    (broadcast S5000x1 (Scalar.ofBits .f32 0x42800000#32))

/-- Layer normalisation of every row of the block. -/
def lnBody (h : FVec F S5000x64 .f32) (v33 v37 : Vec F S1x64 .f32) : FVec F S5000x64 .f32 :=
  addf (mulf (mulf (cenBody h)
        (broadcastTo S5000x64 (rsqrt (addf (varBody h) (broadcast S5000x1 (Scalar.ofBits .f32 0x3727C5AC#32))))
          broadcasts_S5000x1_S5000x64))
      (broadcastTo S5000x64 (shapeCast S1x64 v33 shapeCasts_S1x64_S1x64) broadcasts_S1x64_S5000x64))
    (broadcastTo S5000x64 (shapeCast S1x64 v37 shapeCasts_S1x64_S1x64) broadcasts_S1x64_S5000x64)

/-- The whole body's stored value: the affine part, then layer normalisation. -/
def nodeBody (v0 : Vec F S5000x64 .f32) (v3 : Vec F S5000x16 .f32) (v7 : Vec F S80x64 .f32)
    (v11 v33 v37 : Vec F S1x64 .f32) : FVec F S5000x64 .f32 :=
  lnBody (linBody v0 v3 v7 v11) v33 v37

end Text

/-- The joined operand at (p, c): the first operand's entry below column 64, the second's from there on. -/
theorem joined_apply (v0 : Vec Ideal S5000x64 .f32) (v3 : Vec Ideal S5000x16 .f32) (p : Fin 5000) (c : Fin 80) :
    (concatenate S5000x80 1 [⟨S5000x64, truncf .bf16 v0 bitsLt_bf16_f32⟩, ⟨S5000x16, truncf .bf16 v3 bitsLt_bf16_f32⟩]
        concatenates_S5000x64_S5000x16_S5000x80_d1 : FVec Ideal S5000x80 .bf16) (ix2 p c)
      = join (fun c => v0 (ix2 p c)) (fun c => v3 (ix2 p c)) c := by
  refine (Cert.RankThree.concatenate2_axis1_apply _ _ concatenates_S5000x64_S5000x16_S5000x80_d1 rfl p c).trans ?_
  unfold join
  rfl

/-- The affine part at (p, q) is the affine map of row p. -/
theorem linBody_apply (v0 : Vec Ideal S5000x64 .f32) (v3 : Vec Ideal S5000x16 .f32) (v7 : Vec Ideal S80x64 .f32)
    (v11 : Vec Ideal S1x64 .f32) (p : Fin 5000) (q : Fin 64) :
    linBody (F := Ideal) v0 v3 v7 v11 (ix2 p q)
      = lin (fun c => v0 (ix2 p c)) (fun c => v3 (ix2 p c)) v7 (fun q => v11 (ix2 (0 : Fin 1) q)) q := by
  unfold linBody
  refine (Cert.DenseLayer.tpu_affine_apply dot_S5000x80_S80x64_S5000x64_1_0_0_1_n_n_wf broadcasts_S1x64_S5000x64
    _ _ _ p q).trans ?_
  unfold lin
  simp only [shapeCast_self]
  exact congrArg (fun z => Cert.DenseLayer.affine z v7 (fun q => v11 (ix2 (0 : Fin 1) q)) q)
    (funext fun c => joined_apply v0 v3 p c)

/-- The mean column at row p is the mean of row p. -/
theorem meanBody_apply (h : FVec Ideal S5000x64 .f32) (p : Fin 5000) :
    meanBody (F := Ideal) h (ix2 p (0 : Fin 1)) = rowMean (fun k => h (ix2 p k)) := by
  have e : shapeCast S5000x1 (multiReduction .add [1] S5000 h 0x00000000#32 reduces_S5000x64_S5000 (.inl rfl) rfl)
      shapeCasts_S5000_S5000x1 (ix2 p (0 : Fin 1)) = ∑ k : Fin 64, h (ix2 p k) :=
    (Cert.Layout.shapeCast_col_apply _ shapeCasts_S5000_S5000x1 p).trans
      (Cert.RowFolds.laneSum_apply h 0x00000000#32 reduces_S5000x64_S5000 (.inl rfl) rfl p)
  exact congrArg (fun s => Ideal.div s C64) e

/-- The centred block at (p, k) is row p's entry minus row p's mean. -/
theorem cenBody_apply (h : FVec Ideal S5000x64 .f32) (p : Fin 5000) (k : Fin 64) :
    cenBody (F := Ideal) h (ix2 p k) = h (ix2 p k) - rowMean (fun k => h (ix2 p k)) := by
  have e : broadcastTo S5000x64 (meanBody (F := Ideal) h) broadcasts_S5000x1_S5000x64 (ix2 p k)
      = rowMean (fun k => h (ix2 p k)) :=
    (Cert.Layout.broadcastTo_a1_ab_apply _ broadcasts_S5000x1_S5000x64 p k).trans (meanBody_apply h p)
  exact congrArg (fun s => h (ix2 p k) - s) e

/-- The variance column at row p is the variance of row p. -/
theorem varBody_apply (h : FVec Ideal S5000x64 .f32) (p : Fin 5000) :
    varBody (F := Ideal) h (ix2 p (0 : Fin 1)) = rowVar (fun k => h (ix2 p k)) := by
  have e : shapeCast S5000x1 (multiReduction .add [1] S5000 (mulf (cenBody (F := Ideal) h) (cenBody h)) 0x00000000#32
      reduces_S5000x64_S5000 (.inl rfl) rfl) shapeCasts_S5000_S5000x1 (ix2 p (0 : Fin 1))
      = ∑ k : Fin 64, (h (ix2 p k) - rowMean (fun k => h (ix2 p k))) * (h (ix2 p k) - rowMean (fun k => h (ix2 p k))) :=
    ((Cert.Layout.shapeCast_col_apply _ shapeCasts_S5000_S5000x1 p).trans
      (Cert.RowFolds.laneSum_apply _ 0x00000000#32 reduces_S5000x64_S5000 (.inl rfl) rfl p)).trans
      (Finset.sum_congr rfl fun k _ => by
        show cenBody (F := Ideal) h (ix2 p k) * cenBody (F := Ideal) h (ix2 p k) = _
        rw [cenBody_apply])
  exact congrArg (fun s => Ideal.div s C64) e

/-- Layer normalisation of the block at (p, q) is the normalisation of row p. -/
theorem lnBody_apply (h : FVec Ideal S5000x64 .f32) (v33 v37 : Vec Ideal S1x64 .f32) (p : Fin 5000) (q : Fin 64) :
    lnBody (F := Ideal) h v33 v37 (ix2 p q)
      = rowNorm (fun k => h (ix2 p k)) (fun q => v33 (ix2 (0 : Fin 1) q)) (fun q => v37 (ix2 (0 : Fin 1) q)) q := by
  have e1 := cenBody_apply h p q
  have e2 : broadcastTo S5000x64 (rsqrt (addf (varBody (F := Ideal) h) (broadcast S5000x1 (Scalar.ofBits .f32 0x3727C5AC#32))))
      broadcasts_S5000x1_S5000x64 (ix2 p q) = Ideal.rsqrt (rowVar (fun k => h (ix2 p k)) + Eps) :=
    (Cert.Layout.broadcastTo_a1_ab_apply _ broadcasts_S5000x1_S5000x64 p q).trans
      (congrArg (fun s => Ideal.rsqrt (s + Eps)) (varBody_apply h p))
  have e3 : broadcastTo S5000x64 (shapeCast S1x64 v33 shapeCasts_S1x64_S1x64) broadcasts_S1x64_S5000x64 (ix2 p q)
      = v33 (ix2 (0 : Fin 1) q) := by
    rw [shapeCast_self]; exact Cert.RowsProduct.broadcastTo_1n_an_apply _ broadcasts_S1x64_S5000x64 p q
  have e4 : broadcastTo S5000x64 (shapeCast S1x64 v37 shapeCasts_S1x64_S1x64) broadcasts_S1x64_S5000x64 (ix2 p q)
      = v37 (ix2 (0 : Fin 1) q) := by
    rw [shapeCast_self]; exact Cert.RowsProduct.broadcastTo_1n_an_apply _ broadcasts_S1x64_S5000x64 p q
  show cenBody (F := Ideal) h (ix2 p q) * _ * _ + _ = _
  rw [e1, e2, e3, e4]
  rfl

/-- The body's stored value at (p, q) is the node update of row p of the blocks. -/
theorem nodeBody_apply (v0 : Vec Ideal S5000x64 .f32) (v3 : Vec Ideal S5000x16 .f32) (v7 : Vec Ideal S80x64 .f32)
    (v11 v33 v37 : Vec Ideal S1x64 .f32) (p : Fin 5000) (q : Fin 64) :
    nodeBody (F := Ideal) v0 v3 v7 v11 v33 v37 (ix2 p q)
      = entry (fun c => v0 (ix2 p c)) (fun c => v3 (ix2 p c)) v7 (fun q => v11 (ix2 (0 : Fin 1) q))
          (fun q => v33 (ix2 (0 : Fin 1) q)) (fun q => v37 (ix2 (0 : Fin 1) q)) q := by
  unfold nodeBody entry
  rw [lnBody_apply]
  exact congrArg (fun z => rowNorm z (fun q => v33 (ix2 (0 : Fin 1) q)) (fun q => v37 (ix2 (0 : Fin 1) q)) q)
    (funext fun k => linBody_apply v0 v3 v7 v11 p k)

end Device

/-! ## The host's operations on the whole arrays of 100000 rows -/

section Host

open Cert.ReferenceIdeal Cert.ReferenceIdeal.Gen Cert.Stages

set_option quotPrecheck false in
local notation "A[" s "]" => FVec Ideal s .f32

/-- A one-row matrix repeated down the rows by the host: at (p, q) the row's entry q. -/
theorem hostRow_apply {α : Type} {a n : ℕ} (v : (⟨2, ![1, n]⟩ : Shape).Idx → α)
    (h2 : (⟨2, ![1, n]⟩ : Shape).BroadcastsInDim ⟨2, ![a, n]⟩ ![0, 1]) (p : Fin a) (q : Fin n) :
    broadcastInDim ⟨2, ![a, n]⟩ ![0, 1] h2 v (ix2 p q) = v (ix2 (0 : Fin 1) q) :=
  broadcastInDim_apply ![0, 1] h2 v (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)

/-- Dropping the second axis of a [100000, 64] array leaves its 100000 rows. -/
theorem reduces_rows : S100000x64.Reduces [1] S100000 := by decide

/-- The host's sum along the rows from the zero word, at row r: the sum of the row. -/
theorem hostRowSum_apply (x : A[S100000x64]) (r : Fin 100000) :
    Host.reduceAdd (F := Ideal) x (constant (F := Ideal) S_ .f32 0x00000000#32) reducesTo_S100000x64_S100000_d1 h_S_ (ix1 r)
      = ∑ k : Fin 64, x (ix2 r k) := by
  refine (hostReduceAdd_apply x _ reducesTo_S100000x64_S100000_d1 h_S_ (ix1 r)).trans ?_
  refine (Ideal.hostReduceAdd_single reducesTo_S100000x64_S100000_d1 reduces_rows x _ (ix1 r)).trans ?_
  rw [constant_apply, Ideal.ofBits_zero_f32, zero_add]
  exact Finset.sum_congr rfl fun k _ => congrArg x (Cert.RowFolds.lift_row reduces_rows r k)

/-- The two whole operands joined along the columns, at (r, c). -/
theorem hostJoined_apply (aggr : A[S100000x64]) (g : A[S100000x16]) (r : Fin 100000) (c : Fin 80) :
    (concatenate S100000x80 1 [⟨S100000x64, aggr⟩, ⟨S100000x16, g⟩] concatenates_S100000x64_S100000x16_S100000x80_d1
      : A[S100000x80]) (ix2 r c) = join (fun c => aggr (ix2 r c)) (fun c => g (ix2 r c)) c := by
  refine (Cert.RankThree.concatenate2_axis1_apply _ _ concatenates_S100000x64_S100000x16_S100000x80_d1 rfl r c).trans ?_
  unfold join
  rfl

/-- The host's affine part at (r, q) is the affine map of row r. -/
theorem nodeLin_apply (aggr : A[S100000x64]) (g : A[S100000x16]) (wu : A[S80x64]) (bur : A[S1x64])
    (r : Fin 100000) (q : Fin 64) :
    nodeLin (F := Ideal) aggr g wu bur (ix2 r q)
      = lin (fun c => aggr (ix2 r c)) (fun c => g (ix2 r c)) wu (fun q => bur (ix2 (0 : Fin 1) q)) q := by
  have e1 : Host.dotGeneral (F := Ideal) dot_S100000x80_S80x64_S100000x64_1_0_0_1_n_n none
      (concatenate S100000x80 1 [⟨S100000x64, aggr⟩, ⟨S100000x16, g⟩] concatenates_S100000x64_S100000x16_S100000x80_d1) wu (ix2 r q)
      = ∑ c : Fin 80, join (fun c => aggr (ix2 r c)) (fun c => g (ix2 r c)) c * wu (ix2 c q) :=
    (Cert.HostProduct.dotGeneral_nn_apply dot_S100000x80_S80x64_S100000x64_1_0_0_1_n_n_wf none _ wu r q).trans
      (Finset.sum_congr rfl fun c _ => congrArg (fun z => z * wu (ix2 c q)) (hostJoined_apply aggr g r c))
  have e2 : broadcastInDim S100000x64 ![0, 1] bcast_S1x64_S100000x64_0_1 bur (ix2 r q) = bur (ix2 (0 : Fin 1) q) :=
    hostRow_apply bur bcast_S1x64_S100000x64_0_1 r q
  show _ + _ = _
  rw [e1, e2]
  rfl

/-- The host's mean column at row r is the mean of row r. -/
theorem meanN_apply (h : A[S100000x64]) (r : Fin 100000) :
    meanN (F := Ideal) h (ix2 r (0 : Fin 1)) = rowMean (fun k => h (ix2 r k)) := by
  have e1 : broadcastInDim S100000x1 ![0] bcast_S100000_S100000x1_0
      (Host.reduceAdd (F := Ideal) h (constant (F := Ideal) S_ .f32 0x00000000#32) reducesTo_S100000x64_S100000_d1 h_S_)
      (ix2 r (0 : Fin 1)) = ∑ k : Fin 64, h (ix2 r k) :=
    (Cert.HostBroadcast.col_one_apply _ bcast_S100000_S100000x1_0 r).trans (hostRowSum_apply h r)
  have e2 : broadcastInDim S100000x1 ![] bcast_S_S100000x1 (constant (F := Ideal) S_ .f32 0x42800000#32) (ix2 r (0 : Fin 1))
      = C64 := Cert.HostBroadcast.scalar_apply _ _ bcast_S_S100000x1 _
  show Ideal.div _ _ = _
  rw [e1, e2]
  rfl

section Text

variable {F : FTy → Type} [FloatOps F]

set_option quotPrecheck false in
local notation "T[" s "]" => (⟨s, .f32⟩ : BufTy).Contents (Elt F)

/-- Every row of the whole array centred at its mean. -/
def cenN (h : T[S100000x64]) : T[S100000x64] :=
  subf h (broadcastInDim S100000x64 ![0, 1] bcast_S100000x1_S100000x64_0_1 (meanN h))

/-- The variance of every row of the whole array, as a column. -/
def varN (h : T[S100000x64]) : T[S100000x1] :=
  Host.divf (broadcastInDim S100000x1 ![0] bcast_S100000_S100000x1_0 (Host.reduceAdd (mulf (cenN h) (cenN h))
      (constant S_ .f32 0x00000000#32) reducesTo_S100000x64_S100000_d1 h_S_))
    (broadcastInDim S100000x1 ![] bcast_S_S100000x1 (constant S_ .f32 0x42800000#32))

/-- The host's layer normalisation, with the centred array and the variance column named. -/
theorem lnormN_eq (h : T[S100000x64]) (wr br : T[S1x64]) :
    lnormN h wr br = addf (mulf (mulf (cenN h)
        (broadcastInDim S100000x64 ![0, 1] bcast_S100000x1_S100000x64_0_1 (Host.rsqrt (addf (varN h)
          (broadcastInDim S100000x1 ![] bcast_S_S100000x1 (constant S_ .f32 0x3727C5AC#32))))))
        (broadcastInDim S100000x64 ![0, 1] bcast_S1x64_S100000x64_0_1 wr))
      (broadcastInDim S100000x64 ![0, 1] bcast_S1x64_S100000x64_0_1 br) := rfl

end Text

/-- The centred whole array at (r, k) is row r's entry minus row r's mean. -/
theorem cenN_apply (h : A[S100000x64]) (r : Fin 100000) (k : Fin 64) :
    cenN (F := Ideal) h (ix2 r k) = h (ix2 r k) - rowMean (fun k => h (ix2 r k)) :=
  congrArg (fun s => h (ix2 r k) - s)
    ((Cert.HostBroadcast.col_spread_apply _ bcast_S100000x1_S100000x64_0_1 r k).trans (meanN_apply h r))

/-- The host's variance column at row r is the variance of row r. -/
theorem varN_apply (h : A[S100000x64]) (r : Fin 100000) :
    varN (F := Ideal) h (ix2 r (0 : Fin 1)) = rowVar (fun k => h (ix2 r k)) := by
  have e1 : broadcastInDim S100000x1 ![0] bcast_S100000_S100000x1_0
      (Host.reduceAdd (F := Ideal) (mulf (cenN (F := Ideal) h) (cenN (F := Ideal) h)) (constant (F := Ideal) S_ .f32 0x00000000#32)
        reducesTo_S100000x64_S100000_d1 h_S_) (ix2 r (0 : Fin 1))
      = ∑ k : Fin 64, (h (ix2 r k) - rowMean (fun k => h (ix2 r k))) * (h (ix2 r k) - rowMean (fun k => h (ix2 r k))) :=
    ((Cert.HostBroadcast.col_one_apply _ bcast_S100000_S100000x1_0 r).trans (hostRowSum_apply _ r)).trans
      (Finset.sum_congr rfl fun k _ => by
        show cenN (F := Ideal) h (ix2 r k) * cenN (F := Ideal) h (ix2 r k) = _
        rw [cenN_apply])
  have e2 : broadcastInDim S100000x1 ![] bcast_S_S100000x1 (constant (F := Ideal) S_ .f32 0x42800000#32) (ix2 r (0 : Fin 1))
      = C64 := Cert.HostBroadcast.scalar_apply _ _ bcast_S_S100000x1 _
  show Ideal.div _ _ = _
  rw [e1, e2]
  rfl

/-- The host's layer normalisation at (r, q) is the normalisation of row r. -/
theorem lnormN_apply (h : A[S100000x64]) (wr br : A[S1x64]) (r : Fin 100000) (q : Fin 64) :
    lnormN (F := Ideal) h wr br (ix2 r q)
      = rowNorm (fun k => h (ix2 r k)) (fun q => wr (ix2 (0 : Fin 1) q)) (fun q => br (ix2 (0 : Fin 1) q)) q := by
  have e1 := cenN_apply h r q
  have e2 : broadcastInDim S100000x64 ![0, 1] bcast_S100000x1_S100000x64_0_1 (Host.rsqrt (addf (varN (F := Ideal) h)
      (broadcastInDim S100000x1 ![] bcast_S_S100000x1 (constant (F := Ideal) S_ .f32 0x3727C5AC#32)))) (ix2 r q)
      = Ideal.rsqrt (rowVar (fun k => h (ix2 r k)) + Eps) := by
    refine (Cert.HostBroadcast.col_spread_apply _ bcast_S100000x1_S100000x64_0_1 r q).trans ?_
    show Ideal.rsqrt (varN (F := Ideal) h (ix2 r (0 : Fin 1)) + _) = _
    rw [varN_apply, Cert.HostBroadcast.scalar_apply]
    rfl
  have e3 : broadcastInDim S100000x64 ![0, 1] bcast_S1x64_S100000x64_0_1 wr (ix2 r q) = wr (ix2 (0 : Fin 1) q) :=
    hostRow_apply wr bcast_S1x64_S100000x64_0_1 r q
  have e4 : broadcastInDim S100000x64 ![0, 1] bcast_S1x64_S100000x64_0_1 br (ix2 r q) = br (ix2 (0 : Fin 1) q) :=
    hostRow_apply br bcast_S1x64_S100000x64_0_1 r q
  rw [lnormN_eq]
  show cenN (F := Ideal) h (ix2 r q) * _ * _ + _ = _
  rw [e1, e2, e3, e4]
  rfl

/-- The host's node update at (r, q) is the node update of row r of the whole arrays. -/
theorem nodeH_apply (aggr : A[S100000x64]) (g : A[S100000x16]) (wu : A[S80x64]) (bur lnwr lnbr : A[S1x64])
    (r : Fin 100000) (q : Fin 64) :
    nodeH (F := Ideal) aggr g wu bur lnwr lnbr (ix2 r q)
      = entry (fun c => aggr (ix2 r c)) (fun c => g (ix2 r c)) wu (fun q => bur (ix2 (0 : Fin 1) q))
          (fun q => lnwr (ix2 (0 : Fin 1) q)) (fun q => lnbr (ix2 (0 : Fin 1) q)) q := by
  unfold nodeH entry
  rw [lnormN_apply]
  exact congrArg (fun z => rowNorm z (fun q => lnwr (ix2 (0 : Fin 1) q)) (fun q => lnbr (ix2 (0 : Fin 1) q)) q)
    (funext fun k => nodeLin_apply aggr g wu bur r k)

end Host

end Cert.NodeEntry

end
-- ==== Proof.NodeBlocks1.lean ====
/-
  From blocks to the whole array, for one node-update region: the region's grid has 20 points, point t works on rows
  5000 t .. 5000 t + 4999 of the two row operands and of the output, and on the whole of the weights and of the three
  parameter rows.  What point t writes back is therefore block t of ONE function of the arrays as the region finds
  them, the node update of every row; the 20 blocks tile the 100000 rows, so after the last point the output array
  is that function.
-/
import Idealize.ShloMosaic.Lib.ValueIdx
import Idealize.ShloMosaic.Lib.Pipeline.Value
import proofs.«112340_j85873576116383_2_alg».proof.Proof.Gen.KernelIdeal.Frame
import proofs.«112340_j85873576116383_2_alg».proof.Proof.Stages
import proofs.«112340_j85873576116383_2_alg».proof.Proof.NodeEntry

set_option maxRecDepth 16384

noncomputable section

namespace Cert.NodeBlocks1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the node update's text on the loaded blocks. -/
theorem pay_eq (v0 : Vec Ideal S5000x64 .f32) (v3 : Vec Ideal S5000x16 .f32) (v7 : Vec Ideal S80x64 .f32)
    (v11 v33 v37 : Vec Ideal S1x64 .f32) :
    k1_pay1 (F := Ideal) v0 v3 v7 v11 v33 v37 = Cert.NodeEntry.nodeBody (F := Ideal) v0 v3 v7 v11 v33 v37 := rfl

/-- The printed index maps, decided over the grid: the row operands and the output are at block (t, 0), the weights
    and the parameter rows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of block t is a row of the whole array. -/
theorem row_lt (t : Fin cfg1.N) (p : Fin 5000) : t.val * 5000 + p.val < 100000 := by
  have hN : cfg1.N = 20 := N_1
  have ht := t.isLt
  have hp := p.isLt
  omega

/-- The global row of row p of block t. -/
abbrev grow (t : Fin cfg1.N) (p : Fin 5000) : Fin 100000 := ⟨t.val * 5000 + p.val, row_lt t p⟩

/-- Window 0's block entry (p, k) at point t is the whole array's entry (5000 t + p, k). -/
theorem blk0_apply (c : Dev nD) (t : Fin cfg1.N) (p : Fin 5000) (k : Fin 64) :
    iblk1 V c 0 t (ix2 p k) = V c (Pipeline.arrRef spec1 0) (ix2 (grow t p) k) := by
  obtain ⟨e00, e01, e10, e11, e20, e21, e30, e31, e40, e41, e50, e51, e60, e61⟩ := idx_facts t
  show V c (Pipeline.arrRef spec1 0) (((cfg1.win 0).blk t).view.emb (ix2 p k)) = _
  refine congrArg (V c (Pipeline.arrRef spec1 0)) ?_
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

/-- Window 1's block entry (p, k) at point t is the whole array's entry (5000 t + p, k). -/
theorem blk1_apply (c : Dev nD) (t : Fin cfg1.N) (p : Fin 5000) (k : Fin 16) :
    iblk1 V c 1 t (ix2 p k) = V c (Pipeline.arrRef spec1 1) (ix2 (grow t p) k) := by
  obtain ⟨e00, e01, e10, e11, e20, e21, e30, e31, e40, e41, e50, e51, e60, e61⟩ := idx_facts t
  show V c (Pipeline.arrRef spec1 1) (((cfg1.win 1).blk t).view.emb (ix2 p k)) = _
  refine congrArg (V c (Pipeline.arrRef spec1 1)) ?_
  funext a; apply Fin.ext
  match a with
  | ⟨0, _⟩ => show win1_1.index t (0 : Fin 2) * 5000 + 1 * p.val = t.val * 5000 + p.val; omega
  | ⟨1, _⟩ => show win1_1.index t (1 : Fin 2) * 16 + 1 * k.val = k.val; omega

/-- Window 2's block at every point is the whole weights array. -/
theorem blk2_apply (c : Dev nD) (t : Fin cfg1.N) (y : S80x64.Idx) :
    iblk1 V c 2 t y = V c (Pipeline.arrRef spec1 2) y := by
  obtain ⟨e00, e01, e10, e11, e20, e21, e30, e31, e40, e41, e50, e51, e60, e61⟩ := idx_facts t
  show V c (Pipeline.arrRef spec1 2) (((cfg1.win 2).blk t).view.emb y) = _
  refine congrArg (V c (Pipeline.arrRef spec1 2)) ?_
  funext a; apply Fin.ext
  match a with
  | ⟨0, _⟩ => show win1_2.index t (0 : Fin 2) * 80 + 1 * (y 0).val = (y 0).val; omega
  | ⟨1, _⟩ => show win1_2.index t (1 : Fin 2) * 64 + 1 * (y 1).val = (y 1).val; omega

/-- Window 3's block at every point is the whole parameter row. -/
theorem blk3_apply (c : Dev nD) (t : Fin cfg1.N) (y : S1x64.Idx) :
    iblk1 V c 3 t y = V c (Pipeline.arrRef spec1 3) y := by
  obtain ⟨e00, e01, e10, e11, e20, e21, e30, e31, e40, e41, e50, e51, e60, e61⟩ := idx_facts t
  show V c (Pipeline.arrRef spec1 3) (((cfg1.win 3).blk t).view.emb y) = _
  refine congrArg (V c (Pipeline.arrRef spec1 3)) ?_
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Window 4's block at every point is the whole parameter row. -/
theorem blk4_apply (c : Dev nD) (t : Fin cfg1.N) (y : S1x64.Idx) :
    iblk1 V c 4 t y = V c (Pipeline.arrRef spec1 4) y := by
  obtain ⟨e00, e01, e10, e11, e20, e21, e30, e31, e40, e41, e50, e51, e60, e61⟩ := idx_facts t
  show V c (Pipeline.arrRef spec1 4) (((cfg1.win 4).blk t).view.emb y) = _
  refine congrArg (V c (Pipeline.arrRef spec1 4)) ?_
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- Window 5's block at every point is the whole parameter row. -/
theorem blk5_apply (c : Dev nD) (t : Fin cfg1.N) (y : S1x64.Idx) :
    iblk1 V c 5 t y = V c (Pipeline.arrRef spec1 5) y := by
  obtain ⟨e00, e01, e10, e11, e20, e21, e30, e31, e40, e41, e50, e51, e60, e61⟩ := idx_facts t
  show V c (Pipeline.arrRef spec1 5) (((cfg1.win 5).blk t).view.emb y) = _
  refine congrArg (V c (Pipeline.arrRef spec1 5)) ?_
  funext a; apply Fin.ext
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- The node update of the whole arrays as the region finds them. -/
abbrev whole (c : Dev nD) : FVec Ideal S100000x64 .f32 :=
  Cert.Stages.nodeH (F := Ideal) (V c (Pipeline.arrRef spec1 0)) (V c (Pipeline.arrRef spec1 1))
    (V c (Pipeline.arrRef spec1 2)) (V c (Pipeline.arrRef spec1 3)) (V c (Pipeline.arrRef spec1 4))
    (V c (Pipeline.arrRef spec1 5))

/-- The output block's entry (p, q) at point t sits in the output array at (5000 t + p, q). -/
theorem emb6 (t : Fin cfg1.N) (p : Fin 5000) (q : Fin 64) :
    ((cfg1.win 6).blk t).view.emb (ix2 p q) = ix2 (grow t p) q := by
  obtain ⟨e00, e01, e10, e11, e20, e21, e30, e31, e40, e41, e50, e51, e60, e61⟩ := idx_facts t
  funext a; apply Fin.ext
  match a with
  | ⟨0, _⟩ => show win1_6.index t (0 : Fin 2) * 5000 + 1 * p.val = t.val * 5000 + p.val; omega
  | ⟨1, _⟩ => show win1_6.index t (1 : Fin 2) * 64 + 1 * q.val = q.val; omega

/-- WHAT POINT t WRITES BACK is block t of the node update of the whole arrays. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x16) hz,
    View.ld_unit_zero (S := S80x64) hz, View.ld_unit_zero (S := S1x64) hz]
  rw [pay_eq]
  funext j
  obtain ⟨p, q, rfl⟩ : ∃ (p : Fin 5000) (q : Fin 64), j = ix2 p q := ⟨j 0, j 1, eq_ix2 j⟩
  show Cert.NodeEntry.nodeBody (F := Ideal) (iblk1 V c 0 t) (iblk1 V c 1 t) (iblk1 V c 2 t) (iblk1 V c 3 t)
      (iblk1 V c 4 t) (iblk1 V c 5 t) (ix2 p q)
    = whole V c (((cfg1.win 6).blk t).view.emb (ix2 p q))
  rw [emb6 t p q]
  refine (Cert.NodeEntry.nodeBody_apply (iblk1 V c 0 t) (iblk1 V c 1 t) (iblk1 V c 2 t) (iblk1 V c 3 t)
    (iblk1 V c 4 t) (iblk1 V c 5 t) p q).trans ?_
  refine Eq.trans ?_ (Cert.NodeEntry.nodeH_apply (V c (Pipeline.arrRef spec1 0)) (V c (Pipeline.arrRef spec1 1))
    (V c (Pipeline.arrRef spec1 2)) (V c (Pipeline.arrRef spec1 3)) (V c (Pipeline.arrRef spec1 4))
    (V c (Pipeline.arrRef spec1 5)) (grow t p) q).symm
  exact Cert.NodeEntry.entry_congr (funext fun k => blk0_apply V c t p k) (funext fun k => blk1_apply V c t p k)
    (funext fun y => blk2_apply V c t y) (funext fun k => blk3_apply V c t (ix2 (0 : Fin 1) k))
    (funext fun k => blk4_apply V c t (ix2 (0 : Fin 1) k)) (funext fun k => blk5_apply V c t (ix2 (0 : Fin 1) k)) q

/-- An index of the output array is in point t's block iff each coordinate is in the block's range on its axis. -/
theorem mem_blk (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v43).slice (win1_6.rect t)).set ↔ _
  rw [View.set_slice_whole, Rect.mem_set_unit]
  exact Iff.rfl

/-- Every row of the output array is in the block of the point its row number divided by 5000 names. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have ht : (i 0).val / 5000 < cfg1.N := by omega
  obtain ⟨e00, e01, e10, e11, e20, e21, e30, e31, e40, e41, e50, e51, e60, e61⟩ := idx_facts ⟨(i 0).val / 5000, ht⟩
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    have e : win1_6.index ⟨(i 0).val / 5000, ht⟩ (0 : Fin 2) = (i 0).val / 5000 := e60
    omega
  | ⟨1, _⟩ =>
    show win1_6.index ⟨(i 0).val / 5000, ht⟩ (1 : Fin 2) * 64 ≤ (i 1).val
      ∧ (i 1).val < win1_6.index ⟨(i 0).val / 5000, ht⟩ (1 : Fin 2) * 64 + 64
    omega

/-- THE OUTPUT ARRAY after the region's last point is the node update of the arrays as the region finds them. -/
theorem final1 (c : Dev nD) :
    (dat1 (F := Ideal) V c).arrAt 6 cfg1.N
      = Cert.Stages.nodeH (F := Ideal) (V c (Pipeline.arrRef spec1 0)) (V c (Pipeline.arrRef spec1 1))
          (V c (Pipeline.arrRef spec1 2)) (V c (Pipeline.arrRef spec1 3)) (V c (Pipeline.arrRef spec1 4))
          (V c (Pipeline.arrRef spec1 5)) :=
  (dat1 V c).arrAt_eq_of_cover 6 (whole V c) (fun t _ => flushed_eq V c t) cover

end Cert.NodeBlocks1

end
-- ==== Proof.NodeBlocks3.lean ====
/-
  From blocks to the whole array, for one node-update region: the region's grid has 20 points, point t works on rows
  5000 t .. 5000 t + 4999 of the two row operands and of the output, and on the whole of the weights and of the three
  parameter rows.  What point t writes back is therefore block t of ONE function of the arrays as the region finds
  them, the node update of every row; the 20 blocks tile the 100000 rows, so after the last point the output array
  is that function.
-/
import Idealize.ShloMosaic.Lib.ValueIdx
import Idealize.ShloMosaic.Lib.Pipeline.Value
import proofs.«112340_j85873576116383_2_alg».proof.Proof.Gen.KernelIdeal.Frame
import proofs.«112340_j85873576116383_2_alg».proof.Proof.Stages
import proofs.«112340_j85873576116383_2_alg».proof.Proof.NodeEntry

set_option maxRecDepth 16384

noncomputable section

namespace Cert.NodeBlocks3

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the node update's text on the loaded blocks. -/
theorem pay_eq (v0 : Vec Ideal S5000x64 .f32) (v3 : Vec Ideal S5000x16 .f32) (v7 : Vec Ideal S80x64 .f32)
    (v11 v33 v37 : Vec Ideal S1x64 .f32) :
    k3_pay1 (F := Ideal) v0 v3 v7 v11 v33 v37 = Cert.NodeEntry.nodeBody (F := Ideal) v0 v3 v7 v11 v33 v37 := rfl

/-- The printed index maps, decided over the grid: the row operands and the output are at block (t, 0), the weights
    and the parameter rows at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row p of block t is a row of the whole array. -/
theorem row_lt (t : Fin cfg3.N) (p : Fin 5000) : t.val * 5000 + p.val < 100000 := by
  have hN : cfg3.N = 20 := N_3
  have ht := t.isLt
  have hp := p.isLt
  omega

/-- The global row of row p of block t. -/
abbrev grow (t : Fin cfg3.N) (p : Fin 5000) : Fin 100000 := ⟨t.val * 5000 + p.val, row_lt t p⟩

/-- Window 0's block entry (p, k) at point t is the whole array's entry (5000 t + p, k). -/
theorem blk0_apply (c : Dev nD) (t : Fin cfg3.N) (p : Fin 5000) (k : Fin 64) :
    iblk3 V c 0 t (ix2 p k) = V c (Pipeline.arrRef spec3 0) (ix2 (grow t p) k) := by
  obtain ⟨e00, e01, e10, e11, e20, e21, e30, e31, e40, e41, e50, e51, e60, e61⟩ := idx_facts t
  show V c (Pipeline.arrRef spec3 0) (((cfg3.win 0).blk t).view.emb (ix2 p k)) = _
  refine congrArg (V c (Pipeline.arrRef spec3 0)) ?_
  funext a; apply Fin.ext
  match a with
  | ⟨0, _⟩ => show win3_0.index t (0 : Fin 2) * 5000 + 1 * p.val = t.val * 5000 + p.val; omega
  | ⟨1, _⟩ => show win3_0.index t (1 : Fin 2) * 64 + 1 * k.val = k.val; omega

/-- Window 1's block entry (p, k) at point t is the whole array's entry (5000 t + p, k). -/
theorem blk1_apply (c : Dev nD) (t : Fin cfg3.N) (p : Fin 5000) (k : Fin 16) :
    iblk3 V c 1 t (ix2 p k) = V c (Pipeline.arrRef spec3 1) (ix2 (grow t p) k) := by
  obtain ⟨e00, e01, e10, e11, e20, e21, e30, e31, e40, e41, e50, e51, e60, e61⟩ := idx_facts t
  show V c (Pipeline.arrRef spec3 1) (((cfg3.win 1).blk t).view.emb (ix2 p k)) = _
  refine congrArg (V c (Pipeline.arrRef spec3 1)) ?_
  funext a; apply Fin.ext
  match a with
  | ⟨0, _⟩ => show win3_1.index t (0 : Fin 2) * 5000 + 1 * p.val = t.val * 5000 + p.val; omega
  | ⟨1, _⟩ => show win3_1.index t (1 : Fin 2) * 16 + 1 * k.val = k.val; omega

/-- Window 2's block at every point is the whole weights array. -/
theorem blk2_apply (c : Dev nD) (t : Fin cfg3.N) (y : S80x64.Idx) :
    iblk3 V c 2 t y = V c (Pipeline.arrRef spec3 2) y := by
  obtain ⟨e00, e01, e10, e11, e20, e21, e30, e31, e40, e41, e50, e51, e60, e61⟩ := idx_facts t
  show V c (Pipeline.arrRef spec3 2) (((cfg3.win 2).blk t).view.emb y) = _
  refine congrArg (V c (Pipeline.arrRef spec3 2)) ?_
  funext a; apply Fin.ext
  match a with
  | ⟨0, _⟩ => show win3_2.index t (0 : Fin 2) * 80 + 1 * (y 0).val = (y 0).val; omega
  | ⟨1, _⟩ => show win3_2.index t (1 : Fin 2) * 64 + 1 * (y 1).val = (y 1).val; omega

/-- Window 3's block at every point is the whole parameter row. -/
theorem blk3_apply (c : Dev nD) (t : Fin cfg3.N) (y : S1x64.Idx) :
    iblk3 V c 3 t y = V c (Pipeline.arrRef spec3 3) y := by
  obtain ⟨e00, e01, e10, e11, e20, e21, e30, e31, e40, e41, e50, e51, e60, e61⟩ := idx_facts t
  show V c (Pipeline.arrRef spec3 3) (((cfg3.win 3).blk t).view.emb y) = _
  refine congrArg (V c (Pipeline.arrRef spec3 3)) ?_
  funext a; apply Fin.ext
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- Window 4's block at every point is the whole parameter row. -/
theorem blk4_apply (c : Dev nD) (t : Fin cfg3.N) (y : S1x64.Idx) :
    iblk3 V c 4 t y = V c (Pipeline.arrRef spec3 4) y := by
  obtain ⟨e00, e01, e10, e11, e20, e21, e30, e31, e40, e41, e50, e51, e60, e61⟩ := idx_facts t
  show V c (Pipeline.arrRef spec3 4) (((cfg3.win 4).blk t).view.emb y) = _
  refine congrArg (V c (Pipeline.arrRef spec3 4)) ?_
  funext a; apply Fin.ext
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- Window 5's block at every point is the whole parameter row. -/
theorem blk5_apply (c : Dev nD) (t : Fin cfg3.N) (y : S1x64.Idx) :
    iblk3 V c 5 t y = V c (Pipeline.arrRef spec3 5) y := by
  obtain ⟨e00, e01, e10, e11, e20, e21, e30, e31, e40, e41, e50, e51, e60, e61⟩ := idx_facts t
  show V c (Pipeline.arrRef spec3 5) (((cfg3.win 5).blk t).view.emb y) = _
  refine congrArg (V c (Pipeline.arrRef spec3 5)) ?_
  funext a; apply Fin.ext
  match a with
  | ⟨0, _⟩ => show win3_5.index t (0 : Fin 2) * 1 + 1 * (y 0).val = (y 0).val; omega
  | ⟨1, _⟩ => show win3_5.index t (1 : Fin 2) * 64 + 1 * (y 1).val = (y 1).val; omega

/-- The node update of the whole arrays as the region finds them. -/
abbrev whole (c : Dev nD) : FVec Ideal S100000x64 .f32 :=
  Cert.Stages.nodeH (F := Ideal) (V c (Pipeline.arrRef spec3 0)) (V c (Pipeline.arrRef spec3 1))
    (V c (Pipeline.arrRef spec3 2)) (V c (Pipeline.arrRef spec3 3)) (V c (Pipeline.arrRef spec3 4))
    (V c (Pipeline.arrRef spec3 5))

/-- The output block's entry (p, q) at point t sits in the output array at (5000 t + p, q). -/
theorem emb6 (t : Fin cfg3.N) (p : Fin 5000) (q : Fin 64) :
    ((cfg3.win 6).blk t).view.emb (ix2 p q) = ix2 (grow t p) q := by
  obtain ⟨e00, e01, e10, e11, e20, e21, e30, e31, e40, e41, e50, e51, e60, e61⟩ := idx_facts t
  funext a; apply Fin.ext
  match a with
  | ⟨0, _⟩ => show win3_6.index t (0 : Fin 2) * 5000 + 1 * p.val = t.val * 5000 + p.val; omega
  | ⟨1, _⟩ => show win3_6.index t (1 : Fin 2) * 64 + 1 * q.val = q.val; omega

/-- WHAT POINT t WRITES BACK is block t of the node update of the whole arrays. -/
theorem flushed_eq (c : Dev nD) (t : Fin cfg3.N) :
    (dat3 V c).flushed 6 t = ((cfg3.win 6).blk t).view.read (Elt Ideal) (whole V c) := by
  show (cfg3.win 6).cut (grid3.coords t) ((dat3 V c).after 6 t) = _
  rw [after3_6]
  unfold out3_6
  rw [View.canon_unit_zero hz]
  simp only [View.ld_unit_zero (S := S5000x64) hz, View.ld_unit_zero (S := S5000x16) hz,
    View.ld_unit_zero (S := S80x64) hz, View.ld_unit_zero (S := S1x64) hz]
  rw [pay_eq]
  funext j
  obtain ⟨p, q, rfl⟩ : ∃ (p : Fin 5000) (q : Fin 64), j = ix2 p q := ⟨j 0, j 1, eq_ix2 j⟩
  show Cert.NodeEntry.nodeBody (F := Ideal) (iblk3 V c 0 t) (iblk3 V c 1 t) (iblk3 V c 2 t) (iblk3 V c 3 t)
      (iblk3 V c 4 t) (iblk3 V c 5 t) (ix2 p q)
    = whole V c (((cfg3.win 6).blk t).view.emb (ix2 p q))
  rw [emb6 t p q]
  refine (Cert.NodeEntry.nodeBody_apply (iblk3 V c 0 t) (iblk3 V c 1 t) (iblk3 V c 2 t) (iblk3 V c 3 t)
    (iblk3 V c 4 t) (iblk3 V c 5 t) p q).trans ?_
  refine Eq.trans ?_ (Cert.NodeEntry.nodeH_apply (V c (Pipeline.arrRef spec3 0)) (V c (Pipeline.arrRef spec3 1))
    (V c (Pipeline.arrRef spec3 2)) (V c (Pipeline.arrRef spec3 3)) (V c (Pipeline.arrRef spec3 4))
    (V c (Pipeline.arrRef spec3 5)) (grow t p) q).symm
  exact Cert.NodeEntry.entry_congr (funext fun k => blk0_apply V c t p k) (funext fun k => blk1_apply V c t p k)
    (funext fun y => blk2_apply V c t y) (funext fun k => blk3_apply V c t (ix2 (0 : Fin 1) k))
    (funext fun k => blk4_apply V c t (ix2 (0 : Fin 1) k)) (funext fun k => blk5_apply V c t (ix2 (0 : Fin 1) k)) q

/-- An index of the output array is in point t's block iff each coordinate is in the block's range on its axis. -/
theorem mem_blk (t : Fin cfg3.N) (i : S100000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v76).slice (win3_6.rect t)).set ↔ _
  rw [View.set_slice_whole, Rect.mem_set_unit]
  exact Iff.rfl

/-- Every row of the output array is in the block of the point its row number divided by 5000 names. -/
theorem cover (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  have ht : (i 0).val / 5000 < cfg3.N := by omega
  obtain ⟨e00, e01, e10, e11, e20, e21, e30, e31, e40, e41, e50, e51, e60, e61⟩ := idx_facts ⟨(i 0).val / 5000, ht⟩
  refine ⟨⟨(i 0).val / 5000, ht⟩, flush3_6 _, ?_⟩
  rw [mem_blk]
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    have e : win3_6.index ⟨(i 0).val / 5000, ht⟩ (0 : Fin 2) = (i 0).val / 5000 := e60
    omega
  | ⟨1, _⟩ =>
    show win3_6.index ⟨(i 0).val / 5000, ht⟩ (1 : Fin 2) * 64 ≤ (i 1).val
      ∧ (i 1).val < win3_6.index ⟨(i 0).val / 5000, ht⟩ (1 : Fin 2) * 64 + 64
    omega

/-- THE OUTPUT ARRAY after the region's last point is the node update of the arrays as the region finds them. -/
theorem final3 (c : Dev nD) :
    (dat3 (F := Ideal) V c).arrAt 6 cfg3.N
      = Cert.Stages.nodeH (F := Ideal) (V c (Pipeline.arrRef spec3 0)) (V c (Pipeline.arrRef spec3 1))
          (V c (Pipeline.arrRef spec3 2)) (V c (Pipeline.arrRef spec3 3)) (V c (Pipeline.arrRef spec3 4))
          (V c (Pipeline.arrRef spec3 5)) :=
  (dat3 V c).arrAt_eq_of_cover 6 (whole V c) (fun t _ => flushed_eq V c t) cover

end Cert.NodeBlocks3

end
-- ==== Proof.NodeBlocks5.lean ====
/-
  From blocks to the whole array, for one node-update region: the region's grid has 20 points, point t works on rows
  5000 t .. 5000 t + 4999 of the two row operands and of the output, and on the whole of the weights and of the three
  parameter rows.  What point t writes back is therefore block t of ONE function of the arrays as the region finds
  them, the node update of every row; the 20 blocks tile the 100000 rows, so after the last point the output array
  is that function.
-/
import Idealize.ShloMosaic.Lib.ValueIdx
import Idealize.ShloMosaic.Lib.Pipeline.Value
import proofs.«112340_j85873576116383_2_alg».proof.Proof.Gen.KernelIdeal.Frame
import proofs.«112340_j85873576116383_2_alg».proof.Proof.Stages
import proofs.«112340_j85873576116383_2_alg».proof.Proof.NodeEntry

set_option maxRecDepth 16384

noncomputable section

namespace Cert.NodeBlocks5

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the node update's text on the loaded blocks. -/
theorem pay_eq (v0 : Vec Ideal S5000x64 .f32) (v3 : Vec Ideal S5000x16 .f32) (v7 : Vec Ideal S80x64 .f32)
    (v11 v33 v37 : Vec Ideal S1x64 .f32) :
    k5_pay1 (F := Ideal) v0 v3 v7 v11 v33 v37 = Cert.NodeEntry.nodeBody (F := Ideal) v0 v3 v7 v11 v33 v37 := rfl

/-- The printed index maps, decided over the grid: the row operands and the output are at block (t, 0), the weights
    and the parameter rows at block (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Row p of block t is a row of the whole array. -/
theorem row_lt (t : Fin cfg5.N) (p : Fin 5000) : t.val * 5000 + p.val < 100000 := by
  have hN : cfg5.N = 20 := N_5
  have ht := t.isLt
  have hp := p.isLt
  omega

/-- The global row of row p of block t. -/
abbrev grow (t : Fin cfg5.N) (p : Fin 5000) : Fin 100000 := ⟨t.val * 5000 + p.val, row_lt t p⟩

/-- Window 0's block entry (p, k) at point t is the whole array's entry (5000 t + p, k). -/
theorem blk0_apply (c : Dev nD) (t : Fin cfg5.N) (p : Fin 5000) (k : Fin 64) :
    iblk5 V c 0 t (ix2 p k) = V c (Pipeline.arrRef spec5 0) (ix2 (grow t p) k) := by
  obtain ⟨e00, e01, e10, e11, e20, e21, e30, e31, e40, e41, e50, e51, e60, e61⟩ := idx_facts t
  show V c (Pipeline.arrRef spec5 0) (((cfg5.win 0).blk t).view.emb (ix2 p k)) = _
  refine congrArg (V c (Pipeline.arrRef spec5 0)) ?_
  funext a; apply Fin.ext
  match a with
  | ⟨0, _⟩ => show win5_0.index t (0 : Fin 2) * 5000 + 1 * p.val = t.val * 5000 + p.val; omega
  | ⟨1, _⟩ => show win5_0.index t (1 : Fin 2) * 64 + 1 * k.val = k.val; omega

/-- Window 1's block entry (p, k) at point t is the whole array's entry (5000 t + p, k). -/
theorem blk1_apply (c : Dev nD) (t : Fin cfg5.N) (p : Fin 5000) (k : Fin 16) :
    iblk5 V c 1 t (ix2 p k) = V c (Pipeline.arrRef spec5 1) (ix2 (grow t p) k) := by
  obtain ⟨e00, e01, e10, e11, e20, e21, e30, e31, e40, e41, e50, e51, e60, e61⟩ := idx_facts t
  show V c (Pipeline.arrRef spec5 1) (((cfg5.win 1).blk t).view.emb (ix2 p k)) = _
  refine congrArg (V c (Pipeline.arrRef spec5 1)) ?_
  funext a; apply Fin.ext
  match a with
  | ⟨0, _⟩ => show win5_1.index t (0 : Fin 2) * 5000 + 1 * p.val = t.val * 5000 + p.val; omega
  | ⟨1, _⟩ => show win5_1.index t (1 : Fin 2) * 16 + 1 * k.val = k.val; omega

/-- Window 2's block at every point is the whole weights array. -/
theorem blk2_apply (c : Dev nD) (t : Fin cfg5.N) (y : S80x64.Idx) :
    iblk5 V c 2 t y = V c (Pipeline.arrRef spec5 2) y := by
  obtain ⟨e00, e01, e10, e11, e20, e21, e30, e31, e40, e41, e50, e51, e60, e61⟩ := idx_facts t
  show V c (Pipeline.arrRef spec5 2) (((cfg5.win 2).blk t).view.emb y) = _
  refine congrArg (V c (Pipeline.arrRef spec5 2)) ?_
  funext a; apply Fin.ext
  match a with
  | ⟨0, _⟩ => show win5_2.index t (0 : Fin 2) * 80 + 1 * (y 0).val = (y 0).val; omega
  | ⟨1, _⟩ => show win5_2.index t (1 : Fin 2) * 64 + 1 * (y 1).val = (y 1).val; omega

/-- Window 3's block at every point is the whole parameter row. -/
theorem blk3_apply (c : Dev nD) (t : Fin cfg5.N) (y : S1x64.Idx) :
    iblk5 V c 3 t y = V c (Pipeline.arrRef spec5 3) y := by
  obtain ⟨e00, e01, e10, e11, e20, e21, e30, e31, e40, e41, e50, e51, e60, e61⟩ := idx_facts t
  show V c (Pipeline.arrRef spec5 3) (((cfg5.win 3).blk t).view.emb y) = _
  refine congrArg (V c (Pipeline.arrRef spec5 3)) ?_
  funext a; apply Fin.ext
  match a with
  | ⟨0, _⟩ => show win5_3.index t (0 : Fin 2) * 1 + 1 * (y 0).val = (y 0).val; omega
  | ⟨1, _⟩ => show win5_3.index t (1 : Fin 2) * 64 + 1 * (y 1).val = (y 1).val; omega

/-- Window 4's block at every point is the whole parameter row. -/
theorem blk4_apply (c : Dev nD) (t : Fin cfg5.N) (y : S1x64.Idx) :
    iblk5 V c 4 t y = V c (Pipeline.arrRef spec5 4) y := by
  obtain ⟨e00, e01, e10, e11, e20, e21, e30, e31, e40, e41, e50, e51, e60, e61⟩ := idx_facts t
  show V c (Pipeline.arrRef spec5 4) (((cfg5.win 4).blk t).view.emb y) = _
  refine congrArg (V c (Pipeline.arrRef spec5 4)) ?_
  funext a; apply Fin.ext
  match a with
  | ⟨0, _⟩ => show win5_4.index t (0 : Fin 2) * 1 + 1 * (y 0).val = (y 0).val; omega
  | ⟨1, _⟩ => show win5_4.index t (1 : Fin 2) * 64 + 1 * (y 1).val = (y 1).val; omega

/-- Window 5's block at every point is the whole parameter row. -/
theorem blk5_apply (c : Dev nD) (t : Fin cfg5.N) (y : S1x64.Idx) :
    iblk5 V c 5 t y = V c (Pipeline.arrRef spec5 5) y := by
  obtain ⟨e00, e01, e10, e11, e20, e21, e30, e31, e40, e41, e50, e51, e60, e61⟩ := idx_facts t
  show V c (Pipeline.arrRef spec5 5) (((cfg5.win 5).blk t).view.emb y) = _
  refine congrArg (V c (Pipeline.arrRef spec5 5)) ?_
  funext a; apply Fin.ext
  match a with
  | ⟨0, _⟩ => show win5_5.index t (0 : Fin 2) * 1 + 1 * (y 0).val = (y 0).val; omega
  | ⟨1, _⟩ => show win5_5.index t (1 : Fin 2) * 64 + 1 * (y 1).val = (y 1).val; omega

/-- The node update of the whole arrays as the region finds them. -/
abbrev whole (c : Dev nD) : FVec Ideal S100000x64 .f32 :=
  Cert.Stages.nodeH (F := Ideal) (V c (Pipeline.arrRef spec5 0)) (V c (Pipeline.arrRef spec5 1))
    (V c (Pipeline.arrRef spec5 2)) (V c (Pipeline.arrRef spec5 3)) (V c (Pipeline.arrRef spec5 4))
    (V c (Pipeline.arrRef spec5 5))

/-- The output block's entry (p, q) at point t sits in the output array at (5000 t + p, q). -/
theorem emb6 (t : Fin cfg5.N) (p : Fin 5000) (q : Fin 64) :
    ((cfg5.win 6).blk t).view.emb (ix2 p q) = ix2 (grow t p) q := by
  obtain ⟨e00, e01, e10, e11, e20, e21, e30, e31, e40, e41, e50, e51, e60, e61⟩ := idx_facts t
  funext a; apply Fin.ext
  match a with
  | ⟨0, _⟩ => show win5_6.index t (0 : Fin 2) * 5000 + 1 * p.val = t.val * 5000 + p.val; omega
  | ⟨1, _⟩ => show win5_6.index t (1 : Fin 2) * 64 + 1 * q.val = q.val; omega

/-- WHAT POINT t WRITES BACK is block t of the node update of the whole arrays. -/
theorem flushed_eq (c : Dev nD) (t : Fin cfg5.N) :
    (dat5 V c).flushed 6 t = ((cfg5.win 6).blk t).view.read (Elt Ideal) (whole V c) := by
  show (cfg5.win 6).cut (grid5.coords t) ((dat5 V c).after 6 t) = _
  rw [after5_6]
  unfold out5_6
  rw [View.canon_unit_zero hz]
  simp only [View.ld_unit_zero (S := S5000x64) hz, View.ld_unit_zero (S := S5000x16) hz,
    View.ld_unit_zero (S := S80x64) hz, View.ld_unit_zero (S := S1x64) hz]
  rw [pay_eq]
  funext j
  obtain ⟨p, q, rfl⟩ : ∃ (p : Fin 5000) (q : Fin 64), j = ix2 p q := ⟨j 0, j 1, eq_ix2 j⟩
  show Cert.NodeEntry.nodeBody (F := Ideal) (iblk5 V c 0 t) (iblk5 V c 1 t) (iblk5 V c 2 t) (iblk5 V c 3 t)
      (iblk5 V c 4 t) (iblk5 V c 5 t) (ix2 p q)
    = whole V c (((cfg5.win 6).blk t).view.emb (ix2 p q))
  rw [emb6 t p q]
  refine (Cert.NodeEntry.nodeBody_apply (iblk5 V c 0 t) (iblk5 V c 1 t) (iblk5 V c 2 t) (iblk5 V c 3 t)
    (iblk5 V c 4 t) (iblk5 V c 5 t) p q).trans ?_
  refine Eq.trans ?_ (Cert.NodeEntry.nodeH_apply (V c (Pipeline.arrRef spec5 0)) (V c (Pipeline.arrRef spec5 1))
    (V c (Pipeline.arrRef spec5 2)) (V c (Pipeline.arrRef spec5 3)) (V c (Pipeline.arrRef spec5 4))
    (V c (Pipeline.arrRef spec5 5)) (grow t p) q).symm
  exact Cert.NodeEntry.entry_congr (funext fun k => blk0_apply V c t p k) (funext fun k => blk1_apply V c t p k)
    (funext fun y => blk2_apply V c t y) (funext fun k => blk3_apply V c t (ix2 (0 : Fin 1) k))
    (funext fun k => blk4_apply V c t (ix2 (0 : Fin 1) k)) (funext fun k => blk5_apply V c t (ix2 (0 : Fin 1) k)) q

/-- An index of the output array is in point t's block iff each coordinate is in the block's range on its axis. -/
theorem mem_blk (t : Fin cfg5.N) (i : S100000x64.Idx) :
    i ∈ ((cfg5.win 6).blk t).view.set ↔ ∀ a : Fin 2, win5_6.index t a * S5000x64.size a ≤ (i a).val
      ∧ (i a).val < win5_6.index t a * S5000x64.size a + S5000x64.size a := by
  show i ∈ ((View.whole main_v109).slice (win5_6.rect t)).set ↔ _
  rw [View.set_slice_whole, Rect.mem_set_unit]
  exact Iff.rfl

/-- Every row of the output array is in the block of the point its row number divided by 5000 names. -/
theorem cover (i : S100000x64.Idx) :
    ∃ t : Fin cfg5.N, (cfg5.win 6).flush t = true ∧ i ∈ ((cfg5.win 6).blk t).view.set := by
  have hi0 : (i 0).val < 100000 := (i 0).isLt
  have hi1 : (i 1).val < 64 := (i 1).isLt
  have hN : cfg5.N = 20 := N_5
  have ht : (i 0).val / 5000 < cfg5.N := by omega
  obtain ⟨e00, e01, e10, e11, e20, e21, e30, e31, e40, e41, e50, e51, e60, e61⟩ := idx_facts ⟨(i 0).val / 5000, ht⟩
  refine ⟨⟨(i 0).val / 5000, ht⟩, flush5_6 _, ?_⟩
  rw [mem_blk]
  intro a
  match a with
  | ⟨0, _⟩ =>
    show win5_6.index ⟨(i 0).val / 5000, ht⟩ (0 : Fin 2) * 5000 ≤ (i 0).val
      ∧ (i 0).val < win5_6.index ⟨(i 0).val / 5000, ht⟩ (0 : Fin 2) * 5000 + 5000
    have e : win5_6.index ⟨(i 0).val / 5000, ht⟩ (0 : Fin 2) = (i 0).val / 5000 := e60
    omega
  | ⟨1, _⟩ =>
    show win5_6.index ⟨(i 0).val / 5000, ht⟩ (1 : Fin 2) * 64 ≤ (i 1).val
      ∧ (i 1).val < win5_6.index ⟨(i 0).val / 5000, ht⟩ (1 : Fin 2) * 64 + 64
    omega

/-- THE OUTPUT ARRAY after the region's last point is the node update of the arrays as the region finds them. -/
theorem final5 (c : Dev nD) :
    (dat5 (F := Ideal) V c).arrAt 6 cfg5.N
      = Cert.Stages.nodeH (F := Ideal) (V c (Pipeline.arrRef spec5 0)) (V c (Pipeline.arrRef spec5 1))
          (V c (Pipeline.arrRef spec5 2)) (V c (Pipeline.arrRef spec5 3)) (V c (Pipeline.arrRef spec5 4))
          (V c (Pipeline.arrRef spec5 5)) :=
  (dat5 V c).arrAt_eq_of_cover 6 (whole V c) (fun t _ => flushed_eq V c t) cover

end Cert.NodeBlocks5

end
-- ==== Proof.ReadoutEntry.lean ====
/-
  Layer normalisation of a row and an affine layer, read at one entry, at the ideal values where a float is an
  extended real and every operation is exact.

  For a row z of length b, a count N and an offset e (both given by their float words, never evaluated), the
  mean is (sum of z) / N, the variance is the mean of the squared deviations (z k - mean)^2, and the normalised
  entry q is (z q - mean) * rsqrt (variance + e) * g q + be q for a weight row g and a shift row be.

  Two array-level spellings of this are read at an entry (p, q) of an [a, b] array, each as that closed form of
  row p:  the device's (a lane sum re-laid as a column, divided by the splat of N, broadcast back along the
  columns, ...), and the host's (a reduction from the zero initial value placed as a column, divided by the
  repeated scalar N, ...).  The zero initial value of the host's reduction is the additive unit, so the two sums
  are the same sum.  Likewise the host's product plus a [1, n] bias row repeated down the rows is the affine map.
-/
import Idealize.ShloMosaic.Lib.Pipeline.Value
import Idealize.ShloMosaic.Lib.ValueIdx
import Idealize.ShloMosaic.Lib.ValueLayout
import Idealize.ShloMosaic.PureOps.Ideal.Laws
import proofs.«112340_j85873576116383_2_alg».proof.Proof.LibDenseLayer
import proofs.«112340_j85873576116383_2_alg».proof.Proof.LibRowFolds
import proofs.«112340_j85873576116383_2_alg».proof.Proof.LibBroadcast
import proofs.«112340_j85873576116383_2_alg».proof.Proof.LibHostBroadcast

noncomputable section

namespace Cert.Readout

open Idealize.ShloMosaic Idealize.ShloMosaic.ValueIdx Cert.DenseLayer

/-! ## The closed forms of a row -/

/-- The mean of a row: its sum over the count whose float word is `cw`. -/
def rowMean {b : ℕ} (cw : BitVec 32) (z : Fin b → EReal) : EReal :=
  Ideal.div (∑ k : Fin b, z k) (Ideal.ofBits .f32 cw)

/-- The variance of a row: the mean of the squared deviations from the mean. -/
def rowVar {b : ℕ} (cw : BitVec 32) (z : Fin b → EReal) : EReal :=
  rowMean cw (fun k => (z k - rowMean cw z) * (z k - rowMean cw z))

/-- The normalised row at coordinate `q`, scaled by `g` and shifted by `be`. -/
def lnE {b : ℕ} (cw ew : BitVec 32) (z g be : Fin b → EReal) (q : Fin b) : EReal :=
  (z q - rowMean cw z) * Ideal.rsqrt (rowVar cw z + Ideal.ofBits .f32 ew) * g q + be q

/-! ## Pointwise operations the library does not read at an index -/

theorem rsqrt_apply {s : Shape} {φ : FTy} (v : FVec Ideal s φ) (i : s.Idx) : rsqrt v i = Ideal.rsqrt (v i) := rfl
theorem hostRsqrt_apply {s : Shape} {φ : FTy} (v : FVec Ideal s φ) (i : s.Idx) : Host.rsqrt v i = Ideal.rsqrt (v i) := rfl
theorem hostDivf_apply {s : Shape} {φ : FTy} (u v : FVec Ideal s φ) (i : s.Idx) : Host.divf u v i = Ideal.div (u i) (v i) := rfl

/-! ## The device's spelling -/

section Device

variable {a b : ℕ}

/-- The device's column of row means: the lane sum, re-laid as a column, over the splat of the count. -/
def tpuMean (cw : BitVec 32) (hr : Shape.Reduces ⟨2, ![a, b]⟩ [1] ⟨1, ![a]⟩) (hφ : FKind.Formats .f32)
    (hacc : (0x00000000#32 : BitVec 32) = FKind.add.neutral .f32 hφ) (hc : (⟨1, ![a]⟩ : Shape).ShapeCasts ⟨2, ![a, 1]⟩)
    (h : FVec Ideal ⟨2, ![a, b]⟩ .f32) : FVec Ideal ⟨2, ![a, 1]⟩ .f32 :=
  divf (shapeCast ⟨2, ![a, 1]⟩ (multiReduction .add [1] ⟨1, ![a]⟩ h 0x00000000#32 hr hφ hacc) hc)
    (broadcast ⟨2, ![a, 1]⟩ (Scalar.ofBits .f32 cw))

theorem tpuMean_apply (cw : BitVec 32) (hr : Shape.Reduces ⟨2, ![a, b]⟩ [1] ⟨1, ![a]⟩) (hφ : FKind.Formats .f32)
    (hacc : (0x00000000#32 : BitVec 32) = FKind.add.neutral .f32 hφ) (hc : (⟨1, ![a]⟩ : Shape).ShapeCasts ⟨2, ![a, 1]⟩)
    (h : FVec Ideal ⟨2, ![a, b]⟩ .f32) (p : Fin a) :
    tpuMean cw hr hφ hacc hc h (ix2 p (0 : Fin 1)) = rowMean cw (fun k => h (ix2 p k)) := by
  unfold tpuMean rowMean
  rw [divf_apply, Cert.Layout.shapeCast_col_apply, Cert.RowFolds.laneSum_apply]
  rfl

/-- The device's layer normalisation of every row. -/
def tpuLnorm (cw ew : BitVec 32) (hr : Shape.Reduces ⟨2, ![a, b]⟩ [1] ⟨1, ![a]⟩) (hφ : FKind.Formats .f32)
    (hacc : (0x00000000#32 : BitVec 32) = FKind.add.neutral .f32 hφ) (hc : (⟨1, ![a]⟩ : Shape).ShapeCasts ⟨2, ![a, 1]⟩)
    (hcol : (⟨2, ![a, 1]⟩ : Shape).Broadcasts ⟨2, ![a, b]⟩) (hrow : (⟨2, ![1, b]⟩ : Shape).Broadcasts ⟨2, ![a, b]⟩)
    (hid : (⟨2, ![1, b]⟩ : Shape).ShapeCasts ⟨2, ![1, b]⟩)
    (h : FVec Ideal ⟨2, ![a, b]⟩ .f32) (g be : FVec Ideal ⟨2, ![1, b]⟩ .f32) : FVec Ideal ⟨2, ![a, b]⟩ .f32 :=
  addf (mulf (mulf (subf h (broadcastTo ⟨2, ![a, b]⟩ (tpuMean cw hr hφ hacc hc h) hcol))
      (broadcastTo ⟨2, ![a, b]⟩ (rsqrt (addf
        (tpuMean cw hr hφ hacc hc (mulf (subf h (broadcastTo ⟨2, ![a, b]⟩ (tpuMean cw hr hφ hacc hc h) hcol))
          (subf h (broadcastTo ⟨2, ![a, b]⟩ (tpuMean cw hr hφ hacc hc h) hcol))))
        (broadcast ⟨2, ![a, 1]⟩ (Scalar.ofBits .f32 ew)))) hcol))
      (broadcastTo ⟨2, ![a, b]⟩ (shapeCast ⟨2, ![1, b]⟩ g hid) hrow))
    (broadcastTo ⟨2, ![a, b]⟩ (shapeCast ⟨2, ![1, b]⟩ be hid) hrow)

theorem tpuLnorm_apply (cw ew : BitVec 32) (hr : Shape.Reduces ⟨2, ![a, b]⟩ [1] ⟨1, ![a]⟩) (hφ : FKind.Formats .f32)
    (hacc : (0x00000000#32 : BitVec 32) = FKind.add.neutral .f32 hφ) (hc : (⟨1, ![a]⟩ : Shape).ShapeCasts ⟨2, ![a, 1]⟩)
    (hcol : (⟨2, ![a, 1]⟩ : Shape).Broadcasts ⟨2, ![a, b]⟩) (hrow : (⟨2, ![1, b]⟩ : Shape).Broadcasts ⟨2, ![a, b]⟩)
    (hid : (⟨2, ![1, b]⟩ : Shape).ShapeCasts ⟨2, ![1, b]⟩)
    (h : FVec Ideal ⟨2, ![a, b]⟩ .f32) (g be : FVec Ideal ⟨2, ![1, b]⟩ .f32) (p : Fin a) (q : Fin b) :
    tpuLnorm cw ew hr hφ hacc hc hcol hrow hid h g be (ix2 p q)
      = lnE cw ew (fun k => h (ix2 p k)) (fun k => g (ix2 (0 : Fin 1) k)) (fun k => be (ix2 (0 : Fin 1) k)) q := by
  unfold tpuLnorm lnE rowVar
  simp only [addf_apply, mulf_apply, subf_apply, rsqrt_apply, broadcast_apply, Cert.Layout.broadcastTo_a1_ab_apply,
    Cert.RowsProduct.broadcastTo_1n_an_apply, shapeCast_self, tpuMean_apply]
  rfl

end Device

/-! ## The host's spelling -/

section Host

variable {a b : ℕ}

/-- A `[1, n]` row repeated down `a` rows by the host: at `(p, q)` the row's entry `q`. -/
theorem hostRow_apply {α : Type} {n : ℕ} (v : (⟨2, ![1, n]⟩ : Shape).Idx → α)
    (h2 : (⟨2, ![1, n]⟩ : Shape).BroadcastsInDim ⟨2, ![a, n]⟩ ![0, 1]) (p : Fin a) (q : Fin n) :
    broadcastInDim ⟨2, ![a, n]⟩ ![0, 1] h2 v (ix2 p q) = v (ix2 (0 : Fin 1) q) :=
  broadcastInDim_apply ![0, 1] h2 v (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)

/-- The host's sum of every row from an initial value: at row `p` the initial value plus the row's sum. -/
theorem hostSum_apply (h : FVec Ideal ⟨2, ![a, b]⟩ .f32) (init : (⟨0, ![]⟩ : Shape).Idx → Ideal .f32)
    (hrt : Shape.ReducesTo ⟨2, ![a, b]⟩ [1] ⟨1, ![a]⟩) (hr : Shape.Reduces ⟨2, ![a, b]⟩ [1] ⟨1, ![a]⟩)
    (hu : 0 < (⟨0, ![]⟩ : Shape).numel) (p : Fin a) :
    Host.reduceAdd (F := Ideal) h init hrt hu (ix1 p) = init (Shape.Idx.first hu) + ∑ k : Fin b, h (ix2 p k) :=
  (Ideal.hostReduceAdd_single hrt hr h (init (Shape.Idx.first hu)) (ix1 p)).trans
    (congrArg (init (Shape.Idx.first hu) + ·) (Finset.sum_congr rfl fun k _ => congrArg h (Cert.RowFolds.lift_row hr p k)))

/-- The host's column of row means. -/
def hostMean (cw : BitVec 32) (hrt : Shape.ReducesTo ⟨2, ![a, b]⟩ [1] ⟨1, ![a]⟩)
    (h1 : (⟨1, ![a]⟩ : Shape).BroadcastsInDim ⟨2, ![a, 1]⟩ ![0]) (h0 : (⟨0, ![]⟩ : Shape).BroadcastsInDim ⟨2, ![a, 1]⟩ ![])
    (hu : 0 < (⟨0, ![]⟩ : Shape).numel) (h : FVec Ideal ⟨2, ![a, b]⟩ .f32) : FVec Ideal ⟨2, ![a, 1]⟩ .f32 :=
  Host.divf (broadcastInDim ⟨2, ![a, 1]⟩ ![0] h1 (Host.reduceAdd (F := Ideal) h (constant (F := Ideal) ⟨0, ![]⟩ .f32 0x00000000#32) hrt hu))
    (broadcastInDim ⟨2, ![a, 1]⟩ ![] h0 (constant (F := Ideal) ⟨0, ![]⟩ .f32 cw))

theorem hostMean_apply (cw : BitVec 32) (hrt : Shape.ReducesTo ⟨2, ![a, b]⟩ [1] ⟨1, ![a]⟩)
    (hr : Shape.Reduces ⟨2, ![a, b]⟩ [1] ⟨1, ![a]⟩)
    (h1 : (⟨1, ![a]⟩ : Shape).BroadcastsInDim ⟨2, ![a, 1]⟩ ![0]) (h0 : (⟨0, ![]⟩ : Shape).BroadcastsInDim ⟨2, ![a, 1]⟩ ![])
    (hu : 0 < (⟨0, ![]⟩ : Shape).numel) (h : FVec Ideal ⟨2, ![a, b]⟩ .f32) (p : Fin a) :
    hostMean cw hrt h1 h0 hu h (ix2 p (0 : Fin 1)) = rowMean cw (fun k => h (ix2 p k)) := by
  unfold hostMean rowMean
  rw [hostDivf_apply, Cert.HostBroadcast.col_one_apply, Cert.HostBroadcast.scalar_apply, hostSum_apply h _ hrt hr hu p,
    constant_apply, constant_apply, Ideal.ofBits_zero_f32, zero_add]

/-- Every row less its mean, the host's way. -/
def hostCentred (cw : BitVec 32) (hrt : Shape.ReducesTo ⟨2, ![a, b]⟩ [1] ⟨1, ![a]⟩)
    (h1 : (⟨1, ![a]⟩ : Shape).BroadcastsInDim ⟨2, ![a, 1]⟩ ![0]) (h0 : (⟨0, ![]⟩ : Shape).BroadcastsInDim ⟨2, ![a, 1]⟩ ![])
    (hu : 0 < (⟨0, ![]⟩ : Shape).numel)
    (hcol : (⟨2, ![a, 1]⟩ : Shape).BroadcastsInDim ⟨2, ![a, b]⟩ ![0, 1])
    (h : FVec Ideal ⟨2, ![a, b]⟩ .f32) : FVec Ideal ⟨2, ![a, b]⟩ .f32 :=
  subf h (broadcastInDim ⟨2, ![a, b]⟩ ![0, 1] hcol (hostMean cw hrt h1 h0 hu h))

theorem hostCentred_apply (cw : BitVec 32) (hrt : Shape.ReducesTo ⟨2, ![a, b]⟩ [1] ⟨1, ![a]⟩)
    (hr : Shape.Reduces ⟨2, ![a, b]⟩ [1] ⟨1, ![a]⟩)
    (h1 : (⟨1, ![a]⟩ : Shape).BroadcastsInDim ⟨2, ![a, 1]⟩ ![0]) (h0 : (⟨0, ![]⟩ : Shape).BroadcastsInDim ⟨2, ![a, 1]⟩ ![])
    (hu : 0 < (⟨0, ![]⟩ : Shape).numel)
    (hcol : (⟨2, ![a, 1]⟩ : Shape).BroadcastsInDim ⟨2, ![a, b]⟩ ![0, 1])
    (h : FVec Ideal ⟨2, ![a, b]⟩ .f32) (p : Fin a) (k : Fin b) :
    hostCentred cw hrt h1 h0 hu hcol h (ix2 p k) = h (ix2 p k) - rowMean cw (fun k => h (ix2 p k)) := by
  unfold hostCentred
  rw [subf_apply, Cert.HostBroadcast.col_spread_apply, hostMean_apply cw hrt hr h1 h0 hu]

/-- The host's layer normalisation of every row. -/
def hostLnorm (cw ew : BitVec 32) (hrt : Shape.ReducesTo ⟨2, ![a, b]⟩ [1] ⟨1, ![a]⟩)
    (h1 : (⟨1, ![a]⟩ : Shape).BroadcastsInDim ⟨2, ![a, 1]⟩ ![0]) (h0 : (⟨0, ![]⟩ : Shape).BroadcastsInDim ⟨2, ![a, 1]⟩ ![])
    (hu : 0 < (⟨0, ![]⟩ : Shape).numel)
    (hcol : (⟨2, ![a, 1]⟩ : Shape).BroadcastsInDim ⟨2, ![a, b]⟩ ![0, 1])
    (hrow : (⟨2, ![1, b]⟩ : Shape).BroadcastsInDim ⟨2, ![a, b]⟩ ![0, 1])
    (h : FVec Ideal ⟨2, ![a, b]⟩ .f32) (wr br : FVec Ideal ⟨2, ![1, b]⟩ .f32) : FVec Ideal ⟨2, ![a, b]⟩ .f32 :=
  addf (mulf (mulf (hostCentred cw hrt h1 h0 hu hcol h)
      (broadcastInDim ⟨2, ![a, b]⟩ ![0, 1] hcol (Host.rsqrt (addf
        (hostMean cw hrt h1 h0 hu (mulf (hostCentred cw hrt h1 h0 hu hcol h) (hostCentred cw hrt h1 h0 hu hcol h)))
        (broadcastInDim ⟨2, ![a, 1]⟩ ![] h0 (constant (F := Ideal) ⟨0, ![]⟩ .f32 ew))))))
      (broadcastInDim ⟨2, ![a, b]⟩ ![0, 1] hrow wr))
    (broadcastInDim ⟨2, ![a, b]⟩ ![0, 1] hrow br)

theorem hostLnorm_apply (cw ew : BitVec 32) (hrt : Shape.ReducesTo ⟨2, ![a, b]⟩ [1] ⟨1, ![a]⟩)
    (hr : Shape.Reduces ⟨2, ![a, b]⟩ [1] ⟨1, ![a]⟩)
    (h1 : (⟨1, ![a]⟩ : Shape).BroadcastsInDim ⟨2, ![a, 1]⟩ ![0]) (h0 : (⟨0, ![]⟩ : Shape).BroadcastsInDim ⟨2, ![a, 1]⟩ ![])
    (hu : 0 < (⟨0, ![]⟩ : Shape).numel)
    (hcol : (⟨2, ![a, 1]⟩ : Shape).BroadcastsInDim ⟨2, ![a, b]⟩ ![0, 1])
    (hrow : (⟨2, ![1, b]⟩ : Shape).BroadcastsInDim ⟨2, ![a, b]⟩ ![0, 1])
    (h : FVec Ideal ⟨2, ![a, b]⟩ .f32) (wr br : FVec Ideal ⟨2, ![1, b]⟩ .f32) (p : Fin a) (q : Fin b) :
    hostLnorm cw ew hrt h1 h0 hu hcol hrow h wr br (ix2 p q)
      = lnE cw ew (fun k => h (ix2 p k)) (fun k => wr (ix2 (0 : Fin 1) k)) (fun k => br (ix2 (0 : Fin 1) k)) q := by
  unfold hostLnorm lnE rowVar
  rw [addf_apply, mulf_apply, mulf_apply, hostCentred_apply cw hrt hr h1 h0 hu hcol, Cert.HostBroadcast.col_spread_apply,
    hostRow_apply, hostRow_apply, hostRsqrt_apply, addf_apply, Cert.HostBroadcast.scalar_apply, constant_apply,
    hostMean_apply cw hrt hr h1 h0 hu]
  simp only [mulf_apply, hostCentred_apply cw hrt hr h1 h0 hu hcol]

/-- The host's product plus a `[1, n]` bias row repeated down the rows, at `(p, q)`: the affine map of row `p`. -/
theorem host_affine_row_apply {m k n : ℕ} {φ₁ φ₂ : FTy}
    (w : DotDims.WF ⟨2, ![m, k]⟩ ⟨2, ![k, n]⟩ ⟨2, ![m, n]⟩ [1] [0] [0] [1] [] [])
    (h2 : (⟨2, ![1, n]⟩ : Shape).BroadcastsInDim ⟨2, ![m, n]⟩ ![0, 1])
    (A : FVec Ideal ⟨2, ![m, k]⟩ φ₁) (W : FVec Ideal ⟨2, ![k, n]⟩ φ₂) (v : FVec Ideal ⟨2, ![1, n]⟩ .f32)
    (p : Fin m) (q : Fin n) :
    addf (Host.dotGeneral (⟨[1], [0], [0], [1], [], [], w⟩ : DotDims _ _ _) none A W)
      (broadcastInDim ⟨2, ![m, n]⟩ ![0, 1] h2 v) (ix2 p q)
    = affine (fun c => A (ix2 p c)) W (fun q => v (ix2 (0 : Fin 1) q)) q := by
  rw [addf_apply, Cert.HostProduct.dotGeneral_nn_apply, hostRow_apply]
  rfl

end Host

/-! ## One hidden layer: affine, normalise, positive part -/

/-- A hidden layer's entry `q` of the row `z`: the affine map of `z`, normalised, then the positive part. -/
def layerE {k n : ℕ} (cw ew : BitVec 32) (z : Fin k → EReal) (W : (⟨2, ![k, n]⟩ : Shape).Idx → EReal)
    (bias g be : Fin n → EReal) (q : Fin n) : EReal :=
  max (lnE cw ew (fun j => affine z W bias j) g be q) Z

/-- The device's hidden layer at `(p, q)`. -/
theorem tpu_layer_apply {m k n : ℕ} {φ₁ φ₂ : FTy} (cw ew : BitVec 32)
    (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (hr : Shape.Reduces ⟨2, ![m, n]⟩ [1] ⟨1, ![m]⟩) (hφ : FKind.Formats .f32)
    (hacc : (0x00000000#32 : BitVec 32) = FKind.add.neutral .f32 hφ) (hc : (⟨1, ![m]⟩ : Shape).ShapeCasts ⟨2, ![m, 1]⟩)
    (hcol : (⟨2, ![m, 1]⟩ : Shape).Broadcasts ⟨2, ![m, n]⟩) (hrow : (⟨2, ![1, n]⟩ : Shape).Broadcasts ⟨2, ![m, n]⟩)
    (hid : (⟨2, ![1, n]⟩ : Shape).ShapeCasts ⟨2, ![1, n]⟩)
    (A : FVec Ideal ⟨2, ![m, k]⟩ φ₁) (W : FVec Ideal ⟨2, ![k, n]⟩ φ₂) (bias g be : FVec Ideal ⟨2, ![1, n]⟩ .f32)
    (p : Fin m) (q : Fin n) :
    maximumf (tpuLnorm cw ew hr hφ hacc hc hcol hrow hid
        (addf (matmul (⟨[1], [0], [0], [1], [], [], w⟩ : DotDims _ _ _) none A W (constant _ .f32 0x00000000#32))
          (broadcastTo ⟨2, ![m, n]⟩ bias hb)) g be)
      (broadcast ⟨2, ![m, n]⟩ (Scalar.ofBits .f32 0x00000000#32)) (ix2 p q)
    = layerE cw ew (fun c => A (ix2 p c)) W (fun j => bias (ix2 (0 : Fin 1) j)) (fun j => g (ix2 (0 : Fin 1) j))
        (fun j => be (ix2 (0 : Fin 1) j)) q := by
  rw [maximumf_apply, tpuLnorm_apply, broadcast_apply]
  have e : (fun j : Fin n => addf (matmul (⟨[1], [0], [0], [1], [], [], w⟩ : DotDims _ _ _) none A W (constant _ .f32 0x00000000#32))
      (broadcastTo ⟨2, ![m, n]⟩ bias hb) (ix2 p j))
      = fun j => affine (fun c => A (ix2 p c)) W (fun j => bias (ix2 (0 : Fin 1) j)) j :=
    funext fun j => tpu_affine_apply w hb A W bias p j
  rw [e]
  rfl

/-- The host's hidden layer at `(p, q)`. -/
theorem host_layer_apply {m k n : ℕ} {φ₁ φ₂ : FTy} (cw ew : BitVec 32)
    (w : DotDims.WF ⟨2, ![m, k]⟩ ⟨2, ![k, n]⟩ ⟨2, ![m, n]⟩ [1] [0] [0] [1] [] [])
    (hrt : Shape.ReducesTo ⟨2, ![m, n]⟩ [1] ⟨1, ![m]⟩) (hr : Shape.Reduces ⟨2, ![m, n]⟩ [1] ⟨1, ![m]⟩)
    (h1 : (⟨1, ![m]⟩ : Shape).BroadcastsInDim ⟨2, ![m, 1]⟩ ![0]) (h0 : (⟨0, ![]⟩ : Shape).BroadcastsInDim ⟨2, ![m, 1]⟩ ![])
    (hu : 0 < (⟨0, ![]⟩ : Shape).numel)
    (hcol : (⟨2, ![m, 1]⟩ : Shape).BroadcastsInDim ⟨2, ![m, n]⟩ ![0, 1])
    (hrow : (⟨2, ![1, n]⟩ : Shape).BroadcastsInDim ⟨2, ![m, n]⟩ ![0, 1])
    (hz : (⟨0, ![]⟩ : Shape).BroadcastsInDim ⟨2, ![m, n]⟩ ![])
    (A : FVec Ideal ⟨2, ![m, k]⟩ φ₁) (W : FVec Ideal ⟨2, ![k, n]⟩ φ₂) (bias g be : FVec Ideal ⟨2, ![1, n]⟩ .f32)
    (p : Fin m) (q : Fin n) :
    maximumf (hostLnorm cw ew hrt h1 h0 hu hcol hrow
        (addf (Host.dotGeneral (⟨[1], [0], [0], [1], [], [], w⟩ : DotDims _ _ _) none A W)
          (broadcastInDim ⟨2, ![m, n]⟩ ![0, 1] hrow bias)) g be)
      (broadcastInDim ⟨2, ![m, n]⟩ ![] hz (constant (F := Ideal) ⟨0, ![]⟩ .f32 0x00000000#32)) (ix2 p q)
    = layerE cw ew (fun c => A (ix2 p c)) W (fun j => bias (ix2 (0 : Fin 1) j)) (fun j => g (ix2 (0 : Fin 1) j))
        (fun j => be (ix2 (0 : Fin 1) j)) q := by
  rw [maximumf_apply, hostLnorm_apply cw ew hrt hr h1 h0 hu hcol hrow, Cert.HostBroadcast.scalar_apply, constant_apply]
  have e : (fun j : Fin n => addf (Host.dotGeneral (⟨[1], [0], [0], [1], [], [], w⟩ : DotDims _ _ _) none A W)
      (broadcastInDim ⟨2, ![m, n]⟩ ![0, 1] hrow bias) (ix2 p j))
      = fun j => affine (fun c => A (ix2 p c)) W (fun j => bias (ix2 (0 : Fin 1) j)) j :=
    funext fun j => host_affine_row_apply w hrow A W bias p j
  rw [e]
  rfl

end Cert.Readout

end
-- ==== Proof.ReadoutValue.lean ====
/-
  The readout region's output array as one function of the eleven arrays that enter the region.

  The region has one grid point and every window's block is its whole array, so what the point writes back is the
  body's one store, and the body's store at row p is, layer by layer, the same closed expression of row p of the
  input that the host's spelling of the readout computes:  an affine map, layer normalisation and the positive
  part, twice (widths 64 and 32), then a last affine map to one column.  Each side is read at an entry as that
  closed expression (the layer lemmas are general in the extents); the float words of the two counts and of the
  offset are carried unevaluated, the same word on both sides.
-/
import Idealize.ShloMosaic.Lib.ValueIdx
import Idealize.ShloMosaic.Lib.Pipeline.Value
import Idealize.ShloMosaic.Lib.ValueLayout
import Idealize.ShloMosaic.PureOps.Ideal.Laws
import proofs.«112340_j85873576116383_2_alg».proof.Proof.Gen.KernelIdeal.Frame
import proofs.«112340_j85873576116383_2_alg».proof.Proof.Stages
import proofs.«112340_j85873576116383_2_alg».proof.Proof.ReadoutEntry

set_option maxRecDepth 16384

noncomputable section

namespace Cert.Readout

open Idealize.ShloMosaic Idealize.ShloMosaic.ValueIdx Idealize.ShloMosaic.TcCoe Cert.DenseLayer

/-- Row `p` of the readout's result: the last affine map of the second hidden layer of the first hidden layer of
    row `p` of the input. -/
def outE (inp : (⟨2, ![64, 80]⟩ : Shape).Idx → EReal) (w1 : (⟨2, ![80, 64]⟩ : Shape).Idx → EReal)
    (b1 g1 be1 : (⟨2, ![1, 64]⟩ : Shape).Idx → EReal) (w2 : (⟨2, ![64, 32]⟩ : Shape).Idx → EReal)
    (b2 g2 be2 : (⟨2, ![1, 32]⟩ : Shape).Idx → EReal) (w3 : (⟨2, ![32, 1]⟩ : Shape).Idx → EReal)
    (b3 : (⟨2, ![1, 1]⟩ : Shape).Idx → EReal) (p : Fin 64) : EReal :=
  affine (fun c : Fin 32 => layerE 0x42000000#32 0x3727C5AC#32
      (fun c' : Fin 64 => layerE 0x42800000#32 0x3727C5AC#32 (fun j : Fin 80 => inp (ix2 p j)) w1
        (fun j => b1 (ix2 (0 : Fin 1) j)) (fun j => g1 (ix2 (0 : Fin 1) j)) (fun j => be1 (ix2 (0 : Fin 1) j)) c')
      w2 (fun j => b2 (ix2 (0 : Fin 1) j)) (fun j => g2 (ix2 (0 : Fin 1) j)) (fun j => be2 (ix2 (0 : Fin 1) j)) c)
    w3 (fun j => b3 (ix2 (0 : Fin 1) j)) (0 : Fin 1)

/-! ## The body's store at a row -/

section Kernel

open Cert.KernelIdeal Cert.KernelIdeal.Gen

/-- The first part of the body (first hidden layer) at `(p, c)`. -/
theorem pay1_apply (x0 : Vec Ideal S64x80 .f32) (x1 : Vec Ideal S80x64 .f32) (x2 x3 x4 : Vec Ideal S1x64 .f32) (p c : Fin 64) :
    k6_pay1 (F := Ideal) x0 x1 x2 x3 x4 (ix2 p c)
      = layerE 0x42800000#32 0x3727C5AC#32 (fun j : Fin 80 => x0 (ix2 p j)) x1 (fun j => x2 (ix2 (0 : Fin 1) j))
          (fun j => x3 (ix2 (0 : Fin 1) j)) (fun j => x4 (ix2 (0 : Fin 1) j)) c := by
  have e : k6_pay1 (F := Ideal) x0 x1 x2 x3 x4
      = truncf .bf16 (maximumf (tpuLnorm 0x42800000#32 0x3727C5AC#32 reduces_S64x64_S64 (.inl rfl) rfl shapeCasts_S64_S64x1
          broadcasts_S64x1_S64x64 broadcasts_S1x64_S64x64 shapeCasts_S1x64_S1x64
          (addf (matmul dot_S64x80_S80x64_S64x64_1_0_0_1_n_n none
              (truncf .bf16 (shapeCast S64x80 x0 shapeCasts_S64x80_S64x80) bitsLt_bf16_f32) (truncf .bf16 x1 bitsLt_bf16_f32)
              (constant S64x64 .f32 0x00000000#32))
            (broadcastTo S64x64 (shapeCast S1x64 x2 shapeCasts_S1x64_S1x64) broadcasts_S1x64_S64x64)) x3 x4)
          (broadcast S64x64 (Scalar.ofBits .f32 0x00000000#32))) bitsLt_bf16_f32 := rfl
  rw [e, truncf_apply, shapeCast_self x0, shapeCast_self x2]
  exact tpu_layer_apply _ _ _ _ _ _ _ _ _ _ _ _ _ _ _ _ p c

/-- The second part of the body (second hidden layer and the last affine map) at row `p`. -/
theorem pay2_apply (v38 : FVec Ideal S64x64 .bf16) (x5 : Vec Ideal S64x32 .f32) (x6 x7 x8 : Vec Ideal S1x32 .f32)
    (x9 : Vec Ideal S32x1 .f32) (x10 : Vec Ideal S1x1 .f32) (p : Fin 64) :
    k6_pay2 (F := Ideal) v38 x5 x6 x7 x8 x9 x10 (ix2 p (0 : Fin 1))
      = affine (fun c : Fin 32 => layerE 0x42000000#32 0x3727C5AC#32 (fun j : Fin 64 => v38 (ix2 p j)) x5
          (fun j => x6 (ix2 (0 : Fin 1) j)) (fun j => x7 (ix2 (0 : Fin 1) j)) (fun j => x8 (ix2 (0 : Fin 1) j)) c)
          x9 (fun j => x10 (ix2 (0 : Fin 1) j)) (0 : Fin 1) := by
  have e : k6_pay2 (F := Ideal) v38 x5 x6 x7 x8 x9 x10
      = addf (matmul dot_S64x32_S32x1_S64x1_1_0_0_1_n_n none
          (truncf .bf16 (maximumf (tpuLnorm 0x42000000#32 0x3727C5AC#32 reduces_S64x32_S64 (.inl rfl) rfl shapeCasts_S64_S64x1
              broadcasts_S64x1_S64x32 broadcasts_S1x32_S64x32 shapeCasts_S1x32_S1x32
              (addf (matmul dot_S64x64_S64x32_S64x32_1_0_0_1_n_n none v38 (truncf .bf16 x5 bitsLt_bf16_f32)
                  (constant S64x32 .f32 0x00000000#32))
                (broadcastTo S64x32 (shapeCast S1x32 x6 shapeCasts_S1x32_S1x32) broadcasts_S1x32_S64x32)) x7 x8)
            (broadcast S64x32 (Scalar.ofBits .f32 0x00000000#32))) bitsLt_bf16_f32)
          (truncf .bf16 x9 bitsLt_bf16_f32) (constant S64x1 .f32 0x00000000#32))
        (broadcastTo S64x1 (shapeCast S1x1 x10 shapeCasts_S1x1_S1x1) broadcasts_S1x1_S64x1) := rfl
  rw [e, shapeCast_self x6, shapeCast_self x10]
  refine (tpu_affine_apply _ _ _ _ _ p (0 : Fin 1)).trans ?_
  refine congrArg (fun z => affine z x9 (fun j => x10 (ix2 (0 : Fin 1) j)) (0 : Fin 1)) (funext fun c => ?_)
  rw [truncf_apply]
  exact tpu_layer_apply _ _ _ _ _ _ _ _ _ _ _ _ _ _ _ _ p c

theorem hz : (![0, 0] : Fin 2 → Nat) = fun _ => 0 := funext fun a => by fin_cases a <;> rfl

/-- What the body leaves in the output's staging buffer, at row `p`. -/
theorem out6_apply (x0 : Vec Ideal S64x80 .f32) (x1 : Vec Ideal S80x64 .f32) (x2 x3 x4 : Vec Ideal S1x64 .f32)
    (x5 : Vec Ideal S64x32 .f32) (x6 x7 x8 : Vec Ideal S1x32 .f32) (x9 : Vec Ideal S32x1 .f32) (x10 : Vec Ideal S1x1 .f32)
    (p : Fin 64) :
    out6_11 (F := Ideal) x0 x1 x2 x3 x4 x5 x6 x7 x8 x9 x10 (ix2 p (0 : Fin 1)) = outE x0 x1 x2 x3 x4 x5 x6 x7 x8 x9 x10 p := by
  unfold out6_11
  rw [View.canon_unit_zero hz]
  simp only [View.ld_unit_zero (S := S64x80) hz, View.ld_unit_zero (S := S80x64) hz, View.ld_unit_zero (S := S1x64) hz,
    View.ld_unit_zero (S := S64x32) hz, View.ld_unit_zero (S := S1x32) hz, View.ld_unit_zero (S := S32x1) hz,
    View.ld_unit_zero (S := S1x1) hz]
  rw [pay2_apply]
  simp only [pay1_apply]
  rfl

end Kernel

/-! ## The host's spelling at a row -/

section Host

open Cert.ReferenceIdeal Cert.ReferenceIdeal.Gen

set_option quotPrecheck false in
local notation "T[" s "]" => (⟨s, .f32⟩ : BufTy).Contents (Elt Ideal)

/-- The host's readout at row `p`. -/
theorem readoutH_apply (inp : T[S64x80]) (rw1 : T[S80x64]) (rb1r g1r be1r : T[S1x64]) (rw2 : T[S64x32]) (rb2r g2r be2r : T[S1x32])
    (rw3 : T[S32x1]) (rb3r : T[S1x1]) (p : Fin 64) :
    Cert.Stages.readoutH (F := Ideal) inp rw1 rb1r g1r be1r rw2 rb2r g2r be2r rw3 rb3r (ix2 p (0 : Fin 1))
      = outE inp rw1 rb1r g1r be1r rw2 rb2r g2r be2r rw3 rb3r p := by
  have eA : ∀ (h : T[S64x64]) (wr br : T[S1x64]), Cert.Stages.lnormA (F := Ideal) h wr br
      = hostLnorm 0x42800000#32 0x3727C5AC#32 reducesTo_S64x64_S64_d1 bcast_S64_S64x1_0 bcast_S_S64x1 h_S_
          bcast_S64x1_S64x64_0_1 bcast_S1x64_S64x64_0_1 h wr br := fun _ _ _ => rfl
  have eB : ∀ (h : T[S64x32]) (wr br : T[S1x32]), Cert.Stages.lnormB (F := Ideal) h wr br
      = hostLnorm 0x42000000#32 0x3727C5AC#32 reducesTo_S64x32_S64_d1 bcast_S64_S64x1_0 bcast_S_S64x1 h_S_
          bcast_S64x1_S64x32_0_1 bcast_S1x32_S64x32_0_1 h wr br := fun _ _ _ => rfl
  unfold Cert.Stages.readoutH
  rw [eA, eB]
  refine (host_affine_row_apply _ _ _ _ _ p (0 : Fin 1)).trans ?_
  refine congrArg (fun z => affine z rw3 (fun j => rb3r (ix2 (0 : Fin 1) j)) (0 : Fin 1)) (funext fun c => ?_)
  refine (host_layer_apply _ _ _ _ Cert.KernelIdeal.Gen.reduces_S64x32_S64 _ _ _ _ _ _ _ _ _ _ _ p c).trans ?_
  refine congrArg (fun z => layerE 0x42000000#32 0x3727C5AC#32 z rw2 (fun j => rb2r (ix2 (0 : Fin 1) j))
    (fun j => g2r (ix2 (0 : Fin 1) j)) (fun j => be2r (ix2 (0 : Fin 1) j)) c) (funext fun j => ?_)
  exact host_layer_apply _ _ _ _ Cert.KernelIdeal.Gen.reduces_S64x64_S64 _ _ _ _ _ _ _ _ _ _ _ p j

end Host

/-! ## The two are one function -/

section Both

open Cert.KernelIdeal Cert.KernelIdeal.Gen

/-- What the body leaves in the output's staging buffer is the host's readout of the blocks it read. -/
theorem out6_eq_readoutH (x0 : Vec Ideal S64x80 .f32) (x1 : Vec Ideal S80x64 .f32) (x2 x3 x4 : Vec Ideal S1x64 .f32)
    (x5 : Vec Ideal S64x32 .f32) (x6 x7 x8 : Vec Ideal S1x32 .f32) (x9 : Vec Ideal S32x1 .f32) (x10 : Vec Ideal S1x1 .f32) :
    (out6_11 (F := Ideal) x0 x1 x2 x3 x4 x5 x6 x7 x8 x9 x10 : S64x1.Idx → EReal) = Cert.Stages.readoutH (F := Ideal) x0 x1 x2 x3 x4 x5 x6 x7 x8 x9 x10 := by
  funext j
  obtain ⟨p, q, rfl⟩ : ∃ (p : Fin 64) (q : Fin 1), j = ix2 p q := ⟨j 0, j 1, eq_ix2 j⟩
  obtain rfl : q = 0 := Subsingleton.elim _ _
  rw [out6_apply, readoutH_apply]

/-! ## From the one block to the array -/

variable (V : (c : Dev nD) → (b : Ref sig .tc) → Buf (Elt Ideal) ((c : Thread nD τ).loc b))

/-- Every window's block index is zero on both axes, at every point of the one-point grid. -/
theorem idx_facts6 : ∀ t : Fin cfg6.N, win6_0.index t (0 : Fin 2) = 0
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = 0
    ∧ win6_7.index t (1 : Fin 2) = 0
    ∧ win6_8.index t (0 : Fin 2) = 0
    ∧ win6_8.index t (1 : Fin 2) = 0
    ∧ win6_9.index t (0 : Fin 2) = 0
    ∧ win6_9.index t (1 : Fin 2) = 0
    ∧ win6_10.index t (0 : Fin 2) = 0
    ∧ win6_10.index t (1 : Fin 2) = 0
    ∧ win6_11.index t (0 : Fin 2) = 0
    ∧ win6_11.index t (1 : Fin 2) = 0 :=
  (by decide +kernel : ∀ t : Fin grid6.N, _)

/-- Window 0's block at the one point is its whole array as the region found it. -/
theorem blk6_0 (c : Dev nD) (t : Fin cfg6.N) :
    (iblk6 (F := Ideal) V c 0 t : S64x80.Idx → EReal) = V c (Pipeline.arrRef spec6 0) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts6 t
  funext y
  show V c (Pipeline.arrRef spec6 0) (((cfg6.win 0).blk t).view.emb y) = V c (Pipeline.arrRef spec6 0) y
  refine congrArg (V c (Pipeline.arrRef spec6 0)) (funext fun a => Fin.ext ?_)
  match a with
  | ⟨0, _⟩ => show win6_0.index t (0 : Fin 2) * 64 + 1 * (y 0).val = (y 0).val; omega
  | ⟨1, _⟩ => show win6_0.index t (1 : Fin 2) * 80 + 1 * (y 1).val = (y 1).val; omega

/-- Window 1's block at the one point is its whole array as the region found it. -/
theorem blk6_1 (c : Dev nD) (t : Fin cfg6.N) :
    (iblk6 (F := Ideal) V c 1 t : S80x64.Idx → EReal) = V c (Pipeline.arrRef spec6 1) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts6 t
  funext y
  show V c (Pipeline.arrRef spec6 1) (((cfg6.win 1).blk t).view.emb y) = V c (Pipeline.arrRef spec6 1) y
  refine congrArg (V c (Pipeline.arrRef spec6 1)) (funext fun a => Fin.ext ?_)
  match a with
  | ⟨0, _⟩ => show win6_1.index t (0 : Fin 2) * 80 + 1 * (y 0).val = (y 0).val; omega
  | ⟨1, _⟩ => show win6_1.index t (1 : Fin 2) * 64 + 1 * (y 1).val = (y 1).val; omega

/-- Window 2's block at the one point is its whole array as the region found it. -/
theorem blk6_2 (c : Dev nD) (t : Fin cfg6.N) :
    (iblk6 (F := Ideal) V c 2 t : S1x64.Idx → EReal) = V c (Pipeline.arrRef spec6 2) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts6 t
  funext y
  show V c (Pipeline.arrRef spec6 2) (((cfg6.win 2).blk t).view.emb y) = V c (Pipeline.arrRef spec6 2) y
  refine congrArg (V c (Pipeline.arrRef spec6 2)) (funext fun a => Fin.ext ?_)
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- Window 3's block at the one point is its whole array as the region found it. -/
theorem blk6_3 (c : Dev nD) (t : Fin cfg6.N) :
    (iblk6 (F := Ideal) V c 3 t : S1x64.Idx → EReal) = V c (Pipeline.arrRef spec6 3) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts6 t
  funext y
  show V c (Pipeline.arrRef spec6 3) (((cfg6.win 3).blk t).view.emb y) = V c (Pipeline.arrRef spec6 3) y
  refine congrArg (V c (Pipeline.arrRef spec6 3)) (funext fun a => Fin.ext ?_)
  match a with
  | ⟨0, _⟩ => show win6_3.index t (0 : Fin 2) * 1 + 1 * (y 0).val = (y 0).val; omega
  | ⟨1, _⟩ => show win6_3.index t (1 : Fin 2) * 64 + 1 * (y 1).val = (y 1).val; omega

/-- Window 4's block at the one point is its whole array as the region found it. -/
theorem blk6_4 (c : Dev nD) (t : Fin cfg6.N) :
    (iblk6 (F := Ideal) V c 4 t : S1x64.Idx → EReal) = V c (Pipeline.arrRef spec6 4) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts6 t
  funext y
  show V c (Pipeline.arrRef spec6 4) (((cfg6.win 4).blk t).view.emb y) = V c (Pipeline.arrRef spec6 4) y
  refine congrArg (V c (Pipeline.arrRef spec6 4)) (funext fun a => Fin.ext ?_)
  match a with
  | ⟨0, _⟩ => show win6_4.index t (0 : Fin 2) * 1 + 1 * (y 0).val = (y 0).val; omega
  | ⟨1, _⟩ => show win6_4.index t (1 : Fin 2) * 64 + 1 * (y 1).val = (y 1).val; omega

/-- Window 5's block at the one point is its whole array as the region found it. -/
theorem blk6_5 (c : Dev nD) (t : Fin cfg6.N) :
    (iblk6 (F := Ideal) V c 5 t : S64x32.Idx → EReal) = V c (Pipeline.arrRef spec6 5) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts6 t
  funext y
  show V c (Pipeline.arrRef spec6 5) (((cfg6.win 5).blk t).view.emb y) = V c (Pipeline.arrRef spec6 5) y
  refine congrArg (V c (Pipeline.arrRef spec6 5)) (funext fun a => Fin.ext ?_)
  match a with
  | ⟨0, _⟩ => show win6_5.index t (0 : Fin 2) * 64 + 1 * (y 0).val = (y 0).val; omega
  | ⟨1, _⟩ => show win6_5.index t (1 : Fin 2) * 32 + 1 * (y 1).val = (y 1).val; omega

/-- Window 6's block at the one point is its whole array as the region found it. -/
theorem blk6_6 (c : Dev nD) (t : Fin cfg6.N) :
    (iblk6 (F := Ideal) V c 6 t : S1x32.Idx → EReal) = V c (Pipeline.arrRef spec6 6) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts6 t
  funext y
  show V c (Pipeline.arrRef spec6 6) (((cfg6.win 6).blk t).view.emb y) = V c (Pipeline.arrRef spec6 6) y
  refine congrArg (V c (Pipeline.arrRef spec6 6)) (funext fun a => Fin.ext ?_)
  match a with
  | ⟨0, _⟩ => show win6_6.index t (0 : Fin 2) * 1 + 1 * (y 0).val = (y 0).val; omega
  | ⟨1, _⟩ => show win6_6.index t (1 : Fin 2) * 32 + 1 * (y 1).val = (y 1).val; omega

/-- Window 7's block at the one point is its whole array as the region found it. -/
theorem blk6_7 (c : Dev nD) (t : Fin cfg6.N) :
    (iblk6 (F := Ideal) V c 7 t : S1x32.Idx → EReal) = V c (Pipeline.arrRef spec6 7) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts6 t
  funext y
  show V c (Pipeline.arrRef spec6 7) (((cfg6.win 7).blk t).view.emb y) = V c (Pipeline.arrRef spec6 7) y
  refine congrArg (V c (Pipeline.arrRef spec6 7)) (funext fun a => Fin.ext ?_)
  match a with
  | ⟨0, _⟩ => show win6_7.index t (0 : Fin 2) * 1 + 1 * (y 0).val = (y 0).val; omega
  | ⟨1, _⟩ => show win6_7.index t (1 : Fin 2) * 32 + 1 * (y 1).val = (y 1).val; omega

/-- Window 8's block at the one point is its whole array as the region found it. -/
theorem blk6_8 (c : Dev nD) (t : Fin cfg6.N) :
    (iblk6 (F := Ideal) V c 8 t : S1x32.Idx → EReal) = V c (Pipeline.arrRef spec6 8) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts6 t
  funext y
  show V c (Pipeline.arrRef spec6 8) (((cfg6.win 8).blk t).view.emb y) = V c (Pipeline.arrRef spec6 8) y
  refine congrArg (V c (Pipeline.arrRef spec6 8)) (funext fun a => Fin.ext ?_)
  match a with
  | ⟨0, _⟩ => show win6_8.index t (0 : Fin 2) * 1 + 1 * (y 0).val = (y 0).val; omega
  | ⟨1, _⟩ => show win6_8.index t (1 : Fin 2) * 32 + 1 * (y 1).val = (y 1).val; omega

/-- Window 9's block at the one point is its whole array as the region found it. -/
theorem blk6_9 (c : Dev nD) (t : Fin cfg6.N) :
    (iblk6 (F := Ideal) V c 9 t : S32x1.Idx → EReal) = V c (Pipeline.arrRef spec6 9) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts6 t
  funext y
  show V c (Pipeline.arrRef spec6 9) (((cfg6.win 9).blk t).view.emb y) = V c (Pipeline.arrRef spec6 9) y
  refine congrArg (V c (Pipeline.arrRef spec6 9)) (funext fun a => Fin.ext ?_)
  match a with
  | ⟨0, _⟩ => show win6_9.index t (0 : Fin 2) * 32 + 1 * (y 0).val = (y 0).val; omega
  | ⟨1, _⟩ => show win6_9.index t (1 : Fin 2) * 1 + 1 * (y 1).val = (y 1).val; omega

/-- Window 10's block at the one point is its whole array as the region found it. -/
theorem blk6_10 (c : Dev nD) (t : Fin cfg6.N) :
    (iblk6 (F := Ideal) V c 10 t : S1x1.Idx → EReal) = V c (Pipeline.arrRef spec6 10) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts6 t
  funext y
  show V c (Pipeline.arrRef spec6 10) (((cfg6.win 10).blk t).view.emb y) = V c (Pipeline.arrRef spec6 10) y
  refine congrArg (V c (Pipeline.arrRef spec6 10)) (funext fun a => Fin.ext ?_)
  match a with
  | ⟨0, _⟩ => show win6_10.index t (0 : Fin 2) * 1 + 1 * (y 0).val = (y 0).val; omega
  | ⟨1, _⟩ => show win6_10.index t (1 : Fin 2) * 1 + 1 * (y 1).val = (y 1).val; omega

/-- The output window's block at the one point sits at the array's own indices. -/
theorem emb6_11 (t : Fin cfg6.N) (j : S64x1.Idx) : ((cfg6.win 11).blk t).view.emb j = j := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts6 t
  funext a; apply Fin.ext
  match a with
  | ⟨0, _⟩ => show win6_11.index t (0 : Fin 2) * 64 + 1 * (j 0).val = (j 0).val; omega
  | ⟨1, _⟩ => show win6_11.index t (1 : Fin 2) * 1 + 1 * (j 1).val = (j 1).val; omega

set_option maxHeartbeats 4000000 in
/-- What the one point writes back is the block (the whole array) of the host's readout of the entry arrays. -/
theorem flushed6_eq (c : Dev nD) (t : Fin cfg6.N) :
    (dat6 (F := Ideal) V c).flushed 11 t = ((cfg6.win 11).blk t).view.read (Elt Ideal)
      (Cert.Stages.readoutH (F := Ideal) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10))) := by
  show (cfg6.win 11).cut (grid6.coords t) ((dat6 (F := Ideal) V c).after 11 t) = _
  rw [after6_11]
  funext j
  show out6_11 (F := Ideal) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) j
    = Cert.Stages.readoutH (F := Ideal) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) (((cfg6.win 11).blk t).view.emb j)
  rw [emb6_11 t j, out6_eq_readoutH (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t), blk6_0 V c t, blk6_1 V c t, blk6_2 V c t, blk6_3 V c t, blk6_4 V c t, blk6_5 V c t, blk6_6 V c t, blk6_7 V c t, blk6_8 V c t, blk6_9 V c t, blk6_10 V c t]

/-- An index of the output array is in point `t`'s block iff each coordinate is in the block's range on its axis. -/
theorem mem_blk6 (t : Fin cfg6.N) (i : S64x1.Idx) :
    i ∈ ((cfg6.win 11).blk t).view.set ↔ ∀ a : Fin 2, win6_11.index t a * S64x1.size a ≤ (i a).val ∧ (i a).val < win6_11.index t a * S64x1.size a + S64x1.size a := by
  show i ∈ ((View.whole main_v130).slice (win6_11.rect t)).set ↔ _
  rw [View.set_slice_whole, Rect.mem_set_unit]
  exact Iff.rfl

/-- Every index of the output array is in the one point's block. -/
theorem cover6 (i : S64x1.Idx) : ∃ t : Fin cfg6.N, (cfg6.win 11).flush t = true ∧ i ∈ ((cfg6.win 11).blk t).view.set := by
  refine ⟨t6_0, flush6_11 t6_0, ?_⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts6 t6_0
  rw [mem_blk6]
  intro a
  match a with
  | ⟨0, _⟩ => show win6_11.index t6_0 (0 : Fin 2) * 64 ≤ (i 0).val ∧ (i 0).val < win6_11.index t6_0 (0 : Fin 2) * 64 + 64; have : (i 0).val < 64 := (i 0).isLt; omega
  | ⟨1, _⟩ => show win6_11.index t6_0 (1 : Fin 2) * 1 ≤ (i 1).val ∧ (i 1).val < win6_11.index t6_0 (1 : Fin 2) * 1 + 1; have : (i 1).val < 1 := (i 1).isLt; omega

/-- THE OUTPUT ARRAY after the region: the host's readout of the eleven arrays as the region found them. -/
theorem final6 (c : Dev nD) :
    (dat6 (F := Ideal) V c).arrAt 11 cfg6.N
      = Cert.Stages.readoutH (F := Ideal) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) :=
  (dat6 (F := Ideal) V c).arrAt_eq_of_cover 11 _ (fun t _ => flushed6_eq V c t) (fun i => cover6 i)

end Both

end Cert.Readout

end
-- ==== Proof.LibRowOfVector.lean ====
/-
  A vector laid out as a one-row matrix, two spellings of one array.

  Re-laying a length-`n` vector as a `[1, n]` array (a change of shape that keeps the row-major order) and
  broadcasting it into `[1, n]` along the second axis give the same array: entry `(0, q)` of either is the
  vector's entry `q`.
-/
import Idealize.ShloMosaic.Lib.Pipeline.Value
import Idealize.ShloMosaic.Lib.ValueLayout
import Idealize.ShloMosaic.Lib.ValueIdx

noncomputable section

namespace Cert.RowOfVector

open Idealize.ShloMosaic Idealize.ShloMosaic.ValueIdx

variable {α : Type}

/-- The re-laid vector and the broadcast vector are one `[1, n]` array. -/
theorem shapeCast_eq_broadcastInDim {n : ℕ} (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ ![1]) :
    shapeCast ⟨2, ![1, n]⟩ v h = broadcastInDim ⟨2, ![1, n]⟩ ![1] h' v := by
  funext j
  obtain ⟨u, q, rfl⟩ : ∃ (u : Fin 1) (q : Fin n), j = ix2 u q := ⟨j 0, j 1, eq_ix2 j⟩
  obtain rfl : u = 0 := Fin.ext (by omega)
  rw [shapeCast_a_1a_apply]
  refine (broadcastInDim_apply ![1] h' v (ix2 (0 : Fin 1) q) (ix1 q) ?_).symm
  intro ax
  match ax with
  | ⟨0, _⟩ =>
    show q.val = if n = 1 then 0 else q.val
    split
    · have := q.isLt; omega
    · rfl

end Cert.RowOfVector

end
-- ==== Proof.LibHostKept.lean ====
/-
  A buffer that no operation of a stretch of host lines writes keeps its contents.

  For a LITERAL list `ops` of host operations (the builders `nullary`, `unary`, `binary`, `ternary`, `quaternary`,
  `reshape`, and the outlined functions' typed forms of them) and a reference `b` that none of them writes,
  `after ops v b = v b` for any contents `v`.  The tactic `host_kept ops` closes such a goal: it walks the list once,
  reads each operation's written buffer, and decides the reference different from it.  Useful wherever a value is
  carried across a stretch that neither reads nor writes it — a program of several device regions among host lines,
  or a long host program read stretch by stretch.
-/
import Idealize.ShloMosaic.Lib.StableHlo.Run

namespace Cert.Kept

/-- Closes `after ops v b = v b` for a literal list `ops` (given by name) none of whose operations writes `b`. -/
macro "host_kept" l:ident : tactic => `(tactic| (
  refine Idealize.ShloMosaic.StableHlo.after_of_forall_not_mem _ _ (List.forall_iff_forall_mem.mp ?_)
  simp only [$l:ident, List.Forall, Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes, Finset.mem_singleton]
  repeat' apply And.intro
  all_goals exact Idealize.ShloMosaic.StableHlo.devRef_ne_of_ne (by decide)))

end Cert.Kept
-- ==== Proof.Chain.lean ====
/-
  The idealized kernel program's fold read back, boundary by boundary.  At every boundary between a stretch of host
  operations and a device region, each buffer the rest of the program reads holds the value the reference program
  computes at the corresponding place (the shared values of the module Model): a host stretch applies the same operations as the reference to equal
  operands; a device region's output array is the shared stage function of its input arrays (proved
  region by region in the Blocks modules).  A bias enters a region as a [1, n] row obtained by re-laying a vector, where the
  reference broadcasts the vector into a row: one array.  The last boundary gives the result.
-/
import proofs.«112340_j85873576116383_2_alg».proof.Proof.Gen.KernelIdeal.Frame
import proofs.«112340_j85873576116383_2_alg».proof.Proof.Model
import Idealize.ShloMosaic.PureOps.Ideal
import proofs.«112340_j85873576116383_2_alg».proof.Proof.EdgeBlocks0
import proofs.«112340_j85873576116383_2_alg».proof.Proof.EdgeBlocks2
import proofs.«112340_j85873576116383_2_alg».proof.Proof.EdgeBlocks4
import proofs.«112340_j85873576116383_2_alg».proof.Proof.NodeBlocks1
import proofs.«112340_j85873576116383_2_alg».proof.Proof.NodeBlocks3
import proofs.«112340_j85873576116383_2_alg».proof.Proof.NodeBlocks5
import proofs.«112340_j85873576116383_2_alg».proof.Proof.ReadoutValue
import proofs.«112340_j85873576116383_2_alg».proof.Proof.LibRowOfVector
import proofs.«112340_j85873576116383_2_alg».proof.Proof.LibHostKept

set_option maxRecDepth 16384

noncomputable section

namespace Cert.KernelIdeal.Chain

open Cert.KernelIdeal Cert.KernelIdeal.Gen Cert.Kept
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments, at the reference's types -/
abbrev A0 : (⟨Cert.ReferenceIdeal.S100000x64, .f32⟩ : BufTy).Contents (Elt Ideal) := m ((c : Thread nD τ).loc main_arg0)
abbrev A1 : (⟨Cert.ReferenceIdeal.S1600000x16, .f32⟩ : BufTy).Contents (Elt Ideal) := m ((c : Thread nD τ).loc main_arg1)
abbrev A2 : (⟨Cert.ReferenceIdeal.S64x16, .f32⟩ : BufTy).Contents (Elt Ideal) := m ((c : Thread nD τ).loc main_arg2)
abbrev A3 : (⟨Cert.ReferenceIdeal.S3x64x64, .f32⟩ : BufTy).Contents (Elt Ideal) := m ((c : Thread nD τ).loc main_arg3)
abbrev A4 : (⟨Cert.ReferenceIdeal.S3x64, .f32⟩ : BufTy).Contents (Elt Ideal) := m ((c : Thread nD τ).loc main_arg4)
abbrev A5 : (⟨Cert.ReferenceIdeal.S3x80x64, .f32⟩ : BufTy).Contents (Elt Ideal) := m ((c : Thread nD τ).loc main_arg5)
abbrev A6 : (⟨Cert.ReferenceIdeal.S3x64, .f32⟩ : BufTy).Contents (Elt Ideal) := m ((c : Thread nD τ).loc main_arg6)
abbrev A7 : (⟨Cert.ReferenceIdeal.S3x80x64, .f32⟩ : BufTy).Contents (Elt Ideal) := m ((c : Thread nD τ).loc main_arg7)
abbrev A8 : (⟨Cert.ReferenceIdeal.S3x64, .f32⟩ : BufTy).Contents (Elt Ideal) := m ((c : Thread nD τ).loc main_arg8)
abbrev A9 : (⟨Cert.ReferenceIdeal.S3x64, .f32⟩ : BufTy).Contents (Elt Ideal) := m ((c : Thread nD τ).loc main_arg9)
abbrev A10 : (⟨Cert.ReferenceIdeal.S3x64, .f32⟩ : BufTy).Contents (Elt Ideal) := m ((c : Thread nD τ).loc main_arg10)
abbrev A11 : (⟨Cert.ReferenceIdeal.S80x64, .f32⟩ : BufTy).Contents (Elt Ideal) := m ((c : Thread nD τ).loc main_arg11)
abbrev A12 : (⟨Cert.ReferenceIdeal.S64, .f32⟩ : BufTy).Contents (Elt Ideal) := m ((c : Thread nD τ).loc main_arg12)
abbrev A13 : (⟨Cert.ReferenceIdeal.S64, .f32⟩ : BufTy).Contents (Elt Ideal) := m ((c : Thread nD τ).loc main_arg13)
abbrev A14 : (⟨Cert.ReferenceIdeal.S64, .f32⟩ : BufTy).Contents (Elt Ideal) := m ((c : Thread nD τ).loc main_arg14)
abbrev A15 : (⟨Cert.ReferenceIdeal.S64x32, .f32⟩ : BufTy).Contents (Elt Ideal) := m ((c : Thread nD τ).loc main_arg15)
abbrev A16 : (⟨Cert.ReferenceIdeal.S32, .f32⟩ : BufTy).Contents (Elt Ideal) := m ((c : Thread nD τ).loc main_arg16)
abbrev A17 : (⟨Cert.ReferenceIdeal.S32, .f32⟩ : BufTy).Contents (Elt Ideal) := m ((c : Thread nD τ).loc main_arg17)
abbrev A18 : (⟨Cert.ReferenceIdeal.S32, .f32⟩ : BufTy).Contents (Elt Ideal) := m ((c : Thread nD τ).loc main_arg18)
abbrev A19 : (⟨Cert.ReferenceIdeal.S32x1, .f32⟩ : BufTy).Contents (Elt Ideal) := m ((c : Thread nD τ).loc main_arg19)
abbrev A20 : (⟨Cert.ReferenceIdeal.S1, .f32⟩ : BufTy).Contents (Elt Ideal) := m ((c : Thread nD τ).loc main_arg20)
abbrev A21 : (⟨Cert.ReferenceIdeal.S2x1600000, .i32⟩ : BufTy).Contents (Elt Ideal) := m ((c : Thread nD τ).loc main_arg21)
abbrev A22 : (⟨Cert.ReferenceIdeal.S100000, .i32⟩ : BufTy).Contents (Elt Ideal) := m ((c : Thread nD τ).loc main_arg22)

/-! ## After the first host stretch: the index columns, the per-node graph features, layer 0's gathered rows and weights -/

theorem b1_v1 : W1 m ρ c (Proc.devRef .tc main_v1) = (Cert.Model.v1 (F := Ideal) (A21 m c)) := by
  show StableHlo.after hostOps0 (W0 m ρ c) (Proc.devRef .tc main_v1) = _
  after_results
  rfl
theorem b1_v3 : W1 m ρ c (Proc.devRef .tc main_v3) = (Cert.Model.v3 (F := Ideal) (A21 m c)) := by
  show StableHlo.after hostOps0 (W0 m ρ c) (Proc.devRef .tc main_v3) = _
  after_results
  rfl
theorem b1_v10 : W1 m ρ c (Proc.devRef .tc main_v10) = (Cert.Model.v10 (F := Ideal) (A2 m c) (A22 m c)) := by
  show StableHlo.after hostOps0 (W0 m ρ c) (Proc.devRef .tc main_v10) = _
  after_results
  rfl
set_option maxHeartbeats 4000000 in
theorem b1_v17 : W1 m ρ c (Proc.devRef .tc main_v17) = (Cert.Model.v17 (F := Ideal) (A0 m c) (A21 m c)) := by
  show StableHlo.after hostOps0 (W0 m ρ c) (Proc.devRef .tc main_v17) = _
  after_results_simp
  rfl
theorem b1_v19 : W1 m ρ c (Proc.devRef .tc main_v19) = (Cert.Model.v19 (F := Ideal) (A3 m c)) := by
  show StableHlo.after hostOps0 (W0 m ρ c) (Proc.devRef .tc main_v19) = _
  after_results
  rfl
theorem b1_v26 : W1 m ρ c (Proc.devRef .tc main_v26) = (Cert.Model.v23 (F := Ideal) (A4 m c)) := by
  show StableHlo.after hostOps0 (W0 m ρ c) (Proc.devRef .tc main_v26) = _
  after_results
  exact Cert.RowOfVector.shapeCast_eq_broadcastInDim _ _ _
theorem b1_v23 : W1 m ρ c (Proc.devRef .tc main_v23) = (Cert.Model.v28 (F := Ideal) (A5 m c)) := by
  show StableHlo.after hostOps0 (W0 m ρ c) (Proc.devRef .tc main_v23) = _
  after_results
  rfl
theorem b1_v27 : W1 m ρ c (Proc.devRef .tc main_v27) = (Cert.Model.v32 (F := Ideal) (A6 m c)) := by
  show StableHlo.after hostOps0 (W0 m ρ c) (Proc.devRef .tc main_v27) = _
  after_results
  exact Cert.RowOfVector.shapeCast_eq_broadcastInDim _ _ _
theorem b1_arg1 : W1 m ρ c (Proc.devRef .tc main_arg1) = A1 m c := by
  refine Eq.trans (by host_kept hostOps0) ?_
  rfl

/-! ## Layer 0 -/

theorem b2_v28 : W2 m ρ c (Proc.devRef .tc main_v28) = (Cert.Model.v34 (F := Ideal) (A0 m c) (A1 m c) (A3 m c) (A4 m c) (A5 m c) (A6 m c) (A21 m c)) := by
  refine (W2_arr m ρ c 6).trans ?_
  refine (Cert.EdgeBlocks0.final0 (V1 m ρ) c).trans ?_
  show Cert.Stages.edgeH (F := Ideal) (W1 m ρ c (Proc.devRef .tc main_v17)) (W1 m ρ c (Proc.devRef .tc main_arg1)) (W1 m ρ c (Proc.devRef .tc main_v19)) (W1 m ρ c (Proc.devRef .tc main_v26)) (W1 m ρ c (Proc.devRef .tc main_v23)) (W1 m ρ c (Proc.devRef .tc main_v27)) = _
  rw [b1_v17 m ρ c, b1_arg1 m ρ c, b1_v19 m ρ c, b1_v26 m ρ c, b1_v23 m ρ c, b1_v27 m ρ c]
  rfl
theorem b2_v3 : W2 m ρ c (Proc.devRef .tc main_v3) = (Cert.Model.v3 (F := Ideal) (A21 m c)) := by
  refine Eq.trans (W2_of_ne m ρ c main_v3 (by decide)) ?_
  exact b1_v3 m ρ c
theorem b2_arg7 : W2 m ρ c (Proc.devRef .tc main_arg7) = A7 m c := by
  refine Eq.trans (W2_of_ne m ρ c main_arg7 (by decide)) ?_
  refine Eq.trans (by host_kept hostOps0) ?_
  rfl
theorem b2_arg8 : W2 m ρ c (Proc.devRef .tc main_arg8) = A8 m c := by
  refine Eq.trans (W2_of_ne m ρ c main_arg8 (by decide)) ?_
  refine Eq.trans (by host_kept hostOps0) ?_
  rfl
theorem b2_arg9 : W2 m ρ c (Proc.devRef .tc main_arg9) = A9 m c := by
  refine Eq.trans (W2_of_ne m ρ c main_arg9 (by decide)) ?_
  refine Eq.trans (by host_kept hostOps0) ?_
  rfl
theorem b2_arg10 : W2 m ρ c (Proc.devRef .tc main_arg10) = A10 m c := by
  refine Eq.trans (W2_of_ne m ρ c main_arg10 (by decide)) ?_
  refine Eq.trans (by host_kept hostOps0) ?_
  rfl
theorem b3_v31 : W3 m ρ c (Proc.devRef .tc main_v31) = (Cert.Model.v37 (F := Ideal) (A0 m c) (A1 m c) (A3 m c) (A4 m c) (A5 m c) (A6 m c) (A21 m c)) := by
  show StableHlo.after hostOps1 (W2 m ρ c) (Proc.devRef .tc main_v31) = _
  after_results
  rw [b2_v3 m ρ c, b2_v28 m ρ c]
  rfl
theorem b3_v33 : W3 m ρ c (Proc.devRef .tc main_v33) = (Cert.Model.v40 (F := Ideal) (A7 m c)) := by
  show StableHlo.after hostOps1 (W2 m ρ c) (Proc.devRef .tc main_v33) = _
  after_results
  rw [b2_arg7 m ρ c]
  rfl
theorem b3_v40 : W3 m ρ c (Proc.devRef .tc main_v40) = (Cert.Model.v44 (F := Ideal) (A8 m c)) := by
  show StableHlo.after hostOps1 (W2 m ρ c) (Proc.devRef .tc main_v40) = _
  after_results
  rw [b2_arg8 m ρ c]
  exact Cert.RowOfVector.shapeCast_eq_broadcastInDim _ _ _
theorem b3_v41 : W3 m ρ c (Proc.devRef .tc main_v41) = (Cert.Model.v69 (F := Ideal) (A9 m c)) := by
  show StableHlo.after hostOps1 (W2 m ρ c) (Proc.devRef .tc main_v41) = _
  after_results
  rw [b2_arg9 m ρ c]
  exact Cert.RowOfVector.shapeCast_eq_broadcastInDim _ _ _
theorem b3_v42 : W3 m ρ c (Proc.devRef .tc main_v42) = (Cert.Model.v72 (F := Ideal) (A10 m c)) := by
  show StableHlo.after hostOps1 (W2 m ρ c) (Proc.devRef .tc main_v42) = _
  after_results
  rw [b2_arg10 m ρ c]
  exact Cert.RowOfVector.shapeCast_eq_broadcastInDim _ _ _
theorem b3_v10 : W3 m ρ c (Proc.devRef .tc main_v10) = (Cert.Model.v10 (F := Ideal) (A2 m c) (A22 m c)) := by
  refine Eq.trans (by host_kept hostOps1) ?_
  refine Eq.trans (W2_of_ne m ρ c main_v10 (by decide)) ?_
  exact b1_v10 m ρ c
theorem b4_v43 : W4 m ρ c (Proc.devRef .tc main_v43) = (Cert.Model.v74 (F := Ideal) (A0 m c) (A1 m c) (A2 m c) (A3 m c) (A4 m c) (A5 m c) (A6 m c) (A7 m c) (A8 m c) (A9 m c) (A10 m c) (A21 m c) (A22 m c)) := by
  refine (W4_arr m ρ c 6).trans ?_
  refine (Cert.NodeBlocks1.final1 (V3 m ρ) c).trans ?_
  show Cert.Stages.nodeH (F := Ideal) (W3 m ρ c (Proc.devRef .tc main_v31)) (W3 m ρ c (Proc.devRef .tc main_v10)) (W3 m ρ c (Proc.devRef .tc main_v33)) (W3 m ρ c (Proc.devRef .tc main_v40)) (W3 m ρ c (Proc.devRef .tc main_v41)) (W3 m ρ c (Proc.devRef .tc main_v42)) = _
  rw [b3_v31 m ρ c, b3_v10 m ρ c, b3_v33 m ρ c, b3_v40 m ρ c, b3_v41 m ρ c, b3_v42 m ρ c]
  rfl

/-! ## Layer 1 -/

theorem b4_v1 : W4 m ρ c (Proc.devRef .tc main_v1) = (Cert.Model.v1 (F := Ideal) (A21 m c)) := by
  refine Eq.trans (W4_of_ne m ρ c main_v1 (by decide)) ?_
  refine Eq.trans (by host_kept hostOps1) ?_
  refine Eq.trans (W2_of_ne m ρ c main_v1 (by decide)) ?_
  exact b1_v1 m ρ c
theorem b4_arg3 : W4 m ρ c (Proc.devRef .tc main_arg3) = A3 m c := by
  refine Eq.trans (W4_of_ne m ρ c main_arg3 (by decide)) ?_
  refine Eq.trans (by host_kept hostOps1) ?_
  refine Eq.trans (W2_of_ne m ρ c main_arg3 (by decide)) ?_
  refine Eq.trans (by host_kept hostOps0) ?_
  rfl
theorem b4_arg4 : W4 m ρ c (Proc.devRef .tc main_arg4) = A4 m c := by
  refine Eq.trans (W4_of_ne m ρ c main_arg4 (by decide)) ?_
  refine Eq.trans (by host_kept hostOps1) ?_
  refine Eq.trans (W2_of_ne m ρ c main_arg4 (by decide)) ?_
  refine Eq.trans (by host_kept hostOps0) ?_
  rfl
theorem b4_arg5 : W4 m ρ c (Proc.devRef .tc main_arg5) = A5 m c := by
  refine Eq.trans (W4_of_ne m ρ c main_arg5 (by decide)) ?_
  refine Eq.trans (by host_kept hostOps1) ?_
  refine Eq.trans (W2_of_ne m ρ c main_arg5 (by decide)) ?_
  refine Eq.trans (by host_kept hostOps0) ?_
  rfl
theorem b4_arg6 : W4 m ρ c (Proc.devRef .tc main_arg6) = A6 m c := by
  refine Eq.trans (W4_of_ne m ρ c main_arg6 (by decide)) ?_
  refine Eq.trans (by host_kept hostOps1) ?_
  refine Eq.trans (W2_of_ne m ρ c main_arg6 (by decide)) ?_
  refine Eq.trans (by host_kept hostOps0) ?_
  rfl
set_option maxHeartbeats 4000000 in
theorem b5_v50 : W5 m ρ c (Proc.devRef .tc main_v50) = (Cert.Model.v81 (F := Ideal) (A0 m c) (A1 m c) (A2 m c) (A3 m c) (A4 m c) (A5 m c) (A6 m c) (A7 m c) (A8 m c) (A9 m c) (A10 m c) (A21 m c) (A22 m c)) := by
  show StableHlo.after hostOps2 (W4 m ρ c) (Proc.devRef .tc main_v50) = _
  after_results_simp
  rw [b4_v43 m ρ c, b4_v1 m ρ c]
  rfl
theorem b5_v52 : W5 m ρ c (Proc.devRef .tc main_v52) = (Cert.Model.v83 (F := Ideal) (A3 m c)) := by
  show StableHlo.after hostOps2 (W4 m ρ c) (Proc.devRef .tc main_v52) = _
  after_results
  rw [b4_arg3 m ρ c]
  rfl
theorem b5_v59 : W5 m ρ c (Proc.devRef .tc main_v59) = (Cert.Model.v87 (F := Ideal) (A4 m c)) := by
  show StableHlo.after hostOps2 (W4 m ρ c) (Proc.devRef .tc main_v59) = _
  after_results
  rw [b4_arg4 m ρ c]
  exact Cert.RowOfVector.shapeCast_eq_broadcastInDim _ _ _
theorem b5_v56 : W5 m ρ c (Proc.devRef .tc main_v56) = (Cert.Model.v92 (F := Ideal) (A5 m c)) := by
  show StableHlo.after hostOps2 (W4 m ρ c) (Proc.devRef .tc main_v56) = _
  after_results
  rw [b4_arg5 m ρ c]
  rfl
theorem b5_v60 : W5 m ρ c (Proc.devRef .tc main_v60) = (Cert.Model.v96 (F := Ideal) (A6 m c)) := by
  show StableHlo.after hostOps2 (W4 m ρ c) (Proc.devRef .tc main_v60) = _
  after_results
  rw [b4_arg6 m ρ c]
  exact Cert.RowOfVector.shapeCast_eq_broadcastInDim _ _ _
theorem b5_arg1 : W5 m ρ c (Proc.devRef .tc main_arg1) = A1 m c := by
  refine Eq.trans (by host_kept hostOps2) ?_
  refine Eq.trans (W4_of_ne m ρ c main_arg1 (by decide)) ?_
  refine Eq.trans (by host_kept hostOps1) ?_
  refine Eq.trans ((W2_arr m ρ c 1).trans (((dat0 (V1 m ρ) c).arrAt_in 1 rfl _).trans (A_eq0 (V1 m ρ) c 1))) ?_
  refine Eq.trans (by host_kept hostOps0) ?_
  rfl
theorem b6_v61 : W6 m ρ c (Proc.devRef .tc main_v61) = (Cert.Model.v98 (F := Ideal) (A0 m c) (A1 m c) (A2 m c) (A3 m c) (A4 m c) (A5 m c) (A6 m c) (A7 m c) (A8 m c) (A9 m c) (A10 m c) (A21 m c) (A22 m c)) := by
  refine (W6_arr m ρ c 6).trans ?_
  refine (Cert.EdgeBlocks2.final2 (V5 m ρ) c).trans ?_
  show Cert.Stages.edgeH (F := Ideal) (W5 m ρ c (Proc.devRef .tc main_v50)) (W5 m ρ c (Proc.devRef .tc main_arg1)) (W5 m ρ c (Proc.devRef .tc main_v52)) (W5 m ρ c (Proc.devRef .tc main_v59)) (W5 m ρ c (Proc.devRef .tc main_v56)) (W5 m ρ c (Proc.devRef .tc main_v60)) = _
  rw [b5_v50 m ρ c, b5_arg1 m ρ c, b5_v52 m ρ c, b5_v59 m ρ c, b5_v56 m ρ c, b5_v60 m ρ c]
  rfl
theorem b6_v3 : W6 m ρ c (Proc.devRef .tc main_v3) = (Cert.Model.v3 (F := Ideal) (A21 m c)) := by
  refine Eq.trans (W6_of_ne m ρ c main_v3 (by decide)) ?_
  refine Eq.trans (by host_kept hostOps2) ?_
  refine Eq.trans (W4_of_ne m ρ c main_v3 (by decide)) ?_
  refine Eq.trans (by host_kept hostOps1) ?_
  refine Eq.trans (W2_of_ne m ρ c main_v3 (by decide)) ?_
  exact b1_v3 m ρ c
theorem b6_arg7 : W6 m ρ c (Proc.devRef .tc main_arg7) = A7 m c := by
  refine Eq.trans (W6_of_ne m ρ c main_arg7 (by decide)) ?_
  refine Eq.trans (by host_kept hostOps2) ?_
  refine Eq.trans (W4_of_ne m ρ c main_arg7 (by decide)) ?_
  refine Eq.trans (by host_kept hostOps1) ?_
  refine Eq.trans (W2_of_ne m ρ c main_arg7 (by decide)) ?_
  refine Eq.trans (by host_kept hostOps0) ?_
  rfl
theorem b6_arg8 : W6 m ρ c (Proc.devRef .tc main_arg8) = A8 m c := by
  refine Eq.trans (W6_of_ne m ρ c main_arg8 (by decide)) ?_
  refine Eq.trans (by host_kept hostOps2) ?_
  refine Eq.trans (W4_of_ne m ρ c main_arg8 (by decide)) ?_
  refine Eq.trans (by host_kept hostOps1) ?_
  refine Eq.trans (W2_of_ne m ρ c main_arg8 (by decide)) ?_
  refine Eq.trans (by host_kept hostOps0) ?_
  rfl
theorem b6_arg9 : W6 m ρ c (Proc.devRef .tc main_arg9) = A9 m c := by
  refine Eq.trans (W6_of_ne m ρ c main_arg9 (by decide)) ?_
  refine Eq.trans (by host_kept hostOps2) ?_
  refine Eq.trans (W4_of_ne m ρ c main_arg9 (by decide)) ?_
  refine Eq.trans (by host_kept hostOps1) ?_
  refine Eq.trans (W2_of_ne m ρ c main_arg9 (by decide)) ?_
  refine Eq.trans (by host_kept hostOps0) ?_
  rfl
theorem b6_arg10 : W6 m ρ c (Proc.devRef .tc main_arg10) = A10 m c := by
  refine Eq.trans (W6_of_ne m ρ c main_arg10 (by decide)) ?_
  refine Eq.trans (by host_kept hostOps2) ?_
  refine Eq.trans (W4_of_ne m ρ c main_arg10 (by decide)) ?_
  refine Eq.trans (by host_kept hostOps1) ?_
  refine Eq.trans (W2_of_ne m ρ c main_arg10 (by decide)) ?_
  refine Eq.trans (by host_kept hostOps0) ?_
  rfl
theorem b7_v64 : W7 m ρ c (Proc.devRef .tc main_v64) = (Cert.Model.v101 (F := Ideal) (A0 m c) (A1 m c) (A2 m c) (A3 m c) (A4 m c) (A5 m c) (A6 m c) (A7 m c) (A8 m c) (A9 m c) (A10 m c) (A21 m c) (A22 m c)) := by
  show StableHlo.after hostOps3 (W6 m ρ c) (Proc.devRef .tc main_v64) = _
  after_results
  rw [b6_v3 m ρ c, b6_v61 m ρ c]
  rfl
theorem b7_v66 : W7 m ρ c (Proc.devRef .tc main_v66) = (Cert.Model.v104 (F := Ideal) (A7 m c)) := by
  show StableHlo.after hostOps3 (W6 m ρ c) (Proc.devRef .tc main_v66) = _
  after_results
  rw [b6_arg7 m ρ c]
  rfl
theorem b7_v73 : W7 m ρ c (Proc.devRef .tc main_v73) = (Cert.Model.v108 (F := Ideal) (A8 m c)) := by
  show StableHlo.after hostOps3 (W6 m ρ c) (Proc.devRef .tc main_v73) = _
  after_results
  rw [b6_arg8 m ρ c]
  exact Cert.RowOfVector.shapeCast_eq_broadcastInDim _ _ _
theorem b7_v74 : W7 m ρ c (Proc.devRef .tc main_v74) = (Cert.Model.v133 (F := Ideal) (A9 m c)) := by
  show StableHlo.after hostOps3 (W6 m ρ c) (Proc.devRef .tc main_v74) = _
  after_results
  rw [b6_arg9 m ρ c]
  exact Cert.RowOfVector.shapeCast_eq_broadcastInDim _ _ _
theorem b7_v75 : W7 m ρ c (Proc.devRef .tc main_v75) = (Cert.Model.v136 (F := Ideal) (A10 m c)) := by
  show StableHlo.after hostOps3 (W6 m ρ c) (Proc.devRef .tc main_v75) = _
  after_results
  rw [b6_arg10 m ρ c]
  exact Cert.RowOfVector.shapeCast_eq_broadcastInDim _ _ _
theorem b7_v10 : W7 m ρ c (Proc.devRef .tc main_v10) = (Cert.Model.v10 (F := Ideal) (A2 m c) (A22 m c)) := by
  refine Eq.trans (by host_kept hostOps3) ?_
  refine Eq.trans (W6_of_ne m ρ c main_v10 (by decide)) ?_
  refine Eq.trans (by host_kept hostOps2) ?_
  refine Eq.trans ((W4_arr m ρ c 1).trans (((dat1 (V3 m ρ) c).arrAt_in 1 rfl _).trans (A_eq1 (V3 m ρ) c 1))) ?_
  refine Eq.trans (by host_kept hostOps1) ?_
  refine Eq.trans (W2_of_ne m ρ c main_v10 (by decide)) ?_
  exact b1_v10 m ρ c
theorem b8_v76 : W8 m ρ c (Proc.devRef .tc main_v76) = (Cert.Model.v138 (F := Ideal) (A0 m c) (A1 m c) (A2 m c) (A3 m c) (A4 m c) (A5 m c) (A6 m c) (A7 m c) (A8 m c) (A9 m c) (A10 m c) (A21 m c) (A22 m c)) := by
  refine (W8_arr m ρ c 6).trans ?_
  refine (Cert.NodeBlocks3.final3 (V7 m ρ) c).trans ?_
  show Cert.Stages.nodeH (F := Ideal) (W7 m ρ c (Proc.devRef .tc main_v64)) (W7 m ρ c (Proc.devRef .tc main_v10)) (W7 m ρ c (Proc.devRef .tc main_v66)) (W7 m ρ c (Proc.devRef .tc main_v73)) (W7 m ρ c (Proc.devRef .tc main_v74)) (W7 m ρ c (Proc.devRef .tc main_v75)) = _
  rw [b7_v64 m ρ c, b7_v10 m ρ c, b7_v66 m ρ c, b7_v73 m ρ c, b7_v74 m ρ c, b7_v75 m ρ c]
  rfl

/-! ## Layer 2 -/

theorem b8_v1 : W8 m ρ c (Proc.devRef .tc main_v1) = (Cert.Model.v1 (F := Ideal) (A21 m c)) := by
  refine Eq.trans (W8_of_ne m ρ c main_v1 (by decide)) ?_
  refine Eq.trans (by host_kept hostOps3) ?_
  refine Eq.trans (W6_of_ne m ρ c main_v1 (by decide)) ?_
  refine Eq.trans (by host_kept hostOps2) ?_
  refine Eq.trans (W4_of_ne m ρ c main_v1 (by decide)) ?_
  refine Eq.trans (by host_kept hostOps1) ?_
  refine Eq.trans (W2_of_ne m ρ c main_v1 (by decide)) ?_
  exact b1_v1 m ρ c
theorem b8_arg3 : W8 m ρ c (Proc.devRef .tc main_arg3) = A3 m c := by
  refine Eq.trans (W8_of_ne m ρ c main_arg3 (by decide)) ?_
  refine Eq.trans (by host_kept hostOps3) ?_
  refine Eq.trans (W6_of_ne m ρ c main_arg3 (by decide)) ?_
  refine Eq.trans (by host_kept hostOps2) ?_
  refine Eq.trans (W4_of_ne m ρ c main_arg3 (by decide)) ?_
  refine Eq.trans (by host_kept hostOps1) ?_
  refine Eq.trans (W2_of_ne m ρ c main_arg3 (by decide)) ?_
  refine Eq.trans (by host_kept hostOps0) ?_
  rfl
theorem b8_arg4 : W8 m ρ c (Proc.devRef .tc main_arg4) = A4 m c := by
  refine Eq.trans (W8_of_ne m ρ c main_arg4 (by decide)) ?_
  refine Eq.trans (by host_kept hostOps3) ?_
  refine Eq.trans (W6_of_ne m ρ c main_arg4 (by decide)) ?_
  refine Eq.trans (by host_kept hostOps2) ?_
  refine Eq.trans (W4_of_ne m ρ c main_arg4 (by decide)) ?_
  refine Eq.trans (by host_kept hostOps1) ?_
  refine Eq.trans (W2_of_ne m ρ c main_arg4 (by decide)) ?_
  refine Eq.trans (by host_kept hostOps0) ?_
  rfl
theorem b8_arg5 : W8 m ρ c (Proc.devRef .tc main_arg5) = A5 m c := by
  refine Eq.trans (W8_of_ne m ρ c main_arg5 (by decide)) ?_
  refine Eq.trans (by host_kept hostOps3) ?_
  refine Eq.trans (W6_of_ne m ρ c main_arg5 (by decide)) ?_
  refine Eq.trans (by host_kept hostOps2) ?_
  refine Eq.trans (W4_of_ne m ρ c main_arg5 (by decide)) ?_
  refine Eq.trans (by host_kept hostOps1) ?_
  refine Eq.trans (W2_of_ne m ρ c main_arg5 (by decide)) ?_
  refine Eq.trans (by host_kept hostOps0) ?_
  rfl
theorem b8_arg6 : W8 m ρ c (Proc.devRef .tc main_arg6) = A6 m c := by
  refine Eq.trans (W8_of_ne m ρ c main_arg6 (by decide)) ?_
  refine Eq.trans (by host_kept hostOps3) ?_
  refine Eq.trans (W6_of_ne m ρ c main_arg6 (by decide)) ?_
  refine Eq.trans (by host_kept hostOps2) ?_
  refine Eq.trans (W4_of_ne m ρ c main_arg6 (by decide)) ?_
  refine Eq.trans (by host_kept hostOps1) ?_
  refine Eq.trans (W2_of_ne m ρ c main_arg6 (by decide)) ?_
  refine Eq.trans (by host_kept hostOps0) ?_
  rfl
set_option maxHeartbeats 4000000 in
theorem b9_v83 : W9 m ρ c (Proc.devRef .tc main_v83) = (Cert.Model.v145 (F := Ideal) (A0 m c) (A1 m c) (A2 m c) (A3 m c) (A4 m c) (A5 m c) (A6 m c) (A7 m c) (A8 m c) (A9 m c) (A10 m c) (A21 m c) (A22 m c)) := by
  show StableHlo.after hostOps4 (W8 m ρ c) (Proc.devRef .tc main_v83) = _
  after_results_simp
  rw [b8_v76 m ρ c, b8_v1 m ρ c]
  rfl
theorem b9_v85 : W9 m ρ c (Proc.devRef .tc main_v85) = (Cert.Model.v147 (F := Ideal) (A3 m c)) := by
  show StableHlo.after hostOps4 (W8 m ρ c) (Proc.devRef .tc main_v85) = _
  after_results
  rw [b8_arg3 m ρ c]
  rfl
theorem b9_v92 : W9 m ρ c (Proc.devRef .tc main_v92) = (Cert.Model.v151 (F := Ideal) (A4 m c)) := by
  show StableHlo.after hostOps4 (W8 m ρ c) (Proc.devRef .tc main_v92) = _
  after_results
  rw [b8_arg4 m ρ c]
  exact Cert.RowOfVector.shapeCast_eq_broadcastInDim _ _ _
theorem b9_v89 : W9 m ρ c (Proc.devRef .tc main_v89) = (Cert.Model.v156 (F := Ideal) (A5 m c)) := by
  show StableHlo.after hostOps4 (W8 m ρ c) (Proc.devRef .tc main_v89) = _
  after_results
  rw [b8_arg5 m ρ c]
  rfl
theorem b9_v93 : W9 m ρ c (Proc.devRef .tc main_v93) = (Cert.Model.v160 (F := Ideal) (A6 m c)) := by
  show StableHlo.after hostOps4 (W8 m ρ c) (Proc.devRef .tc main_v93) = _
  after_results
  rw [b8_arg6 m ρ c]
  exact Cert.RowOfVector.shapeCast_eq_broadcastInDim _ _ _
theorem b9_arg1 : W9 m ρ c (Proc.devRef .tc main_arg1) = A1 m c := by
  refine Eq.trans (by host_kept hostOps4) ?_
  refine Eq.trans (W8_of_ne m ρ c main_arg1 (by decide)) ?_
  refine Eq.trans (by host_kept hostOps3) ?_
  refine Eq.trans ((W6_arr m ρ c 1).trans (((dat2 (V5 m ρ) c).arrAt_in 1 rfl _).trans (A_eq2 (V5 m ρ) c 1))) ?_
  refine Eq.trans (by host_kept hostOps2) ?_
  refine Eq.trans (W4_of_ne m ρ c main_arg1 (by decide)) ?_
  refine Eq.trans (by host_kept hostOps1) ?_
  refine Eq.trans ((W2_arr m ρ c 1).trans (((dat0 (V1 m ρ) c).arrAt_in 1 rfl _).trans (A_eq0 (V1 m ρ) c 1))) ?_
  refine Eq.trans (by host_kept hostOps0) ?_
  rfl
theorem b10_v94 : W10 m ρ c (Proc.devRef .tc main_v94) = (Cert.Model.v162 (F := Ideal) (A0 m c) (A1 m c) (A2 m c) (A3 m c) (A4 m c) (A5 m c) (A6 m c) (A7 m c) (A8 m c) (A9 m c) (A10 m c) (A21 m c) (A22 m c)) := by
  refine (W10_arr m ρ c 6).trans ?_
  refine (Cert.EdgeBlocks4.final4 (V9 m ρ) c).trans ?_
  show Cert.Stages.edgeH (F := Ideal) (W9 m ρ c (Proc.devRef .tc main_v83)) (W9 m ρ c (Proc.devRef .tc main_arg1)) (W9 m ρ c (Proc.devRef .tc main_v85)) (W9 m ρ c (Proc.devRef .tc main_v92)) (W9 m ρ c (Proc.devRef .tc main_v89)) (W9 m ρ c (Proc.devRef .tc main_v93)) = _
  rw [b9_v83 m ρ c, b9_arg1 m ρ c, b9_v85 m ρ c, b9_v92 m ρ c, b9_v89 m ρ c, b9_v93 m ρ c]
  rfl
theorem b10_v3 : W10 m ρ c (Proc.devRef .tc main_v3) = (Cert.Model.v3 (F := Ideal) (A21 m c)) := by
  refine Eq.trans (W10_of_ne m ρ c main_v3 (by decide)) ?_
  refine Eq.trans (by host_kept hostOps4) ?_
  refine Eq.trans (W8_of_ne m ρ c main_v3 (by decide)) ?_
  refine Eq.trans (by host_kept hostOps3) ?_
  refine Eq.trans (W6_of_ne m ρ c main_v3 (by decide)) ?_
  refine Eq.trans (by host_kept hostOps2) ?_
  refine Eq.trans (W4_of_ne m ρ c main_v3 (by decide)) ?_
  refine Eq.trans (by host_kept hostOps1) ?_
  refine Eq.trans (W2_of_ne m ρ c main_v3 (by decide)) ?_
  exact b1_v3 m ρ c
theorem b10_arg7 : W10 m ρ c (Proc.devRef .tc main_arg7) = A7 m c := by
  refine Eq.trans (W10_of_ne m ρ c main_arg7 (by decide)) ?_
  refine Eq.trans (by host_kept hostOps4) ?_
  refine Eq.trans (W8_of_ne m ρ c main_arg7 (by decide)) ?_
  refine Eq.trans (by host_kept hostOps3) ?_
  refine Eq.trans (W6_of_ne m ρ c main_arg7 (by decide)) ?_
  refine Eq.trans (by host_kept hostOps2) ?_
  refine Eq.trans (W4_of_ne m ρ c main_arg7 (by decide)) ?_
  refine Eq.trans (by host_kept hostOps1) ?_
  refine Eq.trans (W2_of_ne m ρ c main_arg7 (by decide)) ?_
  refine Eq.trans (by host_kept hostOps0) ?_
  rfl
theorem b10_arg8 : W10 m ρ c (Proc.devRef .tc main_arg8) = A8 m c := by
  refine Eq.trans (W10_of_ne m ρ c main_arg8 (by decide)) ?_
  refine Eq.trans (by host_kept hostOps4) ?_
  refine Eq.trans (W8_of_ne m ρ c main_arg8 (by decide)) ?_
  refine Eq.trans (by host_kept hostOps3) ?_
  refine Eq.trans (W6_of_ne m ρ c main_arg8 (by decide)) ?_
  refine Eq.trans (by host_kept hostOps2) ?_
  refine Eq.trans (W4_of_ne m ρ c main_arg8 (by decide)) ?_
  refine Eq.trans (by host_kept hostOps1) ?_
  refine Eq.trans (W2_of_ne m ρ c main_arg8 (by decide)) ?_
  refine Eq.trans (by host_kept hostOps0) ?_
  rfl
theorem b10_arg9 : W10 m ρ c (Proc.devRef .tc main_arg9) = A9 m c := by
  refine Eq.trans (W10_of_ne m ρ c main_arg9 (by decide)) ?_
  refine Eq.trans (by host_kept hostOps4) ?_
  refine Eq.trans (W8_of_ne m ρ c main_arg9 (by decide)) ?_
  refine Eq.trans (by host_kept hostOps3) ?_
  refine Eq.trans (W6_of_ne m ρ c main_arg9 (by decide)) ?_
  refine Eq.trans (by host_kept hostOps2) ?_
  refine Eq.trans (W4_of_ne m ρ c main_arg9 (by decide)) ?_
  refine Eq.trans (by host_kept hostOps1) ?_
  refine Eq.trans (W2_of_ne m ρ c main_arg9 (by decide)) ?_
  refine Eq.trans (by host_kept hostOps0) ?_
  rfl
theorem b10_arg10 : W10 m ρ c (Proc.devRef .tc main_arg10) = A10 m c := by
  refine Eq.trans (W10_of_ne m ρ c main_arg10 (by decide)) ?_
  refine Eq.trans (by host_kept hostOps4) ?_
  refine Eq.trans (W8_of_ne m ρ c main_arg10 (by decide)) ?_
  refine Eq.trans (by host_kept hostOps3) ?_
  refine Eq.trans (W6_of_ne m ρ c main_arg10 (by decide)) ?_
  refine Eq.trans (by host_kept hostOps2) ?_
  refine Eq.trans (W4_of_ne m ρ c main_arg10 (by decide)) ?_
  refine Eq.trans (by host_kept hostOps1) ?_
  refine Eq.trans (W2_of_ne m ρ c main_arg10 (by decide)) ?_
  refine Eq.trans (by host_kept hostOps0) ?_
  rfl
theorem b11_v97 : W11 m ρ c (Proc.devRef .tc main_v97) = (Cert.Model.v165 (F := Ideal) (A0 m c) (A1 m c) (A2 m c) (A3 m c) (A4 m c) (A5 m c) (A6 m c) (A7 m c) (A8 m c) (A9 m c) (A10 m c) (A21 m c) (A22 m c)) := by
  show StableHlo.after hostOps5 (W10 m ρ c) (Proc.devRef .tc main_v97) = _
  after_results
  rw [b10_v3 m ρ c, b10_v94 m ρ c]
  rfl
theorem b11_v99 : W11 m ρ c (Proc.devRef .tc main_v99) = (Cert.Model.v168 (F := Ideal) (A7 m c)) := by
  show StableHlo.after hostOps5 (W10 m ρ c) (Proc.devRef .tc main_v99) = _
  after_results
  rw [b10_arg7 m ρ c]
  rfl
theorem b11_v106 : W11 m ρ c (Proc.devRef .tc main_v106) = (Cert.Model.v172 (F := Ideal) (A8 m c)) := by
  show StableHlo.after hostOps5 (W10 m ρ c) (Proc.devRef .tc main_v106) = _
  after_results
  rw [b10_arg8 m ρ c]
  exact Cert.RowOfVector.shapeCast_eq_broadcastInDim _ _ _
theorem b11_v107 : W11 m ρ c (Proc.devRef .tc main_v107) = (Cert.Model.v197 (F := Ideal) (A9 m c)) := by
  show StableHlo.after hostOps5 (W10 m ρ c) (Proc.devRef .tc main_v107) = _
  after_results
  rw [b10_arg9 m ρ c]
  exact Cert.RowOfVector.shapeCast_eq_broadcastInDim _ _ _
theorem b11_v108 : W11 m ρ c (Proc.devRef .tc main_v108) = (Cert.Model.v200 (F := Ideal) (A10 m c)) := by
  show StableHlo.after hostOps5 (W10 m ρ c) (Proc.devRef .tc main_v108) = _
  after_results
  rw [b10_arg10 m ρ c]
  exact Cert.RowOfVector.shapeCast_eq_broadcastInDim _ _ _
theorem b11_v10 : W11 m ρ c (Proc.devRef .tc main_v10) = (Cert.Model.v10 (F := Ideal) (A2 m c) (A22 m c)) := by
  refine Eq.trans (by host_kept hostOps5) ?_
  refine Eq.trans (W10_of_ne m ρ c main_v10 (by decide)) ?_
  refine Eq.trans (by host_kept hostOps4) ?_
  refine Eq.trans ((W8_arr m ρ c 1).trans (((dat3 (V7 m ρ) c).arrAt_in 1 rfl _).trans (A_eq3 (V7 m ρ) c 1))) ?_
  refine Eq.trans (by host_kept hostOps3) ?_
  refine Eq.trans (W6_of_ne m ρ c main_v10 (by decide)) ?_
  refine Eq.trans (by host_kept hostOps2) ?_
  refine Eq.trans ((W4_arr m ρ c 1).trans (((dat1 (V3 m ρ) c).arrAt_in 1 rfl _).trans (A_eq1 (V3 m ρ) c 1))) ?_
  refine Eq.trans (by host_kept hostOps1) ?_
  refine Eq.trans (W2_of_ne m ρ c main_v10 (by decide)) ?_
  exact b1_v10 m ρ c
theorem b12_v109 : W12 m ρ c (Proc.devRef .tc main_v109) = (Cert.Model.v202 (F := Ideal) (A0 m c) (A1 m c) (A2 m c) (A3 m c) (A4 m c) (A5 m c) (A6 m c) (A7 m c) (A8 m c) (A9 m c) (A10 m c) (A21 m c) (A22 m c)) := by
  refine (W12_arr m ρ c 6).trans ?_
  refine (Cert.NodeBlocks5.final5 (V11 m ρ) c).trans ?_
  show Cert.Stages.nodeH (F := Ideal) (W11 m ρ c (Proc.devRef .tc main_v97)) (W11 m ρ c (Proc.devRef .tc main_v10)) (W11 m ρ c (Proc.devRef .tc main_v99)) (W11 m ρ c (Proc.devRef .tc main_v106)) (W11 m ρ c (Proc.devRef .tc main_v107)) (W11 m ρ c (Proc.devRef .tc main_v108)) = _
  rw [b11_v97 m ρ c, b11_v10 m ρ c, b11_v99 m ρ c, b11_v106 m ρ c, b11_v107 m ρ c, b11_v108 m ρ c]
  rfl

/-! ## The pooling, the readout and the result -/

theorem b12_arg2 : W12 m ρ c (Proc.devRef .tc main_arg2) = A2 m c := by
  refine Eq.trans (W12_of_ne m ρ c main_arg2 (by decide)) ?_
  refine Eq.trans (by host_kept hostOps5) ?_
  refine Eq.trans (W10_of_ne m ρ c main_arg2 (by decide)) ?_
  refine Eq.trans (by host_kept hostOps4) ?_
  refine Eq.trans (W8_of_ne m ρ c main_arg2 (by decide)) ?_
  refine Eq.trans (by host_kept hostOps3) ?_
  refine Eq.trans (W6_of_ne m ρ c main_arg2 (by decide)) ?_
  refine Eq.trans (by host_kept hostOps2) ?_
  refine Eq.trans (W4_of_ne m ρ c main_arg2 (by decide)) ?_
  refine Eq.trans (by host_kept hostOps1) ?_
  refine Eq.trans (W2_of_ne m ρ c main_arg2 (by decide)) ?_
  refine Eq.trans (by host_kept hostOps0) ?_
  rfl
theorem b12_arg11 : W12 m ρ c (Proc.devRef .tc main_arg11) = A11 m c := by
  refine Eq.trans (W12_of_ne m ρ c main_arg11 (by decide)) ?_
  refine Eq.trans (by host_kept hostOps5) ?_
  refine Eq.trans (W10_of_ne m ρ c main_arg11 (by decide)) ?_
  refine Eq.trans (by host_kept hostOps4) ?_
  refine Eq.trans (W8_of_ne m ρ c main_arg11 (by decide)) ?_
  refine Eq.trans (by host_kept hostOps3) ?_
  refine Eq.trans (W6_of_ne m ρ c main_arg11 (by decide)) ?_
  refine Eq.trans (by host_kept hostOps2) ?_
  refine Eq.trans (W4_of_ne m ρ c main_arg11 (by decide)) ?_
  refine Eq.trans (by host_kept hostOps1) ?_
  refine Eq.trans (W2_of_ne m ρ c main_arg11 (by decide)) ?_
  refine Eq.trans (by host_kept hostOps0) ?_
  rfl
theorem b12_arg12 : W12 m ρ c (Proc.devRef .tc main_arg12) = A12 m c := by
  refine Eq.trans (W12_of_ne m ρ c main_arg12 (by decide)) ?_
  refine Eq.trans (by host_kept hostOps5) ?_
  refine Eq.trans (W10_of_ne m ρ c main_arg12 (by decide)) ?_
  refine Eq.trans (by host_kept hostOps4) ?_
  refine Eq.trans (W8_of_ne m ρ c main_arg12 (by decide)) ?_
  refine Eq.trans (by host_kept hostOps3) ?_
  refine Eq.trans (W6_of_ne m ρ c main_arg12 (by decide)) ?_
  refine Eq.trans (by host_kept hostOps2) ?_
  refine Eq.trans (W4_of_ne m ρ c main_arg12 (by decide)) ?_
  refine Eq.trans (by host_kept hostOps1) ?_
  refine Eq.trans (W2_of_ne m ρ c main_arg12 (by decide)) ?_
  refine Eq.trans (by host_kept hostOps0) ?_
  rfl
theorem b12_arg13 : W12 m ρ c (Proc.devRef .tc main_arg13) = A13 m c := by
  refine Eq.trans (W12_of_ne m ρ c main_arg13 (by decide)) ?_
  refine Eq.trans (by host_kept hostOps5) ?_
  refine Eq.trans (W10_of_ne m ρ c main_arg13 (by decide)) ?_
  refine Eq.trans (by host_kept hostOps4) ?_
  refine Eq.trans (W8_of_ne m ρ c main_arg13 (by decide)) ?_
  refine Eq.trans (by host_kept hostOps3) ?_
  refine Eq.trans (W6_of_ne m ρ c main_arg13 (by decide)) ?_
  refine Eq.trans (by host_kept hostOps2) ?_
  refine Eq.trans (W4_of_ne m ρ c main_arg13 (by decide)) ?_
  refine Eq.trans (by host_kept hostOps1) ?_
  refine Eq.trans (W2_of_ne m ρ c main_arg13 (by decide)) ?_
  refine Eq.trans (by host_kept hostOps0) ?_
  rfl
theorem b12_arg14 : W12 m ρ c (Proc.devRef .tc main_arg14) = A14 m c := by
  refine Eq.trans (W12_of_ne m ρ c main_arg14 (by decide)) ?_
  refine Eq.trans (by host_kept hostOps5) ?_
  refine Eq.trans (W10_of_ne m ρ c main_arg14 (by decide)) ?_
  refine Eq.trans (by host_kept hostOps4) ?_
  refine Eq.trans (W8_of_ne m ρ c main_arg14 (by decide)) ?_
  refine Eq.trans (by host_kept hostOps3) ?_
  refine Eq.trans (W6_of_ne m ρ c main_arg14 (by decide)) ?_
  refine Eq.trans (by host_kept hostOps2) ?_
  refine Eq.trans (W4_of_ne m ρ c main_arg14 (by decide)) ?_
  refine Eq.trans (by host_kept hostOps1) ?_
  refine Eq.trans (W2_of_ne m ρ c main_arg14 (by decide)) ?_
  refine Eq.trans (by host_kept hostOps0) ?_
  rfl
theorem b12_arg15 : W12 m ρ c (Proc.devRef .tc main_arg15) = A15 m c := by
  refine Eq.trans (W12_of_ne m ρ c main_arg15 (by decide)) ?_
  refine Eq.trans (by host_kept hostOps5) ?_
  refine Eq.trans (W10_of_ne m ρ c main_arg15 (by decide)) ?_
  refine Eq.trans (by host_kept hostOps4) ?_
  refine Eq.trans (W8_of_ne m ρ c main_arg15 (by decide)) ?_
  refine Eq.trans (by host_kept hostOps3) ?_
  refine Eq.trans (W6_of_ne m ρ c main_arg15 (by decide)) ?_
  refine Eq.trans (by host_kept hostOps2) ?_
  refine Eq.trans (W4_of_ne m ρ c main_arg15 (by decide)) ?_
  refine Eq.trans (by host_kept hostOps1) ?_
  refine Eq.trans (W2_of_ne m ρ c main_arg15 (by decide)) ?_
  refine Eq.trans (by host_kept hostOps0) ?_
  rfl
theorem b12_arg16 : W12 m ρ c (Proc.devRef .tc main_arg16) = A16 m c := by
  refine Eq.trans (W12_of_ne m ρ c main_arg16 (by decide)) ?_
  refine Eq.trans (by host_kept hostOps5) ?_
  refine Eq.trans (W10_of_ne m ρ c main_arg16 (by decide)) ?_
  refine Eq.trans (by host_kept hostOps4) ?_
  refine Eq.trans (W8_of_ne m ρ c main_arg16 (by decide)) ?_
  refine Eq.trans (by host_kept hostOps3) ?_
  refine Eq.trans (W6_of_ne m ρ c main_arg16 (by decide)) ?_
  refine Eq.trans (by host_kept hostOps2) ?_
  refine Eq.trans (W4_of_ne m ρ c main_arg16 (by decide)) ?_
  refine Eq.trans (by host_kept hostOps1) ?_
  refine Eq.trans (W2_of_ne m ρ c main_arg16 (by decide)) ?_
  refine Eq.trans (by host_kept hostOps0) ?_
  rfl
theorem b12_arg17 : W12 m ρ c (Proc.devRef .tc main_arg17) = A17 m c := by
  refine Eq.trans (W12_of_ne m ρ c main_arg17 (by decide)) ?_
  refine Eq.trans (by host_kept hostOps5) ?_
  refine Eq.trans (W10_of_ne m ρ c main_arg17 (by decide)) ?_
  refine Eq.trans (by host_kept hostOps4) ?_
  refine Eq.trans (W8_of_ne m ρ c main_arg17 (by decide)) ?_
  refine Eq.trans (by host_kept hostOps3) ?_
  refine Eq.trans (W6_of_ne m ρ c main_arg17 (by decide)) ?_
  refine Eq.trans (by host_kept hostOps2) ?_
  refine Eq.trans (W4_of_ne m ρ c main_arg17 (by decide)) ?_
  refine Eq.trans (by host_kept hostOps1) ?_
  refine Eq.trans (W2_of_ne m ρ c main_arg17 (by decide)) ?_
  refine Eq.trans (by host_kept hostOps0) ?_
  rfl
theorem b12_arg18 : W12 m ρ c (Proc.devRef .tc main_arg18) = A18 m c := by
  refine Eq.trans (W12_of_ne m ρ c main_arg18 (by decide)) ?_
  refine Eq.trans (by host_kept hostOps5) ?_
  refine Eq.trans (W10_of_ne m ρ c main_arg18 (by decide)) ?_
  refine Eq.trans (by host_kept hostOps4) ?_
  refine Eq.trans (W8_of_ne m ρ c main_arg18 (by decide)) ?_
  refine Eq.trans (by host_kept hostOps3) ?_
  refine Eq.trans (W6_of_ne m ρ c main_arg18 (by decide)) ?_
  refine Eq.trans (by host_kept hostOps2) ?_
  refine Eq.trans (W4_of_ne m ρ c main_arg18 (by decide)) ?_
  refine Eq.trans (by host_kept hostOps1) ?_
  refine Eq.trans (W2_of_ne m ρ c main_arg18 (by decide)) ?_
  refine Eq.trans (by host_kept hostOps0) ?_
  rfl
theorem b12_arg19 : W12 m ρ c (Proc.devRef .tc main_arg19) = A19 m c := by
  refine Eq.trans (W12_of_ne m ρ c main_arg19 (by decide)) ?_
  refine Eq.trans (by host_kept hostOps5) ?_
  refine Eq.trans (W10_of_ne m ρ c main_arg19 (by decide)) ?_
  refine Eq.trans (by host_kept hostOps4) ?_
  refine Eq.trans (W8_of_ne m ρ c main_arg19 (by decide)) ?_
  refine Eq.trans (by host_kept hostOps3) ?_
  refine Eq.trans (W6_of_ne m ρ c main_arg19 (by decide)) ?_
  refine Eq.trans (by host_kept hostOps2) ?_
  refine Eq.trans (W4_of_ne m ρ c main_arg19 (by decide)) ?_
  refine Eq.trans (by host_kept hostOps1) ?_
  refine Eq.trans (W2_of_ne m ρ c main_arg19 (by decide)) ?_
  refine Eq.trans (by host_kept hostOps0) ?_
  rfl
theorem b12_arg20 : W12 m ρ c (Proc.devRef .tc main_arg20) = A20 m c := by
  refine Eq.trans (W12_of_ne m ρ c main_arg20 (by decide)) ?_
  refine Eq.trans (by host_kept hostOps5) ?_
  refine Eq.trans (W10_of_ne m ρ c main_arg20 (by decide)) ?_
  refine Eq.trans (by host_kept hostOps4) ?_
  refine Eq.trans (W8_of_ne m ρ c main_arg20 (by decide)) ?_
  refine Eq.trans (by host_kept hostOps3) ?_
  refine Eq.trans (W6_of_ne m ρ c main_arg20 (by decide)) ?_
  refine Eq.trans (by host_kept hostOps2) ?_
  refine Eq.trans (W4_of_ne m ρ c main_arg20 (by decide)) ?_
  refine Eq.trans (by host_kept hostOps1) ?_
  refine Eq.trans (W2_of_ne m ρ c main_arg20 (by decide)) ?_
  refine Eq.trans (by host_kept hostOps0) ?_
  rfl
theorem b12_arg22 : W12 m ρ c (Proc.devRef .tc main_arg22) = A22 m c := by
  refine Eq.trans (W12_of_ne m ρ c main_arg22 (by decide)) ?_
  refine Eq.trans (by host_kept hostOps5) ?_
  refine Eq.trans (W10_of_ne m ρ c main_arg22 (by decide)) ?_
  refine Eq.trans (by host_kept hostOps4) ?_
  refine Eq.trans (W8_of_ne m ρ c main_arg22 (by decide)) ?_
  refine Eq.trans (by host_kept hostOps3) ?_
  refine Eq.trans (W6_of_ne m ρ c main_arg22 (by decide)) ?_
  refine Eq.trans (by host_kept hostOps2) ?_
  refine Eq.trans (W4_of_ne m ρ c main_arg22 (by decide)) ?_
  refine Eq.trans (by host_kept hostOps1) ?_
  refine Eq.trans (W2_of_ne m ρ c main_arg22 (by decide)) ?_
  refine Eq.trans (by host_kept hostOps0) ?_
  rfl
set_option maxHeartbeats 4000000 in
theorem b13_v122 : W13 m ρ c (Proc.devRef .tc main_v122) = (Cert.Model.v215 (F := Ideal) (A0 m c) (A1 m c) (A2 m c) (A3 m c) (A4 m c) (A5 m c) (A6 m c) (A7 m c) (A8 m c) (A9 m c) (A10 m c) (A21 m c) (A22 m c)) := by
  show StableHlo.after hostOps6 (W12 m ρ c) (Proc.devRef .tc main_v122) = _
  after_results
  rw [b12_arg22 m ρ c, b12_v109 m ρ c, b12_arg2 m ρ c]
  rfl
theorem b13_v123 : W13 m ρ c (Proc.devRef .tc main_v123) = (Cert.Model.v217 (F := Ideal) (A12 m c)) := by
  show StableHlo.after hostOps6 (W12 m ρ c) (Proc.devRef .tc main_v123) = _
  after_results
  rw [b12_arg12 m ρ c]
  exact Cert.RowOfVector.shapeCast_eq_broadcastInDim _ _ _
theorem b13_v124 : W13 m ρ c (Proc.devRef .tc main_v124) = (Cert.Model.v238 (F := Ideal) (A13 m c)) := by
  show StableHlo.after hostOps6 (W12 m ρ c) (Proc.devRef .tc main_v124) = _
  after_results
  rw [b12_arg13 m ρ c]
  exact Cert.RowOfVector.shapeCast_eq_broadcastInDim _ _ _
theorem b13_v125 : W13 m ρ c (Proc.devRef .tc main_v125) = (Cert.Model.v241 (F := Ideal) (A14 m c)) := by
  show StableHlo.after hostOps6 (W12 m ρ c) (Proc.devRef .tc main_v125) = _
  after_results
  rw [b12_arg14 m ρ c]
  exact Cert.RowOfVector.shapeCast_eq_broadcastInDim _ _ _
theorem b13_v126 : W13 m ρ c (Proc.devRef .tc main_v126) = (Cert.Model.v246 (F := Ideal) (A16 m c)) := by
  show StableHlo.after hostOps6 (W12 m ρ c) (Proc.devRef .tc main_v126) = _
  after_results
  rw [b12_arg16 m ρ c]
  exact Cert.RowOfVector.shapeCast_eq_broadcastInDim _ _ _
theorem b13_v127 : W13 m ρ c (Proc.devRef .tc main_v127) = (Cert.Model.v267 (F := Ideal) (A17 m c)) := by
  show StableHlo.after hostOps6 (W12 m ρ c) (Proc.devRef .tc main_v127) = _
  after_results
  rw [b12_arg17 m ρ c]
  exact Cert.RowOfVector.shapeCast_eq_broadcastInDim _ _ _
theorem b13_v128 : W13 m ρ c (Proc.devRef .tc main_v128) = (Cert.Model.v270 (F := Ideal) (A18 m c)) := by
  show StableHlo.after hostOps6 (W12 m ρ c) (Proc.devRef .tc main_v128) = _
  after_results
  rw [b12_arg18 m ρ c]
  exact Cert.RowOfVector.shapeCast_eq_broadcastInDim _ _ _
theorem b13_v129 : W13 m ρ c (Proc.devRef .tc main_v129) = (Cert.Model.v275 (F := Ideal) (A20 m c)) := by
  show StableHlo.after hostOps6 (W12 m ρ c) (Proc.devRef .tc main_v129) = _
  after_results
  rw [b12_arg20 m ρ c]
  exact Cert.RowOfVector.shapeCast_eq_broadcastInDim _ _ _
theorem b13_arg11 : W13 m ρ c (Proc.devRef .tc main_arg11) = A11 m c := by
  refine Eq.trans (by host_kept hostOps6) ?_
  refine Eq.trans (W12_of_ne m ρ c main_arg11 (by decide)) ?_
  refine Eq.trans (by host_kept hostOps5) ?_
  refine Eq.trans (W10_of_ne m ρ c main_arg11 (by decide)) ?_
  refine Eq.trans (by host_kept hostOps4) ?_
  refine Eq.trans (W8_of_ne m ρ c main_arg11 (by decide)) ?_
  refine Eq.trans (by host_kept hostOps3) ?_
  refine Eq.trans (W6_of_ne m ρ c main_arg11 (by decide)) ?_
  refine Eq.trans (by host_kept hostOps2) ?_
  refine Eq.trans (W4_of_ne m ρ c main_arg11 (by decide)) ?_
  refine Eq.trans (by host_kept hostOps1) ?_
  refine Eq.trans (W2_of_ne m ρ c main_arg11 (by decide)) ?_
  refine Eq.trans (by host_kept hostOps0) ?_
  rfl
theorem b13_arg15 : W13 m ρ c (Proc.devRef .tc main_arg15) = A15 m c := by
  refine Eq.trans (by host_kept hostOps6) ?_
  refine Eq.trans (W12_of_ne m ρ c main_arg15 (by decide)) ?_
  refine Eq.trans (by host_kept hostOps5) ?_
  refine Eq.trans (W10_of_ne m ρ c main_arg15 (by decide)) ?_
  refine Eq.trans (by host_kept hostOps4) ?_
  refine Eq.trans (W8_of_ne m ρ c main_arg15 (by decide)) ?_
  refine Eq.trans (by host_kept hostOps3) ?_
  refine Eq.trans (W6_of_ne m ρ c main_arg15 (by decide)) ?_
  refine Eq.trans (by host_kept hostOps2) ?_
  refine Eq.trans (W4_of_ne m ρ c main_arg15 (by decide)) ?_
  refine Eq.trans (by host_kept hostOps1) ?_
  refine Eq.trans (W2_of_ne m ρ c main_arg15 (by decide)) ?_
  refine Eq.trans (by host_kept hostOps0) ?_
  rfl
theorem b13_arg19 : W13 m ρ c (Proc.devRef .tc main_arg19) = A19 m c := by
  refine Eq.trans (by host_kept hostOps6) ?_
  refine Eq.trans (W12_of_ne m ρ c main_arg19 (by decide)) ?_
  refine Eq.trans (by host_kept hostOps5) ?_
  refine Eq.trans (W10_of_ne m ρ c main_arg19 (by decide)) ?_
  refine Eq.trans (by host_kept hostOps4) ?_
  refine Eq.trans (W8_of_ne m ρ c main_arg19 (by decide)) ?_
  refine Eq.trans (by host_kept hostOps3) ?_
  refine Eq.trans (W6_of_ne m ρ c main_arg19 (by decide)) ?_
  refine Eq.trans (by host_kept hostOps2) ?_
  refine Eq.trans (W4_of_ne m ρ c main_arg19 (by decide)) ?_
  refine Eq.trans (by host_kept hostOps1) ?_
  refine Eq.trans (W2_of_ne m ρ c main_arg19 (by decide)) ?_
  refine Eq.trans (by host_kept hostOps0) ?_
  rfl
theorem b14_v130 : W14 m ρ c (Proc.devRef .tc main_v130) = (Cert.Model.v277 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c)) := by
  refine (W14_arr m ρ c 11).trans ?_
  refine (Cert.Readout.final6 (V13 m ρ) c).trans ?_
  show Cert.Stages.readoutH (F := Ideal) (W13 m ρ c (Proc.devRef .tc main_v122)) (W13 m ρ c (Proc.devRef .tc main_arg11)) (W13 m ρ c (Proc.devRef .tc main_v123)) (W13 m ρ c (Proc.devRef .tc main_v124)) (W13 m ρ c (Proc.devRef .tc main_v125)) (W13 m ρ c (Proc.devRef .tc main_arg15)) (W13 m ρ c (Proc.devRef .tc main_v126)) (W13 m ρ c (Proc.devRef .tc main_v127)) (W13 m ρ c (Proc.devRef .tc main_v128)) (W13 m ρ c (Proc.devRef .tc main_arg19)) (W13 m ρ c (Proc.devRef .tc main_v129)) = _
  rw [b13_v122 m ρ c, b13_arg11 m ρ c, b13_v123 m ρ c, b13_v124 m ρ c, b13_v125 m ρ c, b13_arg15 m ρ c, b13_v126 m ρ c, b13_v127 m ρ c, b13_v128 m ρ c, b13_arg19 m ρ c, b13_v129 m ρ c]
  rfl
theorem b15_v131 : W15 m ρ c (Proc.devRef .tc main_v131) = (Cert.Model.v278 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c)) := by
  show StableHlo.after hostOps7 (W14 m ρ c) (Proc.devRef .tc main_v131) = _
  after_results
  rw [b14_v130 m ρ c]
  rfl

end Cert.KernelIdeal.Chain

end
-- ==== Proof.RefRun.lean ====
/-
  The reference program's @main as a list of its 323 host operations, cut into ten stretches in program order, each
  ending with the operation that completes a stage of the network (an edge message, a node update, the pooling, a
  layer of the readout), and the buffer contents at each cut: the contents after a stretch are the fold of its
  operations' results over the contents before it, starting from the launch memory.  The run of the program is then
  stated FOLDED: every weakly fair execution terminates with the result buffer at the last cut's contents and every
  argument array as launched (no operation writes an argument).
-/
import proofs.«112340_j85873576116383_2_alg».proof.Proof.Gen.ReferenceIdeal
import Idealize.ShloMosaic.Lib.StableHlo.Run
import Idealize.ShloMosaic.Lib.StableHlo.RunLoop
import proofs.«112340_j85873576116383_2_alg».proof.Proof.LibHostKept

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Kept

variable {F : FTy → Type} [FloatOps F]

/-! ## The ten stretches -/

/-- Operations 1–39, ending with the one that writes main_v34: the first edge message. -/
abbrev seg1 : List (HloOp τ sig (Elt F)) :=
  [ unary main_arg21 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg21 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S100000 ![] bcast_S_S100000 : (⟨S_, .i32⟩ : BufTy).Contents (Elt F) → (⟨S100000, .i32⟩ : BufTy).Contents (Elt F)),
    binary main_arg22 main_v4 main_v5 (cmpi .slt : (⟨S100000, .i32⟩ : BufTy).Contents (Elt F) → (⟨S100000, .i32⟩ : BufTy).Contents (Elt F) → (⟨S100000, .i1⟩ : BufTy).Contents (Elt F)),
    nullary main_c_0 (constantI S_ 32 64#32),
    unary main_c_0 main_v6 (broadcastInDim S100000 ![] bcast_S_S100000 : (⟨S_, .i32⟩ : BufTy).Contents (Elt F) → (⟨S100000, .i32⟩ : BufTy).Contents (Elt F)),
    binary main_arg22 main_v6 main_v7 (addi : (⟨S100000, .i32⟩ : BufTy).Contents (Elt F) → (⟨S100000, .i32⟩ : BufTy).Contents (Elt F) → (⟨S100000, .i32⟩ : BufTy).Contents (Elt F)),
    ternary main_v5 main_v7 main_arg22 main_v8 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v8 main_v9 (broadcastInDim S100000x1 ![0] bcast_S100000_S100000x1_0 : (⟨S100000, .i32⟩ : BufTy).Contents (Elt F) → (⟨S100000x1, .i32⟩ : BufTy).Contents (Elt F)),
    binary main_arg2 main_v9 main_v10 ((fun x i => Host.gather gather_S64x16_S100000x1_S100000x16_1_0_n_n_0_1_116 x i) : (⟨S64x16, .f32⟩ : BufTy).Contents (Elt F) → (⟨S100000x1, .i32⟩ : BufTy).Contents (Elt F) → (⟨S100000x16, .f32⟩ : BufTy).Contents (Elt F)),
    nullary main_c_1 (constantI S_ 32 0#32),
    unary main_c_1 main_v11 (broadcastInDim S1600000 ![] bcast_S_S1600000 : (⟨S_, .i32⟩ : BufTy).Contents (Elt F) → (⟨S1600000, .i32⟩ : BufTy).Contents (Elt F)),
    binary main_v1 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v13 (broadcastInDim S1600000 ![] bcast_S_S1600000 : (⟨S_, .i32⟩ : BufTy).Contents (Elt F) → (⟨S1600000, .i32⟩ : BufTy).Contents (Elt F)),
    binary main_v1 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_arg0 main_v16 main_v17 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v18 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v18 main_v19 rfl shapeCasts_S1x64x64_S64x64,
    binary main_v17 main_v19 main_v20 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg4 main_v21 ((extractStridedSlice S1x64 ![0, 0] · slices_S3x64_S1x64_0_0) : (⟨S3x64, .f32⟩ : BufTy).Contents (Elt F) → (⟨S1x64, .f32⟩ : BufTy).Contents (Elt F)),
    reshape main_v21 main_v22 rfl shapeCasts_S1x64_S64,
    unary main_v22 main_v23 (broadcastInDim S1x64 ![1] bcast_S64_S1x64_1 : (⟨S64, .f32⟩ : BufTy).Contents (Elt F) → (⟨S1x64, .f32⟩ : BufTy).Contents (Elt F)),
    unary main_v23 main_v24 (broadcastInDim S1600000x64 ![0, 1] bcast_S1x64_S1600000x64_0_1 : (⟨S1x64, .f32⟩ : BufTy).Contents (Elt F) → (⟨S1600000x64, .f32⟩ : BufTy).Contents (Elt F)),
    binary main_v20 main_v24 main_v25 (addf : (⟨S1600000x64, .f32⟩ : BufTy).Contents (Elt F) → (⟨S1600000x64, .f32⟩ : BufTy).Contents (Elt F) → (⟨S1600000x64, .f32⟩ : BufTy).Contents (Elt F)),
    binary main_v25 main_arg1 main_v26 ((fun a b => concatenate S1600000x80 1 [⟨S1600000x64, a⟩, ⟨S1600000x16, b⟩] concatenates_S1600000x64_S1600000x16_S1600000x80_d1) : (⟨S1600000x64, .f32⟩ : BufTy).Contents (Elt F) → (⟨S1600000x16, .f32⟩ : BufTy).Contents (Elt F) → (⟨S1600000x80, .f32⟩ : BufTy).Contents (Elt F)),
    unary main_arg5 main_v27 ((extractStridedSlice S1x80x64 ![0, 0, 0] · slices_S3x80x64_S1x80x64_0_0_0) : (⟨S3x80x64, .f32⟩ : BufTy).Contents (Elt F) → (⟨S1x80x64, .f32⟩ : BufTy).Contents (Elt F)),
    reshape main_v27 main_v28 rfl shapeCasts_S1x80x64_S80x64,
    binary main_v26 main_v28 main_v29 ((fun l r => Host.dotGeneral dot_S1600000x80_S80x64_S1600000x64_1_0_0_1_n_n none l r) : (⟨S1600000x80, .f32⟩ : BufTy).Contents (Elt F) → (⟨S80x64, .f32⟩ : BufTy).Contents (Elt F) → (⟨S1600000x64, .f32⟩ : BufTy).Contents (Elt F)),
    unary main_arg6 main_v30 ((extractStridedSlice S1x64 ![0, 0] · slices_S3x64_S1x64_0_0) : (⟨S3x64, .f32⟩ : BufTy).Contents (Elt F) → (⟨S1x64, .f32⟩ : BufTy).Contents (Elt F)),
    reshape main_v30 main_v31 rfl shapeCasts_S1x64_S64,
    unary main_v31 main_v32 (broadcastInDim S1x64 ![1] bcast_S64_S1x64_1 : (⟨S64, .f32⟩ : BufTy).Contents (Elt F) → (⟨S1x64, .f32⟩ : BufTy).Contents (Elt F)),
    unary main_v32 main_v33 (broadcastInDim S1600000x64 ![0, 1] bcast_S1x64_S1600000x64_0_1 : (⟨S1x64, .f32⟩ : BufTy).Contents (Elt F) → (⟨S1600000x64, .f32⟩ : BufTy).Contents (Elt F)),
    binary main_v29 main_v33 main_v34 (addf : (⟨S1600000x64, .f32⟩ : BufTy).Contents (Elt F) → (⟨S1600000x64, .f32⟩ : BufTy).Contents (Elt F) → (⟨S1600000x64, .f32⟩ : BufTy).Contents (Elt F)) ]

/-- Operations 40–85, ending with the one that writes main_v74: the first node update. -/
abbrev seg2 : List (HloOp τ sig (Elt F)) :=
  [ nullary main_cst (constant S_ .f32 0x00000000#32),
    unary main_cst main_v35 (broadcastInDim S100000x64 ![] bcast_S_S100000x64 : (⟨S_, .f32⟩ : BufTy).Contents (Elt F) → (⟨S100000x64, .f32⟩ : BufTy).Contents (Elt F)),
    unary main_v3 main_v36 (broadcastInDim S1600000x1 ![0] bcast_S1600000_S1600000x1_0 : (⟨S1600000, .i32⟩ : BufTy).Contents (Elt F) → (⟨S1600000x1, .i32⟩ : BufTy).Contents (Elt F)),
    ternary main_v35 main_v36 main_v34 main_v37 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v37 main_v10 main_v38 ((fun a b => concatenate S100000x80 1 [⟨S100000x64, a⟩, ⟨S100000x16, b⟩] concatenates_S100000x64_S100000x16_S100000x80_d1) : (⟨S100000x64, .f32⟩ : BufTy).Contents (Elt F) → (⟨S100000x16, .f32⟩ : BufTy).Contents (Elt F) → (⟨S100000x80, .f32⟩ : BufTy).Contents (Elt F)),
    unary main_arg7 main_v39 ((extractStridedSlice S1x80x64 ![0, 0, 0] · slices_S3x80x64_S1x80x64_0_0_0) : (⟨S3x80x64, .f32⟩ : BufTy).Contents (Elt F) → (⟨S1x80x64, .f32⟩ : BufTy).Contents (Elt F)),
    reshape main_v39 main_v40 rfl shapeCasts_S1x80x64_S80x64,
    binary main_v38 main_v40 main_v41 ((fun l r => Host.dotGeneral dot_S100000x80_S80x64_S100000x64_1_0_0_1_n_n none l r) : (⟨S100000x80, .f32⟩ : BufTy).Contents (Elt F) → (⟨S80x64, .f32⟩ : BufTy).Contents (Elt F) → (⟨S100000x64, .f32⟩ : BufTy).Contents (Elt F)),
    unary main_arg8 main_v42 ((extractStridedSlice S1x64 ![0, 0] · slices_S3x64_S1x64_0_0) : (⟨S3x64, .f32⟩ : BufTy).Contents (Elt F) → (⟨S1x64, .f32⟩ : BufTy).Contents (Elt F)),
    reshape main_v42 main_v43 rfl shapeCasts_S1x64_S64,
    unary main_v43 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v41 main_v45 main_v46 (addf : (⟨S100000x64, .f32⟩ : BufTy).Contents (Elt F) → (⟨S100000x64, .f32⟩ : BufTy).Contents (Elt F) → (⟨S100000x64, .f32⟩ : BufTy).Contents (Elt F)),
    unary main_arg9 main_v47 ((extractStridedSlice S1x64 ![0, 0] · slices_S3x64_S1x64_0_0) : (⟨S3x64, .f32⟩ : BufTy).Contents (Elt F) → (⟨S1x64, .f32⟩ : BufTy).Contents (Elt F)),
    reshape main_v47 main_v48 rfl shapeCasts_S1x64_S64,
    unary main_arg10 main_v49 ((extractStridedSlice S1x64 ![0, 0] · slices_S3x64_S1x64_0_0) : (⟨S3x64, .f32⟩ : BufTy).Contents (Elt F) → (⟨S1x64, .f32⟩ : BufTy).Contents (Elt F)),
    reshape main_v49 main_v50 rfl shapeCasts_S1x64_S64,
    nullary main_cst_3 (constant S_ .f32 0x00000000#32),
    binary main_v46 main_cst_3 main_v51 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v51 main_v52 (broadcastInDim S100000x1 ![0] bcast_S100000_S100000x1_0 : (⟨S100000, .f32⟩ : BufTy).Contents (Elt F) → (⟨S100000x1, .f32⟩ : BufTy).Contents (Elt F)),
    nullary main_cst_4 (constant S_ .f32 0x42800000#32),
    unary main_cst_4 main_v53 (broadcastInDim S100000x1 ![] bcast_S_S100000x1 : (⟨S_, .f32⟩ : BufTy).Contents (Elt F) → (⟨S100000x1, .f32⟩ : BufTy).Contents (Elt F)),
    binary main_v52 main_v53 main_v54 (Host.divf : (⟨S100000x1, .f32⟩ : BufTy).Contents (Elt F) → (⟨S100000x1, .f32⟩ : BufTy).Contents (Elt F) → (⟨S100000x1, .f32⟩ : BufTy).Contents (Elt F)),
    unary main_v54 main_v55 (broadcastInDim S100000x64 ![0, 1] bcast_S100000x1_S100000x64_0_1 : (⟨S100000x1, .f32⟩ : BufTy).Contents (Elt F) → (⟨S100000x64, .f32⟩ : BufTy).Contents (Elt F)),
    binary main_v46 main_v55 main_v56 (subf : (⟨S100000x64, .f32⟩ : BufTy).Contents (Elt F) → (⟨S100000x64, .f32⟩ : BufTy).Contents (Elt F) → (⟨S100000x64, .f32⟩ : BufTy).Contents (Elt F)),
    binary main_v56 main_v56 main_v57 (mulf : (⟨S100000x64, .f32⟩ : BufTy).Contents (Elt F) → (⟨S100000x64, .f32⟩ : BufTy).Contents (Elt F) → (⟨S100000x64, .f32⟩ : BufTy).Contents (Elt F)),
    nullary main_cst_5 (constant S_ .f32 0x00000000#32),
    binary main_v57 main_cst_5 main_v58 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v58 main_v59 (broadcastInDim S100000x1 ![0] bcast_S100000_S100000x1_0 : (⟨S100000, .f32⟩ : BufTy).Contents (Elt F) → (⟨S100000x1, .f32⟩ : BufTy).Contents (Elt F)),
    nullary main_cst_6 (constant S_ .f32 0x42800000#32),
    unary main_cst_6 main_v60 (broadcastInDim S100000x1 ![] bcast_S_S100000x1 : (⟨S_, .f32⟩ : BufTy).Contents (Elt F) → (⟨S100000x1, .f32⟩ : BufTy).Contents (Elt F)),
    binary main_v59 main_v60 main_v61 (Host.divf : (⟨S100000x1, .f32⟩ : BufTy).Contents (Elt F) → (⟨S100000x1, .f32⟩ : BufTy).Contents (Elt F) → (⟨S100000x1, .f32⟩ : BufTy).Contents (Elt F)),
    unary main_v54 main_v62 (broadcastInDim S100000x64 ![0, 1] bcast_S100000x1_S100000x64_0_1 : (⟨S100000x1, .f32⟩ : BufTy).Contents (Elt F) → (⟨S100000x64, .f32⟩ : BufTy).Contents (Elt F)),
    binary main_v46 main_v62 main_v63 (subf : (⟨S100000x64, .f32⟩ : BufTy).Contents (Elt F) → (⟨S100000x64, .f32⟩ : BufTy).Contents (Elt F) → (⟨S100000x64, .f32⟩ : BufTy).Contents (Elt F)),
    nullary main_cst_7 (constant S_ .f32 0x3727C5AC#32),
    unary main_cst_7 main_v64 (broadcastInDim S100000x1 ![] bcast_S_S100000x1 : (⟨S_, .f32⟩ : BufTy).Contents (Elt F) → (⟨S100000x1, .f32⟩ : BufTy).Contents (Elt F)),
    binary main_v61 main_v64 main_v65 (addf : (⟨S100000x1, .f32⟩ : BufTy).Contents (Elt F) → (⟨S100000x1, .f32⟩ : BufTy).Contents (Elt F) → (⟨S100000x1, .f32⟩ : BufTy).Contents (Elt F)),
    unary main_v65 main_v66 (Host.rsqrt : (⟨S100000x1, .f32⟩ : BufTy).Contents (Elt F) → (⟨S100000x1, .f32⟩ : BufTy).Contents (Elt F)),
    unary main_v66 main_v67 (broadcastInDim S100000x64 ![0, 1] bcast_S100000x1_S100000x64_0_1 : (⟨S100000x1, .f32⟩ : BufTy).Contents (Elt F) → (⟨S100000x64, .f32⟩ : BufTy).Contents (Elt F)),
    binary main_v63 main_v67 main_v68 (mulf : (⟨S100000x64, .f32⟩ : BufTy).Contents (Elt F) → (⟨S100000x64, .f32⟩ : BufTy).Contents (Elt F) → (⟨S100000x64, .f32⟩ : BufTy).Contents (Elt F)),
    unary main_v48 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v68 main_v70 main_v71 (mulf : (⟨S100000x64, .f32⟩ : BufTy).Contents (Elt F) → (⟨S100000x64, .f32⟩ : BufTy).Contents (Elt F) → (⟨S100000x64, .f32⟩ : BufTy).Contents (Elt F)),
    unary main_v50 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v71 main_v73 main_v74 (addf : (⟨S100000x64, .f32⟩ : BufTy).Contents (Elt F) → (⟨S100000x64, .f32⟩ : BufTy).Contents (Elt F) → (⟨S100000x64, .f32⟩ : BufTy).Contents (Elt F)) ]

/-- Operations 86–111, ending with the one that writes main_v98: the second edge message. -/
abbrev seg3 : List (HloOp τ sig (Elt F)) :=
  [ nullary main_c_8 (constantI S_ 32 0#32),
    unary main_c_8 main_v75 (broadcastInDim S1600000 ![] bcast_S_S1600000 : (⟨S_, .i32⟩ : BufTy).Contents (Elt F) → (⟨S1600000, .i32⟩ : BufTy).Contents (Elt F)),
    binary main_v1 main_v75 main_v76 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v77 (broadcastInDim S1600000 ![] bcast_S_S1600000 : (⟨S_, .i32⟩ : BufTy).Contents (Elt F) → (⟨S1600000, .i32⟩ : BufTy).Contents (Elt F)),
    binary main_v1 main_v77 main_v78 (addi : (⟨S1600000, .i32⟩ : BufTy).Contents (Elt F) → (⟨S1600000, .i32⟩ : BufTy).Contents (Elt F) → (⟨S1600000, .i32⟩ : BufTy).Contents (Elt F)),
    ternary main_v76 main_v78 main_v1 main_v79 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v79 main_v80 (broadcastInDim S1600000x1 ![0] bcast_S1600000_S1600000x1_0 : (⟨S1600000, .i32⟩ : BufTy).Contents (Elt F) → (⟨S1600000x1, .i32⟩ : BufTy).Contents (Elt F)),
    binary main_v74 main_v80 main_v81 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v82 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v82 main_v83 rfl shapeCasts_S1x64x64_S64x64,
    binary main_v81 main_v83 main_v84 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg4 main_v85 ((extractStridedSlice S1x64 ![1, 0] · slices_S3x64_S1x64_1_0) : (⟨S3x64, .f32⟩ : BufTy).Contents (Elt F) → (⟨S1x64, .f32⟩ : BufTy).Contents (Elt F)),
    reshape main_v85 main_v86 rfl shapeCasts_S1x64_S64,
    unary main_v86 main_v87 (broadcastInDim S1x64 ![1] bcast_S64_S1x64_1 : (⟨S64, .f32⟩ : BufTy).Contents (Elt F) → (⟨S1x64, .f32⟩ : BufTy).Contents (Elt F)),
    unary main_v87 main_v88 (broadcastInDim S1600000x64 ![0, 1] bcast_S1x64_S1600000x64_0_1 : (⟨S1x64, .f32⟩ : BufTy).Contents (Elt F) → (⟨S1600000x64, .f32⟩ : BufTy).Contents (Elt F)),
    binary main_v84 main_v88 main_v89 (addf : (⟨S1600000x64, .f32⟩ : BufTy).Contents (Elt F) → (⟨S1600000x64, .f32⟩ : BufTy).Contents (Elt F) → (⟨S1600000x64, .f32⟩ : BufTy).Contents (Elt F)),
    binary main_v89 main_arg1 main_v90 ((fun a b => concatenate S1600000x80 1 [⟨S1600000x64, a⟩, ⟨S1600000x16, b⟩] concatenates_S1600000x64_S1600000x16_S1600000x80_d1) : (⟨S1600000x64, .f32⟩ : BufTy).Contents (Elt F) → (⟨S1600000x16, .f32⟩ : BufTy).Contents (Elt F) → (⟨S1600000x80, .f32⟩ : BufTy).Contents (Elt F)),
    unary main_arg5 main_v91 ((extractStridedSlice S1x80x64 ![1, 0, 0] · slices_S3x80x64_S1x80x64_1_0_0) : (⟨S3x80x64, .f32⟩ : BufTy).Contents (Elt F) → (⟨S1x80x64, .f32⟩ : BufTy).Contents (Elt F)),
    reshape main_v91 main_v92 rfl shapeCasts_S1x80x64_S80x64,
    binary main_v90 main_v92 main_v93 ((fun l r => Host.dotGeneral dot_S1600000x80_S80x64_S1600000x64_1_0_0_1_n_n none l r) : (⟨S1600000x80, .f32⟩ : BufTy).Contents (Elt F) → (⟨S80x64, .f32⟩ : BufTy).Contents (Elt F) → (⟨S1600000x64, .f32⟩ : BufTy).Contents (Elt F)),
    unary main_arg6 main_v94 ((extractStridedSlice S1x64 ![1, 0] · slices_S3x64_S1x64_1_0) : (⟨S3x64, .f32⟩ : BufTy).Contents (Elt F) → (⟨S1x64, .f32⟩ : BufTy).Contents (Elt F)),
    reshape main_v94 main_v95 rfl shapeCasts_S1x64_S64,
    unary main_v95 main_v96 (broadcastInDim S1x64 ![1] bcast_S64_S1x64_1 : (⟨S64, .f32⟩ : BufTy).Contents (Elt F) → (⟨S1x64, .f32⟩ : BufTy).Contents (Elt F)),
    unary main_v96 main_v97 (broadcastInDim S1600000x64 ![0, 1] bcast_S1x64_S1600000x64_0_1 : (⟨S1x64, .f32⟩ : BufTy).Contents (Elt F) → (⟨S1600000x64, .f32⟩ : BufTy).Contents (Elt F)),
    binary main_v93 main_v97 main_v98 (addf : (⟨S1600000x64, .f32⟩ : BufTy).Contents (Elt F) → (⟨S1600000x64, .f32⟩ : BufTy).Contents (Elt F) → (⟨S1600000x64, .f32⟩ : BufTy).Contents (Elt F)) ]

/-- Operations 112–157, ending with the one that writes main_v138: the second node update. -/
abbrev seg4 : List (HloOp τ sig (Elt F)) :=
  [ nullary main_cst_10 (constant S_ .f32 0x00000000#32),
    unary main_cst_10 main_v99 (broadcastInDim S100000x64 ![] bcast_S_S100000x64 : (⟨S_, .f32⟩ : BufTy).Contents (Elt F) → (⟨S100000x64, .f32⟩ : BufTy).Contents (Elt F)),
    unary main_v3 main_v100 (broadcastInDim S1600000x1 ![0] bcast_S1600000_S1600000x1_0 : (⟨S1600000, .i32⟩ : BufTy).Contents (Elt F) → (⟨S1600000x1, .i32⟩ : BufTy).Contents (Elt F)),
    ternary main_v99 main_v100 main_v98 main_v101 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v101 main_v10 main_v102 ((fun a b => concatenate S100000x80 1 [⟨S100000x64, a⟩, ⟨S100000x16, b⟩] concatenates_S100000x64_S100000x16_S100000x80_d1) : (⟨S100000x64, .f32⟩ : BufTy).Contents (Elt F) → (⟨S100000x16, .f32⟩ : BufTy).Contents (Elt F) → (⟨S100000x80, .f32⟩ : BufTy).Contents (Elt F)),
    unary main_arg7 main_v103 ((extractStridedSlice S1x80x64 ![1, 0, 0] · slices_S3x80x64_S1x80x64_1_0_0) : (⟨S3x80x64, .f32⟩ : BufTy).Contents (Elt F) → (⟨S1x80x64, .f32⟩ : BufTy).Contents (Elt F)),
    reshape main_v103 main_v104 rfl shapeCasts_S1x80x64_S80x64,
    binary main_v102 main_v104 main_v105 ((fun l r => Host.dotGeneral dot_S100000x80_S80x64_S100000x64_1_0_0_1_n_n none l r) : (⟨S100000x80, .f32⟩ : BufTy).Contents (Elt F) → (⟨S80x64, .f32⟩ : BufTy).Contents (Elt F) → (⟨S100000x64, .f32⟩ : BufTy).Contents (Elt F)),
    unary main_arg8 main_v106 ((extractStridedSlice S1x64 ![1, 0] · slices_S3x64_S1x64_1_0) : (⟨S3x64, .f32⟩ : BufTy).Contents (Elt F) → (⟨S1x64, .f32⟩ : BufTy).Contents (Elt F)),
    reshape main_v106 main_v107 rfl shapeCasts_S1x64_S64,
    unary main_v107 main_v108 (broadcastInDim S1x64 ![1] bcast_S64_S1x64_1 : (⟨S64, .f32⟩ : BufTy).Contents (Elt F) → (⟨S1x64, .f32⟩ : BufTy).Contents (Elt F)),
    unary main_v108 main_v109 (broadcastInDim S100000x64 ![0, 1] bcast_S1x64_S100000x64_0_1 : (⟨S1x64, .f32⟩ : BufTy).Contents (Elt F) → (⟨S100000x64, .f32⟩ : BufTy).Contents (Elt F)),
    binary main_v105 main_v109 main_v110 (addf : (⟨S100000x64, .f32⟩ : BufTy).Contents (Elt F) → (⟨S100000x64, .f32⟩ : BufTy).Contents (Elt F) → (⟨S100000x64, .f32⟩ : BufTy).Contents (Elt F)),
    unary main_arg9 main_v111 ((extractStridedSlice S1x64 ![1, 0] · slices_S3x64_S1x64_1_0) : (⟨S3x64, .f32⟩ : BufTy).Contents (Elt F) → (⟨S1x64, .f32⟩ : BufTy).Contents (Elt F)),
    reshape main_v111 main_v112 rfl shapeCasts_S1x64_S64,
    unary main_arg10 main_v113 ((extractStridedSlice S1x64 ![1, 0] · slices_S3x64_S1x64_1_0) : (⟨S3x64, .f32⟩ : BufTy).Contents (Elt F) → (⟨S1x64, .f32⟩ : BufTy).Contents (Elt F)),
    reshape main_v113 main_v114 rfl shapeCasts_S1x64_S64,
    nullary main_cst_11 (constant S_ .f32 0x00000000#32),
    binary main_v110 main_cst_11 main_v115 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v115 main_v116 (broadcastInDim S100000x1 ![0] bcast_S100000_S100000x1_0 : (⟨S100000, .f32⟩ : BufTy).Contents (Elt F) → (⟨S100000x1, .f32⟩ : BufTy).Contents (Elt F)),
    nullary main_cst_12 (constant S_ .f32 0x42800000#32),
    unary main_cst_12 main_v117 (broadcastInDim S100000x1 ![] bcast_S_S100000x1 : (⟨S_, .f32⟩ : BufTy).Contents (Elt F) → (⟨S100000x1, .f32⟩ : BufTy).Contents (Elt F)),
    binary main_v116 main_v117 main_v118 (Host.divf : (⟨S100000x1, .f32⟩ : BufTy).Contents (Elt F) → (⟨S100000x1, .f32⟩ : BufTy).Contents (Elt F) → (⟨S100000x1, .f32⟩ : BufTy).Contents (Elt F)),
    unary main_v118 main_v119 (broadcastInDim S100000x64 ![0, 1] bcast_S100000x1_S100000x64_0_1 : (⟨S100000x1, .f32⟩ : BufTy).Contents (Elt F) → (⟨S100000x64, .f32⟩ : BufTy).Contents (Elt F)),
    binary main_v110 main_v119 main_v120 (subf : (⟨S100000x64, .f32⟩ : BufTy).Contents (Elt F) → (⟨S100000x64, .f32⟩ : BufTy).Contents (Elt F) → (⟨S100000x64, .f32⟩ : BufTy).Contents (Elt F)),
    binary main_v120 main_v120 main_v121 (mulf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x00000000#32),
    binary main_v121 main_cst_13 main_v122 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v122 main_v123 (broadcastInDim S100000x1 ![0] bcast_S100000_S100000x1_0 : (⟨S100000, .f32⟩ : BufTy).Contents (Elt F) → (⟨S100000x1, .f32⟩ : BufTy).Contents (Elt F)),
    nullary main_cst_14 (constant S_ .f32 0x42800000#32),
    unary main_cst_14 main_v124 (broadcastInDim S100000x1 ![] bcast_S_S100000x1 : (⟨S_, .f32⟩ : BufTy).Contents (Elt F) → (⟨S100000x1, .f32⟩ : BufTy).Contents (Elt F)),
    binary main_v123 main_v124 main_v125 (Host.divf : (⟨S100000x1, .f32⟩ : BufTy).Contents (Elt F) → (⟨S100000x1, .f32⟩ : BufTy).Contents (Elt F) → (⟨S100000x1, .f32⟩ : BufTy).Contents (Elt F)),
    unary main_v118 main_v126 (broadcastInDim S100000x64 ![0, 1] bcast_S100000x1_S100000x64_0_1 : (⟨S100000x1, .f32⟩ : BufTy).Contents (Elt F) → (⟨S100000x64, .f32⟩ : BufTy).Contents (Elt F)),
    binary main_v110 main_v126 main_v127 (subf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x3727C5AC#32),
    unary main_cst_15 main_v128 (broadcastInDim S100000x1 ![] bcast_S_S100000x1 : (⟨S_, .f32⟩ : BufTy).Contents (Elt F) → (⟨S100000x1, .f32⟩ : BufTy).Contents (Elt F)),
    binary main_v125 main_v128 main_v129 (addf : (⟨S100000x1, .f32⟩ : BufTy).Contents (Elt F) → (⟨S100000x1, .f32⟩ : BufTy).Contents (Elt F) → (⟨S100000x1, .f32⟩ : BufTy).Contents (Elt F)),
    unary main_v129 main_v130 (Host.rsqrt : (⟨S100000x1, .f32⟩ : BufTy).Contents (Elt F) → (⟨S100000x1, .f32⟩ : BufTy).Contents (Elt F)),
    unary main_v130 main_v131 (broadcastInDim S100000x64 ![0, 1] bcast_S100000x1_S100000x64_0_1 : (⟨S100000x1, .f32⟩ : BufTy).Contents (Elt F) → (⟨S100000x64, .f32⟩ : BufTy).Contents (Elt F)),
    binary main_v127 main_v131 main_v132 (mulf : (⟨S100000x64, .f32⟩ : BufTy).Contents (Elt F) → (⟨S100000x64, .f32⟩ : BufTy).Contents (Elt F) → (⟨S100000x64, .f32⟩ : BufTy).Contents (Elt F)),
    unary main_v112 main_v133 (broadcastInDim S1x64 ![1] bcast_S64_S1x64_1 : (⟨S64, .f32⟩ : BufTy).Contents (Elt F) → (⟨S1x64, .f32⟩ : BufTy).Contents (Elt F)),
    unary main_v133 main_v134 (broadcastInDim S100000x64 ![0, 1] bcast_S1x64_S100000x64_0_1 : (⟨S1x64, .f32⟩ : BufTy).Contents (Elt F) → (⟨S100000x64, .f32⟩ : BufTy).Contents (Elt F)),
    binary main_v132 main_v134 main_v135 (mulf : (⟨S100000x64, .f32⟩ : BufTy).Contents (Elt F) → (⟨S100000x64, .f32⟩ : BufTy).Contents (Elt F) → (⟨S100000x64, .f32⟩ : BufTy).Contents (Elt F)),
    unary main_v114 main_v136 (broadcastInDim S1x64 ![1] bcast_S64_S1x64_1 : (⟨S64, .f32⟩ : BufTy).Contents (Elt F) → (⟨S1x64, .f32⟩ : BufTy).Contents (Elt F)),
    unary main_v136 main_v137 (broadcastInDim S100000x64 ![0, 1] bcast_S1x64_S100000x64_0_1 : (⟨S1x64, .f32⟩ : BufTy).Contents (Elt F) → (⟨S100000x64, .f32⟩ : BufTy).Contents (Elt F)),
    binary main_v135 main_v137 main_v138 (addf : (⟨S100000x64, .f32⟩ : BufTy).Contents (Elt F) → (⟨S100000x64, .f32⟩ : BufTy).Contents (Elt F) → (⟨S100000x64, .f32⟩ : BufTy).Contents (Elt F)) ]

/-- Operations 158–183, ending with the one that writes main_v162: the third edge message. -/
abbrev seg5 : List (HloOp τ sig (Elt F)) :=
  [ nullary main_c_16 (constantI S_ 32 0#32),
    unary main_c_16 main_v139 (broadcastInDim S1600000 ![] bcast_S_S1600000 : (⟨S_, .i32⟩ : BufTy).Contents (Elt F) → (⟨S1600000, .i32⟩ : BufTy).Contents (Elt F)),
    binary main_v1 main_v139 main_v140 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v141 (broadcastInDim S1600000 ![] bcast_S_S1600000 : (⟨S_, .i32⟩ : BufTy).Contents (Elt F) → (⟨S1600000, .i32⟩ : BufTy).Contents (Elt F)),
    binary main_v1 main_v141 main_v142 (addi : (⟨S1600000, .i32⟩ : BufTy).Contents (Elt F) → (⟨S1600000, .i32⟩ : BufTy).Contents (Elt F) → (⟨S1600000, .i32⟩ : BufTy).Contents (Elt F)),
    ternary main_v140 main_v142 main_v1 main_v143 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v143 main_v144 (broadcastInDim S1600000x1 ![0] bcast_S1600000_S1600000x1_0 : (⟨S1600000, .i32⟩ : BufTy).Contents (Elt F) → (⟨S1600000x1, .i32⟩ : BufTy).Contents (Elt F)),
    binary main_v138 main_v144 main_v145 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v146 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v146 main_v147 rfl shapeCasts_S1x64x64_S64x64,
    binary main_v145 main_v147 main_v148 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg4 main_v149 ((extractStridedSlice S1x64 ![2, 0] · slices_S3x64_S1x64_2_0) : (⟨S3x64, .f32⟩ : BufTy).Contents (Elt F) → (⟨S1x64, .f32⟩ : BufTy).Contents (Elt F)),
    reshape main_v149 main_v150 rfl shapeCasts_S1x64_S64,
    unary main_v150 main_v151 (broadcastInDim S1x64 ![1] bcast_S64_S1x64_1 : (⟨S64, .f32⟩ : BufTy).Contents (Elt F) → (⟨S1x64, .f32⟩ : BufTy).Contents (Elt F)),
    unary main_v151 main_v152 (broadcastInDim S1600000x64 ![0, 1] bcast_S1x64_S1600000x64_0_1 : (⟨S1x64, .f32⟩ : BufTy).Contents (Elt F) → (⟨S1600000x64, .f32⟩ : BufTy).Contents (Elt F)),
    binary main_v148 main_v152 main_v153 (addf : (⟨S1600000x64, .f32⟩ : BufTy).Contents (Elt F) → (⟨S1600000x64, .f32⟩ : BufTy).Contents (Elt F) → (⟨S1600000x64, .f32⟩ : BufTy).Contents (Elt F)),
    binary main_v153 main_arg1 main_v154 ((fun a b => concatenate S1600000x80 1 [⟨S1600000x64, a⟩, ⟨S1600000x16, b⟩] concatenates_S1600000x64_S1600000x16_S1600000x80_d1) : (⟨S1600000x64, .f32⟩ : BufTy).Contents (Elt F) → (⟨S1600000x16, .f32⟩ : BufTy).Contents (Elt F) → (⟨S1600000x80, .f32⟩ : BufTy).Contents (Elt F)),
    unary main_arg5 main_v155 ((extractStridedSlice S1x80x64 ![2, 0, 0] · slices_S3x80x64_S1x80x64_2_0_0) : (⟨S3x80x64, .f32⟩ : BufTy).Contents (Elt F) → (⟨S1x80x64, .f32⟩ : BufTy).Contents (Elt F)),
    reshape main_v155 main_v156 rfl shapeCasts_S1x80x64_S80x64,
    binary main_v154 main_v156 main_v157 ((fun l r => Host.dotGeneral dot_S1600000x80_S80x64_S1600000x64_1_0_0_1_n_n none l r) : (⟨S1600000x80, .f32⟩ : BufTy).Contents (Elt F) → (⟨S80x64, .f32⟩ : BufTy).Contents (Elt F) → (⟨S1600000x64, .f32⟩ : BufTy).Contents (Elt F)),
    unary main_arg6 main_v158 ((extractStridedSlice S1x64 ![2, 0] · slices_S3x64_S1x64_2_0) : (⟨S3x64, .f32⟩ : BufTy).Contents (Elt F) → (⟨S1x64, .f32⟩ : BufTy).Contents (Elt F)),
    reshape main_v158 main_v159 rfl shapeCasts_S1x64_S64,
    unary main_v159 main_v160 (broadcastInDim S1x64 ![1] bcast_S64_S1x64_1 : (⟨S64, .f32⟩ : BufTy).Contents (Elt F) → (⟨S1x64, .f32⟩ : BufTy).Contents (Elt F)),
    unary main_v160 main_v161 (broadcastInDim S1600000x64 ![0, 1] bcast_S1x64_S1600000x64_0_1 : (⟨S1x64, .f32⟩ : BufTy).Contents (Elt F) → (⟨S1600000x64, .f32⟩ : BufTy).Contents (Elt F)),
    binary main_v157 main_v161 main_v162 (addf : (⟨S1600000x64, .f32⟩ : BufTy).Contents (Elt F) → (⟨S1600000x64, .f32⟩ : BufTy).Contents (Elt F) → (⟨S1600000x64, .f32⟩ : BufTy).Contents (Elt F)) ]

/-- Operations 184–229, ending with the one that writes main_v202: the third node update. -/
abbrev seg6 : List (HloOp τ sig (Elt F)) :=
  [ nullary main_cst_18 (constant S_ .f32 0x00000000#32),
    unary main_cst_18 main_v163 (broadcastInDim S100000x64 ![] bcast_S_S100000x64 : (⟨S_, .f32⟩ : BufTy).Contents (Elt F) → (⟨S100000x64, .f32⟩ : BufTy).Contents (Elt F)),
    unary main_v3 main_v164 (broadcastInDim S1600000x1 ![0] bcast_S1600000_S1600000x1_0 : (⟨S1600000, .i32⟩ : BufTy).Contents (Elt F) → (⟨S1600000x1, .i32⟩ : BufTy).Contents (Elt F)),
    ternary main_v163 main_v164 main_v162 main_v165 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v165 main_v10 main_v166 ((fun a b => concatenate S100000x80 1 [⟨S100000x64, a⟩, ⟨S100000x16, b⟩] concatenates_S100000x64_S100000x16_S100000x80_d1) : (⟨S100000x64, .f32⟩ : BufTy).Contents (Elt F) → (⟨S100000x16, .f32⟩ : BufTy).Contents (Elt F) → (⟨S100000x80, .f32⟩ : BufTy).Contents (Elt F)),
    unary main_arg7 main_v167 ((extractStridedSlice S1x80x64 ![2, 0, 0] · slices_S3x80x64_S1x80x64_2_0_0) : (⟨S3x80x64, .f32⟩ : BufTy).Contents (Elt F) → (⟨S1x80x64, .f32⟩ : BufTy).Contents (Elt F)),
    reshape main_v167 main_v168 rfl shapeCasts_S1x80x64_S80x64,
    binary main_v166 main_v168 main_v169 ((fun l r => Host.dotGeneral dot_S100000x80_S80x64_S100000x64_1_0_0_1_n_n none l r) : (⟨S100000x80, .f32⟩ : BufTy).Contents (Elt F) → (⟨S80x64, .f32⟩ : BufTy).Contents (Elt F) → (⟨S100000x64, .f32⟩ : BufTy).Contents (Elt F)),
    unary main_arg8 main_v170 ((extractStridedSlice S1x64 ![2, 0] · slices_S3x64_S1x64_2_0) : (⟨S3x64, .f32⟩ : BufTy).Contents (Elt F) → (⟨S1x64, .f32⟩ : BufTy).Contents (Elt F)),
    reshape main_v170 main_v171 rfl shapeCasts_S1x64_S64,
    unary main_v171 main_v172 (broadcastInDim S1x64 ![1] bcast_S64_S1x64_1 : (⟨S64, .f32⟩ : BufTy).Contents (Elt F) → (⟨S1x64, .f32⟩ : BufTy).Contents (Elt F)),
    unary main_v172 main_v173 (broadcastInDim S100000x64 ![0, 1] bcast_S1x64_S100000x64_0_1 : (⟨S1x64, .f32⟩ : BufTy).Contents (Elt F) → (⟨S100000x64, .f32⟩ : BufTy).Contents (Elt F)),
    binary main_v169 main_v173 main_v174 (addf : (⟨S100000x64, .f32⟩ : BufTy).Contents (Elt F) → (⟨S100000x64, .f32⟩ : BufTy).Contents (Elt F) → (⟨S100000x64, .f32⟩ : BufTy).Contents (Elt F)),
    unary main_arg9 main_v175 ((extractStridedSlice S1x64 ![2, 0] · slices_S3x64_S1x64_2_0) : (⟨S3x64, .f32⟩ : BufTy).Contents (Elt F) → (⟨S1x64, .f32⟩ : BufTy).Contents (Elt F)),
    reshape main_v175 main_v176 rfl shapeCasts_S1x64_S64,
    unary main_arg10 main_v177 ((extractStridedSlice S1x64 ![2, 0] · slices_S3x64_S1x64_2_0) : (⟨S3x64, .f32⟩ : BufTy).Contents (Elt F) → (⟨S1x64, .f32⟩ : BufTy).Contents (Elt F)),
    reshape main_v177 main_v178 rfl shapeCasts_S1x64_S64,
    nullary main_cst_19 (constant S_ .f32 0x00000000#32),
    binary main_v174 main_cst_19 main_v179 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v179 main_v180 (broadcastInDim S100000x1 ![0] bcast_S100000_S100000x1_0 : (⟨S100000, .f32⟩ : BufTy).Contents (Elt F) → (⟨S100000x1, .f32⟩ : BufTy).Contents (Elt F)),
    nullary main_cst_20 (constant S_ .f32 0x42800000#32),
    unary main_cst_20 main_v181 (broadcastInDim S100000x1 ![] bcast_S_S100000x1 : (⟨S_, .f32⟩ : BufTy).Contents (Elt F) → (⟨S100000x1, .f32⟩ : BufTy).Contents (Elt F)),
    binary main_v180 main_v181 main_v182 (Host.divf : (⟨S100000x1, .f32⟩ : BufTy).Contents (Elt F) → (⟨S100000x1, .f32⟩ : BufTy).Contents (Elt F) → (⟨S100000x1, .f32⟩ : BufTy).Contents (Elt F)),
    unary main_v182 main_v183 (broadcastInDim S100000x64 ![0, 1] bcast_S100000x1_S100000x64_0_1 : (⟨S100000x1, .f32⟩ : BufTy).Contents (Elt F) → (⟨S100000x64, .f32⟩ : BufTy).Contents (Elt F)),
    binary main_v174 main_v183 main_v184 (subf : (⟨S100000x64, .f32⟩ : BufTy).Contents (Elt F) → (⟨S100000x64, .f32⟩ : BufTy).Contents (Elt F) → (⟨S100000x64, .f32⟩ : BufTy).Contents (Elt F)),
    binary main_v184 main_v184 main_v185 (mulf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x00000000#32),
    binary main_v185 main_cst_21 main_v186 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v186 main_v187 (broadcastInDim S100000x1 ![0] bcast_S100000_S100000x1_0 : (⟨S100000, .f32⟩ : BufTy).Contents (Elt F) → (⟨S100000x1, .f32⟩ : BufTy).Contents (Elt F)),
    nullary main_cst_22 (constant S_ .f32 0x42800000#32),
    unary main_cst_22 main_v188 (broadcastInDim S100000x1 ![] bcast_S_S100000x1 : (⟨S_, .f32⟩ : BufTy).Contents (Elt F) → (⟨S100000x1, .f32⟩ : BufTy).Contents (Elt F)),
    binary main_v187 main_v188 main_v189 (Host.divf : (⟨S100000x1, .f32⟩ : BufTy).Contents (Elt F) → (⟨S100000x1, .f32⟩ : BufTy).Contents (Elt F) → (⟨S100000x1, .f32⟩ : BufTy).Contents (Elt F)),
    unary main_v182 main_v190 (broadcastInDim S100000x64 ![0, 1] bcast_S100000x1_S100000x64_0_1 : (⟨S100000x1, .f32⟩ : BufTy).Contents (Elt F) → (⟨S100000x64, .f32⟩ : BufTy).Contents (Elt F)),
    binary main_v174 main_v190 main_v191 (subf : (⟨S100000x64, .f32⟩ : BufTy).Contents (Elt F) → (⟨S100000x64, .f32⟩ : BufTy).Contents (Elt F) → (⟨S100000x64, .f32⟩ : BufTy).Contents (Elt F)),
    nullary main_cst_23 (constant S_ .f32 0x3727C5AC#32),
    unary main_cst_23 main_v192 (broadcastInDim S100000x1 ![] bcast_S_S100000x1 : (⟨S_, .f32⟩ : BufTy).Contents (Elt F) → (⟨S100000x1, .f32⟩ : BufTy).Contents (Elt F)),
    binary main_v189 main_v192 main_v193 (addf : (⟨S100000x1, .f32⟩ : BufTy).Contents (Elt F) → (⟨S100000x1, .f32⟩ : BufTy).Contents (Elt F) → (⟨S100000x1, .f32⟩ : BufTy).Contents (Elt F)),
    unary main_v193 main_v194 (Host.rsqrt : (⟨S100000x1, .f32⟩ : BufTy).Contents (Elt F) → (⟨S100000x1, .f32⟩ : BufTy).Contents (Elt F)),
    unary main_v194 main_v195 (broadcastInDim S100000x64 ![0, 1] bcast_S100000x1_S100000x64_0_1 : (⟨S100000x1, .f32⟩ : BufTy).Contents (Elt F) → (⟨S100000x64, .f32⟩ : BufTy).Contents (Elt F)),
    binary main_v191 main_v195 main_v196 (mulf : (⟨S100000x64, .f32⟩ : BufTy).Contents (Elt F) → (⟨S100000x64, .f32⟩ : BufTy).Contents (Elt F) → (⟨S100000x64, .f32⟩ : BufTy).Contents (Elt F)),
    unary main_v176 main_v197 (broadcastInDim S1x64 ![1] bcast_S64_S1x64_1 : (⟨S64, .f32⟩ : BufTy).Contents (Elt F) → (⟨S1x64, .f32⟩ : BufTy).Contents (Elt F)),
    unary main_v197 main_v198 (broadcastInDim S100000x64 ![0, 1] bcast_S1x64_S100000x64_0_1 : (⟨S1x64, .f32⟩ : BufTy).Contents (Elt F) → (⟨S100000x64, .f32⟩ : BufTy).Contents (Elt F)),
    binary main_v196 main_v198 main_v199 (mulf : (⟨S100000x64, .f32⟩ : BufTy).Contents (Elt F) → (⟨S100000x64, .f32⟩ : BufTy).Contents (Elt F) → (⟨S100000x64, .f32⟩ : BufTy).Contents (Elt F)),
    unary main_v178 main_v200 (broadcastInDim S1x64 ![1] bcast_S64_S1x64_1 : (⟨S64, .f32⟩ : BufTy).Contents (Elt F) → (⟨S1x64, .f32⟩ : BufTy).Contents (Elt F)),
    unary main_v200 main_v201 (broadcastInDim S100000x64 ![0, 1] bcast_S1x64_S100000x64_0_1 : (⟨S1x64, .f32⟩ : BufTy).Contents (Elt F) → (⟨S100000x64, .f32⟩ : BufTy).Contents (Elt F)),
    binary main_v199 main_v201 main_v202 (addf : (⟨S100000x64, .f32⟩ : BufTy).Contents (Elt F) → (⟨S100000x64, .f32⟩ : BufTy).Contents (Elt F) → (⟨S100000x64, .f32⟩ : BufTy).Contents (Elt F)) ]

/-- Operations 230–246, ending with the one that writes main_v215: the pooled rows joined with the graph features. -/
abbrev seg7 : List (HloOp τ sig (Elt F)) :=
  [ nullary main_cst_24 (constant S_ .f32 0x00000000#32),
    unary main_cst_24 main_v203 (broadcastInDim S64x64 ![] bcast_S_S64x64 : (⟨S_, .f32⟩ : BufTy).Contents (Elt F) → (⟨S64x64, .f32⟩ : BufTy).Contents (Elt F)),
    unary main_arg22 main_v204 (broadcastInDim S100000x1 ![0] bcast_S100000_S100000x1_0 : (⟨S100000, .i32⟩ : BufTy).Contents (Elt F) → (⟨S100000x1, .i32⟩ : BufTy).Contents (Elt F)),
    ternary main_v203 main_v204 main_v202 main_v205 ((fun x i u => Host.scatterAdd scatter_S64x64_S100000x1_S100000x64_1_0_0_1 x i u) : (⟨S64x64, .f32⟩ : BufTy).Contents (Elt F) → (⟨S100000x1, .i32⟩ : BufTy).Contents (Elt F) → (⟨S100000x64, .f32⟩ : BufTy).Contents (Elt F) → (⟨S64x64, .f32⟩ : BufTy).Contents (Elt F)),
    nullary main_cst_25 (constant S_ .f32 0x3F800000#32),
    unary main_cst_25 main_v206 (broadcastInDim S100000 ![] bcast_S_S100000 : (⟨S_, .f32⟩ : BufTy).Contents (Elt F) → (⟨S100000, .f32⟩ : BufTy).Contents (Elt F)),
    nullary main_cst_26 (constant S_ .f32 0x00000000#32),
    unary main_cst_26 main_v207 (broadcastInDim S64 ![] bcast_S_S64 : (⟨S_, .f32⟩ : BufTy).Contents (Elt F) → (⟨S64, .f32⟩ : BufTy).Contents (Elt F)),
    unary main_arg22 main_v208 (broadcastInDim S100000x1 ![0] bcast_S100000_S100000x1_0 : (⟨S100000, .i32⟩ : BufTy).Contents (Elt F) → (⟨S100000x1, .i32⟩ : BufTy).Contents (Elt F)),
    ternary main_v207 main_v208 main_v206 main_v209 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_27 (constant S_ .f32 0x3F800000#32),
    unary main_cst_27 main_v210 (broadcastInDim S64 ![] bcast_S_S64 : (⟨S_, .f32⟩ : BufTy).Contents (Elt F) → (⟨S64, .f32⟩ : BufTy).Contents (Elt F)),
    binary main_v209 main_v210 main_v211 (maximumf : (⟨S64, .f32⟩ : BufTy).Contents (Elt F) → (⟨S64, .f32⟩ : BufTy).Contents (Elt F) → (⟨S64, .f32⟩ : BufTy).Contents (Elt F)),
    unary main_v211 main_v212 (broadcastInDim S64x1 ![0] bcast_S64_S64x1_0 : (⟨S64, .f32⟩ : BufTy).Contents (Elt F) → (⟨S64x1, .f32⟩ : BufTy).Contents (Elt F)),
    unary main_v212 main_v213 (broadcastInDim S64x64 ![0, 1] bcast_S64x1_S64x64_0_1 : (⟨S64x1, .f32⟩ : BufTy).Contents (Elt F) → (⟨S64x64, .f32⟩ : BufTy).Contents (Elt F)),
    binary main_v205 main_v213 main_v214 (Host.divf : (⟨S64x64, .f32⟩ : BufTy).Contents (Elt F) → (⟨S64x64, .f32⟩ : BufTy).Contents (Elt F) → (⟨S64x64, .f32⟩ : BufTy).Contents (Elt F)),
    binary main_v214 main_arg2 main_v215 ((fun a b => concatenate S64x80 1 [⟨S64x64, a⟩, ⟨S64x16, b⟩] concatenates_S64x64_S64x16_S64x80_d1) : (⟨S64x64, .f32⟩ : BufTy).Contents (Elt F) → (⟨S64x16, .f32⟩ : BufTy).Contents (Elt F) → (⟨S64x80, .f32⟩ : BufTy).Contents (Elt F)) ]

/-- Operations 247–282, ending with the one that writes main_v244: the first hidden layer of the readout. -/
abbrev seg8 : List (HloOp τ sig (Elt F)) :=
  [ binary main_v215 main_arg11 main_v216 ((fun l r => Host.dotGeneral dot_S64x80_S80x64_S64x64_1_0_0_1_n_n none l r) : (⟨S64x80, .f32⟩ : BufTy).Contents (Elt F) → (⟨S80x64, .f32⟩ : BufTy).Contents (Elt F) → (⟨S64x64, .f32⟩ : BufTy).Contents (Elt F)),
    unary main_arg12 main_v217 (broadcastInDim S1x64 ![1] bcast_S64_S1x64_1 : (⟨S64, .f32⟩ : BufTy).Contents (Elt F) → (⟨S1x64, .f32⟩ : BufTy).Contents (Elt F)),
    unary main_v217 main_v218 (broadcastInDim S64x64 ![0, 1] bcast_S1x64_S64x64_0_1 : (⟨S1x64, .f32⟩ : BufTy).Contents (Elt F) → (⟨S64x64, .f32⟩ : BufTy).Contents (Elt F)),
    binary main_v216 main_v218 main_v219 (addf : (⟨S64x64, .f32⟩ : BufTy).Contents (Elt F) → (⟨S64x64, .f32⟩ : BufTy).Contents (Elt F) → (⟨S64x64, .f32⟩ : BufTy).Contents (Elt F)),
    nullary main_cst_28 (constant S_ .f32 0x00000000#32),
    binary main_v219 main_cst_28 main_v220 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v220 main_v221 (broadcastInDim S64x1 ![0] bcast_S64_S64x1_0 : (⟨S64, .f32⟩ : BufTy).Contents (Elt F) → (⟨S64x1, .f32⟩ : BufTy).Contents (Elt F)),
    nullary main_cst_29 (constant S_ .f32 0x42800000#32),
    unary main_cst_29 main_v222 (broadcastInDim S64x1 ![] bcast_S_S64x1 : (⟨S_, .f32⟩ : BufTy).Contents (Elt F) → (⟨S64x1, .f32⟩ : BufTy).Contents (Elt F)),
    binary main_v221 main_v222 main_v223 (Host.divf : (⟨S64x1, .f32⟩ : BufTy).Contents (Elt F) → (⟨S64x1, .f32⟩ : BufTy).Contents (Elt F) → (⟨S64x1, .f32⟩ : BufTy).Contents (Elt F)),
    unary main_v223 main_v224 (broadcastInDim S64x64 ![0, 1] bcast_S64x1_S64x64_0_1 : (⟨S64x1, .f32⟩ : BufTy).Contents (Elt F) → (⟨S64x64, .f32⟩ : BufTy).Contents (Elt F)),
    binary main_v219 main_v224 main_v225 (subf : (⟨S64x64, .f32⟩ : BufTy).Contents (Elt F) → (⟨S64x64, .f32⟩ : BufTy).Contents (Elt F) → (⟨S64x64, .f32⟩ : BufTy).Contents (Elt F)),
    binary main_v225 main_v225 main_v226 (mulf : (⟨S64x64, .f32⟩ : BufTy).Contents (Elt F) → (⟨S64x64, .f32⟩ : BufTy).Contents (Elt F) → (⟨S64x64, .f32⟩ : BufTy).Contents (Elt F)),
    nullary main_cst_30 (constant S_ .f32 0x00000000#32),
    binary main_v226 main_cst_30 main_v227 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v227 main_v228 (broadcastInDim S64x1 ![0] bcast_S64_S64x1_0 : (⟨S64, .f32⟩ : BufTy).Contents (Elt F) → (⟨S64x1, .f32⟩ : BufTy).Contents (Elt F)),
    nullary main_cst_31 (constant S_ .f32 0x42800000#32),
    unary main_cst_31 main_v229 (broadcastInDim S64x1 ![] bcast_S_S64x1 : (⟨S_, .f32⟩ : BufTy).Contents (Elt F) → (⟨S64x1, .f32⟩ : BufTy).Contents (Elt F)),
    binary main_v228 main_v229 main_v230 (Host.divf : (⟨S64x1, .f32⟩ : BufTy).Contents (Elt F) → (⟨S64x1, .f32⟩ : BufTy).Contents (Elt F) → (⟨S64x1, .f32⟩ : BufTy).Contents (Elt F)),
    unary main_v223 main_v231 (broadcastInDim S64x64 ![0, 1] bcast_S64x1_S64x64_0_1 : (⟨S64x1, .f32⟩ : BufTy).Contents (Elt F) → (⟨S64x64, .f32⟩ : BufTy).Contents (Elt F)),
    binary main_v219 main_v231 main_v232 (subf : (⟨S64x64, .f32⟩ : BufTy).Contents (Elt F) → (⟨S64x64, .f32⟩ : BufTy).Contents (Elt F) → (⟨S64x64, .f32⟩ : BufTy).Contents (Elt F)),
    nullary main_cst_32 (constant S_ .f32 0x3727C5AC#32),
    unary main_cst_32 main_v233 (broadcastInDim S64x1 ![] bcast_S_S64x1 : (⟨S_, .f32⟩ : BufTy).Contents (Elt F) → (⟨S64x1, .f32⟩ : BufTy).Contents (Elt F)),
    binary main_v230 main_v233 main_v234 (addf : (⟨S64x1, .f32⟩ : BufTy).Contents (Elt F) → (⟨S64x1, .f32⟩ : BufTy).Contents (Elt F) → (⟨S64x1, .f32⟩ : BufTy).Contents (Elt F)),
    unary main_v234 main_v235 (Host.rsqrt : (⟨S64x1, .f32⟩ : BufTy).Contents (Elt F) → (⟨S64x1, .f32⟩ : BufTy).Contents (Elt F)),
    unary main_v235 main_v236 (broadcastInDim S64x64 ![0, 1] bcast_S64x1_S64x64_0_1 : (⟨S64x1, .f32⟩ : BufTy).Contents (Elt F) → (⟨S64x64, .f32⟩ : BufTy).Contents (Elt F)),
    binary main_v232 main_v236 main_v237 (mulf : (⟨S64x64, .f32⟩ : BufTy).Contents (Elt F) → (⟨S64x64, .f32⟩ : BufTy).Contents (Elt F) → (⟨S64x64, .f32⟩ : BufTy).Contents (Elt F)),
    unary main_arg13 main_v238 (broadcastInDim S1x64 ![1] bcast_S64_S1x64_1 : (⟨S64, .f32⟩ : BufTy).Contents (Elt F) → (⟨S1x64, .f32⟩ : BufTy).Contents (Elt F)),
    unary main_v238 main_v239 (broadcastInDim S64x64 ![0, 1] bcast_S1x64_S64x64_0_1 : (⟨S1x64, .f32⟩ : BufTy).Contents (Elt F) → (⟨S64x64, .f32⟩ : BufTy).Contents (Elt F)),
    binary main_v237 main_v239 main_v240 (mulf : (⟨S64x64, .f32⟩ : BufTy).Contents (Elt F) → (⟨S64x64, .f32⟩ : BufTy).Contents (Elt F) → (⟨S64x64, .f32⟩ : BufTy).Contents (Elt F)),
    unary main_arg14 main_v241 (broadcastInDim S1x64 ![1] bcast_S64_S1x64_1 : (⟨S64, .f32⟩ : BufTy).Contents (Elt F) → (⟨S1x64, .f32⟩ : BufTy).Contents (Elt F)),
    unary main_v241 main_v242 (broadcastInDim S64x64 ![0, 1] bcast_S1x64_S64x64_0_1 : (⟨S1x64, .f32⟩ : BufTy).Contents (Elt F) → (⟨S64x64, .f32⟩ : BufTy).Contents (Elt F)),
    binary main_v240 main_v242 main_v243 (addf : (⟨S64x64, .f32⟩ : BufTy).Contents (Elt F) → (⟨S64x64, .f32⟩ : BufTy).Contents (Elt F) → (⟨S64x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S64x64, .f32⟩) main_call0_v0) (broadcastInDim S64x64 ![] bcast_S_S64x64),
    TRef.binary (TRef.of (T := ⟨S64x64, .f32⟩) main_v243) (TRef.of (T := ⟨S64x64, .f32⟩) main_call0_v0) (TRef.of (T := ⟨S64x64, .f32⟩) main_v244) maximumf ]

/-- Operations 283–318, ending with the one that writes main_v273: the second hidden layer of the readout. -/
abbrev seg9 : List (HloOp τ sig (Elt F)) :=
  [ binary main_v244 main_arg15 main_v245 ((fun l r => Host.dotGeneral dot_S64x64_S64x32_S64x32_1_0_0_1_n_n none l r) : (⟨S64x64, .f32⟩ : BufTy).Contents (Elt F) → (⟨S64x32, .f32⟩ : BufTy).Contents (Elt F) → (⟨S64x32, .f32⟩ : BufTy).Contents (Elt F)),
    unary main_arg16 main_v246 (broadcastInDim S1x32 ![1] bcast_S32_S1x32_1 : (⟨S32, .f32⟩ : BufTy).Contents (Elt F) → (⟨S1x32, .f32⟩ : BufTy).Contents (Elt F)),
    unary main_v246 main_v247 (broadcastInDim S64x32 ![0, 1] bcast_S1x32_S64x32_0_1 : (⟨S1x32, .f32⟩ : BufTy).Contents (Elt F) → (⟨S64x32, .f32⟩ : BufTy).Contents (Elt F)),
    binary main_v245 main_v247 main_v248 (addf : (⟨S64x32, .f32⟩ : BufTy).Contents (Elt F) → (⟨S64x32, .f32⟩ : BufTy).Contents (Elt F) → (⟨S64x32, .f32⟩ : BufTy).Contents (Elt F)),
    nullary main_cst_33 (constant S_ .f32 0x00000000#32),
    binary main_v248 main_cst_33 main_v249 ((fun x v => Host.reduceAdd x v reducesTo_S64x32_S64_d1 h_S_) : (⟨S64x32, .f32⟩ : BufTy).Contents (Elt F) → (⟨S_, .f32⟩ : BufTy).Contents (Elt F) → (⟨S64, .f32⟩ : BufTy).Contents (Elt F)),
    unary main_v249 main_v250 (broadcastInDim S64x1 ![0] bcast_S64_S64x1_0 : (⟨S64, .f32⟩ : BufTy).Contents (Elt F) → (⟨S64x1, .f32⟩ : BufTy).Contents (Elt F)),
    nullary main_cst_34 (constant S_ .f32 0x42000000#32),
    unary main_cst_34 main_v251 (broadcastInDim S64x1 ![] bcast_S_S64x1 : (⟨S_, .f32⟩ : BufTy).Contents (Elt F) → (⟨S64x1, .f32⟩ : BufTy).Contents (Elt F)),
    binary main_v250 main_v251 main_v252 (Host.divf : (⟨S64x1, .f32⟩ : BufTy).Contents (Elt F) → (⟨S64x1, .f32⟩ : BufTy).Contents (Elt F) → (⟨S64x1, .f32⟩ : BufTy).Contents (Elt F)),
    unary main_v252 main_v253 (broadcastInDim S64x32 ![0, 1] bcast_S64x1_S64x32_0_1 : (⟨S64x1, .f32⟩ : BufTy).Contents (Elt F) → (⟨S64x32, .f32⟩ : BufTy).Contents (Elt F)),
    binary main_v248 main_v253 main_v254 (subf : (⟨S64x32, .f32⟩ : BufTy).Contents (Elt F) → (⟨S64x32, .f32⟩ : BufTy).Contents (Elt F) → (⟨S64x32, .f32⟩ : BufTy).Contents (Elt F)),
    binary main_v254 main_v254 main_v255 (mulf : (⟨S64x32, .f32⟩ : BufTy).Contents (Elt F) → (⟨S64x32, .f32⟩ : BufTy).Contents (Elt F) → (⟨S64x32, .f32⟩ : BufTy).Contents (Elt F)),
    nullary main_cst_35 (constant S_ .f32 0x00000000#32),
    binary main_v255 main_cst_35 main_v256 ((fun x v => Host.reduceAdd x v reducesTo_S64x32_S64_d1 h_S_) : (⟨S64x32, .f32⟩ : BufTy).Contents (Elt F) → (⟨S_, .f32⟩ : BufTy).Contents (Elt F) → (⟨S64, .f32⟩ : BufTy).Contents (Elt F)),
    unary main_v256 main_v257 (broadcastInDim S64x1 ![0] bcast_S64_S64x1_0 : (⟨S64, .f32⟩ : BufTy).Contents (Elt F) → (⟨S64x1, .f32⟩ : BufTy).Contents (Elt F)),
    nullary main_cst_36 (constant S_ .f32 0x42000000#32),
    unary main_cst_36 main_v258 (broadcastInDim S64x1 ![] bcast_S_S64x1 : (⟨S_, .f32⟩ : BufTy).Contents (Elt F) → (⟨S64x1, .f32⟩ : BufTy).Contents (Elt F)),
    binary main_v257 main_v258 main_v259 (Host.divf : (⟨S64x1, .f32⟩ : BufTy).Contents (Elt F) → (⟨S64x1, .f32⟩ : BufTy).Contents (Elt F) → (⟨S64x1, .f32⟩ : BufTy).Contents (Elt F)),
    unary main_v252 main_v260 (broadcastInDim S64x32 ![0, 1] bcast_S64x1_S64x32_0_1 : (⟨S64x1, .f32⟩ : BufTy).Contents (Elt F) → (⟨S64x32, .f32⟩ : BufTy).Contents (Elt F)),
    binary main_v248 main_v260 main_v261 (subf : (⟨S64x32, .f32⟩ : BufTy).Contents (Elt F) → (⟨S64x32, .f32⟩ : BufTy).Contents (Elt F) → (⟨S64x32, .f32⟩ : BufTy).Contents (Elt F)),
    nullary main_cst_37 (constant S_ .f32 0x3727C5AC#32),
    unary main_cst_37 main_v262 (broadcastInDim S64x1 ![] bcast_S_S64x1 : (⟨S_, .f32⟩ : BufTy).Contents (Elt F) → (⟨S64x1, .f32⟩ : BufTy).Contents (Elt F)),
    binary main_v259 main_v262 main_v263 (addf : (⟨S64x1, .f32⟩ : BufTy).Contents (Elt F) → (⟨S64x1, .f32⟩ : BufTy).Contents (Elt F) → (⟨S64x1, .f32⟩ : BufTy).Contents (Elt F)),
    unary main_v263 main_v264 (Host.rsqrt : (⟨S64x1, .f32⟩ : BufTy).Contents (Elt F) → (⟨S64x1, .f32⟩ : BufTy).Contents (Elt F)),
    unary main_v264 main_v265 (broadcastInDim S64x32 ![0, 1] bcast_S64x1_S64x32_0_1 : (⟨S64x1, .f32⟩ : BufTy).Contents (Elt F) → (⟨S64x32, .f32⟩ : BufTy).Contents (Elt F)),
    binary main_v261 main_v265 main_v266 (mulf : (⟨S64x32, .f32⟩ : BufTy).Contents (Elt F) → (⟨S64x32, .f32⟩ : BufTy).Contents (Elt F) → (⟨S64x32, .f32⟩ : BufTy).Contents (Elt F)),
    unary main_arg17 main_v267 (broadcastInDim S1x32 ![1] bcast_S32_S1x32_1 : (⟨S32, .f32⟩ : BufTy).Contents (Elt F) → (⟨S1x32, .f32⟩ : BufTy).Contents (Elt F)),
    unary main_v267 main_v268 (broadcastInDim S64x32 ![0, 1] bcast_S1x32_S64x32_0_1 : (⟨S1x32, .f32⟩ : BufTy).Contents (Elt F) → (⟨S64x32, .f32⟩ : BufTy).Contents (Elt F)),
    binary main_v266 main_v268 main_v269 (mulf : (⟨S64x32, .f32⟩ : BufTy).Contents (Elt F) → (⟨S64x32, .f32⟩ : BufTy).Contents (Elt F) → (⟨S64x32, .f32⟩ : BufTy).Contents (Elt F)),
    unary main_arg18 main_v270 (broadcastInDim S1x32 ![1] bcast_S32_S1x32_1 : (⟨S32, .f32⟩ : BufTy).Contents (Elt F) → (⟨S1x32, .f32⟩ : BufTy).Contents (Elt F)),
    unary main_v270 main_v271 (broadcastInDim S64x32 ![0, 1] bcast_S1x32_S64x32_0_1 : (⟨S1x32, .f32⟩ : BufTy).Contents (Elt F) → (⟨S64x32, .f32⟩ : BufTy).Contents (Elt F)),
    binary main_v269 main_v271 main_v272 (addf : (⟨S64x32, .f32⟩ : BufTy).Contents (Elt F) → (⟨S64x32, .f32⟩ : BufTy).Contents (Elt F) → (⟨S64x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S64x32, .f32⟩) main_call1_v0) (broadcastInDim S64x32 ![] bcast_S_S64x32),
    TRef.binary (TRef.of (T := ⟨S64x32, .f32⟩) main_v272) (TRef.of (T := ⟨S64x32, .f32⟩) main_call1_v0) (TRef.of (T := ⟨S64x32, .f32⟩) main_v273) maximumf ]

/-- Operations 319–323, ending with the one that writes main_v278: the readout's last affine map, as a vector. -/
abbrev seg10 : List (HloOp τ sig (Elt F)) :=
  [ binary main_v273 main_arg19 main_v274 ((fun l r => Host.dotGeneral dot_S64x32_S32x1_S64x1_1_0_0_1_n_n none l r) : (⟨S64x32, .f32⟩ : BufTy).Contents (Elt F) → (⟨S32x1, .f32⟩ : BufTy).Contents (Elt F) → (⟨S64x1, .f32⟩ : BufTy).Contents (Elt F)),
    unary main_arg20 main_v275 (broadcastInDim S1x1 ![1] bcast_S1_S1x1_1 : (⟨S1, .f32⟩ : BufTy).Contents (Elt F) → (⟨S1x1, .f32⟩ : BufTy).Contents (Elt F)),
    unary main_v275 main_v276 (broadcastInDim S64x1 ![0, 1] bcast_S1x1_S64x1_0_1 : (⟨S1x1, .f32⟩ : BufTy).Contents (Elt F) → (⟨S64x1, .f32⟩ : BufTy).Contents (Elt F)),
    binary main_v274 main_v276 main_v277 (addf : (⟨S64x1, .f32⟩ : BufTy).Contents (Elt F) → (⟨S64x1, .f32⟩ : BufTy).Contents (Elt F) → (⟨S64x1, .f32⟩ : BufTy).Contents (Elt F)),
    reshape main_v277 main_v278 rfl shapeCasts_S64x1_S64 ]

/-- @main's operations, in order: the ten stretches one after another. -/
abbrev ops : List (HloOp τ sig (Elt F)) :=
  seg1 ++ (seg2 ++ (seg3 ++ (seg4 ++ (seg5 ++ (seg6 ++ (seg7 ++ (seg8 ++ (seg9 ++ seg10))))))))

set_option maxRecDepth 8192 in
set_option maxHeartbeats 4000000 in
theorem main_eq (c : Dev nD) : main (F := F) c = seq ops := rfl

/-! ## The contents at the cuts -/

/-- The device's buffers at launch. -/
abbrev U0 (m : (ℓ : Loc nD τ sig) → Buf (Elt F) ℓ) (c : Dev nD) : Valuation τ sig (Elt F) := StableHlo.launchContents m c
/-- The buffers after stretch 1. -/
abbrev U1 (m : (ℓ : Loc nD τ sig) → Buf (Elt F) ℓ) (c : Dev nD) : Valuation τ sig (Elt F) := StableHlo.after seg1 (U0 m c)
/-- The buffers after stretch 2. -/
abbrev U2 (m : (ℓ : Loc nD τ sig) → Buf (Elt F) ℓ) (c : Dev nD) : Valuation τ sig (Elt F) := StableHlo.after seg2 (U1 m c)
/-- The buffers after stretch 3. -/
abbrev U3 (m : (ℓ : Loc nD τ sig) → Buf (Elt F) ℓ) (c : Dev nD) : Valuation τ sig (Elt F) := StableHlo.after seg3 (U2 m c)
/-- The buffers after stretch 4. -/
abbrev U4 (m : (ℓ : Loc nD τ sig) → Buf (Elt F) ℓ) (c : Dev nD) : Valuation τ sig (Elt F) := StableHlo.after seg4 (U3 m c)
/-- The buffers after stretch 5. -/
abbrev U5 (m : (ℓ : Loc nD τ sig) → Buf (Elt F) ℓ) (c : Dev nD) : Valuation τ sig (Elt F) := StableHlo.after seg5 (U4 m c)
/-- The buffers after stretch 6. -/
abbrev U6 (m : (ℓ : Loc nD τ sig) → Buf (Elt F) ℓ) (c : Dev nD) : Valuation τ sig (Elt F) := StableHlo.after seg6 (U5 m c)
/-- The buffers after stretch 7. -/
abbrev U7 (m : (ℓ : Loc nD τ sig) → Buf (Elt F) ℓ) (c : Dev nD) : Valuation τ sig (Elt F) := StableHlo.after seg7 (U6 m c)
/-- The buffers after stretch 8. -/
abbrev U8 (m : (ℓ : Loc nD τ sig) → Buf (Elt F) ℓ) (c : Dev nD) : Valuation τ sig (Elt F) := StableHlo.after seg8 (U7 m c)
/-- The buffers after stretch 9. -/
abbrev U9 (m : (ℓ : Loc nD τ sig) → Buf (Elt F) ℓ) (c : Dev nD) : Valuation τ sig (Elt F) := StableHlo.after seg9 (U8 m c)
/-- The buffers after stretch 10. -/
abbrev U10 (m : (ℓ : Loc nD τ sig) → Buf (Elt F) ℓ) (c : Dev nD) : Valuation τ sig (Elt F) := StableHlo.after seg10 (U9 m c)

/-- The buffers after all the operations are the buffers after the tenth stretch. -/
theorem after_ops (m : (ℓ : Loc nD τ sig) → Buf (Elt F) ℓ) (c : Dev nD) :
    StableHlo.after (ops (F := F)) (StableHlo.launchContents m c) = U10 m c := by
  simp only [StableHlo.after_append]

/-! ## The run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem seg1_sub : (seg1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub ..⟩

set_option maxRecDepth 8192 in
theorem seg1_fresh : ∀ op ∈ (seg1 : List (HloOp τ sig (Elt F))), op.fresh = ∅ := by
  intro _ h; (repeat (cases h with | head => rfl | tail _ h => ?_)); exact nomatch h

set_option maxRecDepth 8192 in
theorem seg2_sub : (seg2 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
theorem seg2_fresh : ∀ op ∈ (seg2 : List (HloOp τ sig (Elt F))), op.fresh = ∅ := by
  intro _ h; (repeat (cases h with | head => rfl | tail _ h => ?_)); exact nomatch h

set_option maxRecDepth 8192 in
theorem seg3_sub : (seg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub ..⟩

set_option maxRecDepth 8192 in
theorem seg3_fresh : ∀ op ∈ (seg3 : List (HloOp τ sig (Elt F))), op.fresh = ∅ := by
  intro _ h; (repeat (cases h with | head => rfl | tail _ h => ?_)); exact nomatch h

set_option maxRecDepth 8192 in
theorem seg4_sub : (seg4 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
theorem seg4_fresh : ∀ op ∈ (seg4 : List (HloOp τ sig (Elt F))), op.fresh = ∅ := by
  intro _ h; (repeat (cases h with | head => rfl | tail _ h => ?_)); exact nomatch h

set_option maxRecDepth 8192 in
theorem seg5_sub : (seg5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub ..⟩

set_option maxRecDepth 8192 in
theorem seg5_fresh : ∀ op ∈ (seg5 : List (HloOp τ sig (Elt F))), op.fresh = ∅ := by
  intro _ h; (repeat (cases h with | head => rfl | tail _ h => ?_)); exact nomatch h

set_option maxRecDepth 8192 in
theorem seg6_sub : (seg6 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
theorem seg6_fresh : ∀ op ∈ (seg6 : List (HloOp τ sig (Elt F))), op.fresh = ∅ := by
  intro _ h; (repeat (cases h with | head => rfl | tail _ h => ?_)); exact nomatch h

set_option maxRecDepth 8192 in
theorem seg7_sub : (seg7 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub ..⟩

set_option maxRecDepth 8192 in
theorem seg7_fresh : ∀ op ∈ (seg7 : List (HloOp τ sig (Elt F))), op.fresh = ∅ := by
  intro _ h; (repeat (cases h with | head => rfl | tail _ h => ?_)); exact nomatch h

set_option maxRecDepth 8192 in
theorem seg8_sub : (seg8 : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem seg8_fresh : ∀ op ∈ (seg8 : List (HloOp τ sig (Elt F))), op.fresh = ∅ := by
  intro _ h; (repeat (cases h with | head => rfl | tail _ h => ?_)); exact nomatch h

set_option maxRecDepth 8192 in
theorem seg9_sub : (seg9 : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem seg9_fresh : ∀ op ∈ (seg9 : List (HloOp τ sig (Elt F))), op.fresh = ∅ := by
  intro _ h; (repeat (cases h with | head => rfl | tail _ h => ?_)); exact nomatch h

set_option maxRecDepth 8192 in
theorem seg10_sub : (seg10 : List (HloOp τ sig (Elt F))).Forall fun op => op.bufs ⊆ tcRefs τ sig :=
  ⟨binary_bufs_sub .., unary_bufs_sub .., unary_bufs_sub .., binary_bufs_sub .., reshape_bufs_sub ..⟩

set_option maxRecDepth 8192 in
theorem seg10_fresh : ∀ op ∈ (seg10 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_append.2 ⟨seg1_sub, List.forall_append.2 ⟨seg2_sub, List.forall_append.2 ⟨seg3_sub, List.forall_append.2 ⟨seg4_sub, List.forall_append.2 ⟨seg5_sub, List.forall_append.2 ⟨seg6_sub, List.forall_append.2 ⟨seg7_sub, List.forall_append.2 ⟨seg8_sub, List.forall_append.2 ⟨seg9_sub, seg10_sub⟩⟩⟩⟩⟩⟩⟩⟩⟩

theorem ops_fresh : ∀ op ∈ (ops : List (HloOp τ sig (Elt F))), op.fresh = ∅ := by
  intro op h
  simp only [List.mem_append] at h
  rcases h with h | h | h | h | h | h | h | h | h | h
  exacts [seg1_fresh op h, seg2_fresh op h, seg3_fresh op h, seg4_fresh op h, seg5_fresh op h, seg6_fresh op h,
    seg7_fresh op h, seg8_fresh op h, seg9_fresh op h, seg10_fresh op h]

/-! ### The arguments end as launched: no operation writes one, so the fold at an argument's buffer walks back
    through the ten stretches to the launch memory -/

/-- No operation writes main_arg0: it ends as launched. -/
theorem U10_main_arg0 (m : (ℓ : Loc nD τ sig) → Buf (Elt F) ℓ) (c : Dev nD) :
    U10 m c (Proc.devRef .tc main_arg0) = m ((c.tc : Thread nD τ).loc main_arg0) := by
  have h10 : U10 m c (Proc.devRef .tc main_arg0) = U9 m c (Proc.devRef .tc main_arg0) := by host_kept seg10
  have h9 : U9 m c (Proc.devRef .tc main_arg0) = U8 m c (Proc.devRef .tc main_arg0) := by host_kept seg9
  have h8 : U8 m c (Proc.devRef .tc main_arg0) = U7 m c (Proc.devRef .tc main_arg0) := by host_kept seg8
  have h7 : U7 m c (Proc.devRef .tc main_arg0) = U6 m c (Proc.devRef .tc main_arg0) := by host_kept seg7
  have h6 : U6 m c (Proc.devRef .tc main_arg0) = U5 m c (Proc.devRef .tc main_arg0) := by host_kept seg6
  have h5 : U5 m c (Proc.devRef .tc main_arg0) = U4 m c (Proc.devRef .tc main_arg0) := by host_kept seg5
  have h4 : U4 m c (Proc.devRef .tc main_arg0) = U3 m c (Proc.devRef .tc main_arg0) := by host_kept seg4
  have h3 : U3 m c (Proc.devRef .tc main_arg0) = U2 m c (Proc.devRef .tc main_arg0) := by host_kept seg3
  have h2 : U2 m c (Proc.devRef .tc main_arg0) = U1 m c (Proc.devRef .tc main_arg0) := by host_kept seg2
  have h1 : U1 m c (Proc.devRef .tc main_arg0) = U0 m c (Proc.devRef .tc main_arg0) := by host_kept seg1
  rw [h10, h9, h8, h7, h6, h5, h4, h3, h2, h1]

/-- No operation writes main_arg1: it ends as launched. -/
theorem U10_main_arg1 (m : (ℓ : Loc nD τ sig) → Buf (Elt F) ℓ) (c : Dev nD) :
    U10 m c (Proc.devRef .tc main_arg1) = m ((c.tc : Thread nD τ).loc main_arg1) := by
  have h10 : U10 m c (Proc.devRef .tc main_arg1) = U9 m c (Proc.devRef .tc main_arg1) := by host_kept seg10
  have h9 : U9 m c (Proc.devRef .tc main_arg1) = U8 m c (Proc.devRef .tc main_arg1) := by host_kept seg9
  have h8 : U8 m c (Proc.devRef .tc main_arg1) = U7 m c (Proc.devRef .tc main_arg1) := by host_kept seg8
  have h7 : U7 m c (Proc.devRef .tc main_arg1) = U6 m c (Proc.devRef .tc main_arg1) := by host_kept seg7
  have h6 : U6 m c (Proc.devRef .tc main_arg1) = U5 m c (Proc.devRef .tc main_arg1) := by host_kept seg6
  have h5 : U5 m c (Proc.devRef .tc main_arg1) = U4 m c (Proc.devRef .tc main_arg1) := by host_kept seg5
  have h4 : U4 m c (Proc.devRef .tc main_arg1) = U3 m c (Proc.devRef .tc main_arg1) := by host_kept seg4
  have h3 : U3 m c (Proc.devRef .tc main_arg1) = U2 m c (Proc.devRef .tc main_arg1) := by host_kept seg3
  have h2 : U2 m c (Proc.devRef .tc main_arg1) = U1 m c (Proc.devRef .tc main_arg1) := by host_kept seg2
  have h1 : U1 m c (Proc.devRef .tc main_arg1) = U0 m c (Proc.devRef .tc main_arg1) := by host_kept seg1
  rw [h10, h9, h8, h7, h6, h5, h4, h3, h2, h1]

/-- No operation writes main_arg2: it ends as launched. -/
theorem U10_main_arg2 (m : (ℓ : Loc nD τ sig) → Buf (Elt F) ℓ) (c : Dev nD) :
    U10 m c (Proc.devRef .tc main_arg2) = m ((c.tc : Thread nD τ).loc main_arg2) := by
  have h10 : U10 m c (Proc.devRef .tc main_arg2) = U9 m c (Proc.devRef .tc main_arg2) := by host_kept seg10
  have h9 : U9 m c (Proc.devRef .tc main_arg2) = U8 m c (Proc.devRef .tc main_arg2) := by host_kept seg9
  have h8 : U8 m c (Proc.devRef .tc main_arg2) = U7 m c (Proc.devRef .tc main_arg2) := by host_kept seg8
  have h7 : U7 m c (Proc.devRef .tc main_arg2) = U6 m c (Proc.devRef .tc main_arg2) := by host_kept seg7
  have h6 : U6 m c (Proc.devRef .tc main_arg2) = U5 m c (Proc.devRef .tc main_arg2) := by host_kept seg6
  have h5 : U5 m c (Proc.devRef .tc main_arg2) = U4 m c (Proc.devRef .tc main_arg2) := by host_kept seg5
  have h4 : U4 m c (Proc.devRef .tc main_arg2) = U3 m c (Proc.devRef .tc main_arg2) := by host_kept seg4
  have h3 : U3 m c (Proc.devRef .tc main_arg2) = U2 m c (Proc.devRef .tc main_arg2) := by host_kept seg3
  have h2 : U2 m c (Proc.devRef .tc main_arg2) = U1 m c (Proc.devRef .tc main_arg2) := by host_kept seg2
  have h1 : U1 m c (Proc.devRef .tc main_arg2) = U0 m c (Proc.devRef .tc main_arg2) := by host_kept seg1
  rw [h10, h9, h8, h7, h6, h5, h4, h3, h2, h1]

/-- No operation writes main_arg3: it ends as launched. -/
theorem U10_main_arg3 (m : (ℓ : Loc nD τ sig) → Buf (Elt F) ℓ) (c : Dev nD) :
    U10 m c (Proc.devRef .tc main_arg3) = m ((c.tc : Thread nD τ).loc main_arg3) := by
  have h10 : U10 m c (Proc.devRef .tc main_arg3) = U9 m c (Proc.devRef .tc main_arg3) := by host_kept seg10
  have h9 : U9 m c (Proc.devRef .tc main_arg3) = U8 m c (Proc.devRef .tc main_arg3) := by host_kept seg9
  have h8 : U8 m c (Proc.devRef .tc main_arg3) = U7 m c (Proc.devRef .tc main_arg3) := by host_kept seg8
  have h7 : U7 m c (Proc.devRef .tc main_arg3) = U6 m c (Proc.devRef .tc main_arg3) := by host_kept seg7
  have h6 : U6 m c (Proc.devRef .tc main_arg3) = U5 m c (Proc.devRef .tc main_arg3) := by host_kept seg6
  have h5 : U5 m c (Proc.devRef .tc main_arg3) = U4 m c (Proc.devRef .tc main_arg3) := by host_kept seg5
  have h4 : U4 m c (Proc.devRef .tc main_arg3) = U3 m c (Proc.devRef .tc main_arg3) := by host_kept seg4
  have h3 : U3 m c (Proc.devRef .tc main_arg3) = U2 m c (Proc.devRef .tc main_arg3) := by host_kept seg3
  have h2 : U2 m c (Proc.devRef .tc main_arg3) = U1 m c (Proc.devRef .tc main_arg3) := by host_kept seg2
  have h1 : U1 m c (Proc.devRef .tc main_arg3) = U0 m c (Proc.devRef .tc main_arg3) := by host_kept seg1
  rw [h10, h9, h8, h7, h6, h5, h4, h3, h2, h1]

/-- No operation writes main_arg4: it ends as launched. -/
theorem U10_main_arg4 (m : (ℓ : Loc nD τ sig) → Buf (Elt F) ℓ) (c : Dev nD) :
    U10 m c (Proc.devRef .tc main_arg4) = m ((c.tc : Thread nD τ).loc main_arg4) := by
  have h10 : U10 m c (Proc.devRef .tc main_arg4) = U9 m c (Proc.devRef .tc main_arg4) := by host_kept seg10
  have h9 : U9 m c (Proc.devRef .tc main_arg4) = U8 m c (Proc.devRef .tc main_arg4) := by host_kept seg9
  have h8 : U8 m c (Proc.devRef .tc main_arg4) = U7 m c (Proc.devRef .tc main_arg4) := by host_kept seg8
  have h7 : U7 m c (Proc.devRef .tc main_arg4) = U6 m c (Proc.devRef .tc main_arg4) := by host_kept seg7
  have h6 : U6 m c (Proc.devRef .tc main_arg4) = U5 m c (Proc.devRef .tc main_arg4) := by host_kept seg6
  have h5 : U5 m c (Proc.devRef .tc main_arg4) = U4 m c (Proc.devRef .tc main_arg4) := by host_kept seg5
  have h4 : U4 m c (Proc.devRef .tc main_arg4) = U3 m c (Proc.devRef .tc main_arg4) := by host_kept seg4
  have h3 : U3 m c (Proc.devRef .tc main_arg4) = U2 m c (Proc.devRef .tc main_arg4) := by host_kept seg3
  have h2 : U2 m c (Proc.devRef .tc main_arg4) = U1 m c (Proc.devRef .tc main_arg4) := by host_kept seg2
  have h1 : U1 m c (Proc.devRef .tc main_arg4) = U0 m c (Proc.devRef .tc main_arg4) := by host_kept seg1
  rw [h10, h9, h8, h7, h6, h5, h4, h3, h2, h1]

/-- No operation writes main_arg5: it ends as launched. -/
theorem U10_main_arg5 (m : (ℓ : Loc nD τ sig) → Buf (Elt F) ℓ) (c : Dev nD) :
    U10 m c (Proc.devRef .tc main_arg5) = m ((c.tc : Thread nD τ).loc main_arg5) := by
  have h10 : U10 m c (Proc.devRef .tc main_arg5) = U9 m c (Proc.devRef .tc main_arg5) := by host_kept seg10
  have h9 : U9 m c (Proc.devRef .tc main_arg5) = U8 m c (Proc.devRef .tc main_arg5) := by host_kept seg9
  have h8 : U8 m c (Proc.devRef .tc main_arg5) = U7 m c (Proc.devRef .tc main_arg5) := by host_kept seg8
  have h7 : U7 m c (Proc.devRef .tc main_arg5) = U6 m c (Proc.devRef .tc main_arg5) := by host_kept seg7
  have h6 : U6 m c (Proc.devRef .tc main_arg5) = U5 m c (Proc.devRef .tc main_arg5) := by host_kept seg6
  have h5 : U5 m c (Proc.devRef .tc main_arg5) = U4 m c (Proc.devRef .tc main_arg5) := by host_kept seg5
  have h4 : U4 m c (Proc.devRef .tc main_arg5) = U3 m c (Proc.devRef .tc main_arg5) := by host_kept seg4
  have h3 : U3 m c (Proc.devRef .tc main_arg5) = U2 m c (Proc.devRef .tc main_arg5) := by host_kept seg3
  have h2 : U2 m c (Proc.devRef .tc main_arg5) = U1 m c (Proc.devRef .tc main_arg5) := by host_kept seg2
  have h1 : U1 m c (Proc.devRef .tc main_arg5) = U0 m c (Proc.devRef .tc main_arg5) := by host_kept seg1
  rw [h10, h9, h8, h7, h6, h5, h4, h3, h2, h1]

/-- No operation writes main_arg6: it ends as launched. -/
theorem U10_main_arg6 (m : (ℓ : Loc nD τ sig) → Buf (Elt F) ℓ) (c : Dev nD) :
    U10 m c (Proc.devRef .tc main_arg6) = m ((c.tc : Thread nD τ).loc main_arg6) := by
  have h10 : U10 m c (Proc.devRef .tc main_arg6) = U9 m c (Proc.devRef .tc main_arg6) := by host_kept seg10
  have h9 : U9 m c (Proc.devRef .tc main_arg6) = U8 m c (Proc.devRef .tc main_arg6) := by host_kept seg9
  have h8 : U8 m c (Proc.devRef .tc main_arg6) = U7 m c (Proc.devRef .tc main_arg6) := by host_kept seg8
  have h7 : U7 m c (Proc.devRef .tc main_arg6) = U6 m c (Proc.devRef .tc main_arg6) := by host_kept seg7
  have h6 : U6 m c (Proc.devRef .tc main_arg6) = U5 m c (Proc.devRef .tc main_arg6) := by host_kept seg6
  have h5 : U5 m c (Proc.devRef .tc main_arg6) = U4 m c (Proc.devRef .tc main_arg6) := by host_kept seg5
  have h4 : U4 m c (Proc.devRef .tc main_arg6) = U3 m c (Proc.devRef .tc main_arg6) := by host_kept seg4
  have h3 : U3 m c (Proc.devRef .tc main_arg6) = U2 m c (Proc.devRef .tc main_arg6) := by host_kept seg3
  have h2 : U2 m c (Proc.devRef .tc main_arg6) = U1 m c (Proc.devRef .tc main_arg6) := by host_kept seg2
  have h1 : U1 m c (Proc.devRef .tc main_arg6) = U0 m c (Proc.devRef .tc main_arg6) := by host_kept seg1
  rw [h10, h9, h8, h7, h6, h5, h4, h3, h2, h1]

/-- No operation writes main_arg7: it ends as launched. -/
theorem U10_main_arg7 (m : (ℓ : Loc nD τ sig) → Buf (Elt F) ℓ) (c : Dev nD) :
    U10 m c (Proc.devRef .tc main_arg7) = m ((c.tc : Thread nD τ).loc main_arg7) := by
  have h10 : U10 m c (Proc.devRef .tc main_arg7) = U9 m c (Proc.devRef .tc main_arg7) := by host_kept seg10
  have h9 : U9 m c (Proc.devRef .tc main_arg7) = U8 m c (Proc.devRef .tc main_arg7) := by host_kept seg9
  have h8 : U8 m c (Proc.devRef .tc main_arg7) = U7 m c (Proc.devRef .tc main_arg7) := by host_kept seg8
  have h7 : U7 m c (Proc.devRef .tc main_arg7) = U6 m c (Proc.devRef .tc main_arg7) := by host_kept seg7
  have h6 : U6 m c (Proc.devRef .tc main_arg7) = U5 m c (Proc.devRef .tc main_arg7) := by host_kept seg6
  have h5 : U5 m c (Proc.devRef .tc main_arg7) = U4 m c (Proc.devRef .tc main_arg7) := by host_kept seg5
  have h4 : U4 m c (Proc.devRef .tc main_arg7) = U3 m c (Proc.devRef .tc main_arg7) := by host_kept seg4
  have h3 : U3 m c (Proc.devRef .tc main_arg7) = U2 m c (Proc.devRef .tc main_arg7) := by host_kept seg3
  have h2 : U2 m c (Proc.devRef .tc main_arg7) = U1 m c (Proc.devRef .tc main_arg7) := by host_kept seg2
  have h1 : U1 m c (Proc.devRef .tc main_arg7) = U0 m c (Proc.devRef .tc main_arg7) := by host_kept seg1
  rw [h10, h9, h8, h7, h6, h5, h4, h3, h2, h1]

/-- No operation writes main_arg8: it ends as launched. -/
theorem U10_main_arg8 (m : (ℓ : Loc nD τ sig) → Buf (Elt F) ℓ) (c : Dev nD) :
    U10 m c (Proc.devRef .tc main_arg8) = m ((c.tc : Thread nD τ).loc main_arg8) := by
  have h10 : U10 m c (Proc.devRef .tc main_arg8) = U9 m c (Proc.devRef .tc main_arg8) := by host_kept seg10
  have h9 : U9 m c (Proc.devRef .tc main_arg8) = U8 m c (Proc.devRef .tc main_arg8) := by host_kept seg9
  have h8 : U8 m c (Proc.devRef .tc main_arg8) = U7 m c (Proc.devRef .tc main_arg8) := by host_kept seg8
  have h7 : U7 m c (Proc.devRef .tc main_arg8) = U6 m c (Proc.devRef .tc main_arg8) := by host_kept seg7
  have h6 : U6 m c (Proc.devRef .tc main_arg8) = U5 m c (Proc.devRef .tc main_arg8) := by host_kept seg6
  have h5 : U5 m c (Proc.devRef .tc main_arg8) = U4 m c (Proc.devRef .tc main_arg8) := by host_kept seg5
  have h4 : U4 m c (Proc.devRef .tc main_arg8) = U3 m c (Proc.devRef .tc main_arg8) := by host_kept seg4
  have h3 : U3 m c (Proc.devRef .tc main_arg8) = U2 m c (Proc.devRef .tc main_arg8) := by host_kept seg3
  have h2 : U2 m c (Proc.devRef .tc main_arg8) = U1 m c (Proc.devRef .tc main_arg8) := by host_kept seg2
  have h1 : U1 m c (Proc.devRef .tc main_arg8) = U0 m c (Proc.devRef .tc main_arg8) := by host_kept seg1
  rw [h10, h9, h8, h7, h6, h5, h4, h3, h2, h1]

/-- No operation writes main_arg9: it ends as launched. -/
theorem U10_main_arg9 (m : (ℓ : Loc nD τ sig) → Buf (Elt F) ℓ) (c : Dev nD) :
    U10 m c (Proc.devRef .tc main_arg9) = m ((c.tc : Thread nD τ).loc main_arg9) := by
  have h10 : U10 m c (Proc.devRef .tc main_arg9) = U9 m c (Proc.devRef .tc main_arg9) := by host_kept seg10
  have h9 : U9 m c (Proc.devRef .tc main_arg9) = U8 m c (Proc.devRef .tc main_arg9) := by host_kept seg9
  have h8 : U8 m c (Proc.devRef .tc main_arg9) = U7 m c (Proc.devRef .tc main_arg9) := by host_kept seg8
  have h7 : U7 m c (Proc.devRef .tc main_arg9) = U6 m c (Proc.devRef .tc main_arg9) := by host_kept seg7
  have h6 : U6 m c (Proc.devRef .tc main_arg9) = U5 m c (Proc.devRef .tc main_arg9) := by host_kept seg6
  have h5 : U5 m c (Proc.devRef .tc main_arg9) = U4 m c (Proc.devRef .tc main_arg9) := by host_kept seg5
  have h4 : U4 m c (Proc.devRef .tc main_arg9) = U3 m c (Proc.devRef .tc main_arg9) := by host_kept seg4
  have h3 : U3 m c (Proc.devRef .tc main_arg9) = U2 m c (Proc.devRef .tc main_arg9) := by host_kept seg3
  have h2 : U2 m c (Proc.devRef .tc main_arg9) = U1 m c (Proc.devRef .tc main_arg9) := by host_kept seg2
  have h1 : U1 m c (Proc.devRef .tc main_arg9) = U0 m c (Proc.devRef .tc main_arg9) := by host_kept seg1
  rw [h10, h9, h8, h7, h6, h5, h4, h3, h2, h1]

/-- No operation writes main_arg10: it ends as launched. -/
theorem U10_main_arg10 (m : (ℓ : Loc nD τ sig) → Buf (Elt F) ℓ) (c : Dev nD) :
    U10 m c (Proc.devRef .tc main_arg10) = m ((c.tc : Thread nD τ).loc main_arg10) := by
  have h10 : U10 m c (Proc.devRef .tc main_arg10) = U9 m c (Proc.devRef .tc main_arg10) := by host_kept seg10
  have h9 : U9 m c (Proc.devRef .tc main_arg10) = U8 m c (Proc.devRef .tc main_arg10) := by host_kept seg9
  have h8 : U8 m c (Proc.devRef .tc main_arg10) = U7 m c (Proc.devRef .tc main_arg10) := by host_kept seg8
  have h7 : U7 m c (Proc.devRef .tc main_arg10) = U6 m c (Proc.devRef .tc main_arg10) := by host_kept seg7
  have h6 : U6 m c (Proc.devRef .tc main_arg10) = U5 m c (Proc.devRef .tc main_arg10) := by host_kept seg6
  have h5 : U5 m c (Proc.devRef .tc main_arg10) = U4 m c (Proc.devRef .tc main_arg10) := by host_kept seg5
  have h4 : U4 m c (Proc.devRef .tc main_arg10) = U3 m c (Proc.devRef .tc main_arg10) := by host_kept seg4
  have h3 : U3 m c (Proc.devRef .tc main_arg10) = U2 m c (Proc.devRef .tc main_arg10) := by host_kept seg3
  have h2 : U2 m c (Proc.devRef .tc main_arg10) = U1 m c (Proc.devRef .tc main_arg10) := by host_kept seg2
  have h1 : U1 m c (Proc.devRef .tc main_arg10) = U0 m c (Proc.devRef .tc main_arg10) := by host_kept seg1
  rw [h10, h9, h8, h7, h6, h5, h4, h3, h2, h1]

/-- No operation writes main_arg11: it ends as launched. -/
theorem U10_main_arg11 (m : (ℓ : Loc nD τ sig) → Buf (Elt F) ℓ) (c : Dev nD) :
    U10 m c (Proc.devRef .tc main_arg11) = m ((c.tc : Thread nD τ).loc main_arg11) := by
  have h10 : U10 m c (Proc.devRef .tc main_arg11) = U9 m c (Proc.devRef .tc main_arg11) := by host_kept seg10
  have h9 : U9 m c (Proc.devRef .tc main_arg11) = U8 m c (Proc.devRef .tc main_arg11) := by host_kept seg9
  have h8 : U8 m c (Proc.devRef .tc main_arg11) = U7 m c (Proc.devRef .tc main_arg11) := by host_kept seg8
  have h7 : U7 m c (Proc.devRef .tc main_arg11) = U6 m c (Proc.devRef .tc main_arg11) := by host_kept seg7
  have h6 : U6 m c (Proc.devRef .tc main_arg11) = U5 m c (Proc.devRef .tc main_arg11) := by host_kept seg6
  have h5 : U5 m c (Proc.devRef .tc main_arg11) = U4 m c (Proc.devRef .tc main_arg11) := by host_kept seg5
  have h4 : U4 m c (Proc.devRef .tc main_arg11) = U3 m c (Proc.devRef .tc main_arg11) := by host_kept seg4
  have h3 : U3 m c (Proc.devRef .tc main_arg11) = U2 m c (Proc.devRef .tc main_arg11) := by host_kept seg3
  have h2 : U2 m c (Proc.devRef .tc main_arg11) = U1 m c (Proc.devRef .tc main_arg11) := by host_kept seg2
  have h1 : U1 m c (Proc.devRef .tc main_arg11) = U0 m c (Proc.devRef .tc main_arg11) := by host_kept seg1
  rw [h10, h9, h8, h7, h6, h5, h4, h3, h2, h1]

/-- No operation writes main_arg12: it ends as launched. -/
theorem U10_main_arg12 (m : (ℓ : Loc nD τ sig) → Buf (Elt F) ℓ) (c : Dev nD) :
    U10 m c (Proc.devRef .tc main_arg12) = m ((c.tc : Thread nD τ).loc main_arg12) := by
  have h10 : U10 m c (Proc.devRef .tc main_arg12) = U9 m c (Proc.devRef .tc main_arg12) := by host_kept seg10
  have h9 : U9 m c (Proc.devRef .tc main_arg12) = U8 m c (Proc.devRef .tc main_arg12) := by host_kept seg9
  have h8 : U8 m c (Proc.devRef .tc main_arg12) = U7 m c (Proc.devRef .tc main_arg12) := by host_kept seg8
  have h7 : U7 m c (Proc.devRef .tc main_arg12) = U6 m c (Proc.devRef .tc main_arg12) := by host_kept seg7
  have h6 : U6 m c (Proc.devRef .tc main_arg12) = U5 m c (Proc.devRef .tc main_arg12) := by host_kept seg6
  have h5 : U5 m c (Proc.devRef .tc main_arg12) = U4 m c (Proc.devRef .tc main_arg12) := by host_kept seg5
  have h4 : U4 m c (Proc.devRef .tc main_arg12) = U3 m c (Proc.devRef .tc main_arg12) := by host_kept seg4
  have h3 : U3 m c (Proc.devRef .tc main_arg12) = U2 m c (Proc.devRef .tc main_arg12) := by host_kept seg3
  have h2 : U2 m c (Proc.devRef .tc main_arg12) = U1 m c (Proc.devRef .tc main_arg12) := by host_kept seg2
  have h1 : U1 m c (Proc.devRef .tc main_arg12) = U0 m c (Proc.devRef .tc main_arg12) := by host_kept seg1
  rw [h10, h9, h8, h7, h6, h5, h4, h3, h2, h1]

/-- No operation writes main_arg13: it ends as launched. -/
theorem U10_main_arg13 (m : (ℓ : Loc nD τ sig) → Buf (Elt F) ℓ) (c : Dev nD) :
    U10 m c (Proc.devRef .tc main_arg13) = m ((c.tc : Thread nD τ).loc main_arg13) := by
  have h10 : U10 m c (Proc.devRef .tc main_arg13) = U9 m c (Proc.devRef .tc main_arg13) := by host_kept seg10
  have h9 : U9 m c (Proc.devRef .tc main_arg13) = U8 m c (Proc.devRef .tc main_arg13) := by host_kept seg9
  have h8 : U8 m c (Proc.devRef .tc main_arg13) = U7 m c (Proc.devRef .tc main_arg13) := by host_kept seg8
  have h7 : U7 m c (Proc.devRef .tc main_arg13) = U6 m c (Proc.devRef .tc main_arg13) := by host_kept seg7
  have h6 : U6 m c (Proc.devRef .tc main_arg13) = U5 m c (Proc.devRef .tc main_arg13) := by host_kept seg6
  have h5 : U5 m c (Proc.devRef .tc main_arg13) = U4 m c (Proc.devRef .tc main_arg13) := by host_kept seg5
  have h4 : U4 m c (Proc.devRef .tc main_arg13) = U3 m c (Proc.devRef .tc main_arg13) := by host_kept seg4
  have h3 : U3 m c (Proc.devRef .tc main_arg13) = U2 m c (Proc.devRef .tc main_arg13) := by host_kept seg3
  have h2 : U2 m c (Proc.devRef .tc main_arg13) = U1 m c (Proc.devRef .tc main_arg13) := by host_kept seg2
  have h1 : U1 m c (Proc.devRef .tc main_arg13) = U0 m c (Proc.devRef .tc main_arg13) := by host_kept seg1
  rw [h10, h9, h8, h7, h6, h5, h4, h3, h2, h1]

/-- No operation writes main_arg14: it ends as launched. -/
theorem U10_main_arg14 (m : (ℓ : Loc nD τ sig) → Buf (Elt F) ℓ) (c : Dev nD) :
    U10 m c (Proc.devRef .tc main_arg14) = m ((c.tc : Thread nD τ).loc main_arg14) := by
  have h10 : U10 m c (Proc.devRef .tc main_arg14) = U9 m c (Proc.devRef .tc main_arg14) := by host_kept seg10
  have h9 : U9 m c (Proc.devRef .tc main_arg14) = U8 m c (Proc.devRef .tc main_arg14) := by host_kept seg9
  have h8 : U8 m c (Proc.devRef .tc main_arg14) = U7 m c (Proc.devRef .tc main_arg14) := by host_kept seg8
  have h7 : U7 m c (Proc.devRef .tc main_arg14) = U6 m c (Proc.devRef .tc main_arg14) := by host_kept seg7
  have h6 : U6 m c (Proc.devRef .tc main_arg14) = U5 m c (Proc.devRef .tc main_arg14) := by host_kept seg6
  have h5 : U5 m c (Proc.devRef .tc main_arg14) = U4 m c (Proc.devRef .tc main_arg14) := by host_kept seg5
  have h4 : U4 m c (Proc.devRef .tc main_arg14) = U3 m c (Proc.devRef .tc main_arg14) := by host_kept seg4
  have h3 : U3 m c (Proc.devRef .tc main_arg14) = U2 m c (Proc.devRef .tc main_arg14) := by host_kept seg3
  have h2 : U2 m c (Proc.devRef .tc main_arg14) = U1 m c (Proc.devRef .tc main_arg14) := by host_kept seg2
  have h1 : U1 m c (Proc.devRef .tc main_arg14) = U0 m c (Proc.devRef .tc main_arg14) := by host_kept seg1
  rw [h10, h9, h8, h7, h6, h5, h4, h3, h2, h1]

/-- No operation writes main_arg15: it ends as launched. -/
theorem U10_main_arg15 (m : (ℓ : Loc nD τ sig) → Buf (Elt F) ℓ) (c : Dev nD) :
    U10 m c (Proc.devRef .tc main_arg15) = m ((c.tc : Thread nD τ).loc main_arg15) := by
  have h10 : U10 m c (Proc.devRef .tc main_arg15) = U9 m c (Proc.devRef .tc main_arg15) := by host_kept seg10
  have h9 : U9 m c (Proc.devRef .tc main_arg15) = U8 m c (Proc.devRef .tc main_arg15) := by host_kept seg9
  have h8 : U8 m c (Proc.devRef .tc main_arg15) = U7 m c (Proc.devRef .tc main_arg15) := by host_kept seg8
  have h7 : U7 m c (Proc.devRef .tc main_arg15) = U6 m c (Proc.devRef .tc main_arg15) := by host_kept seg7
  have h6 : U6 m c (Proc.devRef .tc main_arg15) = U5 m c (Proc.devRef .tc main_arg15) := by host_kept seg6
  have h5 : U5 m c (Proc.devRef .tc main_arg15) = U4 m c (Proc.devRef .tc main_arg15) := by host_kept seg5
  have h4 : U4 m c (Proc.devRef .tc main_arg15) = U3 m c (Proc.devRef .tc main_arg15) := by host_kept seg4
  have h3 : U3 m c (Proc.devRef .tc main_arg15) = U2 m c (Proc.devRef .tc main_arg15) := by host_kept seg3
  have h2 : U2 m c (Proc.devRef .tc main_arg15) = U1 m c (Proc.devRef .tc main_arg15) := by host_kept seg2
  have h1 : U1 m c (Proc.devRef .tc main_arg15) = U0 m c (Proc.devRef .tc main_arg15) := by host_kept seg1
  rw [h10, h9, h8, h7, h6, h5, h4, h3, h2, h1]

/-- No operation writes main_arg16: it ends as launched. -/
theorem U10_main_arg16 (m : (ℓ : Loc nD τ sig) → Buf (Elt F) ℓ) (c : Dev nD) :
    U10 m c (Proc.devRef .tc main_arg16) = m ((c.tc : Thread nD τ).loc main_arg16) := by
  have h10 : U10 m c (Proc.devRef .tc main_arg16) = U9 m c (Proc.devRef .tc main_arg16) := by host_kept seg10
  have h9 : U9 m c (Proc.devRef .tc main_arg16) = U8 m c (Proc.devRef .tc main_arg16) := by host_kept seg9
  have h8 : U8 m c (Proc.devRef .tc main_arg16) = U7 m c (Proc.devRef .tc main_arg16) := by host_kept seg8
  have h7 : U7 m c (Proc.devRef .tc main_arg16) = U6 m c (Proc.devRef .tc main_arg16) := by host_kept seg7
  have h6 : U6 m c (Proc.devRef .tc main_arg16) = U5 m c (Proc.devRef .tc main_arg16) := by host_kept seg6
  have h5 : U5 m c (Proc.devRef .tc main_arg16) = U4 m c (Proc.devRef .tc main_arg16) := by host_kept seg5
  have h4 : U4 m c (Proc.devRef .tc main_arg16) = U3 m c (Proc.devRef .tc main_arg16) := by host_kept seg4
  have h3 : U3 m c (Proc.devRef .tc main_arg16) = U2 m c (Proc.devRef .tc main_arg16) := by host_kept seg3
  have h2 : U2 m c (Proc.devRef .tc main_arg16) = U1 m c (Proc.devRef .tc main_arg16) := by host_kept seg2
  have h1 : U1 m c (Proc.devRef .tc main_arg16) = U0 m c (Proc.devRef .tc main_arg16) := by host_kept seg1
  rw [h10, h9, h8, h7, h6, h5, h4, h3, h2, h1]

/-- No operation writes main_arg17: it ends as launched. -/
theorem U10_main_arg17 (m : (ℓ : Loc nD τ sig) → Buf (Elt F) ℓ) (c : Dev nD) :
    U10 m c (Proc.devRef .tc main_arg17) = m ((c.tc : Thread nD τ).loc main_arg17) := by
  have h10 : U10 m c (Proc.devRef .tc main_arg17) = U9 m c (Proc.devRef .tc main_arg17) := by host_kept seg10
  have h9 : U9 m c (Proc.devRef .tc main_arg17) = U8 m c (Proc.devRef .tc main_arg17) := by host_kept seg9
  have h8 : U8 m c (Proc.devRef .tc main_arg17) = U7 m c (Proc.devRef .tc main_arg17) := by host_kept seg8
  have h7 : U7 m c (Proc.devRef .tc main_arg17) = U6 m c (Proc.devRef .tc main_arg17) := by host_kept seg7
  have h6 : U6 m c (Proc.devRef .tc main_arg17) = U5 m c (Proc.devRef .tc main_arg17) := by host_kept seg6
  have h5 : U5 m c (Proc.devRef .tc main_arg17) = U4 m c (Proc.devRef .tc main_arg17) := by host_kept seg5
  have h4 : U4 m c (Proc.devRef .tc main_arg17) = U3 m c (Proc.devRef .tc main_arg17) := by host_kept seg4
  have h3 : U3 m c (Proc.devRef .tc main_arg17) = U2 m c (Proc.devRef .tc main_arg17) := by host_kept seg3
  have h2 : U2 m c (Proc.devRef .tc main_arg17) = U1 m c (Proc.devRef .tc main_arg17) := by host_kept seg2
  have h1 : U1 m c (Proc.devRef .tc main_arg17) = U0 m c (Proc.devRef .tc main_arg17) := by host_kept seg1
  rw [h10, h9, h8, h7, h6, h5, h4, h3, h2, h1]

/-- No operation writes main_arg18: it ends as launched. -/
theorem U10_main_arg18 (m : (ℓ : Loc nD τ sig) → Buf (Elt F) ℓ) (c : Dev nD) :
    U10 m c (Proc.devRef .tc main_arg18) = m ((c.tc : Thread nD τ).loc main_arg18) := by
  have h10 : U10 m c (Proc.devRef .tc main_arg18) = U9 m c (Proc.devRef .tc main_arg18) := by host_kept seg10
  have h9 : U9 m c (Proc.devRef .tc main_arg18) = U8 m c (Proc.devRef .tc main_arg18) := by host_kept seg9
  have h8 : U8 m c (Proc.devRef .tc main_arg18) = U7 m c (Proc.devRef .tc main_arg18) := by host_kept seg8
  have h7 : U7 m c (Proc.devRef .tc main_arg18) = U6 m c (Proc.devRef .tc main_arg18) := by host_kept seg7
  have h6 : U6 m c (Proc.devRef .tc main_arg18) = U5 m c (Proc.devRef .tc main_arg18) := by host_kept seg6
  have h5 : U5 m c (Proc.devRef .tc main_arg18) = U4 m c (Proc.devRef .tc main_arg18) := by host_kept seg5
  have h4 : U4 m c (Proc.devRef .tc main_arg18) = U3 m c (Proc.devRef .tc main_arg18) := by host_kept seg4
  have h3 : U3 m c (Proc.devRef .tc main_arg18) = U2 m c (Proc.devRef .tc main_arg18) := by host_kept seg3
  have h2 : U2 m c (Proc.devRef .tc main_arg18) = U1 m c (Proc.devRef .tc main_arg18) := by host_kept seg2
  have h1 : U1 m c (Proc.devRef .tc main_arg18) = U0 m c (Proc.devRef .tc main_arg18) := by host_kept seg1
  rw [h10, h9, h8, h7, h6, h5, h4, h3, h2, h1]

/-- No operation writes main_arg19: it ends as launched. -/
theorem U10_main_arg19 (m : (ℓ : Loc nD τ sig) → Buf (Elt F) ℓ) (c : Dev nD) :
    U10 m c (Proc.devRef .tc main_arg19) = m ((c.tc : Thread nD τ).loc main_arg19) := by
  have h10 : U10 m c (Proc.devRef .tc main_arg19) = U9 m c (Proc.devRef .tc main_arg19) := by host_kept seg10
  have h9 : U9 m c (Proc.devRef .tc main_arg19) = U8 m c (Proc.devRef .tc main_arg19) := by host_kept seg9
  have h8 : U8 m c (Proc.devRef .tc main_arg19) = U7 m c (Proc.devRef .tc main_arg19) := by host_kept seg8
  have h7 : U7 m c (Proc.devRef .tc main_arg19) = U6 m c (Proc.devRef .tc main_arg19) := by host_kept seg7
  have h6 : U6 m c (Proc.devRef .tc main_arg19) = U5 m c (Proc.devRef .tc main_arg19) := by host_kept seg6
  have h5 : U5 m c (Proc.devRef .tc main_arg19) = U4 m c (Proc.devRef .tc main_arg19) := by host_kept seg5
  have h4 : U4 m c (Proc.devRef .tc main_arg19) = U3 m c (Proc.devRef .tc main_arg19) := by host_kept seg4
  have h3 : U3 m c (Proc.devRef .tc main_arg19) = U2 m c (Proc.devRef .tc main_arg19) := by host_kept seg3
  have h2 : U2 m c (Proc.devRef .tc main_arg19) = U1 m c (Proc.devRef .tc main_arg19) := by host_kept seg2
  have h1 : U1 m c (Proc.devRef .tc main_arg19) = U0 m c (Proc.devRef .tc main_arg19) := by host_kept seg1
  rw [h10, h9, h8, h7, h6, h5, h4, h3, h2, h1]

/-- No operation writes main_arg20: it ends as launched. -/
theorem U10_main_arg20 (m : (ℓ : Loc nD τ sig) → Buf (Elt F) ℓ) (c : Dev nD) :
    U10 m c (Proc.devRef .tc main_arg20) = m ((c.tc : Thread nD τ).loc main_arg20) := by
  have h10 : U10 m c (Proc.devRef .tc main_arg20) = U9 m c (Proc.devRef .tc main_arg20) := by host_kept seg10
  have h9 : U9 m c (Proc.devRef .tc main_arg20) = U8 m c (Proc.devRef .tc main_arg20) := by host_kept seg9
  have h8 : U8 m c (Proc.devRef .tc main_arg20) = U7 m c (Proc.devRef .tc main_arg20) := by host_kept seg8
  have h7 : U7 m c (Proc.devRef .tc main_arg20) = U6 m c (Proc.devRef .tc main_arg20) := by host_kept seg7
  have h6 : U6 m c (Proc.devRef .tc main_arg20) = U5 m c (Proc.devRef .tc main_arg20) := by host_kept seg6
  have h5 : U5 m c (Proc.devRef .tc main_arg20) = U4 m c (Proc.devRef .tc main_arg20) := by host_kept seg5
  have h4 : U4 m c (Proc.devRef .tc main_arg20) = U3 m c (Proc.devRef .tc main_arg20) := by host_kept seg4
  have h3 : U3 m c (Proc.devRef .tc main_arg20) = U2 m c (Proc.devRef .tc main_arg20) := by host_kept seg3
  have h2 : U2 m c (Proc.devRef .tc main_arg20) = U1 m c (Proc.devRef .tc main_arg20) := by host_kept seg2
  have h1 : U1 m c (Proc.devRef .tc main_arg20) = U0 m c (Proc.devRef .tc main_arg20) := by host_kept seg1
  rw [h10, h9, h8, h7, h6, h5, h4, h3, h2, h1]

/-- No operation writes main_arg21: it ends as launched. -/
theorem U10_main_arg21 (m : (ℓ : Loc nD τ sig) → Buf (Elt F) ℓ) (c : Dev nD) :
    U10 m c (Proc.devRef .tc main_arg21) = m ((c.tc : Thread nD τ).loc main_arg21) := by
  have h10 : U10 m c (Proc.devRef .tc main_arg21) = U9 m c (Proc.devRef .tc main_arg21) := by host_kept seg10
  have h9 : U9 m c (Proc.devRef .tc main_arg21) = U8 m c (Proc.devRef .tc main_arg21) := by host_kept seg9
  have h8 : U8 m c (Proc.devRef .tc main_arg21) = U7 m c (Proc.devRef .tc main_arg21) := by host_kept seg8
  have h7 : U7 m c (Proc.devRef .tc main_arg21) = U6 m c (Proc.devRef .tc main_arg21) := by host_kept seg7
  have h6 : U6 m c (Proc.devRef .tc main_arg21) = U5 m c (Proc.devRef .tc main_arg21) := by host_kept seg6
  have h5 : U5 m c (Proc.devRef .tc main_arg21) = U4 m c (Proc.devRef .tc main_arg21) := by host_kept seg5
  have h4 : U4 m c (Proc.devRef .tc main_arg21) = U3 m c (Proc.devRef .tc main_arg21) := by host_kept seg4
  have h3 : U3 m c (Proc.devRef .tc main_arg21) = U2 m c (Proc.devRef .tc main_arg21) := by host_kept seg3
  have h2 : U2 m c (Proc.devRef .tc main_arg21) = U1 m c (Proc.devRef .tc main_arg21) := by host_kept seg2
  have h1 : U1 m c (Proc.devRef .tc main_arg21) = U0 m c (Proc.devRef .tc main_arg21) := by host_kept seg1
  rw [h10, h9, h8, h7, h6, h5, h4, h3, h2, h1]

/-- No operation writes main_arg22: it ends as launched. -/
theorem U10_main_arg22 (m : (ℓ : Loc nD τ sig) → Buf (Elt F) ℓ) (c : Dev nD) :
    U10 m c (Proc.devRef .tc main_arg22) = m ((c.tc : Thread nD τ).loc main_arg22) := by
  have h10 : U10 m c (Proc.devRef .tc main_arg22) = U9 m c (Proc.devRef .tc main_arg22) := by host_kept seg10
  have h9 : U9 m c (Proc.devRef .tc main_arg22) = U8 m c (Proc.devRef .tc main_arg22) := by host_kept seg9
  have h8 : U8 m c (Proc.devRef .tc main_arg22) = U7 m c (Proc.devRef .tc main_arg22) := by host_kept seg8
  have h7 : U7 m c (Proc.devRef .tc main_arg22) = U6 m c (Proc.devRef .tc main_arg22) := by host_kept seg7
  have h6 : U6 m c (Proc.devRef .tc main_arg22) = U5 m c (Proc.devRef .tc main_arg22) := by host_kept seg6
  have h5 : U5 m c (Proc.devRef .tc main_arg22) = U4 m c (Proc.devRef .tc main_arg22) := by host_kept seg5
  have h4 : U4 m c (Proc.devRef .tc main_arg22) = U3 m c (Proc.devRef .tc main_arg22) := by host_kept seg4
  have h3 : U3 m c (Proc.devRef .tc main_arg22) = U2 m c (Proc.devRef .tc main_arg22) := by host_kept seg3
  have h2 : U2 m c (Proc.devRef .tc main_arg22) = U1 m c (Proc.devRef .tc main_arg22) := by host_kept seg2
  have h1 : U1 m c (Proc.devRef .tc main_arg22) = U0 m c (Proc.devRef .tc main_arg22) := by host_kept seg1
  rw [h10, h9, h8, h7, h6, h5, h4, h3, h2, h1]

/-- On every device, for any float values, from any memory with zero counters: every weakly fair execution of @main
    terminates with the result buffer at the contents after the tenth stretch and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v278) = U10 m c (Proc.devRef .tc main_v278)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v278).trans (congrFun (after_ops m c) _),
      (h c main_arg0).trans ((congrFun (after_ops m c) _).trans (U10_main_arg0 m c)),
      (h c main_arg1).trans ((congrFun (after_ops m c) _).trans (U10_main_arg1 m c)),
      (h c main_arg2).trans ((congrFun (after_ops m c) _).trans (U10_main_arg2 m c)),
      (h c main_arg3).trans ((congrFun (after_ops m c) _).trans (U10_main_arg3 m c)),
      (h c main_arg4).trans ((congrFun (after_ops m c) _).trans (U10_main_arg4 m c)),
      (h c main_arg5).trans ((congrFun (after_ops m c) _).trans (U10_main_arg5 m c)),
      (h c main_arg6).trans ((congrFun (after_ops m c) _).trans (U10_main_arg6 m c)),
      (h c main_arg7).trans ((congrFun (after_ops m c) _).trans (U10_main_arg7 m c)),
      (h c main_arg8).trans ((congrFun (after_ops m c) _).trans (U10_main_arg8 m c)),
      (h c main_arg9).trans ((congrFun (after_ops m c) _).trans (U10_main_arg9 m c)),
      (h c main_arg10).trans ((congrFun (after_ops m c) _).trans (U10_main_arg10 m c)),
      (h c main_arg11).trans ((congrFun (after_ops m c) _).trans (U10_main_arg11 m c)),
      (h c main_arg12).trans ((congrFun (after_ops m c) _).trans (U10_main_arg12 m c)),
      (h c main_arg13).trans ((congrFun (after_ops m c) _).trans (U10_main_arg13 m c)),
      (h c main_arg14).trans ((congrFun (after_ops m c) _).trans (U10_main_arg14 m c)),
      (h c main_arg15).trans ((congrFun (after_ops m c) _).trans (U10_main_arg15 m c)),
      (h c main_arg16).trans ((congrFun (after_ops m c) _).trans (U10_main_arg16 m c)),
      (h c main_arg17).trans ((congrFun (after_ops m c) _).trans (U10_main_arg17 m c)),
      (h c main_arg18).trans ((congrFun (after_ops m c) _).trans (U10_main_arg18 m c)),
      (h c main_arg19).trans ((congrFun (after_ops m c) _).trans (U10_main_arg19 m c)),
      (h c main_arg20).trans ((congrFun (after_ops m c) _).trans (U10_main_arg20 m c)),
      (h c main_arg21).trans ((congrFun (after_ops m c) _).trans (U10_main_arg21 m c)),
      (h c main_arg22).trans ((congrFun (after_ops m c) _).trans (U10_main_arg22 m c))⟩)
    (run_seq scopedRefs_eq scopedSems_eq defs main (fun _ => ops) main_eq (fun _ => ops_sub) m ρ (fun _ => ops_fresh))

end Cert.ReferenceIdeal.HandRun

end
-- ==== Proof.RefArgs.lean ====
/-
  The reference program's launch arguments on one device, named by position: what the device's memory holds at
  launch in each argument buffer, typed by the buffer's shape and element type.
-/
import Idealize.ShloMosaic.PureOps.Ideal
import proofs.«112340_j85873576116383_2_alg».proof.Proof.Gen.ReferenceIdeal

noncomputable section

namespace Cert.ReferenceIdeal.RefChain

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- Argument 0: the node features. -/
abbrev B0 : (⟨S100000x64, .f32⟩ : BufTy).Contents (Elt Ideal) := m ((c.tc : Thread nD τ).loc main_arg0)
/-- Argument 1: the edge attributes. -/
abbrev B1 : (⟨S1600000x16, .f32⟩ : BufTy).Contents (Elt Ideal) := m ((c.tc : Thread nD τ).loc main_arg1)
/-- Argument 2: the per-graph features. -/
abbrev B2 : (⟨S64x16, .f32⟩ : BufTy).Contents (Elt Ideal) := m ((c.tc : Thread nD τ).loc main_arg2)
/-- Argument 3: the three layers' first edge weights. -/
abbrev B3 : (⟨S3x64x64, .f32⟩ : BufTy).Contents (Elt Ideal) := m ((c.tc : Thread nD τ).loc main_arg3)
/-- Argument 4: their biases. -/
abbrev B4 : (⟨S3x64, .f32⟩ : BufTy).Contents (Elt Ideal) := m ((c.tc : Thread nD τ).loc main_arg4)
/-- Argument 5: the three layers' second edge weights. -/
abbrev B5 : (⟨S3x80x64, .f32⟩ : BufTy).Contents (Elt Ideal) := m ((c.tc : Thread nD τ).loc main_arg5)
/-- Argument 6: their biases. -/
abbrev B6 : (⟨S3x64, .f32⟩ : BufTy).Contents (Elt Ideal) := m ((c.tc : Thread nD τ).loc main_arg6)
/-- Argument 7: the three layers' node-update weights. -/
abbrev B7 : (⟨S3x80x64, .f32⟩ : BufTy).Contents (Elt Ideal) := m ((c.tc : Thread nD τ).loc main_arg7)
/-- Argument 8: their biases. -/
abbrev B8 : (⟨S3x64, .f32⟩ : BufTy).Contents (Elt Ideal) := m ((c.tc : Thread nD τ).loc main_arg8)
/-- Argument 9: the three layers' normalisation scales. -/
abbrev B9 : (⟨S3x64, .f32⟩ : BufTy).Contents (Elt Ideal) := m ((c.tc : Thread nD τ).loc main_arg9)
/-- Argument 10: their shifts. -/
abbrev B10 : (⟨S3x64, .f32⟩ : BufTy).Contents (Elt Ideal) := m ((c.tc : Thread nD τ).loc main_arg10)
/-- Argument 11: the readout's first weights. -/
abbrev B11 : (⟨S80x64, .f32⟩ : BufTy).Contents (Elt Ideal) := m ((c.tc : Thread nD τ).loc main_arg11)
/-- Argument 12: its bias. -/
abbrev B12 : (⟨S64, .f32⟩ : BufTy).Contents (Elt Ideal) := m ((c.tc : Thread nD τ).loc main_arg12)
/-- Argument 13: its normalisation scale. -/
abbrev B13 : (⟨S64, .f32⟩ : BufTy).Contents (Elt Ideal) := m ((c.tc : Thread nD τ).loc main_arg13)
/-- Argument 14: its shift. -/
abbrev B14 : (⟨S64, .f32⟩ : BufTy).Contents (Elt Ideal) := m ((c.tc : Thread nD τ).loc main_arg14)
/-- Argument 15: the readout's second weights. -/
abbrev B15 : (⟨S64x32, .f32⟩ : BufTy).Contents (Elt Ideal) := m ((c.tc : Thread nD τ).loc main_arg15)
/-- Argument 16: its bias. -/
abbrev B16 : (⟨S32, .f32⟩ : BufTy).Contents (Elt Ideal) := m ((c.tc : Thread nD τ).loc main_arg16)
/-- Argument 17: its normalisation scale. -/
abbrev B17 : (⟨S32, .f32⟩ : BufTy).Contents (Elt Ideal) := m ((c.tc : Thread nD τ).loc main_arg17)
/-- Argument 18: its shift. -/
abbrev B18 : (⟨S32, .f32⟩ : BufTy).Contents (Elt Ideal) := m ((c.tc : Thread nD τ).loc main_arg18)
/-- Argument 19: the readout's last weights. -/
abbrev B19 : (⟨S32x1, .f32⟩ : BufTy).Contents (Elt Ideal) := m ((c.tc : Thread nD τ).loc main_arg19)
/-- Argument 20: its bias. -/
abbrev B20 : (⟨S1, .f32⟩ : BufTy).Contents (Elt Ideal) := m ((c.tc : Thread nD τ).loc main_arg20)
/-- Argument 21: the edges' source and destination node numbers. -/
abbrev B21 : (⟨S2x1600000, .i32⟩ : BufTy).Contents (Elt Ideal) := m ((c.tc : Thread nD τ).loc main_arg21)
/-- Argument 22: each node's graph number. -/
abbrev B22 : (⟨S100000, .i32⟩ : BufTy).Contents (Elt Ideal) := m ((c.tc : Thread nD τ).loc main_arg22)

end Cert.ReferenceIdeal.RefChain

end
-- ==== Proof.RefLayers.lean ====
/-
  The reference program read stretch by stretch, through its three message-passing layers.

  The reference's operations are cut into stretches; after each stretch the device's buffers hold the contents before it
  with that stretch's operations applied in order.  Read at the buffers that later stretches use, those contents are
  the shared values of the model: after the first stretch the two index columns, the per-node graph features and the
  first layer's edge messages; after the second the first layer's updated node rows; and so on, alternately an edge
  stage and a node stage, up to the third layer's updated node rows after the sixth stretch.  A buffer written in an
  earlier stretch, or a launch argument, that a stretch does not write keeps its contents across it.
-/
import Idealize.ShloMosaic.PureOps.Ideal
import proofs.«112340_j85873576116383_2_alg».proof.Proof.RefRun
import proofs.«112340_j85873576116383_2_alg».proof.Proof.Model
import proofs.«112340_j85873576116383_2_alg».proof.Proof.RefArgs
import proofs.«112340_j85873576116383_2_alg».proof.Proof.LibHostKept

set_option maxRecDepth 8192

noncomputable section

namespace Cert.ReferenceIdeal.RefChain

open Cert.ReferenceIdeal Cert.ReferenceIdeal.Gen Cert.ReferenceIdeal.HandRun Cert.Kept
open Idealize.ShloMosaic Idealize.ShloMosaic.TcCoe Idealize.SL.Sem Idealize.ShloMosaic.StableHlo

variable (m : (ℓ : Loc nD τ sig) → Buf (Elt Ideal) ℓ) (c : Dev nD)

/-- Rewrites every operation's result that is read at a literal buffer: to the operation's function of its operands'
    contents at the buffer it writes, to the contents before it at any other buffer.  For results the one-pass
    rewriting does not reach (operands inside the list of a join). -/
macro "results_rw" : tactic =>
  `(tactic| (repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))

/-! ## After the first stretch: the index columns, the per-node graph features, the first edge messages -/

set_option maxHeartbeats 400000 in
theorem u1_v1 : U1 m c (Proc.devRef .tc main_v1)
    = Cert.Model.v1 (F := Ideal) (B21 m c) := by
  show StableHlo.after seg1 (U0 m c) (Proc.devRef .tc main_v1) = _
  after_results
  rfl

set_option maxHeartbeats 400000 in
theorem u1_v3 : U1 m c (Proc.devRef .tc main_v3)
    = Cert.Model.v3 (F := Ideal) (B21 m c) := by
  show StableHlo.after seg1 (U0 m c) (Proc.devRef .tc main_v3) = _
  after_results
  rfl

set_option maxHeartbeats 1000000 in
theorem u1_v10 : U1 m c (Proc.devRef .tc main_v10)
    = Cert.Model.v10 (F := Ideal) (B2 m c) (B22 m c) := by
  show StableHlo.after seg1 (U0 m c) (Proc.devRef .tc main_v10) = _
  after_results_simp
  rfl

set_option maxHeartbeats 2000000 in
theorem u1_v34 : U1 m c (Proc.devRef .tc main_v34)
    = Cert.Model.v34 (F := Ideal) (B0 m c) (B1 m c) (B3 m c) (B4 m c) (B5 m c) (B6 m c) (B21 m c) := by
  show StableHlo.after seg1 (U0 m c) (Proc.devRef .tc main_v34) = _
  after_results_simp
  rfl

theorem u1_arg1 : U1 m c (Proc.devRef .tc main_arg1) = B1 m c :=
  Eq.trans (by host_kept seg1) (rfl)
theorem u1_arg3 : U1 m c (Proc.devRef .tc main_arg3) = B3 m c :=
  Eq.trans (by host_kept seg1) (rfl)
theorem u1_arg4 : U1 m c (Proc.devRef .tc main_arg4) = B4 m c :=
  Eq.trans (by host_kept seg1) (rfl)
theorem u1_arg5 : U1 m c (Proc.devRef .tc main_arg5) = B5 m c :=
  Eq.trans (by host_kept seg1) (rfl)
theorem u1_arg6 : U1 m c (Proc.devRef .tc main_arg6) = B6 m c :=
  Eq.trans (by host_kept seg1) (rfl)
theorem u1_arg7 : U1 m c (Proc.devRef .tc main_arg7) = B7 m c :=
  Eq.trans (by host_kept seg1) (rfl)
theorem u1_arg8 : U1 m c (Proc.devRef .tc main_arg8) = B8 m c :=
  Eq.trans (by host_kept seg1) (rfl)
theorem u1_arg9 : U1 m c (Proc.devRef .tc main_arg9) = B9 m c :=
  Eq.trans (by host_kept seg1) (rfl)
theorem u1_arg10 : U1 m c (Proc.devRef .tc main_arg10) = B10 m c :=
  Eq.trans (by host_kept seg1) (rfl)

/-! ## After the second stretch: the first layer's updated node rows -/

set_option maxHeartbeats 4000000 in
theorem u2_v74 : U2 m c (Proc.devRef .tc main_v74)
    = Cert.Model.v74 (F := Ideal) (B0 m c) (B1 m c) (B2 m c) (B3 m c) (B4 m c) (B5 m c) (B6 m c) (B7 m c) (B8 m c) (B9 m c) (B10 m c) (B21 m c) (B22 m c) := by
  show StableHlo.after seg2 (U1 m c) (Proc.devRef .tc main_v74) = _
  generalize hv : U1 m c = v
  after_results_simp
  results_rw
  subst hv
  rw [u1_v34 m c, u1_v3 m c, u1_v10 m c, u1_arg7 m c, u1_arg8 m c, u1_arg9 m c, u1_arg10 m c]
  rfl

theorem u2_v1 : U2 m c (Proc.devRef .tc main_v1) = Cert.Model.v1 (F := Ideal) (B21 m c) :=
  Eq.trans (by host_kept seg2) (u1_v1 m c)
theorem u2_v3 : U2 m c (Proc.devRef .tc main_v3) = Cert.Model.v3 (F := Ideal) (B21 m c) :=
  Eq.trans (by host_kept seg2) (u1_v3 m c)
theorem u2_v10 : U2 m c (Proc.devRef .tc main_v10) = Cert.Model.v10 (F := Ideal) (B2 m c) (B22 m c) :=
  Eq.trans (by host_kept seg2) (u1_v10 m c)
theorem u2_arg1 : U2 m c (Proc.devRef .tc main_arg1) = B1 m c :=
  Eq.trans (by host_kept seg2) (u1_arg1 m c)
theorem u2_arg3 : U2 m c (Proc.devRef .tc main_arg3) = B3 m c :=
  Eq.trans (by host_kept seg2) (u1_arg3 m c)
theorem u2_arg4 : U2 m c (Proc.devRef .tc main_arg4) = B4 m c :=
  Eq.trans (by host_kept seg2) (u1_arg4 m c)
theorem u2_arg5 : U2 m c (Proc.devRef .tc main_arg5) = B5 m c :=
  Eq.trans (by host_kept seg2) (u1_arg5 m c)
theorem u2_arg6 : U2 m c (Proc.devRef .tc main_arg6) = B6 m c :=
  Eq.trans (by host_kept seg2) (u1_arg6 m c)
theorem u2_arg7 : U2 m c (Proc.devRef .tc main_arg7) = B7 m c :=
  Eq.trans (by host_kept seg2) (u1_arg7 m c)
theorem u2_arg8 : U2 m c (Proc.devRef .tc main_arg8) = B8 m c :=
  Eq.trans (by host_kept seg2) (u1_arg8 m c)
theorem u2_arg9 : U2 m c (Proc.devRef .tc main_arg9) = B9 m c :=
  Eq.trans (by host_kept seg2) (u1_arg9 m c)
theorem u2_arg10 : U2 m c (Proc.devRef .tc main_arg10) = B10 m c :=
  Eq.trans (by host_kept seg2) (u1_arg10 m c)

/-! ## After the third stretch: the second layer's edge messages -/

set_option maxHeartbeats 2000000 in
theorem u3_v98 : U3 m c (Proc.devRef .tc main_v98)
    = Cert.Model.v98 (F := Ideal) (B0 m c) (B1 m c) (B2 m c) (B3 m c) (B4 m c) (B5 m c) (B6 m c) (B7 m c) (B8 m c) (B9 m c) (B10 m c) (B21 m c) (B22 m c) := by
  show StableHlo.after seg3 (U2 m c) (Proc.devRef .tc main_v98) = _
  generalize hv : U2 m c = v
  after_results_simp
  results_rw
  subst hv
  rw [u2_v74 m c, u2_v1 m c, u2_arg1 m c, u2_arg3 m c, u2_arg4 m c, u2_arg5 m c, u2_arg6 m c]
  rfl

theorem u3_v1 : U3 m c (Proc.devRef .tc main_v1) = Cert.Model.v1 (F := Ideal) (B21 m c) :=
  Eq.trans (by host_kept seg3) (u2_v1 m c)
theorem u3_v3 : U3 m c (Proc.devRef .tc main_v3) = Cert.Model.v3 (F := Ideal) (B21 m c) :=
  Eq.trans (by host_kept seg3) (u2_v3 m c)
theorem u3_v10 : U3 m c (Proc.devRef .tc main_v10) = Cert.Model.v10 (F := Ideal) (B2 m c) (B22 m c) :=
  Eq.trans (by host_kept seg3) (u2_v10 m c)
theorem u3_arg1 : U3 m c (Proc.devRef .tc main_arg1) = B1 m c :=
  Eq.trans (by host_kept seg3) (u2_arg1 m c)
theorem u3_arg3 : U3 m c (Proc.devRef .tc main_arg3) = B3 m c :=
  Eq.trans (by host_kept seg3) (u2_arg3 m c)
theorem u3_arg4 : U3 m c (Proc.devRef .tc main_arg4) = B4 m c :=
  Eq.trans (by host_kept seg3) (u2_arg4 m c)
theorem u3_arg5 : U3 m c (Proc.devRef .tc main_arg5) = B5 m c :=
  Eq.trans (by host_kept seg3) (u2_arg5 m c)
theorem u3_arg6 : U3 m c (Proc.devRef .tc main_arg6) = B6 m c :=
  Eq.trans (by host_kept seg3) (u2_arg6 m c)
theorem u3_arg7 : U3 m c (Proc.devRef .tc main_arg7) = B7 m c :=
  Eq.trans (by host_kept seg3) (u2_arg7 m c)
theorem u3_arg8 : U3 m c (Proc.devRef .tc main_arg8) = B8 m c :=
  Eq.trans (by host_kept seg3) (u2_arg8 m c)
theorem u3_arg9 : U3 m c (Proc.devRef .tc main_arg9) = B9 m c :=
  Eq.trans (by host_kept seg3) (u2_arg9 m c)
theorem u3_arg10 : U3 m c (Proc.devRef .tc main_arg10) = B10 m c :=
  Eq.trans (by host_kept seg3) (u2_arg10 m c)

/-! ## After the fourth stretch: the second layer's updated node rows -/

set_option maxHeartbeats 4000000 in
theorem u4_v138 : U4 m c (Proc.devRef .tc main_v138)
    = Cert.Model.v138 (F := Ideal) (B0 m c) (B1 m c) (B2 m c) (B3 m c) (B4 m c) (B5 m c) (B6 m c) (B7 m c) (B8 m c) (B9 m c) (B10 m c) (B21 m c) (B22 m c) := by
  show StableHlo.after seg4 (U3 m c) (Proc.devRef .tc main_v138) = _
  generalize hv : U3 m c = v
  after_results_simp
  results_rw
  subst hv
  rw [u3_v98 m c, u3_v3 m c, u3_v10 m c, u3_arg7 m c, u3_arg8 m c, u3_arg9 m c, u3_arg10 m c]
  rfl

theorem u4_v1 : U4 m c (Proc.devRef .tc main_v1) = Cert.Model.v1 (F := Ideal) (B21 m c) :=
  Eq.trans (by host_kept seg4) (u3_v1 m c)
theorem u4_v3 : U4 m c (Proc.devRef .tc main_v3) = Cert.Model.v3 (F := Ideal) (B21 m c) :=
  Eq.trans (by host_kept seg4) (u3_v3 m c)
theorem u4_v10 : U4 m c (Proc.devRef .tc main_v10) = Cert.Model.v10 (F := Ideal) (B2 m c) (B22 m c) :=
  Eq.trans (by host_kept seg4) (u3_v10 m c)
theorem u4_arg1 : U4 m c (Proc.devRef .tc main_arg1) = B1 m c :=
  Eq.trans (by host_kept seg4) (u3_arg1 m c)
theorem u4_arg3 : U4 m c (Proc.devRef .tc main_arg3) = B3 m c :=
  Eq.trans (by host_kept seg4) (u3_arg3 m c)
theorem u4_arg4 : U4 m c (Proc.devRef .tc main_arg4) = B4 m c :=
  Eq.trans (by host_kept seg4) (u3_arg4 m c)
theorem u4_arg5 : U4 m c (Proc.devRef .tc main_arg5) = B5 m c :=
  Eq.trans (by host_kept seg4) (u3_arg5 m c)
theorem u4_arg6 : U4 m c (Proc.devRef .tc main_arg6) = B6 m c :=
  Eq.trans (by host_kept seg4) (u3_arg6 m c)
theorem u4_arg7 : U4 m c (Proc.devRef .tc main_arg7) = B7 m c :=
  Eq.trans (by host_kept seg4) (u3_arg7 m c)
theorem u4_arg8 : U4 m c (Proc.devRef .tc main_arg8) = B8 m c :=
  Eq.trans (by host_kept seg4) (u3_arg8 m c)
theorem u4_arg9 : U4 m c (Proc.devRef .tc main_arg9) = B9 m c :=
  Eq.trans (by host_kept seg4) (u3_arg9 m c)
theorem u4_arg10 : U4 m c (Proc.devRef .tc main_arg10) = B10 m c :=
  Eq.trans (by host_kept seg4) (u3_arg10 m c)

/-! ## After the fifth stretch: the third layer's edge messages -/

set_option maxHeartbeats 2000000 in
theorem u5_v162 : U5 m c (Proc.devRef .tc main_v162)
    = Cert.Model.v162 (F := Ideal) (B0 m c) (B1 m c) (B2 m c) (B3 m c) (B4 m c) (B5 m c) (B6 m c) (B7 m c) (B8 m c) (B9 m c) (B10 m c) (B21 m c) (B22 m c) := by
  show StableHlo.after seg5 (U4 m c) (Proc.devRef .tc main_v162) = _
  generalize hv : U4 m c = v
  after_results_simp
  results_rw
  subst hv
  rw [u4_v138 m c, u4_v1 m c, u4_arg1 m c, u4_arg3 m c, u4_arg4 m c, u4_arg5 m c, u4_arg6 m c]
  rfl

theorem u5_v3 : U5 m c (Proc.devRef .tc main_v3) = Cert.Model.v3 (F := Ideal) (B21 m c) :=
  Eq.trans (by host_kept seg5) (u4_v3 m c)
theorem u5_v10 : U5 m c (Proc.devRef .tc main_v10) = Cert.Model.v10 (F := Ideal) (B2 m c) (B22 m c) :=
  Eq.trans (by host_kept seg5) (u4_v10 m c)
theorem u5_arg7 : U5 m c (Proc.devRef .tc main_arg7) = B7 m c :=
  Eq.trans (by host_kept seg5) (u4_arg7 m c)
theorem u5_arg8 : U5 m c (Proc.devRef .tc main_arg8) = B8 m c :=
  Eq.trans (by host_kept seg5) (u4_arg8 m c)
theorem u5_arg9 : U5 m c (Proc.devRef .tc main_arg9) = B9 m c :=
  Eq.trans (by host_kept seg5) (u4_arg9 m c)
theorem u5_arg10 : U5 m c (Proc.devRef .tc main_arg10) = B10 m c :=
  Eq.trans (by host_kept seg5) (u4_arg10 m c)

/-! ## After the sixth stretch: the third layer's updated node rows -/

set_option maxHeartbeats 4000000 in
theorem u6_v202 : U6 m c (Proc.devRef .tc main_v202)
    = Cert.Model.v202 (F := Ideal) (B0 m c) (B1 m c) (B2 m c) (B3 m c) (B4 m c) (B5 m c) (B6 m c) (B7 m c) (B8 m c) (B9 m c) (B10 m c) (B21 m c) (B22 m c) := by
  show StableHlo.after seg6 (U5 m c) (Proc.devRef .tc main_v202) = _
  generalize hv : U5 m c = v
  after_results_simp
  results_rw
  subst hv
  rw [u5_v162 m c, u5_v3 m c, u5_v10 m c, u5_arg7 m c, u5_arg8 m c, u5_arg9 m c, u5_arg10 m c]
  rfl

end Cert.ReferenceIdeal.RefChain

end
-- ==== Proof.RefReadoutKept.lean ====
/-
  The launch arguments the pooling and the readout read, carried to the cuts where they are read.

  Each stretch of the reference's operations writes a known list of buffers (its intermediate values), none of
  them an argument buffer, so an argument buffer holds at every cut what the launch memory held.
-/
import proofs.«112340_j85873576116383_2_alg».proof.Proof.RefRun
import proofs.«112340_j85873576116383_2_alg».proof.Proof.RefArgs

noncomputable section

namespace Cert.ReferenceIdeal.RefChain

open Cert.ReferenceIdeal Cert.ReferenceIdeal.Gen Cert.ReferenceIdeal.HandRun Idealize.ShloMosaic Idealize.ShloMosaic.TcCoe
  Idealize.SL.Sem Idealize.ShloMosaic.StableHlo

/-- The buffers stretch 1 writes. -/
abbrev wr1 : List (Ref sig .tc) :=
  [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_v20, main_v21, main_v22, main_v23, main_v24, main_v25, main_v26, main_v27, main_v28, main_v29, main_v30, main_v31, main_v32, main_v33, main_v34]

set_option maxHeartbeats 2000000 in
set_option maxRecDepth 8192 in
/-- Every operation of stretch 1 writes one of them. -/
theorem hwr1 : (seg1 (F := Ideal)).Forall fun op => op.writes ⊆ (wr1.map (Proc.devRef (τ := τ) .tc)).toFinset := by
  simp only [seg1, List.Forall, TRef.nullary, TRef.unary, TRef.binary, nullary_writes, unary_writes, binary_writes, ternary_writes,
    reshape_writes, Finset.singleton_subset_iff]
  repeat' apply And.intro
  all_goals exact List.mem_toFinset.mpr (List.mem_map.mpr ⟨_, by decide, rfl⟩)

/-- A buffer that is none of them keeps its contents across stretch 1. -/
theorem kept1 (V : Valuation τ sig (Elt Ideal)) {r : Ref sig .tc} (hr : r ∉ wr1) :
    StableHlo.after (seg1 (F := Ideal)) V (Proc.devRef .tc r) = V (Proc.devRef .tc r) :=
  after_of_writes_sub _ V hwr1 hr

/-- The buffers stretch 2 writes. -/
abbrev wr2 : List (Ref sig .tc) :=
  [main_cst, main_v35, main_v36, main_v37, main_v38, main_v39, main_v40, main_v41, main_v42, main_v43, main_v44, main_v45, main_v46, main_v47, main_v48, main_v49, main_v50, main_cst_3, main_v51, main_v52, main_cst_4, main_v53, main_v54, main_v55, main_v56, main_v57, main_cst_5, main_v58, main_v59, main_cst_6, main_v60, main_v61, main_v62, main_v63, main_cst_7, main_v64, main_v65, main_v66, main_v67, main_v68, main_v69, main_v70, main_v71, main_v72, main_v73, main_v74]

set_option maxHeartbeats 2000000 in
set_option maxRecDepth 8192 in
/-- Every operation of stretch 2 writes one of them. -/
theorem hwr2 : (seg2 (F := Ideal)).Forall fun op => op.writes ⊆ (wr2.map (Proc.devRef (τ := τ) .tc)).toFinset := by
  simp only [seg2, List.Forall, TRef.nullary, TRef.unary, TRef.binary, nullary_writes, unary_writes, binary_writes, ternary_writes,
    reshape_writes, Finset.singleton_subset_iff]
  repeat' apply And.intro
  all_goals exact List.mem_toFinset.mpr (List.mem_map.mpr ⟨_, by decide, rfl⟩)

/-- A buffer that is none of them keeps its contents across stretch 2. -/
theorem kept2 (V : Valuation τ sig (Elt Ideal)) {r : Ref sig .tc} (hr : r ∉ wr2) :
    StableHlo.after (seg2 (F := Ideal)) V (Proc.devRef .tc r) = V (Proc.devRef .tc r) :=
  after_of_writes_sub _ V hwr2 hr

/-- The buffers stretch 3 writes. -/
abbrev wr3 : List (Ref sig .tc) :=
  [main_c_8, main_v75, main_v76, main_c_9, main_v77, main_v78, main_v79, main_v80, main_v81, main_v82, main_v83, main_v84, main_v85, main_v86, main_v87, main_v88, main_v89, main_v90, main_v91, main_v92, main_v93, main_v94, main_v95, main_v96, main_v97, main_v98]

set_option maxHeartbeats 2000000 in
set_option maxRecDepth 8192 in
/-- Every operation of stretch 3 writes one of them. -/
theorem hwr3 : (seg3 (F := Ideal)).Forall fun op => op.writes ⊆ (wr3.map (Proc.devRef (τ := τ) .tc)).toFinset := by
  simp only [seg3, List.Forall, TRef.nullary, TRef.unary, TRef.binary, nullary_writes, unary_writes, binary_writes, ternary_writes,
    reshape_writes, Finset.singleton_subset_iff]
  repeat' apply And.intro
  all_goals exact List.mem_toFinset.mpr (List.mem_map.mpr ⟨_, by decide, rfl⟩)

/-- A buffer that is none of them keeps its contents across stretch 3. -/
theorem kept3 (V : Valuation τ sig (Elt Ideal)) {r : Ref sig .tc} (hr : r ∉ wr3) :
    StableHlo.after (seg3 (F := Ideal)) V (Proc.devRef .tc r) = V (Proc.devRef .tc r) :=
  after_of_writes_sub _ V hwr3 hr

/-- The buffers stretch 4 writes. -/
abbrev wr4 : List (Ref sig .tc) :=
  [main_cst_10, main_v99, main_v100, main_v101, main_v102, main_v103, main_v104, main_v105, main_v106, main_v107, main_v108, main_v109, main_v110, main_v111, main_v112, main_v113, main_v114, main_cst_11, main_v115, main_v116, main_cst_12, main_v117, main_v118, main_v119, main_v120, main_v121, main_cst_13, main_v122, main_v123, main_cst_14, main_v124, main_v125, main_v126, main_v127, main_cst_15, main_v128, main_v129, main_v130, main_v131, main_v132, main_v133, main_v134, main_v135, main_v136, main_v137, main_v138]

set_option maxHeartbeats 2000000 in
set_option maxRecDepth 8192 in
/-- Every operation of stretch 4 writes one of them. -/
theorem hwr4 : (seg4 (F := Ideal)).Forall fun op => op.writes ⊆ (wr4.map (Proc.devRef (τ := τ) .tc)).toFinset := by
  simp only [seg4, List.Forall, TRef.nullary, TRef.unary, TRef.binary, nullary_writes, unary_writes, binary_writes, ternary_writes,
    reshape_writes, Finset.singleton_subset_iff]
  repeat' apply And.intro
  all_goals exact List.mem_toFinset.mpr (List.mem_map.mpr ⟨_, by decide, rfl⟩)

/-- A buffer that is none of them keeps its contents across stretch 4. -/
theorem kept4 (V : Valuation τ sig (Elt Ideal)) {r : Ref sig .tc} (hr : r ∉ wr4) :
    StableHlo.after (seg4 (F := Ideal)) V (Proc.devRef .tc r) = V (Proc.devRef .tc r) :=
  after_of_writes_sub _ V hwr4 hr

/-- The buffers stretch 5 writes. -/
abbrev wr5 : List (Ref sig .tc) :=
  [main_c_16, main_v139, main_v140, main_c_17, main_v141, main_v142, main_v143, main_v144, main_v145, main_v146, main_v147, main_v148, main_v149, main_v150, main_v151, main_v152, main_v153, main_v154, main_v155, main_v156, main_v157, main_v158, main_v159, main_v160, main_v161, main_v162]

set_option maxHeartbeats 2000000 in
set_option maxRecDepth 8192 in
/-- Every operation of stretch 5 writes one of them. -/
theorem hwr5 : (seg5 (F := Ideal)).Forall fun op => op.writes ⊆ (wr5.map (Proc.devRef (τ := τ) .tc)).toFinset := by
  simp only [seg5, List.Forall, TRef.nullary, TRef.unary, TRef.binary, nullary_writes, unary_writes, binary_writes, ternary_writes,
    reshape_writes, Finset.singleton_subset_iff]
  repeat' apply And.intro
  all_goals exact List.mem_toFinset.mpr (List.mem_map.mpr ⟨_, by decide, rfl⟩)

/-- A buffer that is none of them keeps its contents across stretch 5. -/
theorem kept5 (V : Valuation τ sig (Elt Ideal)) {r : Ref sig .tc} (hr : r ∉ wr5) :
    StableHlo.after (seg5 (F := Ideal)) V (Proc.devRef .tc r) = V (Proc.devRef .tc r) :=
  after_of_writes_sub _ V hwr5 hr

/-- The buffers stretch 6 writes. -/
abbrev wr6 : List (Ref sig .tc) :=
  [main_cst_18, main_v163, main_v164, main_v165, main_v166, main_v167, main_v168, main_v169, main_v170, main_v171, main_v172, main_v173, main_v174, main_v175, main_v176, main_v177, main_v178, main_cst_19, main_v179, main_v180, main_cst_20, main_v181, main_v182, main_v183, main_v184, main_v185, main_cst_21, main_v186, main_v187, main_cst_22, main_v188, main_v189, main_v190, main_v191, main_cst_23, main_v192, main_v193, main_v194, main_v195, main_v196, main_v197, main_v198, main_v199, main_v200, main_v201, main_v202]

set_option maxHeartbeats 2000000 in
set_option maxRecDepth 8192 in
/-- Every operation of stretch 6 writes one of them. -/
theorem hwr6 : (seg6 (F := Ideal)).Forall fun op => op.writes ⊆ (wr6.map (Proc.devRef (τ := τ) .tc)).toFinset := by
  simp only [seg6, List.Forall, TRef.nullary, TRef.unary, TRef.binary, nullary_writes, unary_writes, binary_writes, ternary_writes,
    reshape_writes, Finset.singleton_subset_iff]
  repeat' apply And.intro
  all_goals exact List.mem_toFinset.mpr (List.mem_map.mpr ⟨_, by decide, rfl⟩)

/-- A buffer that is none of them keeps its contents across stretch 6. -/
theorem kept6 (V : Valuation τ sig (Elt Ideal)) {r : Ref sig .tc} (hr : r ∉ wr6) :
    StableHlo.after (seg6 (F := Ideal)) V (Proc.devRef .tc r) = V (Proc.devRef .tc r) :=
  after_of_writes_sub _ V hwr6 hr

/-- The buffers stretch 7 writes. -/
abbrev wr7 : List (Ref sig .tc) :=
  [main_cst_24, main_v203, main_v204, main_v205, main_cst_25, main_v206, main_cst_26, main_v207, main_v208, main_v209, main_cst_27, main_v210, main_v211, main_v212, main_v213, main_v214, main_v215]

set_option maxHeartbeats 2000000 in
set_option maxRecDepth 8192 in
/-- Every operation of stretch 7 writes one of them. -/
theorem hwr7 : (seg7 (F := Ideal)).Forall fun op => op.writes ⊆ (wr7.map (Proc.devRef (τ := τ) .tc)).toFinset := by
  simp only [seg7, List.Forall, TRef.nullary, TRef.unary, TRef.binary, nullary_writes, unary_writes, binary_writes, ternary_writes,
    reshape_writes, Finset.singleton_subset_iff]
  repeat' apply And.intro
  all_goals exact List.mem_toFinset.mpr (List.mem_map.mpr ⟨_, by decide, rfl⟩)

/-- A buffer that is none of them keeps its contents across stretch 7. -/
theorem kept7 (V : Valuation τ sig (Elt Ideal)) {r : Ref sig .tc} (hr : r ∉ wr7) :
    StableHlo.after (seg7 (F := Ideal)) V (Proc.devRef .tc r) = V (Proc.devRef .tc r) :=
  after_of_writes_sub _ V hwr7 hr

/-- The buffers stretch 8 writes. -/
abbrev wr8 : List (Ref sig .tc) :=
  [main_v216, main_v217, main_v218, main_v219, main_cst_28, main_v220, main_v221, main_cst_29, main_v222, main_v223, main_v224, main_v225, main_v226, main_cst_30, main_v227, main_v228, main_cst_31, main_v229, main_v230, main_v231, main_v232, main_cst_32, main_v233, main_v234, main_v235, main_v236, main_v237, main_v238, main_v239, main_v240, main_v241, main_v242, main_v243, main_call0_cst, main_call0_v0, main_v244]

set_option maxHeartbeats 2000000 in
set_option maxRecDepth 8192 in
/-- Every operation of stretch 8 writes one of them. -/
theorem hwr8 : (seg8 (F := Ideal)).Forall fun op => op.writes ⊆ (wr8.map (Proc.devRef (τ := τ) .tc)).toFinset := by
  simp only [seg8, List.Forall, TRef.nullary, TRef.unary, TRef.binary, nullary_writes, unary_writes, binary_writes, ternary_writes,
    reshape_writes, Finset.singleton_subset_iff]
  repeat' apply And.intro
  all_goals exact List.mem_toFinset.mpr (List.mem_map.mpr ⟨_, by decide, rfl⟩)

/-- A buffer that is none of them keeps its contents across stretch 8. -/
theorem kept8 (V : Valuation τ sig (Elt Ideal)) {r : Ref sig .tc} (hr : r ∉ wr8) :
    StableHlo.after (seg8 (F := Ideal)) V (Proc.devRef .tc r) = V (Proc.devRef .tc r) :=
  after_of_writes_sub _ V hwr8 hr

/-- The buffers stretch 9 writes. -/
abbrev wr9 : List (Ref sig .tc) :=
  [main_v245, main_v246, main_v247, main_v248, main_cst_33, main_v249, main_v250, main_cst_34, main_v251, main_v252, main_v253, main_v254, main_v255, main_cst_35, main_v256, main_v257, main_cst_36, main_v258, main_v259, main_v260, main_v261, main_cst_37, main_v262, main_v263, main_v264, main_v265, main_v266, main_v267, main_v268, main_v269, main_v270, main_v271, main_v272, main_call1_cst, main_call1_v0, main_v273]

set_option maxHeartbeats 2000000 in
set_option maxRecDepth 8192 in
/-- Every operation of stretch 9 writes one of them. -/
theorem hwr9 : (seg9 (F := Ideal)).Forall fun op => op.writes ⊆ (wr9.map (Proc.devRef (τ := τ) .tc)).toFinset := by
  simp only [seg9, List.Forall, TRef.nullary, TRef.unary, TRef.binary, nullary_writes, unary_writes, binary_writes, ternary_writes,
    reshape_writes, Finset.singleton_subset_iff]
  repeat' apply And.intro
  all_goals exact List.mem_toFinset.mpr (List.mem_map.mpr ⟨_, by decide, rfl⟩)

/-- A buffer that is none of them keeps its contents across stretch 9. -/
theorem kept9 (V : Valuation τ sig (Elt Ideal)) {r : Ref sig .tc} (hr : r ∉ wr9) :
    StableHlo.after (seg9 (F := Ideal)) V (Proc.devRef .tc r) = V (Proc.devRef .tc r) :=
  after_of_writes_sub _ V hwr9 hr

variable (m : (ℓ : Loc nD τ sig) → Buf (Elt Ideal) ℓ) (c : Dev nD)

/-- A buffer none of the first six stretches writes holds at the sixth cut what the launch memory held. -/
theorem carry6 {r : Ref sig .tc} (h1 : r ∉ wr1) (h2 : r ∉ wr2) (h3 : r ∉ wr3) (h4 : r ∉ wr4) (h5 : r ∉ wr5) (h6 : r ∉ wr6) :
    U6 m c (Proc.devRef .tc r) = U0 m c (Proc.devRef .tc r) :=
  (kept6 _ h6).trans ((kept5 _ h5).trans ((kept4 _ h4).trans ((kept3 _ h3).trans ((kept2 _ h2).trans (kept1 _ h1)))))

theorem carry7 {r : Ref sig .tc} (h1 : r ∉ wr1) (h2 : r ∉ wr2) (h3 : r ∉ wr3) (h4 : r ∉ wr4) (h5 : r ∉ wr5) (h6 : r ∉ wr6)
    (h7 : r ∉ wr7) : U7 m c (Proc.devRef .tc r) = U0 m c (Proc.devRef .tc r) :=
  (kept7 _ h7).trans (carry6 m c h1 h2 h3 h4 h5 h6)

theorem carry8 {r : Ref sig .tc} (h1 : r ∉ wr1) (h2 : r ∉ wr2) (h3 : r ∉ wr3) (h4 : r ∉ wr4) (h5 : r ∉ wr5) (h6 : r ∉ wr6)
    (h7 : r ∉ wr7) (h8 : r ∉ wr8) : U8 m c (Proc.devRef .tc r) = U0 m c (Proc.devRef .tc r) :=
  (kept8 _ h8).trans (carry7 m c h1 h2 h3 h4 h5 h6 h7)

theorem carry9 {r : Ref sig .tc} (h1 : r ∉ wr1) (h2 : r ∉ wr2) (h3 : r ∉ wr3) (h4 : r ∉ wr4) (h5 : r ∉ wr5) (h6 : r ∉ wr6)
    (h7 : r ∉ wr7) (h8 : r ∉ wr8) (h9 : r ∉ wr9) : U9 m c (Proc.devRef .tc r) = U0 m c (Proc.devRef .tc r) :=
  (kept9 _ h9).trans (carry8 m c h1 h2 h3 h4 h5 h6 h7 h8)

/-! ## The arguments read after the sixth cut -/

theorem u6_arg2 : U6 m c (Proc.devRef .tc main_arg2) = B2 m c :=
  carry6 m c (by decide) (by decide) (by decide) (by decide) (by decide) (by decide)
theorem u6_arg22 : U6 m c (Proc.devRef .tc main_arg22) = B22 m c :=
  carry6 m c (by decide) (by decide) (by decide) (by decide) (by decide) (by decide)
theorem u7_arg11 : U7 m c (Proc.devRef .tc main_arg11) = B11 m c :=
  carry7 m c (by decide) (by decide) (by decide) (by decide) (by decide) (by decide) (by decide)
theorem u7_arg12 : U7 m c (Proc.devRef .tc main_arg12) = B12 m c :=
  carry7 m c (by decide) (by decide) (by decide) (by decide) (by decide) (by decide) (by decide)
theorem u7_arg13 : U7 m c (Proc.devRef .tc main_arg13) = B13 m c :=
  carry7 m c (by decide) (by decide) (by decide) (by decide) (by decide) (by decide) (by decide)
theorem u7_arg14 : U7 m c (Proc.devRef .tc main_arg14) = B14 m c :=
  carry7 m c (by decide) (by decide) (by decide) (by decide) (by decide) (by decide) (by decide)
theorem u8_arg15 : U8 m c (Proc.devRef .tc main_arg15) = B15 m c :=
  carry8 m c (by decide) (by decide) (by decide) (by decide) (by decide) (by decide) (by decide) (by decide)
theorem u8_arg16 : U8 m c (Proc.devRef .tc main_arg16) = B16 m c :=
  carry8 m c (by decide) (by decide) (by decide) (by decide) (by decide) (by decide) (by decide) (by decide)
theorem u8_arg17 : U8 m c (Proc.devRef .tc main_arg17) = B17 m c :=
  carry8 m c (by decide) (by decide) (by decide) (by decide) (by decide) (by decide) (by decide) (by decide)
theorem u8_arg18 : U8 m c (Proc.devRef .tc main_arg18) = B18 m c :=
  carry8 m c (by decide) (by decide) (by decide) (by decide) (by decide) (by decide) (by decide) (by decide)
theorem u9_arg19 : U9 m c (Proc.devRef .tc main_arg19) = B19 m c :=
  carry9 m c (by decide) (by decide) (by decide) (by decide) (by decide) (by decide) (by decide) (by decide) (by decide)
theorem u9_arg20 : U9 m c (Proc.devRef .tc main_arg20) = B20 m c :=
  carry9 m c (by decide) (by decide) (by decide) (by decide) (by decide) (by decide) (by decide) (by decide) (by decide)

end Cert.ReferenceIdeal.RefChain

end
-- ==== Proof.RefReadout.lean ====
/-
  The end of the reference program, read cut by cut: the per-graph mean of the last node rows joined with the graph
  features, the readout's two hidden layers (affine map, layer normalisation, positive part) and its last affine
  map, re-laid as a vector.  Each stretch's result is one function of the buffers the stretch reads; composed over
  the cuts, the result buffer holds the shared value of the launch arguments.
-/
import proofs.«112340_j85873576116383_2_alg».proof.Proof.RefRun
import proofs.«112340_j85873576116383_2_alg».proof.Proof.Model
import proofs.«112340_j85873576116383_2_alg».proof.Proof.RefArgs
import proofs.«112340_j85873576116383_2_alg».proof.Proof.LibHostKept
import proofs.«112340_j85873576116383_2_alg».proof.Proof.RefReadoutKept

noncomputable section

namespace Cert.ReferenceIdeal.RefChain

open Cert.ReferenceIdeal Cert.ReferenceIdeal.Gen Cert.ReferenceIdeal.HandRun Cert.Kept Idealize.ShloMosaic Idealize.ShloMosaic.TcCoe
  Idealize.SL.Sem Idealize.ShloMosaic.StableHlo

/-! ## The stretches' results as functions -/

section Functions

variable {F : FTy → Type} [FloatOps F]

set_option quotPrecheck false in
local notation "T[" s "]" => (⟨s, .f32⟩ : BufTy).Contents (Elt F)

/-- The per-graph mean of the node rows `h` (their sum per graph over the graph's node count, at least one) joined
    with the graph features. -/
def pool (h : T[S100000x64]) (x22 : (⟨S100000, .i32⟩ : BufTy).Contents (Elt F)) (x2 : T[S64x16]) : T[S64x80] :=
  concatenate S64x80 1 [⟨S64x64, (Host.divf (Host.scatterAdd scatter_S64x64_S100000x1_S100000x64_1_0_0_1 (broadcastInDim S64x64 ![] bcast_S_S64x64 (constant S_ .f32 0x00000000#32)) (broadcastInDim S100000x1 ![0] bcast_S100000_S100000x1_0 (x22)) h) (broadcastInDim S64x64 ![0, 1] bcast_S64x1_S64x64_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 (x22)) (broadcastInDim S100000 ![] bcast_S_S100000 (constant S_ .f32 0x3F800000#32))) (broadcastInDim S64 ![] bcast_S_S64 (constant S_ .f32 0x3F800000#32))))))⟩, ⟨S64x16, (x2)⟩] concatenates_S64x64_S64x16_S64x80_d1

/-- The first hidden layer of the readout: affine map, layer normalisation, positive part. -/
def ro1 (inp : T[S64x80]) (rw1 : T[S80x64]) (rb1r g1r be1r : T[S1x64]) : T[S64x64] :=
  maximumf (Cert.Stages.lnormA (addf (Host.dotGeneral dot_S64x80_S80x64_S64x64_1_0_0_1_n_n none inp rw1)
      (broadcastInDim S64x64 ![0, 1] bcast_S1x64_S64x64_0_1 rb1r)) g1r be1r)
    (broadcastInDim S64x64 ![] bcast_S_S64x64 (constant S_ .f32 0x00000000#32))

/-- The second hidden layer of the readout. -/
def ro2 (h : T[S64x64]) (rw2 : T[S64x32]) (rb2r g2r be2r : T[S1x32]) : T[S64x32] :=
  maximumf (Cert.Stages.lnormB (addf (Host.dotGeneral dot_S64x64_S64x32_S64x32_1_0_0_1_n_n none h rw2)
      (broadcastInDim S64x32 ![0, 1] bcast_S1x32_S64x32_0_1 rb2r)) g2r be2r)
    (broadcastInDim S64x32 ![] bcast_S_S64x32 (constant S_ .f32 0x00000000#32))

/-- The last affine map of the readout. -/
def ro3 (h : T[S64x32]) (rw3 : T[S32x1]) (rb3r : T[S1x1]) : T[S64x1] :=
  addf (Host.dotGeneral dot_S64x32_S32x1_S64x1_1_0_0_1_n_n none h rw3)
    (broadcastInDim S64x1 ![0, 1] bcast_S1x1_S64x1_0_1 rb3r)

/-- The readout is its three layers composed. -/
theorem readoutH_eq (inp : T[S64x80]) (rw1 : T[S80x64]) (rb1r g1r be1r : T[S1x64]) (rw2 : T[S64x32]) (rb2r g2r be2r : T[S1x32])
    (rw3 : T[S32x1]) (rb3r : T[S1x1]) :
    Cert.Stages.readoutH (F := F) inp rw1 rb1r g1r be1r rw2 rb2r g2r be2r rw3 rb3r
      = ro3 (ro2 (ro1 inp rw1 rb1r g1r be1r) rw2 rb2r g2r be2r) rw3 rb3r := rfl

/-- The shared pooled value is the pooling of the shared last node rows. -/
theorem v215_eq (x0 : (⟨S100000x64, .f32⟩ : BufTy).Contents (Elt F)) (x1 : (⟨S1600000x16, .f32⟩ : BufTy).Contents (Elt F)) (x2 : (⟨S64x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x7 : (⟨S3x80x64, .f32⟩ : BufTy).Contents (Elt F)) (x8 : (⟨S3x64, .f32⟩ : BufTy).Contents (Elt F)) (x9 : (⟨S3x64, .f32⟩ : BufTy).Contents (Elt F)) (x10 : (⟨S3x64, .f32⟩ : BufTy).Contents (Elt F)) (x21 : (⟨S2x1600000, .i32⟩ : BufTy).Contents (Elt F)) (x22 : (⟨S100000, .i32⟩ : BufTy).Contents (Elt F)) :
    Cert.Model.v215 (F := F) x0 x1 x2 x3 x4 x5 x6 x7 x8 x9 x10 x21 x22 = pool (Cert.Model.v202 (F := F) x0 x1 x2 x3 x4 x5 x6 x7 x8 x9 x10 x21 x22) x22 x2 := by
  unfold Cert.Model.v215 pool; rfl

/-- The shared result is the three layers of the shared pooled value, re-laid as a vector. -/
theorem v278_eq (x0 : (⟨S100000x64, .f32⟩ : BufTy).Contents (Elt F)) (x1 : (⟨S1600000x16, .f32⟩ : BufTy).Contents (Elt F)) (x2 : (⟨S64x16, .f32⟩ : BufTy).Contents (Elt F)) (x3 : (⟨S3x64x64, .f32⟩ : BufTy).Contents (Elt F)) (x4 : (⟨S3x64, .f32⟩ : BufTy).Contents (Elt F)) (x5 : (⟨S3x80x64, .f32⟩ : BufTy).Contents (Elt F)) (x6 : (⟨S3x64, .f32⟩ : BufTy).Contents (Elt F)) (x7 : (⟨S3x80x64, .f32⟩ : BufTy).Contents (Elt F)) (x8 : (⟨S3x64, .f32⟩ : BufTy).Contents (Elt F)) (x9 : (⟨S3x64, .f32⟩ : BufTy).Contents (Elt F)) (x10 : (⟨S3x64, .f32⟩ : BufTy).Contents (Elt F)) (x11 : (⟨S80x64, .f32⟩ : BufTy).Contents (Elt F)) (x12 : (⟨S64, .f32⟩ : BufTy).Contents (Elt F)) (x13 : (⟨S64, .f32⟩ : BufTy).Contents (Elt F)) (x14 : (⟨S64, .f32⟩ : BufTy).Contents (Elt F)) (x15 : (⟨S64x32, .f32⟩ : BufTy).Contents (Elt F)) (x16 : (⟨S32, .f32⟩ : BufTy).Contents (Elt F)) (x17 : (⟨S32, .f32⟩ : BufTy).Contents (Elt F)) (x18 : (⟨S32, .f32⟩ : BufTy).Contents (Elt F)) (x19 : (⟨S32x1, .f32⟩ : BufTy).Contents (Elt F)) (x20 : (⟨S1, .f32⟩ : BufTy).Contents (Elt F)) (x21 : (⟨S2x1600000, .i32⟩ : BufTy).Contents (Elt F)) (x22 : (⟨S100000, .i32⟩ : BufTy).Contents (Elt F)) :
    Cert.Model.v278 (F := F) x0 x1 x2 x3 x4 x5 x6 x7 x8 x9 x10 x11 x12 x13 x14 x15 x16 x17 x18 x19 x20 x21 x22
      = shapeCast _ (ro3 (ro2 (ro1 (Cert.Model.v215 (F := F) x0 x1 x2 x3 x4 x5 x6 x7 x8 x9 x10 x21 x22) x11 (Cert.Model.v217 (F := F) x12)
          (Cert.Model.v238 (F := F) x13) (Cert.Model.v241 (F := F) x14)) x15 (Cert.Model.v246 (F := F) x16)
          (Cert.Model.v267 (F := F) x17) (Cert.Model.v270 (F := F) x18)) x19 (Cert.Model.v275 (F := F) x20)) shapeCasts_S64x1_S64 := by
  unfold Cert.Model.v278 Cert.Model.v277; rw [readoutH_eq]

end Functions

/-! ## Each stretch from any contents -/

section Steps

variable (W : Valuation τ sig (Elt Ideal))

set_option maxHeartbeats 4000000 in
/-- Stretch 7 leaves the pooling of what it found in the last node rows' buffer. -/
theorem seg7_v215 : StableHlo.after (seg7 (F := Ideal)) W (Proc.devRef .tc main_v215)
    = pool (F := Ideal) (W (Proc.devRef .tc main_v202)) (W (Proc.devRef .tc main_arg22)) (W (Proc.devRef .tc main_arg2)) := by
  after_results_simp
  rfl

set_option maxHeartbeats 4000000 in
/-- Stretch 8 leaves the first hidden layer of what it found in the pooled buffer. -/
theorem seg8_v244 : StableHlo.after (seg8 (F := Ideal)) W (Proc.devRef .tc main_v244)
    = ro1 (F := Ideal) (W (Proc.devRef .tc main_v215)) (W (Proc.devRef .tc main_arg11)) (Cert.Model.v217 (F := Ideal) (W (Proc.devRef .tc main_arg12)))
        (Cert.Model.v238 (F := Ideal) (W (Proc.devRef .tc main_arg13))) (Cert.Model.v241 (F := Ideal) (W (Proc.devRef .tc main_arg14))) := by
  after_results_simp
  rfl

set_option maxHeartbeats 4000000 in
/-- Stretch 9 leaves the second hidden layer of what it found in the first's buffer. -/
theorem seg9_v273 : StableHlo.after (seg9 (F := Ideal)) W (Proc.devRef .tc main_v273)
    = ro2 (F := Ideal) (W (Proc.devRef .tc main_v244)) (W (Proc.devRef .tc main_arg15)) (Cert.Model.v246 (F := Ideal) (W (Proc.devRef .tc main_arg16)))
        (Cert.Model.v267 (F := Ideal) (W (Proc.devRef .tc main_arg17))) (Cert.Model.v270 (F := Ideal) (W (Proc.devRef .tc main_arg18))) := by
  after_results_simp
  rfl

set_option maxHeartbeats 4000000 in
/-- Stretch 10 leaves the last affine map of what it found in the second hidden layer's buffer, re-laid as a vector. -/
theorem seg10_v278 : StableHlo.after (seg10 (F := Ideal)) W (Proc.devRef .tc main_v278)
    = shapeCast _ (ro3 (F := Ideal) (W (Proc.devRef .tc main_v273)) (W (Proc.devRef .tc main_arg19)) (Cert.Model.v275 (F := Ideal) (W (Proc.devRef .tc main_arg20))))
        shapeCasts_S64x1_S64 := by
  after_results
  rfl

end Steps

/-! ## The cuts' contents -/

section Chain

variable (m : (ℓ : Loc nD τ sig) → Buf (Elt Ideal) ℓ) (c : Dev nD)

/-- At the seventh cut the pooled buffer holds the shared pooled value. -/
theorem u7_v215 (h202 : U6 m c (Proc.devRef .tc main_v202) = Cert.Model.v202 (F := Ideal) (B0 m c) (B1 m c) (B2 m c) (B3 m c) (B4 m c) (B5 m c) (B6 m c) (B7 m c) (B8 m c) (B9 m c) (B10 m c) (B21 m c) (B22 m c)) :
    U7 m c (Proc.devRef .tc main_v215) = Cert.Model.v215 (F := Ideal) (B0 m c) (B1 m c) (B2 m c) (B3 m c) (B4 m c) (B5 m c) (B6 m c) (B7 m c) (B8 m c) (B9 m c) (B10 m c) (B21 m c) (B22 m c) := by
  show StableHlo.after (seg7 (F := Ideal)) (U6 m c) (Proc.devRef .tc main_v215) = _
  rw [seg7_v215, h202, u6_arg22 m c, u6_arg2 m c]
  exact (v215_eq (F := Ideal) (B0 m c) (B1 m c) (B2 m c) (B3 m c) (B4 m c) (B5 m c) (B6 m c) (B7 m c) (B8 m c) (B9 m c) (B10 m c) (B21 m c) (B22 m c)).symm

/-- At the eighth cut the first hidden layer's buffer holds the first hidden layer of the shared pooled value. -/
theorem u8_v244 (h202 : U6 m c (Proc.devRef .tc main_v202) = Cert.Model.v202 (F := Ideal) (B0 m c) (B1 m c) (B2 m c) (B3 m c) (B4 m c) (B5 m c) (B6 m c) (B7 m c) (B8 m c) (B9 m c) (B10 m c) (B21 m c) (B22 m c)) :
    U8 m c (Proc.devRef .tc main_v244) = ro1 (F := Ideal) (Cert.Model.v215 (F := Ideal) (B0 m c) (B1 m c) (B2 m c) (B3 m c) (B4 m c) (B5 m c) (B6 m c) (B7 m c) (B8 m c) (B9 m c) (B10 m c) (B21 m c) (B22 m c)) (B11 m c) (Cert.Model.v217 (F := Ideal) (B12 m c))
      (Cert.Model.v238 (F := Ideal) (B13 m c)) (Cert.Model.v241 (F := Ideal) (B14 m c)) := by
  show StableHlo.after (seg8 (F := Ideal)) (U7 m c) (Proc.devRef .tc main_v244) = _
  rw [seg8_v244, u7_v215 m c h202, u7_arg11 m c, u7_arg12 m c, u7_arg13 m c, u7_arg14 m c]

/-- At the ninth cut the second hidden layer's buffer holds the second hidden layer of that. -/
theorem u9_v273 (h202 : U6 m c (Proc.devRef .tc main_v202) = Cert.Model.v202 (F := Ideal) (B0 m c) (B1 m c) (B2 m c) (B3 m c) (B4 m c) (B5 m c) (B6 m c) (B7 m c) (B8 m c) (B9 m c) (B10 m c) (B21 m c) (B22 m c)) :
    U9 m c (Proc.devRef .tc main_v273) = ro2 (F := Ideal) (ro1 (F := Ideal) (Cert.Model.v215 (F := Ideal) (B0 m c) (B1 m c) (B2 m c) (B3 m c) (B4 m c) (B5 m c) (B6 m c) (B7 m c) (B8 m c) (B9 m c) (B10 m c) (B21 m c) (B22 m c)) (B11 m c) (Cert.Model.v217 (F := Ideal) (B12 m c))
      (Cert.Model.v238 (F := Ideal) (B13 m c)) (Cert.Model.v241 (F := Ideal) (B14 m c))) (B15 m c) (Cert.Model.v246 (F := Ideal) (B16 m c))
      (Cert.Model.v267 (F := Ideal) (B17 m c)) (Cert.Model.v270 (F := Ideal) (B18 m c)) := by
  show StableHlo.after (seg9 (F := Ideal)) (U8 m c) (Proc.devRef .tc main_v273) = _
  rw [seg9_v273, u8_v244 m c h202, u8_arg15 m c, u8_arg16 m c, u8_arg17 m c, u8_arg18 m c]

/-- THE RESULT BUFFER at the last cut holds the shared result of the launch arguments. -/
theorem result (h202 : U6 m c (Proc.devRef .tc main_v202) = Cert.Model.v202 (F := Ideal) (B0 m c) (B1 m c) (B2 m c) (B3 m c) (B4 m c) (B5 m c) (B6 m c) (B7 m c) (B8 m c) (B9 m c) (B10 m c) (B21 m c) (B22 m c)) :
    U10 m c (Proc.devRef .tc main_v278) = Cert.Model.v278 (F := Ideal) (B0 m c) (B1 m c) (B2 m c) (B3 m c) (B4 m c) (B5 m c) (B6 m c) (B7 m c) (B8 m c) (B9 m c) (B10 m c) (B11 m c) (B12 m c) (B13 m c) (B14 m c) (B15 m c) (B16 m c) (B17 m c) (B18 m c) (B19 m c) (B20 m c) (B21 m c) (B22 m c) := by
  show StableHlo.after (seg10 (F := Ideal)) (U9 m c) (Proc.devRef .tc main_v278) = _
  rw [seg10_v278, u9_v273 m c h202, u9_arg19 m c, u9_arg20 m c]
  exact (v278_eq (F := Ideal) (B0 m c) (B1 m c) (B2 m c) (B3 m c) (B4 m c) (B5 m c) (B6 m c) (B7 m c) (B8 m c) (B9 m c) (B10 m c) (B11 m c) (B12 m c) (B13 m c) (B14 m c) (B15 m c) (B16 m c) (B17 m c) (B18 m c) (B19 m c) (B20 m c) (B21 m c) (B22 m c)).symm

end Chain

end Cert.ReferenceIdeal.RefChain

end
-- ==== Proof.lean ====
/-
  The certificate.  The three frames: the two kernel programs' are the generated frame certificates, the
  reference's is its run with the result dropped.  The idealization rewrote no operation.  The value claim: the
  idealized kernel program's result is what its fold of host stretches and device regions leaves in the result
  buffer; read boundary by boundary, every buffer on the way holds one of the shared values of the module Model —
  a host stretch applies the reference's own operations, and each device region's output array is the
  edge-message, the node-update or the readout stage function of its input arrays.  The reference's fold of its
  host operations, read segment by segment, leaves the same shared values.  No finiteness is used: the two sides
  are the same formula entry by entry.
-/
import proofs.«112340_j85873576116383_2_alg».proof.Defs
import proofs.«112340_j85873576116383_2_alg».proof.Proof.Gen.Kernel
import proofs.«112340_j85873576116383_2_alg».proof.Proof.Gen.Kernel.Frame
import proofs.«112340_j85873576116383_2_alg».proof.Proof.Gen.KernelIdeal
import proofs.«112340_j85873576116383_2_alg».proof.Proof.Gen.KernelIdeal.Frame
import proofs.«112340_j85873576116383_2_alg».proof.Proof.Gen.ReferenceIdeal
import proofs.«112340_j85873576116383_2_alg».proof.Proof.Gen.Pre_finite_inputs
import proofs.«112340_j85873576116383_2_alg».proof.Proof.KernelRun
import proofs.«112340_j85873576116383_2_alg».proof.Proof.Chain
import proofs.«112340_j85873576116383_2_alg».proof.Proof.RefRun
import proofs.«112340_j85873576116383_2_alg».proof.Proof.RefLayers
import proofs.«112340_j85873576116383_2_alg».proof.Proof.RefReadout
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HandRun.run (F := Ideal) m ρ)

open Cert.ReferenceIdeal.RefChain Cert.KernelIdeal.Chain in
/-- Both idealized programs run, and the kernel program's result is the reference's. -/
theorem algebraic : Cert.algebraic_KernelIdeal_ReferenceIdeal := by
  intro m ρ m' ρ' _ hagree
  refine ⟨fun c => Cert.KernelIdeal.Gen.W15 m ρ c (Proc.devRef .tc Cert.KernelIdeal.main_v131),
    Cert.KernelIdeal.RunValue.run (F := Ideal) m ρ, ?_⟩
  refine (θ_run Cert.ReferenceIdeal.defs _ _).mono (fun _ h c => ⟨(h c).1.trans ?_, (h c).2⟩)
    (Cert.ReferenceIdeal.HandRun.run (F := Ideal) m' ρ')
  refine (Cert.ReferenceIdeal.RefChain.result m' c (Cert.ReferenceIdeal.RefChain.u6_v202 m' c)).trans ?_
  refine Eq.trans ?_ (Cert.KernelIdeal.Chain.b15_v131 m ρ c).symm
  obtain ⟨h0, h1, h2, h3, h4, h5, h6, h7, h8, h9, h10, h11, h12, h13, h14, h15, h16, h17, h18, h19, h20, h21, h22⟩ := hagree c
  rw [show B0 m' c = A0 m c from h0, show B1 m' c = A1 m c from h1, show B2 m' c = A2 m c from h2, show B3 m' c = A3 m c from h3, show B4 m' c = A4 m c from h4, show B5 m' c = A5 m c from h5, show B6 m' c = A6 m c from h6, show B7 m' c = A7 m c from h7, show B8 m' c = A8 m c from h8, show B9 m' c = A9 m c from h9, show B10 m' c = A10 m c from h10, show B11 m' c = A11 m c from h11, show B12 m' c = A12 m c from h12, show B13 m' c = A13 m c from h13, show B14 m' c = A14 m c from h14, show B15 m' c = A15 m c from h15, show B16 m' c = A16 m c from h16, show B17 m' c = A17 m c from h17, show B18 m' c = A18 m c from h18, show B19 m' c = A19 m c from h19, show B20 m' c = A20 m c from h20, show B21 m' c = A21 m c from h21, show B22 m' c = A22 m c from h22]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
